-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v297) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x16x32x512 : Shape := ⟨4, ![64, 16, 32, 512]⟩
abbrev S64x1x32x512 : Shape := ⟨4, ![64, 1, 32, 512]⟩
abbrev S_ : Shape := ⟨0, ![]⟩

class Facts : Prop where
  bcast_S_S64x16x32x512 : S_.BroadcastsInDim S64x16x32x512 (![] : Fin 0 → Fin S64x16x32x512.rank)
  reducesTo_S64x16x32x512_S_d0_1_2_3 : S64x16x32x512.ReducesTo [0, 1, 2, 3] S_
  h_S_ : 0 < S_.numel

variable [Facts]

def fn {F : FTy → Type} [FloatOps F] (main_arg0 : FVec F S64x16x32x512 .f32) (main_arg1 : FVec F S64x16x32x512 .f32) (main_arg2 : FVec F S64x16x32x512 .f32) (main_arg3 : IVec S64x1x32x512 1) (main_arg4 : IVec S64x1x32x512 1) (main_arg5 : IVec S64x1x32x512 1) : IVec S_ 1 :=
  let main_v0 : FVec F S64x16x32x512 .f32 := Host.absf main_arg0
  let main_cst : FVec F S_ .f32 := constant S_ .f32 0x7F800000#32
  let main_v1 : FVec F S64x16x32x512 .f32 := broadcastInDim S64x16x32x512 ![] bcast_S_S64x16x32x512 main_cst
  let main_v2 : IVec S64x16x32x512 1 := cmpf .olt main_v0 main_v1
  let main_c : IVec S_ 1 := constantI S_ 1 1#1
  let main_v3 : IVec S_ 1 := (fun x v => Host.reduce IntOp.andi x v reducesTo_S64x16x32x512_S_d0_1_2_3 h_S_) main_v2 main_c
  let main_v4 : FVec F S64x16x32x512 .f32 := Host.absf main_arg1
  let main_cst_0 : FVec F S_ .f32 := constant S_ .f32 0x7F800000#32
  let main_v5 : FVec F S64x16x32x512 .f32 := broadcastInDim S64x16x32x512 ![] bcast_S_S64x16x32x512 main_cst_0
  let main_v6 : IVec S64x16x32x512 1 := cmpf .olt main_v4 main_v5
  let main_c_1 : IVec S_ 1 := constantI S_ 1 1#1
  let main_v7 : IVec S_ 1 := (fun x v => Host.reduce IntOp.andi x v reducesTo_S64x16x32x512_S_d0_1_2_3 h_S_) main_v6 main_c_1
  let main_v8 : IVec S_ 1 := andi main_v3 main_v7
  let main_v9 : FVec F S64x16x32x512 .f32 := Host.absf main_arg2
  let main_cst_2 : FVec F S_ .f32 := constant S_ .f32 0x7F800000#32
  let main_v10 : FVec F S64x16x32x512 .f32 := broadcastInDim S64x16x32x512 ![] bcast_S_S64x16x32x512 main_cst_2
  let main_v11 : IVec S64x16x32x512 1 := cmpf .olt main_v9 main_v10
  let main_c_3 : IVec S_ 1 := constantI S_ 1 1#1
  let main_v12 : IVec S_ 1 := (fun x v => Host.reduce IntOp.andi x v reducesTo_S64x16x32x512_S_d0_1_2_3 h_S_) main_v11 main_c_3
  let main_v13 : IVec S_ 1 := andi main_v8 main_v12
  main_v13
-- ==== Kernel.lean ====
abbrev S64x16x32x512 : Shape := ⟨4, ![64, 16, 32, 512]⟩
abbrev S64x1x32x512 : Shape := ⟨4, ![64, 1, 32, 512]⟩
abbrev S64x1 : Shape := ⟨2, ![64, 1]⟩
abbrev S8x16x16x512 : Shape := ⟨4, ![8, 16, 16, 512]⟩
abbrev S8x1x16x512 : Shape := ⟨4, ![8, 1, 16, 512]⟩
abbrev S8x1 : Shape := ⟨2, ![8, 1]⟩
abbrev S8x9 : Shape := ⟨2, ![8, 9]⟩
abbrev S8x16x16 : Shape := ⟨3, ![8, 16, 16]⟩
abbrev S8x16 : Shape := ⟨2, ![8, 16]⟩
abbrev S8 : Shape := ⟨1, ![8]⟩
abbrev S8x1x16 : Shape := ⟨3, ![8, 1, 16]⟩
abbrev S64 : Shape := ⟨1, ![64]⟩
abbrev S_ : Shape := ⟨0, ![]⟩

abbrev nBuf : Space → Nat
  | .hbm => 24
  | .vmem => 24
  | .smem => 0
  | _ => 0

abbrev bufTy : (tb : Table) → Fin (tcTables nBuf tb) → BufTy
  | .hbm, ⟨0, _⟩ => ⟨S64x16x32x512, .f32⟩
  | .hbm, ⟨1, _⟩ => ⟨S64x16x32x512, .f32⟩
  | .hbm, ⟨2, _⟩ => ⟨S64x16x32x512, .f32⟩
  | .hbm, ⟨3, _⟩ => ⟨S64x1x32x512, .i1⟩
  | .hbm, ⟨4, _⟩ => ⟨S64x1x32x512, .i1⟩
  | .hbm, ⟨5, _⟩ => ⟨S64x1x32x512, .i1⟩
  | .hbm, ⟨6, _⟩ => ⟨S64x1x32x512, .f32⟩
  | .hbm, ⟨7, _⟩ => ⟨S64x1x32x512, .f32⟩
  | .hbm, ⟨8, _⟩ => ⟨S64x1x32x512, .f32⟩
  | .hbm, ⟨9, _⟩ => ⟨S64x1, .f32⟩
  | .hbm, ⟨10, _⟩ => ⟨S64, .f32⟩
  | .hbm, ⟨11, _⟩ => ⟨S64x1, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S8x16x16x512, .f32⟩
  | .local _ .vmem, ⟨1, _⟩ => ⟨S8x16x16x512, .f32⟩
  | .local _ .vmem, ⟨2, _⟩ => ⟨S8x1x16x512, .f32⟩
  | .local _ .vmem, ⟨3, _⟩ => ⟨S8x1x16x512, .f32⟩
  | .local _ .vmem, ⟨4, _⟩ => ⟨S8x16x16x512, .f32⟩
  | .local _ .vmem, ⟨5, _⟩ => ⟨S8x16x16x512, .f32⟩
  | .local _ .vmem, ⟨6, _⟩ => ⟨S8x1x16x512, .f32⟩
  | .local _ .vmem, ⟨7, _⟩ => ⟨S8x1x16x512, .f32⟩
  | .local _ .vmem, ⟨8, _⟩ => ⟨S8x1, .f32⟩
  | .local _ .vmem, ⟨9, _⟩ => ⟨S8x1, .f32⟩
  | .local _ .vmem, ⟨10, _⟩ => ⟨S8x9, .f32⟩
  | .local _ .vmem, ⟨11, _⟩ => ⟨S8x9, .f32⟩
  | .local _ .vmem, ⟨12, _⟩ => ⟨S8x16x16x512, .f32⟩
  | .local _ .vmem, ⟨13, _⟩ => ⟨S8x16x16x512, .f32⟩
  | .local _ .vmem, ⟨14, _⟩ => ⟨S8x1x16x512, .f32⟩
  | .local _ .vmem, ⟨15, _⟩ => ⟨S8x1x16x512, .f32⟩
  | .local _ .vmem, ⟨16, _⟩ => ⟨S8x16x16x512, .f32⟩
  | .local _ .vmem, ⟨17, _⟩ => ⟨S8x16x16x512, .f32⟩
  | .local _ .vmem, ⟨18, _⟩ => ⟨S8x1x16x512, .f32⟩
  | .local _ .vmem, ⟨19, _⟩ => ⟨S8x1x16x512, .f32⟩
  | .local _ .vmem, ⟨20, _⟩ => ⟨S8x1, .f32⟩
  | .local _ .vmem, ⟨21, _⟩ => ⟨S8x1, .f32⟩
  | .local _ .vmem, ⟨22, _⟩ => ⟨S8x9, .f32⟩
  | .local _ .vmem, ⟨23, _⟩ => ⟨S8x9, .f32⟩
  | _, _ => ⟨S64x16x32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_call0_cst : Ref sig .tc := ⟨.hbm, 17, rfl⟩
abbrev main_call0_v0 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_scratch0 : Ref sig .tc := ⟨.vmem, 22, rfl⟩
abbrev cc1_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32_143 : BitVec 32 := 1#32
  let v234 : BitVec 1 := Scalar.cmpi .eq arg1 c1_i32_143
  let v235 : BitVec 32 := Scalar.extui v234
  let c0_i32_144 : BitVec 32 := 0#32
  let v236 : BitVec 1 := Scalar.cmpi .ne v235 c0_i32_144
  v236

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x16x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x16x16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![8, 2], ![false, false]⟩

def k1_cond2 (i : grid1.Coords) : BitVec 1 :=
  let arg1 : BitVec 32 := BitVec.ofNat 32 (i 1).val
  let c1_i32_143 : BitVec 32 := 1#32
  let v234 : BitVec 1 := Scalar.cmpi .eq arg1 c1_i32_143
  let v235 : BitVec 32 := Scalar.extui v234
  let c0_i32_144 : BitVec 32 := 0#32
  let v236 : BitVec 1 := Scalar.cmpi .ne v235 c0_i32_144
  v236

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S8x16x16x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x1x16x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S8x16x16x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S8x1x16x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S8x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  inb_S8x9_S8x9_0_0 : ∀ a, (![0, 0] : Fin 2 → Nat) a + S8x9.size a ≤ S8x9.size a
  h_S8x9 : 0 < S8x9.numel
  shapeCasts_S8x9_S8x9 : S8x9.ShapeCasts S8x9
  inb_S8x16x16x512_S8x16x16x512_0_0_0_0 : ∀ a, (![0, 0, 0, 0] : Fin 4 → Nat) a + S8x16x16x512.size a ≤ S8x16x16x512.size a
  h_S8x16x16x512 : 0 < S8x16x16x512.numel
  inb_S8x1x16x512_S8x1x16x512_0_0_0_0 : ∀ a, (![0, 0, 0, 0] : Fin 4 → Nat) a + S8x1x16x512.size a ≤ S8x1x16x512.size a
  h_S8x1x16x512 : 0 < S8x1x16x512.numel
  shapeCasts_S8x1x16x512_S8x1x16x512 : S8x1x16x512.ShapeCasts S8x1x16x512
  rotates_S8x16x16x512_d3 : S8x16x16x512.Rotates 3 none
  rotates_S8x1x16x512_d3 : S8x1x16x512.Rotates 3 none
  broadcasts_S8x1x16x512_S8x16x16x512 : S8x1x16x512.Broadcasts S8x16x16x512
  reduces_S8x16x16x512_S8x16x16 : S8x16x16x512.Reduces [3] S8x16x16
  reduces_S8x16x16_S8x16 : S8x16x16.Reduces [2] S8x16
  reduces_S8x16_S8 : S8x16.Reduces [1] S8
  shapeCasts_S8_S8x1 : S8.ShapeCasts S8x1
  reduces_S8x1x16x512_S8x1x16 : S8x1x16x512.Reduces [3] S8x1x16
  reduces_S8x1x16_S8x1 : S8x1x16.Reduces [2] S8x1
  inb_S8x9_S8x1_0_0 : ∀ a, (![0, 0] : Fin 2 → Nat) a + S8x1.size a ≤ S8x9.size a
  h_S8x1 : 0 < S8x1.numel
  shapeCasts_S8x1_S8x1 : S8x1.ShapeCasts S8x1
  inb_S8x9_S8x1_0_1 : ∀ a, (![0, 1] : Fin 2 → Nat) a + S8x1.size a ≤ S8x9.size a
  inb_S8x9_S8x1_0_2 : ∀ a, (![0, 2] : Fin 2 → Nat) a + S8x1.size a ≤ S8x9.size a
  inb_S8x9_S8x1_0_3 : ∀ a, (![0, 3] : Fin 2 → Nat) a + S8x1.size a ≤ S8x9.size a
  inb_S8x9_S8x1_0_4 : ∀ a, (![0, 4] : Fin 2 → Nat) a + S8x1.size a ≤ S8x9.size a
  inb_S8x9_S8x1_0_5 : ∀ a, (![0, 5] : Fin 2 → Nat) a + S8x1.size a ≤ S8x9.size a
  inb_S8x9_S8x1_0_6 : ∀ a, (![0, 6] : Fin 2 → Nat) a + S8x1.size a ≤ S8x9.size a
  inb_S8x9_S8x1_0_7 : ∀ a, (![0, 7] : Fin 2 → Nat) a + S8x1.size a ≤ S8x9.size a
  inb_S8x9_S8x1_0_8 : ∀ a, (![0, 8] : Fin 2 → Nat) a + S8x1.size a ≤ S8x9.size a
  reduces_S8x9_S8 : S8x9.Reduces [1] S8
  inb_S8x1_S8x1_0_0 : ∀ a, (![0, 0] : Fin 2 → Nat) a + S8x1.size a ≤ S8x1.size a
  shapeCasts_S64x1_S64 : S64x1.ShapeCasts S64
  bcast_S_S64 : S_.BroadcastsInDim S64 (![] : Fin 0 → Fin S64.rank)
  reducesTo_S64_S_d0 : S64.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x16x16x512.size a ≤ S64x16x32x512.size a
  hwx0_0 : ∀ i : grid0.Coords, EltTy.bits .f32 = 32 ∨ (Rect.block (s := S64x16x32x512) S8x16x16x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1x16x512.size a ≤ S64x1x32x512.size a
  hwx0_1 : ∀ i : grid0.Coords, EltTy.bits .f32 = 32 ∨ (Rect.block (s := S64x1x32x512) S8x1x16x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x16x16x512.size a ≤ S64x16x32x512.size a
  hwx0_2 : ∀ i : grid0.Coords, EltTy.bits .f32 = 32 ∨ (Rect.block (s := S64x16x32x512) S8x16x16x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1x16x512.size a ≤ S64x1x32x512.size a
  hwx0_3 : ∀ i : grid0.Coords, EltTy.bits .f32 = 32 ∨ (Rect.block (s := S64x1x32x512) S8x1x16x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1.size a ≤ S64x1.size a
  hwx0_4 : ∀ i : grid0.Coords, EltTy.bits .f32 = 32 ∨ (Rect.block (s := S64x1) S8x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x16x16x512.size a ≤ S64x16x32x512.size a
  hwx1_0 : ∀ i : grid1.Coords, EltTy.bits .f32 = 32 ∨ (Rect.block (s := S64x16x32x512) S8x16x16x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x1x16x512.size a ≤ S64x1x32x512.size a
  hwx1_1 : ∀ i : grid1.Coords, EltTy.bits .f32 = 32 ∨ (Rect.block (s := S64x1x32x512) S8x1x16x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x16x16x512.size a ≤ S64x16x32x512.size a
  hwx1_2 : ∀ i : grid1.Coords, EltTy.bits .f32 = 32 ∨ (Rect.block (s := S64x16x32x512) S8x16x16x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x1x16x512.size a ≤ S64x1x32x512.size a
  hwx1_3 : ∀ i : grid1.Coords, EltTy.bits .f32 = 32 ∨ (Rect.block (s := S64x1x32x512) S8x1x16x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8x1.size a ≤ S64x1.size a
  hwx1_4 : ∀ i : grid1.Coords, EltTy.bits .f32 = 32 ∨ (Rect.block (s := S64x1) S8x1.size (cc1_transform_4 i) (hinb1_4 i)).WholeWords (EltTy.packing .f32)

variable [Facts₀]

abbrev win0_0 : Pipeline.Window sig grid0 :=
  Pipeline.Window.ofSpec (Memref.whole main_arg0) S8x16x16x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x1x16x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S8x16x16x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8x1x16x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S8x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg0) S8x16x16x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S8x1x16x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S8x16x16x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S8x1x16x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5) S8x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S64x16x32x512 : Shape := ⟨4, ![64, 16, 32, 512]⟩
abbrev S64x1x32x512 : Shape := ⟨4, ![64, 1, 32, 512]⟩
abbrev S64x16x32x508 : Shape := ⟨4, ![64, 16, 32, 508]⟩
abbrev S64x16x32x4 : Shape := ⟨4, ![64, 16, 32, 4]⟩
abbrev S64x1x32x508 : Shape := ⟨4, ![64, 1, 32, 508]⟩
abbrev S64x1x32x4 : Shape := ⟨4, ![64, 1, 32, 4]⟩
abbrev S_ : Shape := ⟨0, ![]⟩
abbrev S64 : Shape := ⟨1, ![64]⟩
abbrev S64x16x32x509 : Shape := ⟨4, ![64, 16, 32, 509]⟩
abbrev S64x16x32x3 : Shape := ⟨4, ![64, 16, 32, 3]⟩
abbrev S64x1x32x509 : Shape := ⟨4, ![64, 1, 32, 509]⟩
abbrev S64x1x32x3 : Shape := ⟨4, ![64, 1, 32, 3]⟩
abbrev S64x16x32x510 : Shape := ⟨4, ![64, 16, 32, 510]⟩
abbrev S64x16x32x2 : Shape := ⟨4, ![64, 16, 32, 2]⟩
abbrev S64x1x32x510 : Shape := ⟨4, ![64, 1, 32, 510]⟩
abbrev S64x1x32x2 : Shape := ⟨4, ![64, 1, 32, 2]⟩
abbrev S64x16x32x511 : Shape := ⟨4, ![64, 16, 32, 511]⟩
abbrev S64x16x32x1 : Shape := ⟨4, ![64, 16, 32, 1]⟩
abbrev S64x1x32x511 : Shape := ⟨4, ![64, 1, 32, 511]⟩
abbrev S64x1x32x1 : Shape := ⟨4, ![64, 1, 32, 1]⟩
abbrev S64x16x32x0 : Shape := ⟨4, ![64, 16, 32, 0]⟩
abbrev S64x1x32x0 : Shape := ⟨4, ![64, 1, 32, 0]⟩
abbrev S1x64 : Shape := ⟨2, ![1, 64]⟩
abbrev S9x64 : Shape := ⟨2, ![9, 64]⟩

abbrev nBuf : Space → Nat
  | .hbm => 527
  | .vmem => 0
  | .smem => 0
  | _ => 0

abbrev hbmTy0_0 (i : Nat) : BufTy := match i % 128 with
  | 0 => ⟨S64x16x32x512, .f32⟩
  | 1 => ⟨S64x16x32x512, .f32⟩
  | 2 => ⟨S64x16x32x512, .f32⟩
  | 3 => ⟨S64x1x32x512, .i1⟩
  | 4 => ⟨S64x1x32x512, .i1⟩
  | 5 => ⟨S64x1x32x512, .i1⟩
  | 6 => ⟨S64x16x32x508, .f32⟩
  | 7 => ⟨S64x16x32x4, .f32⟩
  | 8 => ⟨S64x16x32x512, .f32⟩
  | 9 => ⟨S64x1x32x508, .i1⟩
  | 10 => ⟨S64x1x32x4, .i1⟩
  | 11 => ⟨S64x1x32x512, .i1⟩
  | 12 => ⟨S64x1x32x512, .i1⟩
  | 13 => ⟨S64x16x32x512, .f32⟩
  | 14 => ⟨S_, .f32⟩
  | 15 => ⟨S_, .f32⟩
  | 16 => ⟨S64x16x32x512, .i1⟩
  | 17 => ⟨S64x16x32x512, .f32⟩
  | 18 => ⟨S64x16x32x512, .f32⟩
  | 19 => ⟨S64x16x32x512, .f32⟩
  | 20 => ⟨S_, .f32⟩
  | 21 => ⟨S64, .f32⟩
  | 22 => ⟨S64x1x32x512, .i32⟩
  | 23 => ⟨S_, .i32⟩
  | 24 => ⟨S64, .i32⟩
  | 25 => ⟨S64, .f32⟩
  | 26 => ⟨S_, .f32⟩
  | 27 => ⟨S64, .f32⟩
  | 28 => ⟨S64, .f32⟩
  | 29 => ⟨S_, .f32⟩
  | 30 => ⟨S64, .f32⟩
  | 31 => ⟨S64, .f32⟩
  | 32 => ⟨S64, .f32⟩
  | 33 => ⟨S64x16x32x509, .f32⟩
  | 34 => ⟨S64x16x32x3, .f32⟩
  | 35 => ⟨S64x16x32x512, .f32⟩
  | 36 => ⟨S64x1x32x509, .i1⟩
  | 37 => ⟨S64x1x32x3, .i1⟩
  | 38 => ⟨S64x1x32x512, .i1⟩
  | 39 => ⟨S64x1x32x512, .i1⟩
  | 40 => ⟨S64x16x32x512, .f32⟩
  | 41 => ⟨S_, .f32⟩
  | 42 => ⟨S_, .f32⟩
  | 43 => ⟨S64x16x32x512, .i1⟩
  | 44 => ⟨S64x16x32x512, .f32⟩
  | 45 => ⟨S64x16x32x512, .f32⟩
  | 46 => ⟨S64x16x32x512, .f32⟩
  | 47 => ⟨S_, .f32⟩
  | 48 => ⟨S64, .f32⟩
  | 49 => ⟨S64x1x32x512, .i32⟩
  | 50 => ⟨S_, .i32⟩
  | 51 => ⟨S64, .i32⟩
  | 52 => ⟨S64, .f32⟩
  | 53 => ⟨S_, .f32⟩
  | 54 => ⟨S64, .f32⟩
  | 55 => ⟨S64, .f32⟩
  | 56 => ⟨S_, .f32⟩
  | 57 => ⟨S64, .f32⟩
  | 58 => ⟨S64, .f32⟩
  | 59 => ⟨S64, .f32⟩
  | 60 => ⟨S64x16x32x510, .f32⟩
  | 61 => ⟨S64x16x32x2, .f32⟩
  | 62 => ⟨S64x16x32x512, .f32⟩
  | 63 => ⟨S64x1x32x510, .i1⟩
  | 64 => ⟨S64x1x32x2, .i1⟩
  | 65 => ⟨S64x1x32x512, .i1⟩
  | 66 => ⟨S64x1x32x512, .i1⟩
  | 67 => ⟨S64x16x32x512, .f32⟩
  | 68 => ⟨S_, .f32⟩
  | 69 => ⟨S_, .f32⟩
  | 70 => ⟨S64x16x32x512, .i1⟩
  | 71 => ⟨S64x16x32x512, .f32⟩
  | 72 => ⟨S64x16x32x512, .f32⟩
  | 73 => ⟨S64x16x32x512, .f32⟩
  | 74 => ⟨S_, .f32⟩
  | 75 => ⟨S64, .f32⟩
  | 76 => ⟨S64x1x32x512, .i32⟩
  | 77 => ⟨S_, .i32⟩
  | 78 => ⟨S64, .i32⟩
  | 79 => ⟨S64, .f32⟩
  | 80 => ⟨S_, .f32⟩
  | 81 => ⟨S64, .f32⟩
  | 82 => ⟨S64, .f32⟩
  | 83 => ⟨S_, .f32⟩
  | 84 => ⟨S64, .f32⟩
  | 85 => ⟨S64, .f32⟩
  | 86 => ⟨S64, .f32⟩
  | 87 => ⟨S64x16x32x511, .f32⟩
  | 88 => ⟨S64x16x32x1, .f32⟩
  | 89 => ⟨S64x16x32x512, .f32⟩
  | 90 => ⟨S64x1x32x511, .i1⟩
  | 91 => ⟨S64x1x32x1, .i1⟩
  | 92 => ⟨S64x1x32x512, .i1⟩
  | 93 => ⟨S64x1x32x512, .i1⟩
  | 94 => ⟨S64x16x32x512, .f32⟩
  | 95 => ⟨S_, .f32⟩
  | 96 => ⟨S_, .f32⟩
  | 97 => ⟨S64x16x32x512, .i1⟩
  | 98 => ⟨S64x16x32x512, .f32⟩
  | 99 => ⟨S64x16x32x512, .f32⟩
  | 100 => ⟨S64x16x32x512, .f32⟩
  | 101 => ⟨S_, .f32⟩
  | 102 => ⟨S64, .f32⟩
  | 103 => ⟨S64x1x32x512, .i32⟩
  | 104 => ⟨S_, .i32⟩
  | 105 => ⟨S64, .i32⟩
  | 106 => ⟨S64, .f32⟩
  | 107 => ⟨S_, .f32⟩
  | 108 => ⟨S64, .f32⟩
  | 109 => ⟨S64, .f32⟩
  | 110 => ⟨S_, .f32⟩
  | 111 => ⟨S64, .f32⟩
  | 112 => ⟨S64, .f32⟩
  | 113 => ⟨S64, .f32⟩
  | 114 => ⟨S64x16x32x512, .f32⟩
  | 115 => ⟨S64x16x32x0, .f32⟩
  | 116 => ⟨S64x16x32x512, .f32⟩
  | 117 => ⟨S64x1x32x512, .i1⟩
  | 118 => ⟨S64x1x32x0, .i1⟩
  | 119 => ⟨S64x1x32x512, .i1⟩
  | 120 => ⟨S64x1x32x512, .i1⟩
  | 121 => ⟨S64x16x32x512, .f32⟩
  | 122 => ⟨S_, .f32⟩
  | 123 => ⟨S_, .f32⟩
  | 124 => ⟨S64x16x32x512, .i1⟩
  | 125 => ⟨S64x16x32x512, .f32⟩
  | 126 => ⟨S64x16x32x512, .f32⟩
  | 127 => ⟨S64x16x32x512, .f32⟩
  | _ => ⟨S64x16x32x512, .f32⟩

abbrev hbmTy0_1 (i : Nat) : BufTy := match i % 128 with
  | 0 => ⟨S_, .f32⟩
  | 1 => ⟨S64, .f32⟩
  | 2 => ⟨S64x1x32x512, .i32⟩
  | 3 => ⟨S_, .i32⟩
  | 4 => ⟨S64, .i32⟩
  | 5 => ⟨S64, .f32⟩
  | 6 => ⟨S_, .f32⟩
  | 7 => ⟨S64, .f32⟩
  | 8 => ⟨S64, .f32⟩
  | 9 => ⟨S_, .f32⟩
  | 10 => ⟨S64, .f32⟩
  | 11 => ⟨S64, .f32⟩
  | 12 => ⟨S64, .f32⟩
  | 13 => ⟨S64x16x32x1, .f32⟩
  | 14 => ⟨S64x16x32x511, .f32⟩
  | 15 => ⟨S64x16x32x512, .f32⟩
  | 16 => ⟨S64x1x32x1, .i1⟩
  | 17 => ⟨S64x1x32x511, .i1⟩
  | 18 => ⟨S64x1x32x512, .i1⟩
  | 19 => ⟨S64x1x32x512, .i1⟩
  | 20 => ⟨S64x16x32x512, .f32⟩
  | 21 => ⟨S_, .f32⟩
  | 22 => ⟨S_, .f32⟩
  | 23 => ⟨S64x16x32x512, .i1⟩
  | 24 => ⟨S64x16x32x512, .f32⟩
  | 25 => ⟨S64x16x32x512, .f32⟩
  | 26 => ⟨S64x16x32x512, .f32⟩
  | 27 => ⟨S_, .f32⟩
  | 28 => ⟨S64, .f32⟩
  | 29 => ⟨S64x1x32x512, .i32⟩
  | 30 => ⟨S_, .i32⟩
  | 31 => ⟨S64, .i32⟩
  | 32 => ⟨S64, .f32⟩
  | 33 => ⟨S_, .f32⟩
  | 34 => ⟨S64, .f32⟩
  | 35 => ⟨S64, .f32⟩
  | 36 => ⟨S_, .f32⟩
  | 37 => ⟨S64, .f32⟩
  | 38 => ⟨S64, .f32⟩
  | 39 => ⟨S64, .f32⟩
  | 40 => ⟨S64x16x32x2, .f32⟩
  | 41 => ⟨S64x16x32x510, .f32⟩
  | 42 => ⟨S64x16x32x512, .f32⟩
  | 43 => ⟨S64x1x32x2, .i1⟩
  | 44 => ⟨S64x1x32x510, .i1⟩
  | 45 => ⟨S64x1x32x512, .i1⟩
  | 46 => ⟨S64x1x32x512, .i1⟩
  | 47 => ⟨S64x16x32x512, .f32⟩
  | 48 => ⟨S_, .f32⟩
  | 49 => ⟨S_, .f32⟩
  | 50 => ⟨S64x16x32x512, .i1⟩
  | 51 => ⟨S64x16x32x512, .f32⟩
  | 52 => ⟨S64x16x32x512, .f32⟩
  | 53 => ⟨S64x16x32x512, .f32⟩
  | 54 => ⟨S_, .f32⟩
  | 55 => ⟨S64, .f32⟩
  | 56 => ⟨S64x1x32x512, .i32⟩
  | 57 => ⟨S_, .i32⟩
  | 58 => ⟨S64, .i32⟩
  | 59 => ⟨S64, .f32⟩
  | 60 => ⟨S_, .f32⟩
  | 61 => ⟨S64, .f32⟩
  | 62 => ⟨S64, .f32⟩
  | 63 => ⟨S_, .f32⟩
  | 64 => ⟨S64, .f32⟩
  | 65 => ⟨S64, .f32⟩
  | 66 => ⟨S64, .f32⟩
  | 67 => ⟨S64x16x32x3, .f32⟩
  | 68 => ⟨S64x16x32x509, .f32⟩
  | 69 => ⟨S64x16x32x512, .f32⟩
  | 70 => ⟨S64x1x32x3, .i1⟩
  | 71 => ⟨S64x1x32x509, .i1⟩
  | 72 => ⟨S64x1x32x512, .i1⟩
  | 73 => ⟨S64x1x32x512, .i1⟩
  | 74 => ⟨S64x16x32x512, .f32⟩
  | 75 => ⟨S_, .f32⟩
  | 76 => ⟨S_, .f32⟩
  | 77 => ⟨S64x16x32x512, .i1⟩
  | 78 => ⟨S64x16x32x512, .f32⟩
  | 79 => ⟨S64x16x32x512, .f32⟩
  | 80 => ⟨S64x16x32x512, .f32⟩
  | 81 => ⟨S_, .f32⟩
  | 82 => ⟨S64, .f32⟩
  | 83 => ⟨S64x1x32x512, .i32⟩
  | 84 => ⟨S_, .i32⟩
  | 85 => ⟨S64, .i32⟩
  | 86 => ⟨S64, .f32⟩
  | 87 => ⟨S_, .f32⟩
  | 88 => ⟨S64, .f32⟩
  | 89 => ⟨S64, .f32⟩
  | 90 => ⟨S_, .f32⟩
  | 91 => ⟨S64, .f32⟩
  | 92 => ⟨S64, .f32⟩
  | 93 => ⟨S64, .f32⟩
  | 94 => ⟨S64x16x32x4, .f32⟩
  | 95 => ⟨S64x16x32x508, .f32⟩
  | 96 => ⟨S64x16x32x512, .f32⟩
  | 97 => ⟨S64x1x32x4, .i1⟩
  | 98 => ⟨S64x1x32x508, .i1⟩
  | 99 => ⟨S64x1x32x512, .i1⟩
  | 100 => ⟨S64x1x32x512, .i1⟩
  | 101 => ⟨S64x16x32x512, .f32⟩
  | 102 => ⟨S_, .f32⟩
  | 103 => ⟨S_, .f32⟩
  | 104 => ⟨S64x16x32x512, .i1⟩
  | 105 => ⟨S64x16x32x512, .f32⟩
  | 106 => ⟨S64x16x32x512, .f32⟩
  | 107 => ⟨S64x16x32x512, .f32⟩
  | 108 => ⟨S_, .f32⟩
  | 109 => ⟨S64, .f32⟩
  | 110 => ⟨S64x1x32x512, .i32⟩
  | 111 => ⟨S_, .i32⟩
  | 112 => ⟨S64, .i32⟩
  | 113 => ⟨S64, .f32⟩
  | 114 => ⟨S_, .f32⟩
  | 115 => ⟨S64, .f32⟩
  | 116 => ⟨S64, .f32⟩
  | 117 => ⟨S_, .f32⟩
  | 118 => ⟨S64, .f32⟩
  | 119 => ⟨S64, .f32⟩
  | 120 => ⟨S64, .f32⟩
  | 121 => ⟨S1x64, .f32⟩
  | 122 => ⟨S1x64, .f32⟩
  | 123 => ⟨S1x64, .f32⟩
  | 124 => ⟨S1x64, .f32⟩
  | 125 => ⟨S1x64, .f32⟩
  | 126 => ⟨S1x64, .f32⟩
  | 127 => ⟨S1x64, .f32⟩
  | _ => ⟨S64x16x32x512, .f32⟩

abbrev hbmTy0_2 (i : Nat) : BufTy := match i % 128 with
  | 0 => ⟨S1x64, .f32⟩
  | 1 => ⟨S1x64, .f32⟩
  | 2 => ⟨S9x64, .f32⟩
  | 3 => ⟨S_, .f32⟩
  | 4 => ⟨S64, .f32⟩
  | 5 => ⟨S64x16x32x508, .f32⟩
  | 6 => ⟨S64x16x32x4, .f32⟩
  | 7 => ⟨S64x16x32x512, .f32⟩
  | 8 => ⟨S64x1x32x508, .i1⟩
  | 9 => ⟨S64x1x32x4, .i1⟩
  | 10 => ⟨S64x1x32x512, .i1⟩
  | 11 => ⟨S64x1x32x512, .i1⟩
  | 12 => ⟨S64x16x32x512, .f32⟩
  | 13 => ⟨S_, .f32⟩
  | 14 => ⟨S_, .f32⟩
  | 15 => ⟨S64x16x32x512, .i1⟩
  | 16 => ⟨S64x16x32x512, .f32⟩
  | 17 => ⟨S64x16x32x512, .f32⟩
  | 18 => ⟨S64x16x32x512, .f32⟩
  | 19 => ⟨S_, .f32⟩
  | 20 => ⟨S64, .f32⟩
  | 21 => ⟨S64x1x32x512, .i32⟩
  | 22 => ⟨S_, .i32⟩
  | 23 => ⟨S64, .i32⟩
  | 24 => ⟨S64, .f32⟩
  | 25 => ⟨S_, .f32⟩
  | 26 => ⟨S64, .f32⟩
  | 27 => ⟨S64, .f32⟩
  | 28 => ⟨S_, .f32⟩
  | 29 => ⟨S64, .f32⟩
  | 30 => ⟨S64, .f32⟩
  | 31 => ⟨S64, .f32⟩
  | 32 => ⟨S64x16x32x509, .f32⟩
  | 33 => ⟨S64x16x32x3, .f32⟩
  | 34 => ⟨S64x16x32x512, .f32⟩
  | 35 => ⟨S64x1x32x509, .i1⟩
  | 36 => ⟨S64x1x32x3, .i1⟩
  | 37 => ⟨S64x1x32x512, .i1⟩
  | 38 => ⟨S64x1x32x512, .i1⟩
  | 39 => ⟨S64x16x32x512, .f32⟩
  | 40 => ⟨S_, .f32⟩
  | 41 => ⟨S_, .f32⟩
  | 42 => ⟨S64x16x32x512, .i1⟩
  | 43 => ⟨S64x16x32x512, .f32⟩
  | 44 => ⟨S64x16x32x512, .f32⟩
  | 45 => ⟨S64x16x32x512, .f32⟩
  | 46 => ⟨S_, .f32⟩
  | 47 => ⟨S64, .f32⟩
  | 48 => ⟨S64x1x32x512, .i32⟩
  | 49 => ⟨S_, .i32⟩
  | 50 => ⟨S64, .i32⟩
  | 51 => ⟨S64, .f32⟩
  | 52 => ⟨S_, .f32⟩
  | 53 => ⟨S64, .f32⟩
  | 54 => ⟨S64, .f32⟩
  | 55 => ⟨S_, .f32⟩
  | 56 => ⟨S64, .f32⟩
  | 57 => ⟨S64, .f32⟩
  | 58 => ⟨S64, .f32⟩
  | 59 => ⟨S64x16x32x510, .f32⟩
  | 60 => ⟨S64x16x32x2, .f32⟩
  | 61 => ⟨S64x16x32x512, .f32⟩
  | 62 => ⟨S64x1x32x510, .i1⟩
  | 63 => ⟨S64x1x32x2, .i1⟩
  | 64 => ⟨S64x1x32x512, .i1⟩
  | 65 => ⟨S64x1x32x512, .i1⟩
  | 66 => ⟨S64x16x32x512, .f32⟩
  | 67 => ⟨S_, .f32⟩
  | 68 => ⟨S_, .f32⟩
  | 69 => ⟨S64x16x32x512, .i1⟩
  | 70 => ⟨S64x16x32x512, .f32⟩
  | 71 => ⟨S64x16x32x512, .f32⟩
  | 72 => ⟨S64x16x32x512, .f32⟩
  | 73 => ⟨S_, .f32⟩
  | 74 => ⟨S64, .f32⟩
  | 75 => ⟨S64x1x32x512, .i32⟩
  | 76 => ⟨S_, .i32⟩
  | 77 => ⟨S64, .i32⟩
  | 78 => ⟨S64, .f32⟩
  | 79 => ⟨S_, .f32⟩
  | 80 => ⟨S64, .f32⟩
  | 81 => ⟨S64, .f32⟩
  | 82 => ⟨S_, .f32⟩
  | 83 => ⟨S64, .f32⟩
  | 84 => ⟨S64, .f32⟩
  | 85 => ⟨S64, .f32⟩
  | 86 => ⟨S64x16x32x511, .f32⟩
  | 87 => ⟨S64x16x32x1, .f32⟩
  | 88 => ⟨S64x16x32x512, .f32⟩
  | 89 => ⟨S64x1x32x511, .i1⟩
  | 90 => ⟨S64x1x32x1, .i1⟩
  | 91 => ⟨S64x1x32x512, .i1⟩
  | 92 => ⟨S64x1x32x512, .i1⟩
  | 93 => ⟨S64x16x32x512, .f32⟩
  | 94 => ⟨S_, .f32⟩
  | 95 => ⟨S_, .f32⟩
  | 96 => ⟨S64x16x32x512, .i1⟩
  | 97 => ⟨S64x16x32x512, .f32⟩
  | 98 => ⟨S64x16x32x512, .f32⟩
  | 99 => ⟨S64x16x32x512, .f32⟩
  | 100 => ⟨S_, .f32⟩
  | 101 => ⟨S64, .f32⟩
  | 102 => ⟨S64x1x32x512, .i32⟩
  | 103 => ⟨S_, .i32⟩
  | 104 => ⟨S64, .i32⟩
  | 105 => ⟨S64, .f32⟩
  | 106 => ⟨S_, .f32⟩
  | 107 => ⟨S64, .f32⟩
  | 108 => ⟨S64, .f32⟩
  | 109 => ⟨S_, .f32⟩
  | 110 => ⟨S64, .f32⟩
  | 111 => ⟨S64, .f32⟩
  | 112 => ⟨S64, .f32⟩
  | 113 => ⟨S64x16x32x512, .f32⟩
  | 114 => ⟨S64x16x32x0, .f32⟩
  | 115 => ⟨S64x16x32x512, .f32⟩
  | 116 => ⟨S64x1x32x512, .i1⟩
  | 117 => ⟨S64x1x32x0, .i1⟩
  | 118 => ⟨S64x1x32x512, .i1⟩
  | 119 => ⟨S64x1x32x512, .i1⟩
  | 120 => ⟨S64x16x32x512, .f32⟩
  | 121 => ⟨S_, .f32⟩
  | 122 => ⟨S_, .f32⟩
  | 123 => ⟨S64x16x32x512, .i1⟩
  | 124 => ⟨S64x16x32x512, .f32⟩
  | 125 => ⟨S64x16x32x512, .f32⟩
  | 126 => ⟨S64x16x32x512, .f32⟩
  | 127 => ⟨S_, .f32⟩
  | _ => ⟨S64x16x32x512, .f32⟩

abbrev hbmTy0_3 (i : Nat) : BufTy := match i % 128 with
  | 0 => ⟨S64, .f32⟩
  | 1 => ⟨S64x1x32x512, .i32⟩
  | 2 => ⟨S_, .i32⟩
  | 3 => ⟨S64, .i32⟩
  | 4 => ⟨S64, .f32⟩
  | 5 => ⟨S_, .f32⟩
  | 6 => ⟨S64, .f32⟩
  | 7 => ⟨S64, .f32⟩
  | 8 => ⟨S_, .f32⟩
  | 9 => ⟨S64, .f32⟩
  | 10 => ⟨S64, .f32⟩
  | 11 => ⟨S64, .f32⟩
  | 12 => ⟨S64x16x32x1, .f32⟩
  | 13 => ⟨S64x16x32x511, .f32⟩
  | 14 => ⟨S64x16x32x512, .f32⟩
  | 15 => ⟨S64x1x32x1, .i1⟩
  | 16 => ⟨S64x1x32x511, .i1⟩
  | 17 => ⟨S64x1x32x512, .i1⟩
  | 18 => ⟨S64x1x32x512, .i1⟩
  | 19 => ⟨S64x16x32x512, .f32⟩
  | 20 => ⟨S_, .f32⟩
  | 21 => ⟨S_, .f32⟩
  | 22 => ⟨S64x16x32x512, .i1⟩
  | 23 => ⟨S64x16x32x512, .f32⟩
  | 24 => ⟨S64x16x32x512, .f32⟩
  | 25 => ⟨S64x16x32x512, .f32⟩
  | 26 => ⟨S_, .f32⟩
  | 27 => ⟨S64, .f32⟩
  | 28 => ⟨S64x1x32x512, .i32⟩
  | 29 => ⟨S_, .i32⟩
  | 30 => ⟨S64, .i32⟩
  | 31 => ⟨S64, .f32⟩
  | 32 => ⟨S_, .f32⟩
  | 33 => ⟨S64, .f32⟩
  | 34 => ⟨S64, .f32⟩
  | 35 => ⟨S_, .f32⟩
  | 36 => ⟨S64, .f32⟩
  | 37 => ⟨S64, .f32⟩
  | 38 => ⟨S64, .f32⟩
  | 39 => ⟨S64x16x32x2, .f32⟩
  | 40 => ⟨S64x16x32x510, .f32⟩
  | 41 => ⟨S64x16x32x512, .f32⟩
  | 42 => ⟨S64x1x32x2, .i1⟩
  | 43 => ⟨S64x1x32x510, .i1⟩
  | 44 => ⟨S64x1x32x512, .i1⟩
  | 45 => ⟨S64x1x32x512, .i1⟩
  | 46 => ⟨S64x16x32x512, .f32⟩
  | 47 => ⟨S_, .f32⟩
  | 48 => ⟨S_, .f32⟩
  | 49 => ⟨S64x16x32x512, .i1⟩
  | 50 => ⟨S64x16x32x512, .f32⟩
  | 51 => ⟨S64x16x32x512, .f32⟩
  | 52 => ⟨S64x16x32x512, .f32⟩
  | 53 => ⟨S_, .f32⟩
  | 54 => ⟨S64, .f32⟩
  | 55 => ⟨S64x1x32x512, .i32⟩
  | 56 => ⟨S_, .i32⟩
  | 57 => ⟨S64, .i32⟩
  | 58 => ⟨S64, .f32⟩
  | 59 => ⟨S_, .f32⟩
  | 60 => ⟨S64, .f32⟩
  | 61 => ⟨S64, .f32⟩
  | 62 => ⟨S_, .f32⟩
  | 63 => ⟨S64, .f32⟩
  | 64 => ⟨S64, .f32⟩
  | 65 => ⟨S64, .f32⟩
  | 66 => ⟨S64x16x32x3, .f32⟩
  | 67 => ⟨S64x16x32x509, .f32⟩
  | 68 => ⟨S64x16x32x512, .f32⟩
  | 69 => ⟨S64x1x32x3, .i1⟩
  | 70 => ⟨S64x1x32x509, .i1⟩
  | 71 => ⟨S64x1x32x512, .i1⟩
  | 72 => ⟨S64x1x32x512, .i1⟩
  | 73 => ⟨S64x16x32x512, .f32⟩
  | 74 => ⟨S_, .f32⟩
  | 75 => ⟨S_, .f32⟩
  | 76 => ⟨S64x16x32x512, .i1⟩
  | 77 => ⟨S64x16x32x512, .f32⟩
  | 78 => ⟨S64x16x32x512, .f32⟩
  | 79 => ⟨S64x16x32x512, .f32⟩
  | 80 => ⟨S_, .f32⟩
  | 81 => ⟨S64, .f32⟩
  | 82 => ⟨S64x1x32x512, .i32⟩
  | 83 => ⟨S_, .i32⟩
  | 84 => ⟨S64, .i32⟩
  | 85 => ⟨S64, .f32⟩
  | 86 => ⟨S_, .f32⟩
  | 87 => ⟨S64, .f32⟩
  | 88 => ⟨S64, .f32⟩
  | 89 => ⟨S_, .f32⟩
  | 90 => ⟨S64, .f32⟩
  | 91 => ⟨S64, .f32⟩
  | 92 => ⟨S64, .f32⟩
  | 93 => ⟨S64x16x32x4, .f32⟩
  | 94 => ⟨S64x16x32x508, .f32⟩
  | 95 => ⟨S64x16x32x512, .f32⟩
  | 96 => ⟨S64x1x32x4, .i1⟩
  | 97 => ⟨S64x1x32x508, .i1⟩
  | 98 => ⟨S64x1x32x512, .i1⟩
  | 99 => ⟨S64x1x32x512, .i1⟩
  | 100 => ⟨S64x16x32x512, .f32⟩
  | 101 => ⟨S_, .f32⟩
  | 102 => ⟨S_, .f32⟩
  | 103 => ⟨S64x16x32x512, .i1⟩
  | 104 => ⟨S64x16x32x512, .f32⟩
  | 105 => ⟨S64x16x32x512, .f32⟩
  | 106 => ⟨S64x16x32x512, .f32⟩
  | 107 => ⟨S_, .f32⟩
  | 108 => ⟨S64, .f32⟩
  | 109 => ⟨S64x1x32x512, .i32⟩
  | 110 => ⟨S_, .i32⟩
  | 111 => ⟨S64, .i32⟩
  | 112 => ⟨S64, .f32⟩
  | 113 => ⟨S_, .f32⟩
  | 114 => ⟨S64, .f32⟩
  | 115 => ⟨S64, .f32⟩
  | 116 => ⟨S_, .f32⟩
  | 117 => ⟨S64, .f32⟩
  | 118 => ⟨S64, .f32⟩
  | 119 => ⟨S64, .f32⟩
  | 120 => ⟨S1x64, .f32⟩
  | 121 => ⟨S1x64, .f32⟩
  | 122 => ⟨S1x64, .f32⟩
  | 123 => ⟨S1x64, .f32⟩
  | 124 => ⟨S1x64, .f32⟩
  | 125 => ⟨S1x64, .f32⟩
  | 126 => ⟨S1x64, .f32⟩
  | 127 => ⟨S1x64, .f32⟩
  | _ => ⟨S64x16x32x512, .f32⟩

abbrev hbmTy0_4 (i : Nat) : BufTy := match i % 128 with
  | 0 => ⟨S1x64, .f32⟩
  | 1 => ⟨S9x64, .f32⟩
  | 2 => ⟨S_, .f32⟩
  | 3 => ⟨S64, .f32⟩
  | 4 => ⟨S64, .f32⟩
  | 5 => ⟨S_, .f32⟩
  | 6 => ⟨S64, .f32⟩
  | 7 => ⟨S64, .f32⟩
  | 8 => ⟨S_, .f32⟩
  | 9 => ⟨S64, .f32⟩
  | 10 => ⟨S64, .f32⟩
  | 11 => ⟨S_, .f32⟩
  | 12 => ⟨S_, .f32⟩
  | 13 => ⟨S_, .f32⟩
  | 14 => ⟨S_, .f32⟩
  | _ => ⟨S64x16x32x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S64x16x32x512, .f32⟩

abbrev bufTy : (tb : Table) → Fin (tcTables nBuf tb) → BufTy
  | .hbm, ⟨i, _⟩ => hbmTy i
  | _, _ => ⟨S64x16x32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_v0 : Ref sig .tc := ⟨.hbm, 8, rfl⟩
abbrev main_call1_v0 : Ref sig .tc := ⟨.hbm, 9, rfl⟩
abbrev main_call1_v1 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_call2_v0 : Ref sig .tc := ⟨.hbm, 15, rfl⟩
abbrev main_call2_v1 : Ref sig .tc := ⟨.hbm, 16, rfl⟩
abbrev main_call2_v2 : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_c : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_call3_v0 : Ref sig .tc := ⟨.hbm, 33, rfl⟩
abbrev main_call3_v1 : Ref sig .tc := ⟨.hbm, 34, rfl⟩
abbrev main_v15 : Ref sig .tc := ⟨.hbm, 35, rfl⟩
abbrev main_call4_v0 : Ref sig .tc := ⟨.hbm, 36, rfl⟩
abbrev main_call4_v1 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_3 : Ref sig .tc := ⟨.hbm, 41, rfl⟩
abbrev main_call5_v0 : Ref sig .tc := ⟨.hbm, 42, rfl⟩
abbrev main_call5_v1 : Ref sig .tc := ⟨.hbm, 43, rfl⟩
abbrev main_call5_v2 : Ref sig .tc := ⟨.hbm, 44, rfl⟩
abbrev main_v19 : Ref sig .tc := ⟨.hbm, 45, rfl⟩
abbrev main_v20 : Ref sig .tc := ⟨.hbm, 46, rfl⟩
abbrev main_cst_4 : Ref sig .tc := ⟨.hbm, 47, rfl⟩
abbrev main_v21 : Ref sig .tc := ⟨.hbm, 48, rfl⟩
abbrev main_v22 : Ref sig .tc := ⟨.hbm, 49, rfl⟩
abbrev main_c_5 : Ref sig .tc := ⟨.hbm, 50, rfl⟩
abbrev main_v23 : Ref sig .tc := ⟨.hbm, 51, rfl⟩
abbrev main_v24 : Ref sig .tc := ⟨.hbm, 52, rfl⟩
abbrev main_cst_6 : Ref sig .tc := ⟨.hbm, 53, rfl⟩
abbrev main_v25 : Ref sig .tc := ⟨.hbm, 54, rfl⟩
abbrev main_v26 : Ref sig .tc := ⟨.hbm, 55, rfl⟩
abbrev main_cst_7 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_call6_v0 : Ref sig .tc := ⟨.hbm, 60, rfl⟩
abbrev main_call6_v1 : Ref sig .tc := ⟨.hbm, 61, rfl⟩
abbrev main_v30 : Ref sig .tc := ⟨.hbm, 62, rfl⟩
abbrev main_call7_v0 : Ref sig .tc := ⟨.hbm, 63, rfl⟩
abbrev main_call7_v1 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_cst_8 : Ref sig .tc := ⟨.hbm, 68, rfl⟩
abbrev main_call8_v0 : Ref sig .tc := ⟨.hbm, 69, rfl⟩
abbrev main_call8_v1 : Ref sig .tc := ⟨.hbm, 70, rfl⟩
abbrev main_call8_v2 : Ref sig .tc := ⟨.hbm, 71, rfl⟩
abbrev main_v34 : Ref sig .tc := ⟨.hbm, 72, rfl⟩
abbrev main_v35 : Ref sig .tc := ⟨.hbm, 73, rfl⟩
abbrev main_cst_9 : Ref sig .tc := ⟨.hbm, 74, rfl⟩
abbrev main_v36 : Ref sig .tc := ⟨.hbm, 75, rfl⟩
abbrev main_v37 : Ref sig .tc := ⟨.hbm, 76, rfl⟩
abbrev main_c_10 : Ref sig .tc := ⟨.hbm, 77, rfl⟩
abbrev main_v38 : Ref sig .tc := ⟨.hbm, 78, rfl⟩
abbrev main_v39 : Ref sig .tc := ⟨.hbm, 79, rfl⟩
abbrev main_cst_11 : Ref sig .tc := ⟨.hbm, 80, rfl⟩
abbrev main_v40 : Ref sig .tc := ⟨.hbm, 81, rfl⟩
abbrev main_v41 : Ref sig .tc := ⟨.hbm, 82, rfl⟩
abbrev main_cst_12 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_call9_v0 : Ref sig .tc := ⟨.hbm, 87, rfl⟩
abbrev main_call9_v1 : Ref sig .tc := ⟨.hbm, 88, rfl⟩
abbrev main_v45 : Ref sig .tc := ⟨.hbm, 89, rfl⟩
abbrev main_call10_v0 : Ref sig .tc := ⟨.hbm, 90, rfl⟩
abbrev main_call10_v1 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_cst_13 : Ref sig .tc := ⟨.hbm, 95, rfl⟩
abbrev main_call11_v0 : Ref sig .tc := ⟨.hbm, 96, rfl⟩
abbrev main_call11_v1 : Ref sig .tc := ⟨.hbm, 97, rfl⟩
abbrev main_call11_v2 : Ref sig .tc := ⟨.hbm, 98, rfl⟩
abbrev main_v49 : Ref sig .tc := ⟨.hbm, 99, rfl⟩
abbrev main_v50 : Ref sig .tc := ⟨.hbm, 100, rfl⟩
abbrev main_cst_14 : Ref sig .tc := ⟨.hbm, 101, rfl⟩
abbrev main_v51 : Ref sig .tc := ⟨.hbm, 102, rfl⟩
abbrev main_v52 : Ref sig .tc := ⟨.hbm, 103, rfl⟩
abbrev main_c_15 : Ref sig .tc := ⟨.hbm, 104, rfl⟩
abbrev main_v53 : Ref sig .tc := ⟨.hbm, 105, rfl⟩
abbrev main_v54 : Ref sig .tc := ⟨.hbm, 106, rfl⟩
abbrev main_cst_16 : Ref sig .tc := ⟨.hbm, 107, rfl⟩
abbrev main_v55 : Ref sig .tc := ⟨.hbm, 108, rfl⟩
abbrev main_v56 : Ref sig .tc := ⟨.hbm, 109, rfl⟩
abbrev main_cst_17 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_call12_v0 : Ref sig .tc := ⟨.hbm, 114, rfl⟩
abbrev main_call12_v1 : Ref sig .tc := ⟨.hbm, 115, rfl⟩
abbrev main_v60 : Ref sig .tc := ⟨.hbm, 116, rfl⟩
abbrev main_call13_v0 : Ref sig .tc := ⟨.hbm, 117, rfl⟩
abbrev main_call13_v1 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_cst_18 : Ref sig .tc := ⟨.hbm, 122, rfl⟩
abbrev main_call14_v0 : Ref sig .tc := ⟨.hbm, 123, rfl⟩
abbrev main_call14_v1 : Ref sig .tc := ⟨.hbm, 124, rfl⟩
abbrev main_call14_v2 : Ref sig .tc := ⟨.hbm, 125, rfl⟩
abbrev main_v64 : Ref sig .tc := ⟨.hbm, 126, rfl⟩
abbrev main_v65 : Ref sig .tc := ⟨.hbm, 127, rfl⟩
abbrev main_cst_19 : Ref sig .tc := ⟨.hbm, 128, rfl⟩
abbrev main_v66 : Ref sig .tc := ⟨.hbm, 129, rfl⟩
abbrev main_v67 : Ref sig .tc := ⟨.hbm, 130, rfl⟩
abbrev main_c_20 : Ref sig .tc := ⟨.hbm, 131, rfl⟩
abbrev main_v68 : Ref sig .tc := ⟨.hbm, 132, rfl⟩
abbrev main_v69 : Ref sig .tc := ⟨.hbm, 133, rfl⟩
abbrev main_cst_21 : Ref sig .tc := ⟨.hbm, 134, rfl⟩
abbrev main_v70 : Ref sig .tc := ⟨.hbm, 135, rfl⟩
abbrev main_v71 : Ref sig .tc := ⟨.hbm, 136, rfl⟩
abbrev main_cst_22 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_call15_v0 : Ref sig .tc := ⟨.hbm, 141, rfl⟩
abbrev main_call15_v1 : Ref sig .tc := ⟨.hbm, 142, rfl⟩
abbrev main_v75 : Ref sig .tc := ⟨.hbm, 143, rfl⟩
abbrev main_call16_v0 : Ref sig .tc := ⟨.hbm, 144, rfl⟩
abbrev main_call16_v1 : Ref sig .tc := ⟨.hbm, 145, rfl⟩
abbrev main_v76 : Ref sig .tc := ⟨.hbm, 146, rfl⟩
abbrev main_v77 : Ref sig .tc := ⟨.hbm, 147, rfl⟩
abbrev main_v78 : Ref sig .tc := ⟨.hbm, 148, rfl⟩
abbrev main_cst_23 : Ref sig .tc := ⟨.hbm, 149, rfl⟩
abbrev main_call17_v0 : Ref sig .tc := ⟨.hbm, 150, rfl⟩
abbrev main_call17_v1 : Ref sig .tc := ⟨.hbm, 151, rfl⟩
abbrev main_call17_v2 : Ref sig .tc := ⟨.hbm, 152, rfl⟩
abbrev main_v79 : Ref sig .tc := ⟨.hbm, 153, rfl⟩
abbrev main_v80 : Ref sig .tc := ⟨.hbm, 154, rfl⟩
abbrev main_cst_24 : Ref sig .tc := ⟨.hbm, 155, rfl⟩
abbrev main_v81 : Ref sig .tc := ⟨.hbm, 156, rfl⟩
abbrev main_v82 : Ref sig .tc := ⟨.hbm, 157, rfl⟩
abbrev main_c_25 : Ref sig .tc := ⟨.hbm, 158, rfl⟩
abbrev main_v83 : Ref sig .tc := ⟨.hbm, 159, rfl⟩
abbrev main_v84 : Ref sig .tc := ⟨.hbm, 160, rfl⟩
abbrev main_cst_26 : Ref sig .tc := ⟨.hbm, 161, rfl⟩
abbrev main_v85 : Ref sig .tc := ⟨.hbm, 162, rfl⟩
abbrev main_v86 : Ref sig .tc := ⟨.hbm, 163, rfl⟩
abbrev main_cst_27 : Ref sig .tc := ⟨.hbm, 164, rfl⟩
abbrev main_v87 : Ref sig .tc := ⟨.hbm, 165, rfl⟩
abbrev main_v88 : Ref sig .tc := ⟨.hbm, 166, rfl⟩
abbrev main_v89 : Ref sig .tc := ⟨.hbm, 167, rfl⟩
abbrev main_call18_v0 : Ref sig .tc := ⟨.hbm, 168, rfl⟩
abbrev main_call18_v1 : Ref sig .tc := ⟨.hbm, 169, rfl⟩
abbrev main_v90 : Ref sig .tc := ⟨.hbm, 170, rfl⟩
abbrev main_call19_v0 : Ref sig .tc := ⟨.hbm, 171, rfl⟩
abbrev main_call19_v1 : Ref sig .tc := ⟨.hbm, 172, rfl⟩
abbrev main_v91 : Ref sig .tc := ⟨.hbm, 173, rfl⟩
abbrev main_v92 : Ref sig .tc := ⟨.hbm, 174, rfl⟩
abbrev main_v93 : Ref sig .tc := ⟨.hbm, 175, rfl⟩
abbrev main_cst_28 : Ref sig .tc := ⟨.hbm, 176, rfl⟩
abbrev main_call20_v0 : Ref sig .tc := ⟨.hbm, 177, rfl⟩
abbrev main_call20_v1 : Ref sig .tc := ⟨.hbm, 178, rfl⟩
abbrev main_call20_v2 : Ref sig .tc := ⟨.hbm, 179, rfl⟩
abbrev main_v94 : Ref sig .tc := ⟨.hbm, 180, rfl⟩
abbrev main_v95 : Ref sig .tc := ⟨.hbm, 181, rfl⟩
abbrev main_cst_29 : Ref sig .tc := ⟨.hbm, 182, rfl⟩
abbrev main_v96 : Ref sig .tc := ⟨.hbm, 183, rfl⟩
abbrev main_v97 : Ref sig .tc := ⟨.hbm, 184, rfl⟩
abbrev main_c_30 : Ref sig .tc := ⟨.hbm, 185, rfl⟩
abbrev main_v98 : Ref sig .tc := ⟨.hbm, 186, rfl⟩
abbrev main_v99 : Ref sig .tc := ⟨.hbm, 187, rfl⟩
abbrev main_cst_31 : Ref sig .tc := ⟨.hbm, 188, rfl⟩
abbrev main_v100 : Ref sig .tc := ⟨.hbm, 189, rfl⟩
abbrev main_v101 : Ref sig .tc := ⟨.hbm, 190, rfl⟩
abbrev main_cst_32 : Ref sig .tc := ⟨.hbm, 191, rfl⟩
abbrev main_v102 : Ref sig .tc := ⟨.hbm, 192, rfl⟩
abbrev main_v103 : Ref sig .tc := ⟨.hbm, 193, rfl⟩
abbrev main_v104 : Ref sig .tc := ⟨.hbm, 194, rfl⟩
abbrev main_call21_v0 : Ref sig .tc := ⟨.hbm, 195, rfl⟩
abbrev main_call21_v1 : Ref sig .tc := ⟨.hbm, 196, rfl⟩
abbrev main_v105 : Ref sig .tc := ⟨.hbm, 197, rfl⟩
abbrev main_call22_v0 : Ref sig .tc := ⟨.hbm, 198, rfl⟩
abbrev main_call22_v1 : Ref sig .tc := ⟨.hbm, 199, rfl⟩
abbrev main_v106 : Ref sig .tc := ⟨.hbm, 200, rfl⟩
abbrev main_v107 : Ref sig .tc := ⟨.hbm, 201, rfl⟩
abbrev main_v108 : Ref sig .tc := ⟨.hbm, 202, rfl⟩
abbrev main_cst_33 : Ref sig .tc := ⟨.hbm, 203, rfl⟩
abbrev main_call23_v0 : Ref sig .tc := ⟨.hbm, 204, rfl⟩
abbrev main_call23_v1 : Ref sig .tc := ⟨.hbm, 205, rfl⟩
abbrev main_call23_v2 : Ref sig .tc := ⟨.hbm, 206, rfl⟩
abbrev main_v109 : Ref sig .tc := ⟨.hbm, 207, rfl⟩
abbrev main_v110 : Ref sig .tc := ⟨.hbm, 208, rfl⟩
abbrev main_cst_34 : Ref sig .tc := ⟨.hbm, 209, rfl⟩
abbrev main_v111 : Ref sig .tc := ⟨.hbm, 210, rfl⟩
abbrev main_v112 : Ref sig .tc := ⟨.hbm, 211, rfl⟩
abbrev main_c_35 : Ref sig .tc := ⟨.hbm, 212, rfl⟩
abbrev main_v113 : Ref sig .tc := ⟨.hbm, 213, rfl⟩
abbrev main_v114 : Ref sig .tc := ⟨.hbm, 214, rfl⟩
abbrev main_cst_36 : Ref sig .tc := ⟨.hbm, 215, rfl⟩
abbrev main_v115 : Ref sig .tc := ⟨.hbm, 216, rfl⟩
abbrev main_v116 : Ref sig .tc := ⟨.hbm, 217, rfl⟩
abbrev main_cst_37 : Ref sig .tc := ⟨.hbm, 218, rfl⟩
abbrev main_v117 : Ref sig .tc := ⟨.hbm, 219, rfl⟩
abbrev main_v118 : Ref sig .tc := ⟨.hbm, 220, rfl⟩
abbrev main_v119 : Ref sig .tc := ⟨.hbm, 221, rfl⟩
abbrev main_call24_v0 : Ref sig .tc := ⟨.hbm, 222, rfl⟩
abbrev main_call24_v1 : Ref sig .tc := ⟨.hbm, 223, rfl⟩
abbrev main_v120 : Ref sig .tc := ⟨.hbm, 224, rfl⟩
abbrev main_call25_v0 : Ref sig .tc := ⟨.hbm, 225, rfl⟩
abbrev main_call25_v1 : Ref sig .tc := ⟨.hbm, 226, rfl⟩
abbrev main_v121 : Ref sig .tc := ⟨.hbm, 227, rfl⟩
abbrev main_v122 : Ref sig .tc := ⟨.hbm, 228, rfl⟩
abbrev main_v123 : Ref sig .tc := ⟨.hbm, 229, rfl⟩
abbrev main_cst_38 : Ref sig .tc := ⟨.hbm, 230, rfl⟩
abbrev main_call26_v0 : Ref sig .tc := ⟨.hbm, 231, rfl⟩
abbrev main_call26_v1 : Ref sig .tc := ⟨.hbm, 232, rfl⟩
abbrev main_call26_v2 : Ref sig .tc := ⟨.hbm, 233, rfl⟩
abbrev main_v124 : Ref sig .tc := ⟨.hbm, 234, rfl⟩
abbrev main_v125 : Ref sig .tc := ⟨.hbm, 235, rfl⟩
abbrev main_cst_39 : Ref sig .tc := ⟨.hbm, 236, rfl⟩
abbrev main_v126 : Ref sig .tc := ⟨.hbm, 237, rfl⟩
abbrev main_v127 : Ref sig .tc := ⟨.hbm, 238, rfl⟩
abbrev main_c_40 : Ref sig .tc := ⟨.hbm, 239, rfl⟩
abbrev main_v128 : Ref sig .tc := ⟨.hbm, 240, rfl⟩
abbrev main_v129 : Ref sig .tc := ⟨.hbm, 241, rfl⟩
abbrev main_cst_41 : Ref sig .tc := ⟨.hbm, 242, rfl⟩
abbrev main_v130 : Ref sig .tc := ⟨.hbm, 243, rfl⟩
abbrev main_v131 : Ref sig .tc := ⟨.hbm, 244, rfl⟩
abbrev main_cst_42 : Ref sig .tc := ⟨.hbm, 245, rfl⟩
abbrev main_v132 : Ref sig .tc := ⟨.hbm, 246, rfl⟩
abbrev main_v133 : Ref sig .tc := ⟨.hbm, 247, rfl⟩
abbrev main_v134 : Ref sig .tc := ⟨.hbm, 248, rfl⟩
abbrev main_v135 : Ref sig .tc := ⟨.hbm, 249, rfl⟩
abbrev main_v136 : Ref sig .tc := ⟨.hbm, 250, rfl⟩
abbrev main_v137 : Ref sig .tc := ⟨.hbm, 251, rfl⟩
abbrev main_v138 : Ref sig .tc := ⟨.hbm, 252, rfl⟩
abbrev main_v139 : Ref sig .tc := ⟨.hbm, 253, rfl⟩
abbrev main_v140 : Ref sig .tc := ⟨.hbm, 254, rfl⟩
abbrev main_v141 : Ref sig .tc := ⟨.hbm, 255, rfl⟩
abbrev main_v142 : Ref sig .tc := ⟨.hbm, 256, rfl⟩
abbrev main_v143 : Ref sig .tc := ⟨.hbm, 257, rfl⟩
abbrev main_v144 : Ref sig .tc := ⟨.hbm, 258, rfl⟩
abbrev main_cst_43 : Ref sig .tc := ⟨.hbm, 259, rfl⟩
abbrev main_v145 : Ref sig .tc := ⟨.hbm, 260, rfl⟩
abbrev main_call27_v0 : Ref sig .tc := ⟨.hbm, 261, rfl⟩
abbrev main_call27_v1 : Ref sig .tc := ⟨.hbm, 262, rfl⟩
abbrev main_v146 : Ref sig .tc := ⟨.hbm, 263, rfl⟩
abbrev main_call28_v0 : Ref sig .tc := ⟨.hbm, 264, rfl⟩
abbrev main_call28_v1 : Ref sig .tc := ⟨.hbm, 265, rfl⟩
abbrev main_v147 : Ref sig .tc := ⟨.hbm, 266, rfl⟩
abbrev main_v148 : Ref sig .tc := ⟨.hbm, 267, rfl⟩
abbrev main_v149 : Ref sig .tc := ⟨.hbm, 268, rfl⟩
abbrev main_cst_44 : Ref sig .tc := ⟨.hbm, 269, rfl⟩
abbrev main_call29_v0 : Ref sig .tc := ⟨.hbm, 270, rfl⟩
abbrev main_call29_v1 : Ref sig .tc := ⟨.hbm, 271, rfl⟩
abbrev main_call29_v2 : Ref sig .tc := ⟨.hbm, 272, rfl⟩
abbrev main_v150 : Ref sig .tc := ⟨.hbm, 273, rfl⟩
abbrev main_v151 : Ref sig .tc := ⟨.hbm, 274, rfl⟩
abbrev main_cst_45 : Ref sig .tc := ⟨.hbm, 275, rfl⟩
abbrev main_v152 : Ref sig .tc := ⟨.hbm, 276, rfl⟩
abbrev main_v153 : Ref sig .tc := ⟨.hbm, 277, rfl⟩
abbrev main_c_46 : Ref sig .tc := ⟨.hbm, 278, rfl⟩
abbrev main_v154 : Ref sig .tc := ⟨.hbm, 279, rfl⟩
abbrev main_v155 : Ref sig .tc := ⟨.hbm, 280, rfl⟩
abbrev main_cst_47 : Ref sig .tc := ⟨.hbm, 281, rfl⟩
abbrev main_v156 : Ref sig .tc := ⟨.hbm, 282, rfl⟩
abbrev main_v157 : Ref sig .tc := ⟨.hbm, 283, rfl⟩
abbrev main_cst_48 : Ref sig .tc := ⟨.hbm, 284, rfl⟩
abbrev main_v158 : Ref sig .tc := ⟨.hbm, 285, rfl⟩
abbrev main_v159 : Ref sig .tc := ⟨.hbm, 286, rfl⟩
abbrev main_v160 : Ref sig .tc := ⟨.hbm, 287, rfl⟩
abbrev main_call30_v0 : Ref sig .tc := ⟨.hbm, 288, rfl⟩
abbrev main_call30_v1 : Ref sig .tc := ⟨.hbm, 289, rfl⟩
abbrev main_v161 : Ref sig .tc := ⟨.hbm, 290, rfl⟩
abbrev main_call31_v0 : Ref sig .tc := ⟨.hbm, 291, rfl⟩
abbrev main_call31_v1 : Ref sig .tc := ⟨.hbm, 292, rfl⟩
abbrev main_v162 : Ref sig .tc := ⟨.hbm, 293, rfl⟩
abbrev main_v163 : Ref sig .tc := ⟨.hbm, 294, rfl⟩
abbrev main_v164 : Ref sig .tc := ⟨.hbm, 295, rfl⟩
abbrev main_cst_49 : Ref sig .tc := ⟨.hbm, 296, rfl⟩
abbrev main_call32_v0 : Ref sig .tc := ⟨.hbm, 297, rfl⟩
abbrev main_call32_v1 : Ref sig .tc := ⟨.hbm, 298, rfl⟩
abbrev main_call32_v2 : Ref sig .tc := ⟨.hbm, 299, rfl⟩
abbrev main_v165 : Ref sig .tc := ⟨.hbm, 300, rfl⟩
abbrev main_v166 : Ref sig .tc := ⟨.hbm, 301, rfl⟩
abbrev main_cst_50 : Ref sig .tc := ⟨.hbm, 302, rfl⟩
abbrev main_v167 : Ref sig .tc := ⟨.hbm, 303, rfl⟩
abbrev main_v168 : Ref sig .tc := ⟨.hbm, 304, rfl⟩
abbrev main_c_51 : Ref sig .tc := ⟨.hbm, 305, rfl⟩
abbrev main_v169 : Ref sig .tc := ⟨.hbm, 306, rfl⟩
abbrev main_v170 : Ref sig .tc := ⟨.hbm, 307, rfl⟩
abbrev main_cst_52 : Ref sig .tc := ⟨.hbm, 308, rfl⟩
abbrev main_v171 : Ref sig .tc := ⟨.hbm, 309, rfl⟩
abbrev main_v172 : Ref sig .tc := ⟨.hbm, 310, rfl⟩
abbrev main_cst_53 : Ref sig .tc := ⟨.hbm, 311, rfl⟩
abbrev main_v173 : Ref sig .tc := ⟨.hbm, 312, rfl⟩
abbrev main_v174 : Ref sig .tc := ⟨.hbm, 313, rfl⟩
abbrev main_v175 : Ref sig .tc := ⟨.hbm, 314, rfl⟩
abbrev main_call33_v0 : Ref sig .tc := ⟨.hbm, 315, rfl⟩
abbrev main_call33_v1 : Ref sig .tc := ⟨.hbm, 316, rfl⟩
abbrev main_v176 : Ref sig .tc := ⟨.hbm, 317, rfl⟩
abbrev main_call34_v0 : Ref sig .tc := ⟨.hbm, 318, rfl⟩
abbrev main_call34_v1 : Ref sig .tc := ⟨.hbm, 319, rfl⟩
abbrev main_v177 : Ref sig .tc := ⟨.hbm, 320, rfl⟩
abbrev main_v178 : Ref sig .tc := ⟨.hbm, 321, rfl⟩
abbrev main_v179 : Ref sig .tc := ⟨.hbm, 322, rfl⟩
abbrev main_cst_54 : Ref sig .tc := ⟨.hbm, 323, rfl⟩
abbrev main_call35_v0 : Ref sig .tc := ⟨.hbm, 324, rfl⟩
abbrev main_call35_v1 : Ref sig .tc := ⟨.hbm, 325, rfl⟩
abbrev main_call35_v2 : Ref sig .tc := ⟨.hbm, 326, rfl⟩
abbrev main_v180 : Ref sig .tc := ⟨.hbm, 327, rfl⟩
abbrev main_v181 : Ref sig .tc := ⟨.hbm, 328, rfl⟩
abbrev main_cst_55 : Ref sig .tc := ⟨.hbm, 329, rfl⟩
abbrev main_v182 : Ref sig .tc := ⟨.hbm, 330, rfl⟩
abbrev main_v183 : Ref sig .tc := ⟨.hbm, 331, rfl⟩
abbrev main_c_56 : Ref sig .tc := ⟨.hbm, 332, rfl⟩
abbrev main_v184 : Ref sig .tc := ⟨.hbm, 333, rfl⟩
abbrev main_v185 : Ref sig .tc := ⟨.hbm, 334, rfl⟩
abbrev main_cst_57 : Ref sig .tc := ⟨.hbm, 335, rfl⟩
abbrev main_v186 : Ref sig .tc := ⟨.hbm, 336, rfl⟩
abbrev main_v187 : Ref sig .tc := ⟨.hbm, 337, rfl⟩
abbrev main_cst_58 : Ref sig .tc := ⟨.hbm, 338, rfl⟩
abbrev main_v188 : Ref sig .tc := ⟨.hbm, 339, rfl⟩
abbrev main_v189 : Ref sig .tc := ⟨.hbm, 340, rfl⟩
abbrev main_v190 : Ref sig .tc := ⟨.hbm, 341, rfl⟩
abbrev main_call36_v0 : Ref sig .tc := ⟨.hbm, 342, rfl⟩
abbrev main_call36_v1 : Ref sig .tc := ⟨.hbm, 343, rfl⟩
abbrev main_v191 : Ref sig .tc := ⟨.hbm, 344, rfl⟩
abbrev main_call37_v0 : Ref sig .tc := ⟨.hbm, 345, rfl⟩
abbrev main_call37_v1 : Ref sig .tc := ⟨.hbm, 346, rfl⟩
abbrev main_v192 : Ref sig .tc := ⟨.hbm, 347, rfl⟩
abbrev main_v193 : Ref sig .tc := ⟨.hbm, 348, rfl⟩
abbrev main_v194 : Ref sig .tc := ⟨.hbm, 349, rfl⟩
abbrev main_cst_59 : Ref sig .tc := ⟨.hbm, 350, rfl⟩
abbrev main_call38_v0 : Ref sig .tc := ⟨.hbm, 351, rfl⟩
abbrev main_call38_v1 : Ref sig .tc := ⟨.hbm, 352, rfl⟩
abbrev main_call38_v2 : Ref sig .tc := ⟨.hbm, 353, rfl⟩
abbrev main_v195 : Ref sig .tc := ⟨.hbm, 354, rfl⟩
abbrev main_v196 : Ref sig .tc := ⟨.hbm, 355, rfl⟩
abbrev main_cst_60 : Ref sig .tc := ⟨.hbm, 356, rfl⟩
abbrev main_v197 : Ref sig .tc := ⟨.hbm, 357, rfl⟩
abbrev main_v198 : Ref sig .tc := ⟨.hbm, 358, rfl⟩
abbrev main_c_61 : Ref sig .tc := ⟨.hbm, 359, rfl⟩
abbrev main_v199 : Ref sig .tc := ⟨.hbm, 360, rfl⟩
abbrev main_v200 : Ref sig .tc := ⟨.hbm, 361, rfl⟩
abbrev main_cst_62 : Ref sig .tc := ⟨.hbm, 362, rfl⟩
abbrev main_v201 : Ref sig .tc := ⟨.hbm, 363, rfl⟩
abbrev main_v202 : Ref sig .tc := ⟨.hbm, 364, rfl⟩
abbrev main_cst_63 : Ref sig .tc := ⟨.hbm, 365, rfl⟩
abbrev main_v203 : Ref sig .tc := ⟨.hbm, 366, rfl⟩
abbrev main_v204 : Ref sig .tc := ⟨.hbm, 367, rfl⟩
abbrev main_v205 : Ref sig .tc := ⟨.hbm, 368, rfl⟩
abbrev main_call39_v0 : Ref sig .tc := ⟨.hbm, 369, rfl⟩
abbrev main_call39_v1 : Ref sig .tc := ⟨.hbm, 370, rfl⟩
abbrev main_v206 : Ref sig .tc := ⟨.hbm, 371, rfl⟩
abbrev main_call40_v0 : Ref sig .tc := ⟨.hbm, 372, rfl⟩
abbrev main_call40_v1 : Ref sig .tc := ⟨.hbm, 373, rfl⟩
abbrev main_v207 : Ref sig .tc := ⟨.hbm, 374, rfl⟩
abbrev main_v208 : Ref sig .tc := ⟨.hbm, 375, rfl⟩
abbrev main_v209 : Ref sig .tc := ⟨.hbm, 376, rfl⟩
abbrev main_cst_64 : Ref sig .tc := ⟨.hbm, 377, rfl⟩
abbrev main_call41_v0 : Ref sig .tc := ⟨.hbm, 378, rfl⟩
abbrev main_call41_v1 : Ref sig .tc := ⟨.hbm, 379, rfl⟩
abbrev main_call41_v2 : Ref sig .tc := ⟨.hbm, 380, rfl⟩
abbrev main_v210 : Ref sig .tc := ⟨.hbm, 381, rfl⟩
abbrev main_v211 : Ref sig .tc := ⟨.hbm, 382, rfl⟩
abbrev main_cst_65 : Ref sig .tc := ⟨.hbm, 383, rfl⟩
abbrev main_v212 : Ref sig .tc := ⟨.hbm, 384, rfl⟩
abbrev main_v213 : Ref sig .tc := ⟨.hbm, 385, rfl⟩
abbrev main_c_66 : Ref sig .tc := ⟨.hbm, 386, rfl⟩
abbrev main_v214 : Ref sig .tc := ⟨.hbm, 387, rfl⟩
abbrev main_v215 : Ref sig .tc := ⟨.hbm, 388, rfl⟩
abbrev main_cst_67 : Ref sig .tc := ⟨.hbm, 389, rfl⟩
abbrev main_v216 : Ref sig .tc := ⟨.hbm, 390, rfl⟩
abbrev main_v217 : Ref sig .tc := ⟨.hbm, 391, rfl⟩
abbrev main_cst_68 : Ref sig .tc := ⟨.hbm, 392, rfl⟩
abbrev main_v218 : Ref sig .tc := ⟨.hbm, 393, rfl⟩
abbrev main_v219 : Ref sig .tc := ⟨.hbm, 394, rfl⟩
abbrev main_v220 : Ref sig .tc := ⟨.hbm, 395, rfl⟩
abbrev main_call42_v0 : Ref sig .tc := ⟨.hbm, 396, rfl⟩
abbrev main_call42_v1 : Ref sig .tc := ⟨.hbm, 397, rfl⟩
abbrev main_v221 : Ref sig .tc := ⟨.hbm, 398, rfl⟩
abbrev main_call43_v0 : Ref sig .tc := ⟨.hbm, 399, rfl⟩
abbrev main_call43_v1 : Ref sig .tc := ⟨.hbm, 400, rfl⟩
abbrev main_v222 : Ref sig .tc := ⟨.hbm, 401, rfl⟩
abbrev main_v223 : Ref sig .tc := ⟨.hbm, 402, rfl⟩
abbrev main_v224 : Ref sig .tc := ⟨.hbm, 403, rfl⟩
abbrev main_cst_69 : Ref sig .tc := ⟨.hbm, 404, rfl⟩
abbrev main_call44_v0 : Ref sig .tc := ⟨.hbm, 405, rfl⟩
abbrev main_call44_v1 : Ref sig .tc := ⟨.hbm, 406, rfl⟩
abbrev main_call44_v2 : Ref sig .tc := ⟨.hbm, 407, rfl⟩
abbrev main_v225 : Ref sig .tc := ⟨.hbm, 408, rfl⟩
abbrev main_v226 : Ref sig .tc := ⟨.hbm, 409, rfl⟩
abbrev main_cst_70 : Ref sig .tc := ⟨.hbm, 410, rfl⟩
abbrev main_v227 : Ref sig .tc := ⟨.hbm, 411, rfl⟩
abbrev main_v228 : Ref sig .tc := ⟨.hbm, 412, rfl⟩
abbrev main_c_71 : Ref sig .tc := ⟨.hbm, 413, rfl⟩
abbrev main_v229 : Ref sig .tc := ⟨.hbm, 414, rfl⟩
abbrev main_v230 : Ref sig .tc := ⟨.hbm, 415, rfl⟩
abbrev main_cst_72 : Ref sig .tc := ⟨.hbm, 416, rfl⟩
abbrev main_v231 : Ref sig .tc := ⟨.hbm, 417, rfl⟩
abbrev main_v232 : Ref sig .tc := ⟨.hbm, 418, rfl⟩
abbrev main_cst_73 : Ref sig .tc := ⟨.hbm, 419, rfl⟩
abbrev main_v233 : Ref sig .tc := ⟨.hbm, 420, rfl⟩
abbrev main_v234 : Ref sig .tc := ⟨.hbm, 421, rfl⟩
abbrev main_v235 : Ref sig .tc := ⟨.hbm, 422, rfl⟩
abbrev main_call45_v0 : Ref sig .tc := ⟨.hbm, 423, rfl⟩
abbrev main_call45_v1 : Ref sig .tc := ⟨.hbm, 424, rfl⟩
abbrev main_v236 : Ref sig .tc := ⟨.hbm, 425, rfl⟩
abbrev main_call46_v0 : Ref sig .tc := ⟨.hbm, 426, rfl⟩
abbrev main_call46_v1 : Ref sig .tc := ⟨.hbm, 427, rfl⟩
abbrev main_v237 : Ref sig .tc := ⟨.hbm, 428, rfl⟩
abbrev main_v238 : Ref sig .tc := ⟨.hbm, 429, rfl⟩
abbrev main_v239 : Ref sig .tc := ⟨.hbm, 430, rfl⟩
abbrev main_cst_74 : Ref sig .tc := ⟨.hbm, 431, rfl⟩
abbrev main_call47_v0 : Ref sig .tc := ⟨.hbm, 432, rfl⟩
abbrev main_call47_v1 : Ref sig .tc := ⟨.hbm, 433, rfl⟩
abbrev main_call47_v2 : Ref sig .tc := ⟨.hbm, 434, rfl⟩
abbrev main_v240 : Ref sig .tc := ⟨.hbm, 435, rfl⟩
abbrev main_v241 : Ref sig .tc := ⟨.hbm, 436, rfl⟩
abbrev main_cst_75 : Ref sig .tc := ⟨.hbm, 437, rfl⟩
abbrev main_v242 : Ref sig .tc := ⟨.hbm, 438, rfl⟩
abbrev main_v243 : Ref sig .tc := ⟨.hbm, 439, rfl⟩
abbrev main_c_76 : Ref sig .tc := ⟨.hbm, 440, rfl⟩
abbrev main_v244 : Ref sig .tc := ⟨.hbm, 441, rfl⟩
abbrev main_v245 : Ref sig .tc := ⟨.hbm, 442, rfl⟩
abbrev main_cst_77 : Ref sig .tc := ⟨.hbm, 443, rfl⟩
abbrev main_v246 : Ref sig .tc := ⟨.hbm, 444, rfl⟩
abbrev main_v247 : Ref sig .tc := ⟨.hbm, 445, rfl⟩
abbrev main_cst_78 : Ref sig .tc := ⟨.hbm, 446, rfl⟩
abbrev main_v248 : Ref sig .tc := ⟨.hbm, 447, rfl⟩
abbrev main_v249 : Ref sig .tc := ⟨.hbm, 448, rfl⟩
abbrev main_v250 : Ref sig .tc := ⟨.hbm, 449, rfl⟩
abbrev main_call48_v0 : Ref sig .tc := ⟨.hbm, 450, rfl⟩
abbrev main_call48_v1 : Ref sig .tc := ⟨.hbm, 451, rfl⟩
abbrev main_v251 : Ref sig .tc := ⟨.hbm, 452, rfl⟩
abbrev main_call49_v0 : Ref sig .tc := ⟨.hbm, 453, rfl⟩
abbrev main_call49_v1 : Ref sig .tc := ⟨.hbm, 454, rfl⟩
abbrev main_v252 : Ref sig .tc := ⟨.hbm, 455, rfl⟩
abbrev main_v253 : Ref sig .tc := ⟨.hbm, 456, rfl⟩
abbrev main_v254 : Ref sig .tc := ⟨.hbm, 457, rfl⟩
abbrev main_cst_79 : Ref sig .tc := ⟨.hbm, 458, rfl⟩
abbrev main_call50_v0 : Ref sig .tc := ⟨.hbm, 459, rfl⟩
abbrev main_call50_v1 : Ref sig .tc := ⟨.hbm, 460, rfl⟩
abbrev main_call50_v2 : Ref sig .tc := ⟨.hbm, 461, rfl⟩
abbrev main_v255 : Ref sig .tc := ⟨.hbm, 462, rfl⟩
abbrev main_v256 : Ref sig .tc := ⟨.hbm, 463, rfl⟩
abbrev main_cst_80 : Ref sig .tc := ⟨.hbm, 464, rfl⟩
abbrev main_v257 : Ref sig .tc := ⟨.hbm, 465, rfl⟩
abbrev main_v258 : Ref sig .tc := ⟨.hbm, 466, rfl⟩
abbrev main_c_81 : Ref sig .tc := ⟨.hbm, 467, rfl⟩
abbrev main_v259 : Ref sig .tc := ⟨.hbm, 468, rfl⟩
abbrev main_v260 : Ref sig .tc := ⟨.hbm, 469, rfl⟩
abbrev main_cst_82 : Ref sig .tc := ⟨.hbm, 470, rfl⟩
abbrev main_v261 : Ref sig .tc := ⟨.hbm, 471, rfl⟩
abbrev main_v262 : Ref sig .tc := ⟨.hbm, 472, rfl⟩
abbrev main_cst_83 : Ref sig .tc := ⟨.hbm, 473, rfl⟩
abbrev main_v263 : Ref sig .tc := ⟨.hbm, 474, rfl⟩
abbrev main_v264 : Ref sig .tc := ⟨.hbm, 475, rfl⟩
abbrev main_v265 : Ref sig .tc := ⟨.hbm, 476, rfl⟩
abbrev main_call51_v0 : Ref sig .tc := ⟨.hbm, 477, rfl⟩
abbrev main_call51_v1 : Ref sig .tc := ⟨.hbm, 478, rfl⟩
abbrev main_v266 : Ref sig .tc := ⟨.hbm, 479, rfl⟩
abbrev main_call52_v0 : Ref sig .tc := ⟨.hbm, 480, rfl⟩
abbrev main_call52_v1 : Ref sig .tc := ⟨.hbm, 481, rfl⟩
abbrev main_v267 : Ref sig .tc := ⟨.hbm, 482, rfl⟩
abbrev main_v268 : Ref sig .tc := ⟨.hbm, 483, rfl⟩
abbrev main_v269 : Ref sig .tc := ⟨.hbm, 484, rfl⟩
abbrev main_cst_84 : Ref sig .tc := ⟨.hbm, 485, rfl⟩
abbrev main_call53_v0 : Ref sig .tc := ⟨.hbm, 486, rfl⟩
abbrev main_call53_v1 : Ref sig .tc := ⟨.hbm, 487, rfl⟩
abbrev main_call53_v2 : Ref sig .tc := ⟨.hbm, 488, rfl⟩
abbrev main_v270 : Ref sig .tc := ⟨.hbm, 489, rfl⟩
abbrev main_v271 : Ref sig .tc := ⟨.hbm, 490, rfl⟩
abbrev main_cst_85 : Ref sig .tc := ⟨.hbm, 491, rfl⟩
abbrev main_v272 : Ref sig .tc := ⟨.hbm, 492, rfl⟩
abbrev main_v273 : Ref sig .tc := ⟨.hbm, 493, rfl⟩
abbrev main_c_86 : Ref sig .tc := ⟨.hbm, 494, rfl⟩
abbrev main_v274 : Ref sig .tc := ⟨.hbm, 495, rfl⟩
abbrev main_v275 : Ref sig .tc := ⟨.hbm, 496, rfl⟩
abbrev main_cst_87 : Ref sig .tc := ⟨.hbm, 497, rfl⟩
abbrev main_v276 : Ref sig .tc := ⟨.hbm, 498, rfl⟩
abbrev main_v277 : Ref sig .tc := ⟨.hbm, 499, rfl⟩
abbrev main_cst_88 : Ref sig .tc := ⟨.hbm, 500, rfl⟩
abbrev main_v278 : Ref sig .tc := ⟨.hbm, 501, rfl⟩
abbrev main_v279 : Ref sig .tc := ⟨.hbm, 502, rfl⟩
abbrev main_v280 : Ref sig .tc := ⟨.hbm, 503, rfl⟩
abbrev main_v281 : Ref sig .tc := ⟨.hbm, 504, rfl⟩
abbrev main_v282 : Ref sig .tc := ⟨.hbm, 505, rfl⟩
abbrev main_v283 : Ref sig .tc := ⟨.hbm, 506, rfl⟩
abbrev main_v284 : Ref sig .tc := ⟨.hbm, 507, rfl⟩
abbrev main_v285 : Ref sig .tc := ⟨.hbm, 508, rfl⟩
abbrev main_v286 : Ref sig .tc := ⟨.hbm, 509, rfl⟩
abbrev main_v287 : Ref sig .tc := ⟨.hbm, 510, rfl⟩
abbrev main_v288 : Ref sig .tc := ⟨.hbm, 511, rfl⟩
abbrev main_v289 : Ref sig .tc := ⟨.hbm, 512, rfl⟩
abbrev main_v290 : Ref sig .tc := ⟨.hbm, 513, rfl⟩
abbrev main_cst_89 : Ref sig .tc := ⟨.hbm, 514, rfl⟩
abbrev main_v291 : Ref sig .tc := ⟨.hbm, 515, rfl⟩
abbrev main_v292 : Ref sig .tc := ⟨.hbm, 516, rfl⟩
abbrev main_cst_90 : Ref sig .tc := ⟨.hbm, 517, rfl⟩
abbrev main_v293 : Ref sig .tc := ⟨.hbm, 518, rfl⟩
abbrev main_v294 : Ref sig .tc := ⟨.hbm, 519, rfl⟩
abbrev main_call54_cst : Ref sig .tc := ⟨.hbm, 520, rfl⟩
abbrev main_call54_v0 : Ref sig .tc := ⟨.hbm, 521, rfl⟩
abbrev main_v295 : Ref sig .tc := ⟨.hbm, 522, rfl⟩
abbrev main_cst_91 : Ref sig .tc := ⟨.hbm, 523, rfl⟩
abbrev main_v296 : Ref sig .tc := ⟨.hbm, 524, rfl⟩
abbrev main_cst_92 : Ref sig .tc := ⟨.hbm, 525, rfl⟩
abbrev main_v297 : Ref sig .tc := ⟨.hbm, 526, rfl⟩

abbrev nD : Nat := 1
abbrev τ : Topo := Topo.v7x

variable {F : FTy → Type} [FloatOps F]

class Facts₀ : Prop where
  slices_S64x16x32x512_S64x16x32x508_0_0_0_4 : S64x16x32x512.Slices ![0, 0, 0, 4] S64x16x32x508
  slices_S64x16x32x512_S64x16x32x4_0_0_0_0 : S64x16x32x512.Slices ![0, 0, 0, 0] S64x16x32x4
  concatenates_S64x16x32x508_S64x16x32x4_S64x16x32x512_d3 : Shape.Concatenates [S64x16x32x508, S64x16x32x4] S64x16x32x512 3
  slices_S64x1x32x512_S64x1x32x508_0_0_0_4 : S64x1x32x512.Slices ![0, 0, 0, 4] S64x1x32x508
  slices_S64x1x32x512_S64x1x32x4_0_0_0_0 : S64x1x32x512.Slices ![0, 0, 0, 0] S64x1x32x4
  concatenates_S64x1x32x508_S64x1x32x4_S64x1x32x512_d3 : Shape.Concatenates [S64x1x32x508, S64x1x32x4] S64x1x32x512 3
  bcast_S64x1x32x512_S64x16x32x512_0_1_2_3 : S64x1x32x512.BroadcastsInDim S64x16x32x512 (![0, 1, 2, 3] : Fin 4 → Fin S64x16x32x512.rank)
  bcast_S_S64x16x32x512 : S_.BroadcastsInDim S64x16x32x512 (![] : Fin 0 → Fin S64x16x32x512.rank)
  reducesTo_S64x16x32x512_S64_d1_2_3 : S64x16x32x512.ReducesTo [1, 2, 3] S64
  h_S_ : 0 < S_.numel
  natLt_1_32 : 1 < 32
  reducesTo_S64x1x32x512_S64_d1_2_3 : S64x1x32x512.ReducesTo [1, 2, 3] S64
  bcast_S_S64 : S_.BroadcastsInDim S64 (![] : Fin 0 → Fin S64.rank)
  slices_S64x16x32x512_S64x16x32x509_0_0_0_3 : S64x16x32x512.Slices ![0, 0, 0, 3] S64x16x32x509
  slices_S64x16x32x512_S64x16x32x3_0_0_0_0 : S64x16x32x512.Slices ![0, 0, 0, 0] S64x16x32x3
  concatenates_S64x16x32x509_S64x16x32x3_S64x16x32x512_d3 : Shape.Concatenates [S64x16x32x509, S64x16x32x3] S64x16x32x512 3
  slices_S64x1x32x512_S64x1x32x509_0_0_0_3 : S64x1x32x512.Slices ![0, 0, 0, 3] S64x1x32x509
  slices_S64x1x32x512_S64x1x32x3_0_0_0_0 : S64x1x32x512.Slices ![0, 0, 0, 0] S64x1x32x3
  concatenates_S64x1x32x509_S64x1x32x3_S64x1x32x512_d3 : Shape.Concatenates [S64x1x32x509, S64x1x32x3] S64x1x32x512 3
  slices_S64x16x32x512_S64x16x32x510_0_0_0_2 : S64x16x32x512.Slices ![0, 0, 0, 2] S64x16x32x510
  slices_S64x16x32x512_S64x16x32x2_0_0_0_0 : S64x16x32x512.Slices ![0, 0, 0, 0] S64x16x32x2
  concatenates_S64x16x32x510_S64x16x32x2_S64x16x32x512_d3 : Shape.Concatenates [S64x16x32x510, S64x16x32x2] S64x16x32x512 3
  slices_S64x1x32x512_S64x1x32x510_0_0_0_2 : S64x1x32x512.Slices ![0, 0, 0, 2] S64x1x32x510
  slices_S64x1x32x512_S64x1x32x2_0_0_0_0 : S64x1x32x512.Slices ![0, 0, 0, 0] S64x1x32x2
  concatenates_S64x1x32x510_S64x1x32x2_S64x1x32x512_d3 : Shape.Concatenates [S64x1x32x510, S64x1x32x2] S64x1x32x512 3
  slices_S64x16x32x512_S64x16x32x511_0_0_0_1 : S64x16x32x512.Slices ![0, 0, 0, 1] S64x16x32x511
  slices_S64x16x32x512_S64x16x32x1_0_0_0_0 : S64x16x32x512.Slices ![0, 0, 0, 0] S64x16x32x1
  concatenates_S64x16x32x511_S64x16x32x1_S64x16x32x512_d3 : Shape.Concatenates [S64x16x32x511, S64x16x32x1] S64x16x32x512 3
  slices_S64x1x32x512_S64x1x32x511_0_0_0_1 : S64x1x32x512.Slices ![0, 0, 0, 1] S64x1x32x511
  slices_S64x1x32x512_S64x1x32x1_0_0_0_0 : S64x1x32x512.Slices ![0, 0, 0, 0] S64x1x32x1
  concatenates_S64x1x32x511_S64x1x32x1_S64x1x32x512_d3 : Shape.Concatenates [S64x1x32x511, S64x1x32x1] S64x1x32x512 3
  slices_S64x16x32x512_S64x16x32x512_0_0_0_0 : S64x16x32x512.Slices ![0, 0, 0, 0] S64x16x32x512
  slices_S64x16x32x512_S64x16x32x0_0_0_0_0 : S64x16x32x512.Slices ![0, 0, 0, 0] S64x16x32x0
  concatenates_S64x16x32x512_S64x16x32x0_S64x16x32x512_d3 : Shape.Concatenates [S64x16x32x512, S64x16x32x0] S64x16x32x512 3
  slices_S64x1x32x512_S64x1x32x512_0_0_0_0 : S64x1x32x512.Slices ![0, 0, 0, 0] S64x1x32x512
  slices_S64x1x32x512_S64x1x32x0_0_0_0_0 : S64x1x32x512.Slices ![0, 0, 0, 0] S64x1x32x0
  concatenates_S64x1x32x512_S64x1x32x0_S64x1x32x512_d3 : Shape.Concatenates [S64x1x32x512, S64x1x32x0] S64x1x32x512 3
  slices_S64x16x32x512_S64x16x32x1_0_0_0_511 : S64x16x32x512.Slices ![0, 0, 0, 511] S64x16x32x1
  slices_S64x16x32x512_S64x16x32x511_0_0_0_0 : S64x16x32x512.Slices ![0, 0, 0, 0] S64x16x32x511
  concatenates_S64x16x32x1_S64x16x32x511_S64x16x32x512_d3 : Shape.Concatenates [S64x16x32x1, S64x16x32x511] S64x16x32x512 3
  slices_S64x1x32x512_S64x1x32x1_0_0_0_511 : S64x1x32x512.Slices ![0, 0, 0, 511] S64x1x32x1
  slices_S64x1x32x512_S64x1x32x511_0_0_0_0 : S64x1x32x512.Slices ![0, 0, 0, 0] S64x1x32x511
  concatenates_S64x1x32x1_S64x1x32x511_S64x1x32x512_d3 : Shape.Concatenates [S64x1x32x1, S64x1x32x511] S64x1x32x512 3
  slices_S64x16x32x512_S64x16x32x2_0_0_0_510 : S64x16x32x512.Slices ![0, 0, 0, 510] S64x16x32x2
  slices_S64x16x32x512_S64x16x32x510_0_0_0_0 : S64x16x32x512.Slices ![0, 0, 0, 0] S64x16x32x510
  concatenates_S64x16x32x2_S64x16x32x510_S64x16x32x512_d3 : Shape.Concatenates [S64x16x32x2, S64x16x32x510] S64x16x32x512 3
  slices_S64x1x32x512_S64x1x32x2_0_0_0_510 : S64x1x32x512.Slices ![0, 0, 0, 510] S64x1x32x2
  slices_S64x1x32x512_S64x1x32x510_0_0_0_0 : S64x1x32x512.Slices ![0, 0, 0, 0] S64x1x32x510
  concatenates_S64x1x32x2_S64x1x32x510_S64x1x32x512_d3 : Shape.Concatenates [S64x1x32x2, S64x1x32x510] S64x1x32x512 3
  slices_S64x16x32x512_S64x16x32x3_0_0_0_509 : S64x16x32x512.Slices ![0, 0, 0, 509] S64x16x32x3
  slices_S64x16x32x512_S64x16x32x509_0_0_0_0 : S64x16x32x512.Slices ![0, 0, 0, 0] S64x16x32x509
  concatenates_S64x16x32x3_S64x16x32x509_S64x16x32x512_d3 : Shape.Concatenates [S64x16x32x3, S64x16x32x509] S64x16x32x512 3
  slices_S64x1x32x512_S64x1x32x3_0_0_0_509 : S64x1x32x512.Slices ![0, 0, 0, 509] S64x1x32x3
  slices_S64x1x32x512_S64x1x32x509_0_0_0_0 : S64x1x32x512.Slices ![0, 0, 0, 0] S64x1x32x509
  concatenates_S64x1x32x3_S64x1x32x509_S64x1x32x512_d3 : Shape.Concatenates [S64x1x32x3, S64x1x32x509] S64x1x32x512 3
  slices_S64x16x32x512_S64x16x32x4_0_0_0_508 : S64x16x32x512.Slices ![0, 0, 0, 508] S64x16x32x4
  slices_S64x16x32x512_S64x16x32x508_0_0_0_0 : S64x16x32x512.Slices ![0, 0, 0, 0] S64x16x32x508
  concatenates_S64x16x32x4_S64x16x32x508_S64x16x32x512_d3 : Shape.Concatenates [S64x16x32x4, S64x16x32x508] S64x16x32x512 3
  slices_S64x1x32x512_S64x1x32x4_0_0_0_508 : S64x1x32x512.Slices ![0, 0, 0, 508] S64x1x32x4
  slices_S64x1x32x512_S64x1x32x508_0_0_0_0 : S64x1x32x512.Slices ![0, 0, 0, 0] S64x1x32x508
  concatenates_S64x1x32x4_S64x1x32x508_S64x1x32x512_d3 : Shape.Concatenates [S64x1x32x4, S64x1x32x508] S64x1x32x512 3
  bcast_S64_S1x64_1 : S64.BroadcastsInDim S1x64 (![1] : Fin 1 → Fin S1x64.rank)
  concatenates_S1x64_S1x64_S1x64_S1x64_S1x64_S1x64_S1x64_S1x64_S1x64_S9x64_d0 : Shape.Concatenates [S1x64, S1x64, S1x64, S1x64, S1x64, S1x64, S1x64, S1x64, S1x64] S9x64 0
  reducesTo_S9x64_S64_d0 : S9x64.ReducesTo [0] S64
  reducesTo_S64_S_d0 : S64.ReducesTo [0] S_

variable [Facts₀]

class Facts : Prop extends Facts₀ where

variable [Facts]
-- ==== Proof.K.Runs.lean ====
/- What the runs of kernel 0's body are stated over: the two branch conditions of the body as propositions over the
   grid coordinates with their closed forms over the points, where the output window is idle and where it is live,
   the staging memrefs the pipeline passes at a point, the two scratch accumulators as whole memrefs, and the
   region invariant with the two accumulators owned at some contents. -/
import proofs.«122145_j70437463654548_2_alg».proof.Proof.Gen.Kernel.Launch
import proofs.«122145_j70437463654548_2_alg».proof.Proof.Gen.Kernel.Skeleton
import proofs.«122145_j70437463654548_2_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions -/

/-- The first branch (`h == 0`: the accumulators are zero-filled), from the grid coordinates. -/
abbrev cond0_0 (i : grid0.Coords) : Prop := (Scalar.cmpi .ne (Scalar.extui (Scalar.cmpi .eq (BitVec.ofNat 32 (i 1).val) 0#32)) 0#32) = 1#1
/-- It holds at the even points: the second grid coordinate is the point's parity. -/
theorem hcond0_0 : ∀ t : Fin cfg0.N, cond0_0 (grid0.coords t) ↔ t.val % 2 = 0 :=
  (by decide +kernel : ∀ t : Fin grid0.N, cond0_0 (grid0.coords t) ↔ t.val % 2 = 0)

/-- The second branch (`h == 1`: the output block is computed from the accumulators), from the grid coordinates. -/
abbrev cond0_1 (i : grid0.Coords) : Prop := k0_cond2 i = 1#1
/-- It holds at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-- Exactly one of the two cases is met at every point: the first branch alone at the even points (case A). -/
theorem caseA0_of (t : Fin cfg0.N) (h : t.val % 2 = 0) : cond0_0 (grid0.coords t) ∧ ¬cond0_1 (grid0.coords t) :=
  ⟨(hcond0_0 t).2 h, fun h1 => by have := (hcond0_1 t).1 h1; omega⟩
/-- The second branch alone at the odd points (case B). -/
theorem caseB0_of (t : Fin cfg0.N) (h : t.val % 2 = 1) : ¬cond0_0 (grid0.coords t) ∧ cond0_1 (grid0.coords t) :=
  ⟨fun h0 => by have := (hcond0_0 t).1 h0; omega, (hcond0_1 t).2 h⟩

/-! ## Where the windows are idle -/

/-- The four inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- In case A the output window is idle: nothing is stored into it. -/
theorem idleAt0_4_A : ∀ t : Fin cfg0.N, cond0_0 (grid0.coords t) → ¬cond0_1 (grid0.coords t) → cfg0.idle 4 (grid0.coords t) = true := by decide +kernel
/-- In case A the output block is not written back. -/
theorem noFlush0_4_A : ∀ t : Fin cfg0.N, cond0_0 (grid0.coords t) → ¬cond0_1 (grid0.coords t) → (cfg0.win 4).flush t = false := by decide +kernel
/-- In case B the output window is live: the block is stored whole. -/
theorem liveAt0_4_B : ∀ t : Fin cfg0.N, ¬cond0_0 (grid0.coords t) → cond0_1 (grid0.coords t) → cfg0.idle 4 (grid0.coords t) = false := by decide +kernel
/-- In case B the output block is written back. -/
theorem flush0_4_B : ∀ t : Fin cfg0.N, ¬cond0_0 (grid0.coords t) → cond0_1 (grid0.coords t) → (cfg0.win 4).flush t = true := by decide +kernel

/-! ## The memrefs the body is called on -/

/-- One staging buffer of the output window, through which its contents are stated. -/
abbrev VO0_4 : View sig .tc .vmem S8x1 .f32 := (Memref.whole cc0_stg4_0 : Memref sig .tc .vmem S8x1 .f32).view
/-- Window 0's current staging memref at point `t`, as the pipeline passes it, and its wholeness. -/
abbrev ms0_0 (t : Fin cfg0.N) : Memref sig .tc .vmem S8x16x16x512 .f32 := win0_0.stage (cfg0.slots t 0)
abbrev hs0_0 (t : Fin cfg0.N) : (ms0_0 t).IsWhole := hstage0_0 ((cfg0.slots t 0).cast nbuf0_0)
/-- Window 1's current staging memref at point `t`, as the pipeline passes it, and its wholeness. -/
abbrev ms0_1 (t : Fin cfg0.N) : Memref sig .tc .vmem S8x1x16x512 .f32 := win0_1.stage (cfg0.slots t 1)
abbrev hs0_1 (t : Fin cfg0.N) : (ms0_1 t).IsWhole := hstage0_1 ((cfg0.slots t 1).cast nbuf0_1)
/-- Window 2's current staging memref at point `t`, as the pipeline passes it, and its wholeness. -/
abbrev ms0_2 (t : Fin cfg0.N) : Memref sig .tc .vmem S8x16x16x512 .f32 := win0_2.stage (cfg0.slots t 2)
abbrev hs0_2 (t : Fin cfg0.N) : (ms0_2 t).IsWhole := hstage0_2 ((cfg0.slots t 2).cast nbuf0_2)
/-- Window 3's current staging memref at point `t`, as the pipeline passes it, and its wholeness. -/
abbrev ms0_3 (t : Fin cfg0.N) : Memref sig .tc .vmem S8x1x16x512 .f32 := win0_3.stage (cfg0.slots t 3)
abbrev hs0_3 (t : Fin cfg0.N) : (ms0_3 t).IsWhole := hstage0_3 ((cfg0.slots t 3).cast nbuf0_3)
/-- Window 4's current staging memref at point `t`, as the pipeline passes it, and its wholeness. -/
abbrev ms0_4 (t : Fin cfg0.N) : Memref sig .tc .vmem S8x1 .f32 := win0_4.stage (cfg0.slots t 4)
abbrev hs0_4 (t : Fin cfg0.N) : (ms0_4 t).IsWhole := hstage0_4 ((cfg0.slots t 4).cast nbuf0_4)
/-- The two accumulators: whole scoped buffers of the kernel's own, passed beside the windows. -/
abbrev scM0_0 : Memref sig .tc .vmem S8x9 .f32 := Memref.whole cc0_scratch0
abbrev scM0_1 : Memref sig .tc .vmem S8x9 .f32 := Memref.whole cc0_scratch1
/-- The accumulators as views: what they hold between points is stated through these. -/
abbrev VS0_0 : View sig .tc .vmem S8x9 .f32 := scM0_0.view
abbrev VS0_1 : View sig .tc .vmem S8x9 .f32 := scM0_1.view

/-- The body at point `t` is the kernel function on these memrefs. -/
theorem bodyAt0_eq (t : Fin cfg0.N) :
    bodyAt0 (F := F) t = cc0__shift_loss_kernel (grid0.coords t) (ms0_0 t) (hs0_0 t) (ms0_1 t) (hs0_1 t) (ms0_2 t) (hs0_2 t) (ms0_3 t) (hs0_3 t) (ms0_4 t) (hs0_4 t)
      scM0_0 (Memref.isWhole_whole _) scM0_1 (Memref.isWhole_whole _) := rfl

/-- The region invariant with the two accumulators as memrefs owned at some contents; the other scoped buffers of the
    core (the other call's staging buffers and accumulators) at some contents each, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)) ∗ (∃ r, prngReg c r)) := by
  unfold Pipeline.ΦA; rw [scopedRest0_eq]; simp only [scM0_0, scM0_1, owns_whole]; try rfl

end Cert.Kernel.Hand

end
-- ==== Proof.K.Run0A.lean ====
/- The run of kernel 0's body at a point of case A (the second grid coordinate is 0): the accumulators are zero-filled
   whole, each of the nine shifts then adds its column into each accumulator, and the output block is not touched. -/
import proofs.«122145_j70437463654548_2_alg».proof.Proof.K.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case A: on whole memrefs — the four input blocks at their contents, the output block at contents `xi4` (handed back
    untouched), the two accumulators at anything — the body runs to the continuation holding the inputs and the output as
    they were and each accumulator with its pieces written (`LS0`, `LS1`: a whole zero block, then one column per shift,
    last first). The pieces are what the run finds. -/
noncomputable def kernelRun0_A (c : Dev nD) (i : grid0.Coords) (arg2 : Memref sig .tc .vmem S8x16x16x512 .f32) (harg2 : arg2.IsWhole) (arg3 : Memref sig .tc .vmem S8x1x16x512 .f32) (harg3 : arg3.IsWhole) (arg4 : Memref sig .tc .vmem S8x16x16x512 .f32) (harg4 : arg4.IsWhole) (arg5 : Memref sig .tc .vmem S8x1x16x512 .f32) (harg5 : arg5.IsWhole) (arg6 : Memref sig .tc .vmem S8x1 .f32) (harg6 : arg6.IsWhole) (arg7 : Memref sig .tc .vmem S8x9 .f32) (harg7 : arg7.IsWhole) (arg8 : Memref sig .tc .vmem S8x9 .f32) (harg8 : arg8.IsWhole) (hc0 : cond0_0 i) (hc1 : ¬cond0_1 i)
    (x0 : Vec F S8x16x16x512 .f32) (x1 : Vec F S8x1x16x512 .f32) (x2 : Vec F S8x16x16x512 .f32) (x3 : Vec F S8x1x16x512 .f32) :
    Σ' (LS0 : List (View.Piece (Elt F) S8x9 .f32)), { LS1 : List (View.Piece (Elt F) S8x9 .f32) //
      ∀ (xi4 : Vec F S8x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__shift_loss_kernel i arg2 harg2 arg3 harg3 arg4 harg4 arg5 harg5 arg6 harg6 arg7 harg7 arg8 harg8) K } := by
  refine ⟨?_, ?_, fun xi4 E K => ?run⟩
  case run =>
    simp only [cc0__shift_loss_kernel_eq_skeleton]; unfold cc0__shift_loss_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.Hand

end
-- ==== Proof.K.Run0B.lean ====
/- The run of kernel 0's body at a point of case B (the second grid coordinate is 1): the accumulators arrive at what
   the point before left, each of the nine shifts adds its column into each accumulator, and the output block is
   computed from the two accumulators and stored whole. -/
import proofs.«122145_j70437463654548_2_alg».proof.Proof.K.Run0A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case B: on whole memrefs — the four input blocks at their contents, the output block at anything, the two
    accumulators at the contents `xs0`, `xs1` the point before left — the body runs to the continuation holding the inputs
    as they were, each accumulator with its pieces written (`LS0`, `LS1`: one column per shift, last first) and the
    output block with its one piece written (`L4`). The pieces are what the run finds. -/
noncomputable def kernelRun0_B (c : Dev nD) (i : grid0.Coords) (arg2 : Memref sig .tc .vmem S8x16x16x512 .f32) (harg2 : arg2.IsWhole) (arg3 : Memref sig .tc .vmem S8x1x16x512 .f32) (harg3 : arg3.IsWhole) (arg4 : Memref sig .tc .vmem S8x16x16x512 .f32) (harg4 : arg4.IsWhole) (arg5 : Memref sig .tc .vmem S8x1x16x512 .f32) (harg5 : arg5.IsWhole) (arg6 : Memref sig .tc .vmem S8x1 .f32) (harg6 : arg6.IsWhole) (arg7 : Memref sig .tc .vmem S8x9 .f32) (harg7 : arg7.IsWhole) (arg8 : Memref sig .tc .vmem S8x9 .f32) (harg8 : arg8.IsWhole) (hc0 : ¬cond0_0 i) (hc1 : cond0_1 i)
    (x0 : Vec F S8x16x16x512 .f32) (x1 : Vec F S8x1x16x512 .f32) (x2 : Vec F S8x16x16x512 .f32) (x3 : Vec F S8x1x16x512 .f32) (xs0 : Vec F S8x9 .f32) (xs1 : Vec F S8x9 .f32) :
    Σ' (L4 : List (View.Piece (Elt F) S8x1 .f32)) (LS0 : List (View.Piece (Elt F) S8x9 .f32)), { LS1 : List (View.Piece (Elt F) S8x9 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__shift_loss_kernel i arg2 harg2 arg3 harg3 arg4 harg4 arg5 harg5 arg6 harg6 arg7 harg7 arg8 harg8) K } := by
  refine ⟨?_, ?_, ?_, fun E K => ?run⟩
  case run =>
    simp only [cc0__shift_loss_kernel_eq_skeleton]; unfold cc0__shift_loss_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    iexists _; iexact HS1

end Cert.Kernel.Hand

end
-- ==== Proof.K.Covers0.lean ====
/- The pieces the runs of kernel 0's body leave cover their buffers: in either case the nine column stores of an
   accumulator tile its [8,9] block in columns [8,1] (case A's whole zero block beneath them is not needed for the
   cover), and case B's one store of the output block is the block. -/
import proofs.«122145_j70437463654548_2_alg».proof.Proof.K.Run0B
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A's pieces for the first accumulator cover it: the nine columns. -/
theorem scover0_A_0 (c : Dev nD) (i : grid0.Coords) (arg2 : Memref sig .tc .vmem S8x16x16x512 .f32) (harg2 : arg2.IsWhole) (arg3 : Memref sig .tc .vmem S8x1x16x512 .f32) (harg3 : arg3.IsWhole) (arg4 : Memref sig .tc .vmem S8x16x16x512 .f32) (harg4 : arg4.IsWhole) (arg5 : Memref sig .tc .vmem S8x1x16x512 .f32) (harg5 : arg5.IsWhole) (arg6 : Memref sig .tc .vmem S8x1 .f32) (harg6 : arg6.IsWhole) (arg7 : Memref sig .tc .vmem S8x9 .f32) (harg7 : arg7.IsWhole) (arg8 : Memref sig .tc .vmem S8x9 .f32) (harg8 : arg8.IsWhole) (hc0 : cond0_0 i) (hc1 : ¬cond0_1 i)
    (x0 : Vec F S8x16x16x512 .f32) (x1 : Vec F S8x1x16x512 .f32) (x2 : Vec F S8x16x16x512 .f32) (x3 : Vec F S8x1x16x512 .f32) (y : S8x9.Idx) :
    ∃ pc ∈ (kernelRun0_A c i arg2 harg2 arg3 harg3 arg4 harg4 arg5 harg5 arg6 harg6 arg7 harg7 arg8 harg8 hc0 hc1 x0 x1 x2 x3).1, y ∈ pc.1.set :=
  View.cover_of_tiledL (kernelRun0_A c i arg2 harg2 arg3 harg3 arg4 harg4 arg5 harg5 arg6 harg6 arg7 harg7 arg8 harg8 hc0 hc1 x0 x1 x2 x3).1 S8x1.size (by sl_kernel_rfl) y

/-- Case A's pieces for the second accumulator cover it: the nine columns. -/
theorem scover0_A_1 (c : Dev nD) (i : grid0.Coords) (arg2 : Memref sig .tc .vmem S8x16x16x512 .f32) (harg2 : arg2.IsWhole) (arg3 : Memref sig .tc .vmem S8x1x16x512 .f32) (harg3 : arg3.IsWhole) (arg4 : Memref sig .tc .vmem S8x16x16x512 .f32) (harg4 : arg4.IsWhole) (arg5 : Memref sig .tc .vmem S8x1x16x512 .f32) (harg5 : arg5.IsWhole) (arg6 : Memref sig .tc .vmem S8x1 .f32) (harg6 : arg6.IsWhole) (arg7 : Memref sig .tc .vmem S8x9 .f32) (harg7 : arg7.IsWhole) (arg8 : Memref sig .tc .vmem S8x9 .f32) (harg8 : arg8.IsWhole) (hc0 : cond0_0 i) (hc1 : ¬cond0_1 i)
    (x0 : Vec F S8x16x16x512 .f32) (x1 : Vec F S8x1x16x512 .f32) (x2 : Vec F S8x16x16x512 .f32) (x3 : Vec F S8x1x16x512 .f32) (y : S8x9.Idx) :
    ∃ pc ∈ (kernelRun0_A c i arg2 harg2 arg3 harg3 arg4 harg4 arg5 harg5 arg6 harg6 arg7 harg7 arg8 harg8 hc0 hc1 x0 x1 x2 x3).2.1, y ∈ pc.1.set :=
  View.cover_of_tiledL (kernelRun0_A c i arg2 harg2 arg3 harg3 arg4 harg4 arg5 harg5 arg6 harg6 arg7 harg7 arg8 harg8 hc0 hc1 x0 x1 x2 x3).2.1 S8x1.size (by sl_kernel_rfl) y

/-- Case B's one piece for the output block covers it. -/
theorem cover0_B_4 (c : Dev nD) (i : grid0.Coords) (arg2 : Memref sig .tc .vmem S8x16x16x512 .f32) (harg2 : arg2.IsWhole) (arg3 : Memref sig .tc .vmem S8x1x16x512 .f32) (harg3 : arg3.IsWhole) (arg4 : Memref sig .tc .vmem S8x16x16x512 .f32) (harg4 : arg4.IsWhole) (arg5 : Memref sig .tc .vmem S8x1x16x512 .f32) (harg5 : arg5.IsWhole) (arg6 : Memref sig .tc .vmem S8x1 .f32) (harg6 : arg6.IsWhole) (arg7 : Memref sig .tc .vmem S8x9 .f32) (harg7 : arg7.IsWhole) (arg8 : Memref sig .tc .vmem S8x9 .f32) (harg8 : arg8.IsWhole) (hc0 : ¬cond0_0 i) (hc1 : cond0_1 i)
    (x0 : Vec F S8x16x16x512 .f32) (x1 : Vec F S8x1x16x512 .f32) (x2 : Vec F S8x16x16x512 .f32) (x3 : Vec F S8x1x16x512 .f32) (xs0 : Vec F S8x9 .f32) (xs1 : Vec F S8x9 .f32) (y : S8x1.Idx) :
    ∃ pc ∈ (kernelRun0_B c i arg2 harg2 arg3 harg3 arg4 harg4 arg5 harg5 arg6 harg6 arg7 harg7 arg8 harg8 hc0 hc1 x0 x1 x2 x3 xs0 xs1).1, y ∈ pc.1.set :=
  View.cover_of_tiledL (kernelRun0_B c i arg2 harg2 arg3 harg3 arg4 harg4 arg5 harg5 arg6 harg6 arg7 harg7 arg8 harg8 hc0 hc1 x0 x1 x2 x3 xs0 xs1).1 S8x1.size (by sl_kernel_rfl) y

/-- Case B's pieces for the first accumulator cover it: the nine columns. -/
theorem scover0_B_0 (c : Dev nD) (i : grid0.Coords) (arg2 : Memref sig .tc .vmem S8x16x16x512 .f32) (harg2 : arg2.IsWhole) (arg3 : Memref sig .tc .vmem S8x1x16x512 .f32) (harg3 : arg3.IsWhole) (arg4 : Memref sig .tc .vmem S8x16x16x512 .f32) (harg4 : arg4.IsWhole) (arg5 : Memref sig .tc .vmem S8x1x16x512 .f32) (harg5 : arg5.IsWhole) (arg6 : Memref sig .tc .vmem S8x1 .f32) (harg6 : arg6.IsWhole) (arg7 : Memref sig .tc .vmem S8x9 .f32) (harg7 : arg7.IsWhole) (arg8 : Memref sig .tc .vmem S8x9 .f32) (harg8 : arg8.IsWhole) (hc0 : ¬cond0_0 i) (hc1 : cond0_1 i)
    (x0 : Vec F S8x16x16x512 .f32) (x1 : Vec F S8x1x16x512 .f32) (x2 : Vec F S8x16x16x512 .f32) (x3 : Vec F S8x1x16x512 .f32) (xs0 : Vec F S8x9 .f32) (xs1 : Vec F S8x9 .f32) (y : S8x9.Idx) :
    ∃ pc ∈ (kernelRun0_B c i arg2 harg2 arg3 harg3 arg4 harg4 arg5 harg5 arg6 harg6 arg7 harg7 arg8 harg8 hc0 hc1 x0 x1 x2 x3 xs0 xs1).2.1, y ∈ pc.1.set :=
  View.cover_of_tiledL (kernelRun0_B c i arg2 harg2 arg3 harg3 arg4 harg4 arg5 harg5 arg6 harg6 arg7 harg7 arg8 harg8 hc0 hc1 x0 x1 x2 x3 xs0 xs1).2.1 S8x1.size (by sl_kernel_rfl) y

/-- Case B's pieces for the second accumulator cover it: the nine columns. -/
theorem scover0_B_1 (c : Dev nD) (i : grid0.Coords) (arg2 : Memref sig .tc .vmem S8x16x16x512 .f32) (harg2 : arg2.IsWhole) (arg3 : Memref sig .tc .vmem S8x1x16x512 .f32) (harg3 : arg3.IsWhole) (arg4 : Memref sig .tc .vmem S8x16x16x512 .f32) (harg4 : arg4.IsWhole) (arg5 : Memref sig .tc .vmem S8x1x16x512 .f32) (harg5 : arg5.IsWhole) (arg6 : Memref sig .tc .vmem S8x1 .f32) (harg6 : arg6.IsWhole) (arg7 : Memref sig .tc .vmem S8x9 .f32) (harg7 : arg7.IsWhole) (arg8 : Memref sig .tc .vmem S8x9 .f32) (harg8 : arg8.IsWhole) (hc0 : ¬cond0_0 i) (hc1 : cond0_1 i)
    (x0 : Vec F S8x16x16x512 .f32) (x1 : Vec F S8x1x16x512 .f32) (x2 : Vec F S8x16x16x512 .f32) (x3 : Vec F S8x1x16x512 .f32) (xs0 : Vec F S8x9 .f32) (xs1 : Vec F S8x9 .f32) (y : S8x9.Idx) :
    ∃ pc ∈ (kernelRun0_B c i arg2 harg2 arg3 harg3 arg4 harg4 arg5 harg5 arg6 harg6 arg7 harg7 arg8 harg8 hc0 hc1 x0 x1 x2 x3 xs0 xs1).2.2.1, y ∈ pc.1.set :=
  View.cover_of_tiledL (kernelRun0_B c i arg2 harg2 arg3 harg3 arg4 harg4 arg5 harg5 arg6 harg6 arg7 harg7 arg8 harg8 hc0 hc1 x0 x1 x2 x3 xs0 xs1).2.2.1 S8x1.size (by sl_kernel_rfl) y

end Cert.Kernel.Hand

end
-- ==== Proof.K.Half0.lean ====
/-
  Region 0's half of the frame, at the buffer contents V the region is entered from.

  The grid walks the eight batch blocks, and within a block the two height tiles.  At the first tile (case A) the
  body zero-fills the two accumulators and adds the tile's nine column sums into each; at the second tile (case B)
  it adds that tile's sums to what the first left and stores the output block from the two accumulators.  What the
  accumulators and the output's staging buffer hold after each point is defined by recursion on the point; between
  points the region's invariant holds the two accumulators at exactly those contents.
-/
import proofs.«122145_j70437463654548_2_alg».proof.Proof.Gen.Kernel.Launch
import proofs.«122145_j70437463654548_2_alg».proof.Proof.Gen.Kernel.Skeleton
import proofs.«122145_j70437463654548_2_alg».proof.Proof.Gen.Kernel.Points
import proofs.«122145_j70437463654548_2_alg».proof.Proof.K.Run0B
import proofs.«122145_j70437463654548_2_alg».proof.Proof.K.Covers0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

/-- What the first tile leaves in the first accumulator: its pieces read back. -/
def sout0_A_0 (c : Dev nD) (i : grid0.Coords) (arg2 : Memref sig .tc .vmem S8x16x16x512 .f32) (harg2 : arg2.IsWhole) (arg3 : Memref sig .tc .vmem S8x1x16x512 .f32) (harg3 : arg3.IsWhole) (arg4 : Memref sig .tc .vmem S8x16x16x512 .f32) (harg4 : arg4.IsWhole) (arg5 : Memref sig .tc .vmem S8x1x16x512 .f32) (harg5 : arg5.IsWhole) (arg6 : Memref sig .tc .vmem S8x1 .f32) (harg6 : arg6.IsWhole) (arg7 : Memref sig .tc .vmem S8x9 .f32) (harg7 : arg7.IsWhole) (arg8 : Memref sig .tc .vmem S8x9 .f32) (harg8 : arg8.IsWhole) (hc0 : cond0_0 i) (hc1 : ¬cond0_1 i) (x0 : Vec F S8x16x16x512 .f32) (x1 : Vec F S8x1x16x512 .f32) (x2 : Vec F S8x16x16x512 .f32) (x3 : Vec F S8x1x16x512 .f32) : Vec F S8x9 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3).1)
/-- What the first tile leaves in the second accumulator. -/
def sout0_A_1 (c : Dev nD) (i : grid0.Coords) (arg2 : Memref sig .tc .vmem S8x16x16x512 .f32) (harg2 : arg2.IsWhole) (arg3 : Memref sig .tc .vmem S8x1x16x512 .f32) (harg3 : arg3.IsWhole) (arg4 : Memref sig .tc .vmem S8x16x16x512 .f32) (harg4 : arg4.IsWhole) (arg5 : Memref sig .tc .vmem S8x1x16x512 .f32) (harg5 : arg5.IsWhole) (arg6 : Memref sig .tc .vmem S8x1 .f32) (harg6 : arg6.IsWhole) (arg7 : Memref sig .tc .vmem S8x9 .f32) (harg7 : arg7.IsWhole) (arg8 : Memref sig .tc .vmem S8x9 .f32) (harg8 : arg8.IsWhole) (hc0 : cond0_0 i) (hc1 : ¬cond0_1 i) (x0 : Vec F S8x16x16x512 .f32) (x1 : Vec F S8x1x16x512 .f32) (x2 : Vec F S8x16x16x512 .f32) (x3 : Vec F S8x1x16x512 .f32) : Vec F S8x9 .f32 :=
  VS0_1.read (Elt F) (VS0_1.writes (Elt F) VS0_1.junk (kernelRun0_A c i arg2 harg2 arg3 harg3 arg4 harg4 arg5 harg5 arg6 harg6 arg7 harg7 arg8 harg8 hc0 hc1 x0 x1 x2 x3).2.1)
/-- What the second tile leaves in the output's staging buffer. -/
def out0_B_4 (c : Dev nD) (i : grid0.Coords) (arg2 : Memref sig .tc .vmem S8x16x16x512 .f32) (harg2 : arg2.IsWhole) (arg3 : Memref sig .tc .vmem S8x1x16x512 .f32) (harg3 : arg3.IsWhole) (arg4 : Memref sig .tc .vmem S8x16x16x512 .f32) (harg4 : arg4.IsWhole) (arg5 : Memref sig .tc .vmem S8x1x16x512 .f32) (harg5 : arg5.IsWhole) (arg6 : Memref sig .tc .vmem S8x1 .f32) (harg6 : arg6.IsWhole) (arg7 : Memref sig .tc .vmem S8x9 .f32) (harg7 : arg7.IsWhole) (arg8 : Memref sig .tc .vmem S8x9 .f32) (harg8 : arg8.IsWhole) (hc0 : ¬cond0_0 i) (hc1 : cond0_1 i) (x0 : Vec F S8x16x16x512 .f32) (x1 : Vec F S8x1x16x512 .f32) (x2 : Vec F S8x16x16x512 .f32) (x3 : Vec F S8x1x16x512 .f32) (xs0 xs1 : Vec F S8x9 .f32) : Vec F S8x1 .f32 :=
  VO0_4.read (Elt F) (VO0_4.writes (Elt F) VO0_4.junk (kernelRun0_B c i arg2 harg2 arg3 harg3 arg4 harg4 arg5 harg5 arg6 harg6 arg7 harg7 arg8 harg8 hc0 hc1 x0 x1 x2 x3 xs0 xs1).1)
/-- What the second tile leaves in the first accumulator. -/
def sout0_B_0 (c : Dev nD) (i : grid0.Coords) (arg2 : Memref sig .tc .vmem S8x16x16x512 .f32) (harg2 : arg2.IsWhole) (arg3 : Memref sig .tc .vmem S8x1x16x512 .f32) (harg3 : arg3.IsWhole) (arg4 : Memref sig .tc .vmem S8x16x16x512 .f32) (harg4 : arg4.IsWhole) (arg5 : Memref sig .tc .vmem S8x1x16x512 .f32) (harg5 : arg5.IsWhole) (arg6 : Memref sig .tc .vmem S8x1 .f32) (harg6 : arg6.IsWhole) (arg7 : Memref sig .tc .vmem S8x9 .f32) (harg7 : arg7.IsWhole) (arg8 : Memref sig .tc .vmem S8x9 .f32) (harg8 : arg8.IsWhole) (hc0 : ¬cond0_0 i) (hc1 : cond0_1 i) (x0 : Vec F S8x16x16x512 .f32) (x1 : Vec F S8x1x16x512 .f32) (x2 : Vec F S8x16x16x512 .f32) (x3 : Vec F S8x1x16x512 .f32) (xs0 xs1 : Vec F S8x9 .f32) : Vec F S8x9 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 xs0 xs1).2.1)
/-- What the second tile leaves in the second accumulator. -/
def sout0_B_1 (c : Dev nD) (i : grid0.Coords) (arg2 : Memref sig .tc .vmem S8x16x16x512 .f32) (harg2 : arg2.IsWhole) (arg3 : Memref sig .tc .vmem S8x1x16x512 .f32) (harg3 : arg3.IsWhole) (arg4 : Memref sig .tc .vmem S8x16x16x512 .f32) (harg4 : arg4.IsWhole) (arg5 : Memref sig .tc .vmem S8x1x16x512 .f32) (harg5 : arg5.IsWhole) (arg6 : Memref sig .tc .vmem S8x1 .f32) (harg6 : arg6.IsWhole) (arg7 : Memref sig .tc .vmem S8x9 .f32) (harg7 : arg7.IsWhole) (arg8 : Memref sig .tc .vmem S8x9 .f32) (harg8 : arg8.IsWhole) (hc0 : ¬cond0_0 i) (hc1 : cond0_1 i) (x0 : Vec F S8x16x16x512 .f32) (x1 : Vec F S8x1x16x512 .f32) (x2 : Vec F S8x16x16x512 .f32) (x3 : Vec F S8x1x16x512 .f32) (xs0 xs1 : Vec F S8x9 .f32) : Vec F S8x9 .f32 :=
  VS0_1.read (Elt F) (VS0_1.writes (Elt F) VS0_1.junk (kernelRun0_B c i arg2 harg2 arg3 harg3 arg4 harg4 arg5 harg5 arg6 harg6 arg7 harg7 arg8 harg8 hc0 hc1 x0 x1 x2 x3 xs0 xs1).2.2.1)
/-- At the first tile nothing is stored into the output's buffer and the block is not written back: a placeholder that
    nothing consults. -/
def out0_A_4 : Vec F S8x1 .f32 := VO0_4.read (Elt F) VO0_4.junk

/-! ## What the buffers hold after each point -/

/-- After the body at position `n`: the output's staging buffer, then the two accumulators. -/
def outsAt0 (c : Dev nD) : (n : ℕ) → n < cfg0.N → Vec F S8x1 .f32 × Vec F S8x9 .f32 × Vec F S8x9 .f32
  | 0, hn => (out0_A_4,
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) (caseA0_of ⟨0, hn⟩ (Nat.zero_mod _)).1 (caseA0_of ⟨0, hn⟩ (Nat.zero_mod _)).2 (iblk0 V c 0 ⟨0, hn⟩) (iblk0 V c 1 ⟨0, hn⟩) (iblk0 V c 2 ⟨0, hn⟩) (iblk0 V c 3 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) (caseA0_of ⟨0, hn⟩ (Nat.zero_mod _)).1 (caseA0_of ⟨0, hn⟩ (Nat.zero_mod _)).2 (iblk0 V c 0 ⟨0, hn⟩) (iblk0 V c 1 ⟨0, hn⟩) (iblk0 V c 2 ⟨0, hn⟩) (iblk0 V c 3 ⟨0, hn⟩))
  | n + 1, hn =>
    if h0 : (n + 1) % 2 = 0 then
      (out0_A_4,
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (caseA0_of ⟨n + 1, hn⟩ h0).1 (caseA0_of ⟨n + 1, hn⟩ h0).2 (iblk0 V c 0 ⟨n + 1, hn⟩) (iblk0 V c 1 ⟨n + 1, hn⟩) (iblk0 V c 2 ⟨n + 1, hn⟩) (iblk0 V c 3 ⟨n + 1, hn⟩),
        sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (caseA0_of ⟨n + 1, hn⟩ h0).1 (caseA0_of ⟨n + 1, hn⟩ h0).2 (iblk0 V c 0 ⟨n + 1, hn⟩) (iblk0 V c 1 ⟨n + 1, hn⟩) (iblk0 V c 2 ⟨n + 1, hn⟩) (iblk0 V c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (caseB0_of ⟨n + 1, hn⟩ (Nat.mod_two_ne_zero.mp h0)).1 (caseB0_of ⟨n + 1, hn⟩ (Nat.mod_two_ne_zero.mp h0)).2 (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.1 (outsAt0 c n (Nat.lt_of_succ_lt hn)).2.2,
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (caseB0_of ⟨n + 1, hn⟩ (Nat.mod_two_ne_zero.mp h0)).1 (caseB0_of ⟨n + 1, hn⟩ (Nat.mod_two_ne_zero.mp h0)).2 (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.1 (outsAt0 c n (Nat.lt_of_succ_lt hn)).2.2,
        sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (caseB0_of ⟨n + 1, hn⟩ (Nat.mod_two_ne_zero.mp h0)).1 (caseB0_of ⟨n + 1, hn⟩ (Nat.mod_two_ne_zero.mp h0)).2 (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.1 (outsAt0 c n (Nat.lt_of_succ_lt hn)).2.2)

/-- At a first tile: that case's contents. -/
theorem outsAt0_A (c : Dev nD) (t : Fin cfg0.N) (h0 : t.val % 2 = 0) :
    outsAt0 V c t.val t.isLt = (out0_A_4,
      sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (caseA0_of t h0).1 (caseA0_of t h0).2 (iblk0 V c 0 t) (iblk0 V c 1 t) (iblk0 V c 2 t) (iblk0 V c 3 t),
      sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (caseA0_of t h0).1 (caseA0_of t h0).2 (iblk0 V c 0 t) (iblk0 V c 1 t) (iblk0 V c 2 t) (iblk0 V c 3 t)) := by
  obtain ⟨n, hn⟩ := t
  cases n with
  | zero => exact rfl
  | succ n => exact (dif_pos h0).trans rfl

/-- At a second tile: that case's contents, over what the point before left in the accumulators. -/
theorem outsAt0_B (c : Dev nD) (t : Fin cfg0.N) (h1 : t.val % 2 = 1) :
    outsAt0 V c t.val t.isLt = (
      out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (caseB0_of t h1).1 (caseB0_of t h1).2 (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2,
      sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (caseB0_of t h1).1 (caseB0_of t h1).2 (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2,
      sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (caseB0_of t h1).1 (caseB0_of t h1).2 (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by dsimp only at h1; omega)
  | succ n => exact (dif_neg (by dsimp only at h1; omega)).trans rfl

/-! ## The invariant between points -/

/-- The core's other scoped buffers (the other call's staging buffers and accumulators), each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- Before position `n`: before the first point whatever the launch hands the region; afterwards the two accumulators at
    what the point before left in them, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2.1) ∗ owns (c : Thread nD τ) scM0_1 fullShare ((outsAt0 V c n hn).2.2) ∗ rest0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.1) ∗ owns (c : Thread nD τ) scM0_1 fullShare ((outsAt0 V c (n - 1) (by omega)).2.2) ∗ rest0 c) ∗ (∃ r, prngReg c r)) := by
  cases n with
  | zero => exact absurd rfl hz
  | succ n => rfl

/-- What the launch hands the region: the two accumulators as memrefs at some contents, the rest named. -/
theorem PhiA0_split (c : Dev nD) : (Pipeline.ΦA spec0 c : sProp 𝕄) ⊢ iprop(iprop((∃ d, owns (c : Thread nD τ) scM0_0 fullShare d) ∗ (∃ d, owns (c : Thread nD τ) scM0_1 fullShare d) ∗ rest0 c) ∗ (∃ r, prngReg c r)) := by
  rw [PhiA0_eq]
  unfold rest0
  iintro ⟨⟨HA, HB, H1, H2, H3, H4, H5, H6, H7, H8, H9, H10, H11, H12⟩, Hg⟩
  isplitr [Hg]; swap; · iexact Hg
  isplitl [HA]; · iexact HA
  isplitl [HB]; · iexact HB
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12
theorem PhiA0_join (c : Dev nD) : iprop(iprop((∃ d, owns (c : Thread nD τ) scM0_0 fullShare d) ∗ (∃ d, owns (c : Thread nD τ) scM0_1 fullShare d) ∗ rest0 c) ∗ (∃ r, prngReg c r)) ⊢ (Pipeline.ΦA spec0 c : sProp 𝕄) := by
  rw [PhiA0_eq]
  unfold rest0
  iintro ⟨⟨HA, HB, H1, H2, H3, H4, H5, H6, H7, H8, H9, H10, H11, H12⟩, Hg⟩
  isplitr [Hg]; swap; · iexact Hg
  isplitl [HA]; · iexact HA
  isplitl [HB]; · iexact HB
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: the inputs' memrefs hold their blocks; the point's parity says which case it is in; the
    invariant hands the body the accumulators (at anything at a first tile, at what the first tile left at a second)
    and takes them back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0
  rw [bodyAt0_eq]
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 16 := lt_of_lt_of_eq t.isLt (show cfg0.N = 16 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h0 : t.val % 2 = 0
  · -- a first tile
    rw [Dat.leavesExact_idle (dat0 V c) 4 t (idleAt0_4_A t (caseA0_of t h0).1 (caseA0_of t h0).2) (noFlush0_4_A t (caseA0_of t h0).1 (caseA0_of t h0).2)]
    rw [outsAt0_A V c t h0]
    unfold sout0_A_0 sout0_A_1; (try dsimp only)
    have hΦ : (dat0 V c).Φ t.castSucc ⊢ (iprop(iprop((∃ d, owns (c : Thread nD τ) scM0_0 fullShare d) ∗ (∃ d, owns (c : Thread nD τ) scM0_1 fullShare d) ∗ rest0 c) ∗ (∃ r, prngReg c r)) : sProp 𝕄) := by
      rw [PhiS0_castSucc V c t]
      by_cases hz : t.val = 0
      · rw [PhiS0_zero V c _ _ hz]; exact PhiA0_split c
      · rw [PhiS0_pos V c _ _ hz]
        iintro ⟨⟨HS0, HS1, Hr⟩, Hg⟩
        isplitl [HS0 HS1 Hr]
        · isplitl [HS0]; · iexists _; iexact HS0
          isplitl [HS1]; · iexists _; iexact HS1
          iexact Hr
        iexact Hg
    iintro ⟨HΦ, Ho, ⟨%d0, H0⟩, ⟨%d1, H1⟩, ⟨%d2, H2⟩, ⟨%d3, H3⟩, ⟨%d4, H4⟩⟩
    ihave HΦ' := hΦ $$ HΦ
    icases HΦ' with ⟨⟨HS0, HS1, Hr⟩, Hg⟩
    iapply ((kernelRun0_A c (grid0.coords t) _ _ _ _ _ _ _ _ _ _ _ _ _ _ (caseA0_of t h0).1 (caseA0_of t h0).2 (iblk0 V c 0 t) (iblk0 V c 1 t) (iblk0 V c 2 t) (iblk0 V c 3 t)).2.2 _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, ⟨%es0, HS0⟩, ⟨%es1, HS1⟩⟩
    isplitl [HS0 HS1 Hr Hg]
    · isplitl [HS0 HS1 Hr]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    iexists _; iexact H4
  · -- a second tile
    have h1 : t.val % 2 = 1 := by omega
    have hz : t.val ≠ 0 := by omega
    rw [show (dat0 V c).leavesExact 4 t = owns (c : Thread nD τ) (ms0_4 t) fullShare ((dat0 V c).after 4 t) from by
      unfold Dat.leavesExact; rw [liveAt0_4_B t (caseB0_of t h1).1 (caseB0_of t h1).2], after0_4]
    rw [outsAt0_B V c t h1]
    unfold out0_B_4 sout0_B_0 sout0_B_1; (try dsimp only)
    rw [PhiS0_castSucc V c t, PhiS0_pos V c _ _ hz]
    iintro ⟨⟨⟨HS0, HS1, Hr⟩, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ _ _ (caseB0_of t h1).1 (caseB0_of t h1).2 (iblk0 V c 0 t) (iblk0 V c 1 t) (iblk0 V c 2 t) (iblk0 V c 3 t) _ _).2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, ⟨%e4, H4⟩, ⟨%es0, HS0⟩, ⟨%es1, HS1⟩⟩
    isplitl [HS0 HS1 Hr Hg]
    · isplitl [HS0 HS1 Hr]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover0_B_1 c _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the same back: the accumulators' named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 16 := N_0; omega)]
  refine BIBase.Entails.trans ?_ (PhiA0_join c)
  iintro ⟨⟨HS0, HS1, Hr⟩, Hg⟩
  isplitl [HS0 HS1 Hr]
  · isplitl [HS0]; · iexists _; iexact HS0
    isplitl [HS1]; · iexists _; iexact HS1
    iexact Hr
  iexact Hg

end Cert.Kernel.Hand

end
-- ==== Proof.K.Runs1.lean ====
/- What the runs of kernel 1's body are stated over: the two branch conditions of the body as propositions over the
   grid coordinates with their closed forms over the points, where the output window is idle and where it is live,
   the staging memrefs the pipeline passes at a point, the two scratch accumulators as whole memrefs, and the
   region invariant with the two accumulators owned at some contents. -/
import proofs.«122145_j70437463654548_2_alg».proof.Proof.K.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions -/

/-- The first branch (`h == 0`: the accumulators are zero-filled), from the grid coordinates. -/
abbrev cond1_0 (i : grid1.Coords) : Prop := (Scalar.cmpi .ne (Scalar.extui (Scalar.cmpi .eq (BitVec.ofNat 32 (i 1).val) 0#32)) 0#32) = 1#1
/-- It holds at the even points: the second grid coordinate is the point's parity. -/
theorem hcond1_0 : ∀ t : Fin cfg1.N, cond1_0 (grid1.coords t) ↔ t.val % 2 = 0 :=
  (by decide +kernel : ∀ t : Fin grid1.N, cond1_0 (grid1.coords t) ↔ t.val % 2 = 0)

/-- The second branch (`h == 1`: the output block is computed from the accumulators), from the grid coordinates. -/
abbrev cond1_1 (i : grid1.Coords) : Prop := k1_cond2 i = 1#1
/-- It holds at the odd points. -/
theorem hcond1_1 : ∀ t : Fin cfg1.N, cond1_1 (grid1.coords t) ↔ t.val % 2 = 1 :=
  (by decide +kernel : ∀ t : Fin grid1.N, cond1_1 (grid1.coords t) ↔ t.val % 2 = 1)

/-- Exactly one of the two cases is met at every point: the first branch alone at the even points (case A). -/
theorem caseA1_of (t : Fin cfg1.N) (h : t.val % 2 = 0) : cond1_0 (grid1.coords t) ∧ ¬cond1_1 (grid1.coords t) :=
  ⟨(hcond1_0 t).2 h, fun h1 => by have := (hcond1_1 t).1 h1; omega⟩
/-- The second branch alone at the odd points (case B). -/
theorem caseB1_of (t : Fin cfg1.N) (h : t.val % 2 = 1) : ¬cond1_0 (grid1.coords t) ∧ cond1_1 (grid1.coords t) :=
  ⟨fun h0 => by have := (hcond1_0 t).1 h0; omega, (hcond1_1 t).2 h⟩

/-! ## Where the windows are idle -/

/-- The four inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- In case A the output window is idle: nothing is stored into it. -/
theorem idleAt1_4_A : ∀ t : Fin cfg1.N, cond1_0 (grid1.coords t) → ¬cond1_1 (grid1.coords t) → cfg1.idle 4 (grid1.coords t) = true := by decide +kernel
/-- In case A the output block is not written back. -/
theorem noFlush1_4_A : ∀ t : Fin cfg1.N, cond1_0 (grid1.coords t) → ¬cond1_1 (grid1.coords t) → (cfg1.win 4).flush t = false := by decide +kernel
/-- In case B the output window is live: the block is stored whole. -/
theorem liveAt1_4_B : ∀ t : Fin cfg1.N, ¬cond1_0 (grid1.coords t) → cond1_1 (grid1.coords t) → cfg1.idle 4 (grid1.coords t) = false := by decide +kernel
/-- In case B the output block is written back. -/
theorem flush1_4_B : ∀ t : Fin cfg1.N, ¬cond1_0 (grid1.coords t) → cond1_1 (grid1.coords t) → (cfg1.win 4).flush t = true := by decide +kernel

/-! ## The memrefs the body is called on -/

/-- One staging buffer of the output window, through which its contents are stated. -/
abbrev VO1_4 : View sig .tc .vmem S8x1 .f32 := (Memref.whole cc1_stg4_0 : Memref sig .tc .vmem S8x1 .f32).view
/-- Window 0's current staging memref at point `t`, as the pipeline passes it, and its wholeness. -/
abbrev ms1_0 (t : Fin cfg1.N) : Memref sig .tc .vmem S8x16x16x512 .f32 := win1_0.stage (cfg1.slots t 0)
abbrev hs1_0 (t : Fin cfg1.N) : (ms1_0 t).IsWhole := hstage1_0 ((cfg1.slots t 0).cast nbuf1_0)
/-- Window 1's current staging memref at point `t`, as the pipeline passes it, and its wholeness. -/
abbrev ms1_1 (t : Fin cfg1.N) : Memref sig .tc .vmem S8x1x16x512 .f32 := win1_1.stage (cfg1.slots t 1)
abbrev hs1_1 (t : Fin cfg1.N) : (ms1_1 t).IsWhole := hstage1_1 ((cfg1.slots t 1).cast nbuf1_1)
/-- Window 2's current staging memref at point `t`, as the pipeline passes it, and its wholeness. -/
abbrev ms1_2 (t : Fin cfg1.N) : Memref sig .tc .vmem S8x16x16x512 .f32 := win1_2.stage (cfg1.slots t 2)
abbrev hs1_2 (t : Fin cfg1.N) : (ms1_2 t).IsWhole := hstage1_2 ((cfg1.slots t 2).cast nbuf1_2)
/-- Window 3's current staging memref at point `t`, as the pipeline passes it, and its wholeness. -/
abbrev ms1_3 (t : Fin cfg1.N) : Memref sig .tc .vmem S8x1x16x512 .f32 := win1_3.stage (cfg1.slots t 3)
abbrev hs1_3 (t : Fin cfg1.N) : (ms1_3 t).IsWhole := hstage1_3 ((cfg1.slots t 3).cast nbuf1_3)
/-- Window 4's current staging memref at point `t`, as the pipeline passes it, and its wholeness. -/
abbrev ms1_4 (t : Fin cfg1.N) : Memref sig .tc .vmem S8x1 .f32 := win1_4.stage (cfg1.slots t 4)
abbrev hs1_4 (t : Fin cfg1.N) : (ms1_4 t).IsWhole := hstage1_4 ((cfg1.slots t 4).cast nbuf1_4)
/-- The two accumulators: whole scoped buffers of the kernel's own, passed beside the windows. -/
abbrev scM1_0 : Memref sig .tc .vmem S8x9 .f32 := Memref.whole cc1_scratch0
abbrev scM1_1 : Memref sig .tc .vmem S8x9 .f32 := Memref.whole cc1_scratch1
/-- The accumulators as views: what they hold between points is stated through these. -/
abbrev VS1_0 : View sig .tc .vmem S8x9 .f32 := scM1_0.view
abbrev VS1_1 : View sig .tc .vmem S8x9 .f32 := scM1_1.view

/-- The body at point `t` is the kernel function on these memrefs. -/
theorem bodyAt1_eq (t : Fin cfg1.N) :
    bodyAt1 (F := F) t = cc1__shift_loss_kernel (grid1.coords t) (ms1_0 t) (hs1_0 t) (ms1_1 t) (hs1_1 t) (ms1_2 t) (hs1_2 t) (ms1_3 t) (hs1_3 t) (ms1_4 t) (hs1_4 t)
      scM1_0 (Memref.isWhole_whole _) scM1_1 (Memref.isWhole_whole _) := rfl

/-- The region invariant with the two accumulators as memrefs owned at some contents; the other scoped buffers of the
    core (the other call's staging buffers and accumulators) at some contents each, and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

end Cert.Kernel.Hand

end
-- ==== Proof.K.Run1A.lean ====
/- The run of kernel 1's body at a point of case A (the second grid coordinate is 0): the accumulators are zero-filled
   whole, each of the nine shifts then adds its column into each accumulator, and the output block is not touched. -/
import proofs.«122145_j70437463654548_2_alg».proof.Proof.K.Runs1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case A: on whole memrefs — the four input blocks at their contents, the output block at contents `xi4` (handed back
    untouched), the two accumulators at anything — the body runs to the continuation holding the inputs and the output as
    they were and each accumulator with its pieces written (`LS0`, `LS1`: a whole zero block, then one column per shift,
    last first). The pieces are what the run finds. -/
noncomputable def kernelRun1_A (c : Dev nD) (i : grid1.Coords) (arg2 : Memref sig .tc .vmem S8x16x16x512 .f32) (harg2 : arg2.IsWhole) (arg3 : Memref sig .tc .vmem S8x1x16x512 .f32) (harg3 : arg3.IsWhole) (arg4 : Memref sig .tc .vmem S8x16x16x512 .f32) (harg4 : arg4.IsWhole) (arg5 : Memref sig .tc .vmem S8x1x16x512 .f32) (harg5 : arg5.IsWhole) (arg6 : Memref sig .tc .vmem S8x1 .f32) (harg6 : arg6.IsWhole) (arg7 : Memref sig .tc .vmem S8x9 .f32) (harg7 : arg7.IsWhole) (arg8 : Memref sig .tc .vmem S8x9 .f32) (harg8 : arg8.IsWhole) (hc0 : cond1_0 i) (hc1 : ¬cond1_1 i)
    (x0 : Vec F S8x16x16x512 .f32) (x1 : Vec F S8x1x16x512 .f32) (x2 : Vec F S8x16x16x512 .f32) (x3 : Vec F S8x1x16x512 .f32) :
    Σ' (LS0 : List (View.Piece (Elt F) S8x9 .f32)), { LS1 : List (View.Piece (Elt F) S8x9 .f32) //
      ∀ (xi4 : Vec F S8x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__shift_loss_kernel i arg2 harg2 arg3 harg3 arg4 harg4 arg5 harg5 arg6 harg6 arg7 harg7 arg8 harg8) K } := by
  refine ⟨?_, ?_, fun xi4 E K => ?run⟩
  case run =>
    simp only [cc1__shift_loss_kernel_eq_skeleton]; unfold cc1__shift_loss_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.Hand

end
-- ==== Proof.K.Run1B.lean ====
/- The run of kernel 1's body at a point of case B (the second grid coordinate is 1): the accumulators arrive at what
   the point before left, each of the nine shifts adds its column into each accumulator, and the output block is
   computed from the two accumulators and stored whole. -/
import proofs.«122145_j70437463654548_2_alg».proof.Proof.K.Run1A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case B: on whole memrefs — the four input blocks at their contents, the output block at anything, the two
    accumulators at the contents `xs0`, `xs1` the point before left — the body runs to the continuation holding the inputs
    as they were, each accumulator with its pieces written (`LS0`, `LS1`: one column per shift, last first) and the
    output block with its one piece written (`L4`). The pieces are what the run finds. -/
noncomputable def kernelRun1_B (c : Dev nD) (i : grid1.Coords) (arg2 : Memref sig .tc .vmem S8x16x16x512 .f32) (harg2 : arg2.IsWhole) (arg3 : Memref sig .tc .vmem S8x1x16x512 .f32) (harg3 : arg3.IsWhole) (arg4 : Memref sig .tc .vmem S8x16x16x512 .f32) (harg4 : arg4.IsWhole) (arg5 : Memref sig .tc .vmem S8x1x16x512 .f32) (harg5 : arg5.IsWhole) (arg6 : Memref sig .tc .vmem S8x1 .f32) (harg6 : arg6.IsWhole) (arg7 : Memref sig .tc .vmem S8x9 .f32) (harg7 : arg7.IsWhole) (arg8 : Memref sig .tc .vmem S8x9 .f32) (harg8 : arg8.IsWhole) (hc0 : ¬cond1_0 i) (hc1 : cond1_1 i)
    (x0 : Vec F S8x16x16x512 .f32) (x1 : Vec F S8x1x16x512 .f32) (x2 : Vec F S8x16x16x512 .f32) (x3 : Vec F S8x1x16x512 .f32) (xs0 : Vec F S8x9 .f32) (xs1 : Vec F S8x9 .f32) :
    Σ' (L4 : List (View.Piece (Elt F) S8x1 .f32)) (LS0 : List (View.Piece (Elt F) S8x9 .f32)), { LS1 : List (View.Piece (Elt F) S8x9 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__shift_loss_kernel i arg2 harg2 arg3 harg3 arg4 harg4 arg5 harg5 arg6 harg6 arg7 harg7 arg8 harg8) K } := by
  refine ⟨?_, ?_, ?_, fun E K => ?run⟩
  case run =>
    simp only [cc1__shift_loss_kernel_eq_skeleton]; unfold cc1__shift_loss_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    iexists _; iexact HS1

end Cert.Kernel.Hand

end
-- ==== Proof.K.Covers1.lean ====
/- The pieces the runs of kernel 1's body leave cover their buffers: in either case the nine column stores of an
   accumulator tile its [8,9] block in columns [8,1] (case A's whole zero block beneath them is not needed for the
   cover), and case B's one store of the output block is the block. -/
import proofs.«122145_j70437463654548_2_alg».proof.Proof.K.Run1B
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A's pieces for the first accumulator cover it: the nine columns. -/
theorem scover1_A_0 (c : Dev nD) (i : grid1.Coords) (arg2 : Memref sig .tc .vmem S8x16x16x512 .f32) (harg2 : arg2.IsWhole) (arg3 : Memref sig .tc .vmem S8x1x16x512 .f32) (harg3 : arg3.IsWhole) (arg4 : Memref sig .tc .vmem S8x16x16x512 .f32) (harg4 : arg4.IsWhole) (arg5 : Memref sig .tc .vmem S8x1x16x512 .f32) (harg5 : arg5.IsWhole) (arg6 : Memref sig .tc .vmem S8x1 .f32) (harg6 : arg6.IsWhole) (arg7 : Memref sig .tc .vmem S8x9 .f32) (harg7 : arg7.IsWhole) (arg8 : Memref sig .tc .vmem S8x9 .f32) (harg8 : arg8.IsWhole) (hc0 : cond1_0 i) (hc1 : ¬cond1_1 i)
    (x0 : Vec F S8x16x16x512 .f32) (x1 : Vec F S8x1x16x512 .f32) (x2 : Vec F S8x16x16x512 .f32) (x3 : Vec F S8x1x16x512 .f32) (y : S8x9.Idx) :
    ∃ pc ∈ (kernelRun1_A c i arg2 harg2 arg3 harg3 arg4 harg4 arg5 harg5 arg6 harg6 arg7 harg7 arg8 harg8 hc0 hc1 x0 x1 x2 x3).1, y ∈ pc.1.set :=
  View.cover_of_tiledL (kernelRun1_A c i arg2 harg2 arg3 harg3 arg4 harg4 arg5 harg5 arg6 harg6 arg7 harg7 arg8 harg8 hc0 hc1 x0 x1 x2 x3).1 S8x1.size (by sl_kernel_rfl) y

/-- Case A's pieces for the second accumulator cover it: the nine columns. -/
theorem scover1_A_1 (c : Dev nD) (i : grid1.Coords) (arg2 : Memref sig .tc .vmem S8x16x16x512 .f32) (harg2 : arg2.IsWhole) (arg3 : Memref sig .tc .vmem S8x1x16x512 .f32) (harg3 : arg3.IsWhole) (arg4 : Memref sig .tc .vmem S8x16x16x512 .f32) (harg4 : arg4.IsWhole) (arg5 : Memref sig .tc .vmem S8x1x16x512 .f32) (harg5 : arg5.IsWhole) (arg6 : Memref sig .tc .vmem S8x1 .f32) (harg6 : arg6.IsWhole) (arg7 : Memref sig .tc .vmem S8x9 .f32) (harg7 : arg7.IsWhole) (arg8 : Memref sig .tc .vmem S8x9 .f32) (harg8 : arg8.IsWhole) (hc0 : cond1_0 i) (hc1 : ¬cond1_1 i)
    (x0 : Vec F S8x16x16x512 .f32) (x1 : Vec F S8x1x16x512 .f32) (x2 : Vec F S8x16x16x512 .f32) (x3 : Vec F S8x1x16x512 .f32) (y : S8x9.Idx) :
    ∃ pc ∈ (kernelRun1_A c i arg2 harg2 arg3 harg3 arg4 harg4 arg5 harg5 arg6 harg6 arg7 harg7 arg8 harg8 hc0 hc1 x0 x1 x2 x3).2.1, y ∈ pc.1.set :=
  View.cover_of_tiledL (kernelRun1_A c i arg2 harg2 arg3 harg3 arg4 harg4 arg5 harg5 arg6 harg6 arg7 harg7 arg8 harg8 hc0 hc1 x0 x1 x2 x3).2.1 S8x1.size (by sl_kernel_rfl) y

/-- Case B's one piece for the output block covers it. -/
theorem cover1_B_4 (c : Dev nD) (i : grid1.Coords) (arg2 : Memref sig .tc .vmem S8x16x16x512 .f32) (harg2 : arg2.IsWhole) (arg3 : Memref sig .tc .vmem S8x1x16x512 .f32) (harg3 : arg3.IsWhole) (arg4 : Memref sig .tc .vmem S8x16x16x512 .f32) (harg4 : arg4.IsWhole) (arg5 : Memref sig .tc .vmem S8x1x16x512 .f32) (harg5 : arg5.IsWhole) (arg6 : Memref sig .tc .vmem S8x1 .f32) (harg6 : arg6.IsWhole) (arg7 : Memref sig .tc .vmem S8x9 .f32) (harg7 : arg7.IsWhole) (arg8 : Memref sig .tc .vmem S8x9 .f32) (harg8 : arg8.IsWhole) (hc0 : ¬cond1_0 i) (hc1 : cond1_1 i)
    (x0 : Vec F S8x16x16x512 .f32) (x1 : Vec F S8x1x16x512 .f32) (x2 : Vec F S8x16x16x512 .f32) (x3 : Vec F S8x1x16x512 .f32) (xs0 : Vec F S8x9 .f32) (xs1 : Vec F S8x9 .f32) (y : S8x1.Idx) :
    ∃ pc ∈ (kernelRun1_B c i arg2 harg2 arg3 harg3 arg4 harg4 arg5 harg5 arg6 harg6 arg7 harg7 arg8 harg8 hc0 hc1 x0 x1 x2 x3 xs0 xs1).1, y ∈ pc.1.set :=
  View.cover_of_tiledL (kernelRun1_B c i arg2 harg2 arg3 harg3 arg4 harg4 arg5 harg5 arg6 harg6 arg7 harg7 arg8 harg8 hc0 hc1 x0 x1 x2 x3 xs0 xs1).1 S8x1.size (by sl_kernel_rfl) y

/-- Case B's pieces for the first accumulator cover it: the nine columns. -/
theorem scover1_B_0 (c : Dev nD) (i : grid1.Coords) (arg2 : Memref sig .tc .vmem S8x16x16x512 .f32) (harg2 : arg2.IsWhole) (arg3 : Memref sig .tc .vmem S8x1x16x512 .f32) (harg3 : arg3.IsWhole) (arg4 : Memref sig .tc .vmem S8x16x16x512 .f32) (harg4 : arg4.IsWhole) (arg5 : Memref sig .tc .vmem S8x1x16x512 .f32) (harg5 : arg5.IsWhole) (arg6 : Memref sig .tc .vmem S8x1 .f32) (harg6 : arg6.IsWhole) (arg7 : Memref sig .tc .vmem S8x9 .f32) (harg7 : arg7.IsWhole) (arg8 : Memref sig .tc .vmem S8x9 .f32) (harg8 : arg8.IsWhole) (hc0 : ¬cond1_0 i) (hc1 : cond1_1 i)
    (x0 : Vec F S8x16x16x512 .f32) (x1 : Vec F S8x1x16x512 .f32) (x2 : Vec F S8x16x16x512 .f32) (x3 : Vec F S8x1x16x512 .f32) (xs0 : Vec F S8x9 .f32) (xs1 : Vec F S8x9 .f32) (y : S8x9.Idx) :
    ∃ pc ∈ (kernelRun1_B c i arg2 harg2 arg3 harg3 arg4 harg4 arg5 harg5 arg6 harg6 arg7 harg7 arg8 harg8 hc0 hc1 x0 x1 x2 x3 xs0 xs1).2.1, y ∈ pc.1.set :=
  View.cover_of_tiledL (kernelRun1_B c i arg2 harg2 arg3 harg3 arg4 harg4 arg5 harg5 arg6 harg6 arg7 harg7 arg8 harg8 hc0 hc1 x0 x1 x2 x3 xs0 xs1).2.1 S8x1.size (by sl_kernel_rfl) y

/-- Case B's pieces for the second accumulator cover it: the nine columns. -/
theorem scover1_B_1 (c : Dev nD) (i : grid1.Coords) (arg2 : Memref sig .tc .vmem S8x16x16x512 .f32) (harg2 : arg2.IsWhole) (arg3 : Memref sig .tc .vmem S8x1x16x512 .f32) (harg3 : arg3.IsWhole) (arg4 : Memref sig .tc .vmem S8x16x16x512 .f32) (harg4 : arg4.IsWhole) (arg5 : Memref sig .tc .vmem S8x1x16x512 .f32) (harg5 : arg5.IsWhole) (arg6 : Memref sig .tc .vmem S8x1 .f32) (harg6 : arg6.IsWhole) (arg7 : Memref sig .tc .vmem S8x9 .f32) (harg7 : arg7.IsWhole) (arg8 : Memref sig .tc .vmem S8x9 .f32) (harg8 : arg8.IsWhole) (hc0 : ¬cond1_0 i) (hc1 : cond1_1 i)
    (x0 : Vec F S8x16x16x512 .f32) (x1 : Vec F S8x1x16x512 .f32) (x2 : Vec F S8x16x16x512 .f32) (x3 : Vec F S8x1x16x512 .f32) (xs0 : Vec F S8x9 .f32) (xs1 : Vec F S8x9 .f32) (y : S8x9.Idx) :
    ∃ pc ∈ (kernelRun1_B c i arg2 harg2 arg3 harg3 arg4 harg4 arg5 harg5 arg6 harg6 arg7 harg7 arg8 harg8 hc0 hc1 x0 x1 x2 x3 xs0 xs1).2.2.1, y ∈ pc.1.set :=
  View.cover_of_tiledL (kernelRun1_B c i arg2 harg2 arg3 harg3 arg4 harg4 arg5 harg5 arg6 harg6 arg7 harg7 arg8 harg8 hc0 hc1 x0 x1 x2 x3 xs0 xs1).2.2.1 S8x1.size (by sl_kernel_rfl) y

end Cert.Kernel.Hand

end
-- ==== Proof.K.Half1.lean ====
/-
  Region 1's half of the frame, at the buffer contents V the region is entered from.

  The grid walks the eight batch blocks, and within a block the two height tiles.  At the first tile (case A) the
  body zero-fills the two accumulators and adds the tile's nine column sums into each; at the second tile (case B)
  it adds that tile's sums to what the first left and stores the output block from the two accumulators.  What the
  accumulators and the output's staging buffer hold after each point is defined by recursion on the point; between
  points the region's invariant holds the two accumulators at exactly those contents.
-/
import proofs.«122145_j70437463654548_2_alg».proof.Proof.Gen.Kernel.Launch
import proofs.«122145_j70437463654548_2_alg».proof.Proof.Gen.Kernel.Skeleton
import proofs.«122145_j70437463654548_2_alg».proof.Proof.Gen.Kernel.Points
import proofs.«122145_j70437463654548_2_alg».proof.Proof.K.Run1B
import proofs.«122145_j70437463654548_2_alg».proof.Proof.K.Covers1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- What the first tile leaves in the first accumulator: its pieces read back. -/
def sout1_A_0 (c : Dev nD) (i : grid1.Coords) (arg2 : Memref sig .tc .vmem S8x16x16x512 .f32) (harg2 : arg2.IsWhole) (arg3 : Memref sig .tc .vmem S8x1x16x512 .f32) (harg3 : arg3.IsWhole) (arg4 : Memref sig .tc .vmem S8x16x16x512 .f32) (harg4 : arg4.IsWhole) (arg5 : Memref sig .tc .vmem S8x1x16x512 .f32) (harg5 : arg5.IsWhole) (arg6 : Memref sig .tc .vmem S8x1 .f32) (harg6 : arg6.IsWhole) (arg7 : Memref sig .tc .vmem S8x9 .f32) (harg7 : arg7.IsWhole) (arg8 : Memref sig .tc .vmem S8x9 .f32) (harg8 : arg8.IsWhole) (hc0 : cond1_0 i) (hc1 : ¬cond1_1 i) (x0 : Vec F S8x16x16x512 .f32) (x1 : Vec F S8x1x16x512 .f32) (x2 : Vec F S8x16x16x512 .f32) (x3 : Vec F S8x1x16x512 .f32) : Vec F S8x9 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3).1)
/-- What the first tile leaves in the second accumulator. -/
def sout1_A_1 (c : Dev nD) (i : grid1.Coords) (arg2 : Memref sig .tc .vmem S8x16x16x512 .f32) (harg2 : arg2.IsWhole) (arg3 : Memref sig .tc .vmem S8x1x16x512 .f32) (harg3 : arg3.IsWhole) (arg4 : Memref sig .tc .vmem S8x16x16x512 .f32) (harg4 : arg4.IsWhole) (arg5 : Memref sig .tc .vmem S8x1x16x512 .f32) (harg5 : arg5.IsWhole) (arg6 : Memref sig .tc .vmem S8x1 .f32) (harg6 : arg6.IsWhole) (arg7 : Memref sig .tc .vmem S8x9 .f32) (harg7 : arg7.IsWhole) (arg8 : Memref sig .tc .vmem S8x9 .f32) (harg8 : arg8.IsWhole) (hc0 : cond1_0 i) (hc1 : ¬cond1_1 i) (x0 : Vec F S8x16x16x512 .f32) (x1 : Vec F S8x1x16x512 .f32) (x2 : Vec F S8x16x16x512 .f32) (x3 : Vec F S8x1x16x512 .f32) : Vec F S8x9 .f32 :=
  VS1_1.read (Elt F) (VS1_1.writes (Elt F) VS1_1.junk (kernelRun1_A c i arg2 harg2 arg3 harg3 arg4 harg4 arg5 harg5 arg6 harg6 arg7 harg7 arg8 harg8 hc0 hc1 x0 x1 x2 x3).2.1)
/-- What the second tile leaves in the output's staging buffer. -/
def out1_B_4 (c : Dev nD) (i : grid1.Coords) (arg2 : Memref sig .tc .vmem S8x16x16x512 .f32) (harg2 : arg2.IsWhole) (arg3 : Memref sig .tc .vmem S8x1x16x512 .f32) (harg3 : arg3.IsWhole) (arg4 : Memref sig .tc .vmem S8x16x16x512 .f32) (harg4 : arg4.IsWhole) (arg5 : Memref sig .tc .vmem S8x1x16x512 .f32) (harg5 : arg5.IsWhole) (arg6 : Memref sig .tc .vmem S8x1 .f32) (harg6 : arg6.IsWhole) (arg7 : Memref sig .tc .vmem S8x9 .f32) (harg7 : arg7.IsWhole) (arg8 : Memref sig .tc .vmem S8x9 .f32) (harg8 : arg8.IsWhole) (hc0 : ¬cond1_0 i) (hc1 : cond1_1 i) (x0 : Vec F S8x16x16x512 .f32) (x1 : Vec F S8x1x16x512 .f32) (x2 : Vec F S8x16x16x512 .f32) (x3 : Vec F S8x1x16x512 .f32) (xs0 xs1 : Vec F S8x9 .f32) : Vec F S8x1 .f32 :=
  VO1_4.read (Elt F) (VO1_4.writes (Elt F) VO1_4.junk (kernelRun1_B c i arg2 harg2 arg3 harg3 arg4 harg4 arg5 harg5 arg6 harg6 arg7 harg7 arg8 harg8 hc0 hc1 x0 x1 x2 x3 xs0 xs1).1)
/-- What the second tile leaves in the first accumulator. -/
def sout1_B_0 (c : Dev nD) (i : grid1.Coords) (arg2 : Memref sig .tc .vmem S8x16x16x512 .f32) (harg2 : arg2.IsWhole) (arg3 : Memref sig .tc .vmem S8x1x16x512 .f32) (harg3 : arg3.IsWhole) (arg4 : Memref sig .tc .vmem S8x16x16x512 .f32) (harg4 : arg4.IsWhole) (arg5 : Memref sig .tc .vmem S8x1x16x512 .f32) (harg5 : arg5.IsWhole) (arg6 : Memref sig .tc .vmem S8x1 .f32) (harg6 : arg6.IsWhole) (arg7 : Memref sig .tc .vmem S8x9 .f32) (harg7 : arg7.IsWhole) (arg8 : Memref sig .tc .vmem S8x9 .f32) (harg8 : arg8.IsWhole) (hc0 : ¬cond1_0 i) (hc1 : cond1_1 i) (x0 : Vec F S8x16x16x512 .f32) (x1 : Vec F S8x1x16x512 .f32) (x2 : Vec F S8x16x16x512 .f32) (x3 : Vec F S8x1x16x512 .f32) (xs0 xs1 : Vec F S8x9 .f32) : Vec F S8x9 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 xs0 xs1).2.1)
/-- What the second tile leaves in the second accumulator. -/
def sout1_B_1 (c : Dev nD) (i : grid1.Coords) (arg2 : Memref sig .tc .vmem S8x16x16x512 .f32) (harg2 : arg2.IsWhole) (arg3 : Memref sig .tc .vmem S8x1x16x512 .f32) (harg3 : arg3.IsWhole) (arg4 : Memref sig .tc .vmem S8x16x16x512 .f32) (harg4 : arg4.IsWhole) (arg5 : Memref sig .tc .vmem S8x1x16x512 .f32) (harg5 : arg5.IsWhole) (arg6 : Memref sig .tc .vmem S8x1 .f32) (harg6 : arg6.IsWhole) (arg7 : Memref sig .tc .vmem S8x9 .f32) (harg7 : arg7.IsWhole) (arg8 : Memref sig .tc .vmem S8x9 .f32) (harg8 : arg8.IsWhole) (hc0 : ¬cond1_0 i) (hc1 : cond1_1 i) (x0 : Vec F S8x16x16x512 .f32) (x1 : Vec F S8x1x16x512 .f32) (x2 : Vec F S8x16x16x512 .f32) (x3 : Vec F S8x1x16x512 .f32) (xs0 xs1 : Vec F S8x9 .f32) : Vec F S8x9 .f32 :=
  VS1_1.read (Elt F) (VS1_1.writes (Elt F) VS1_1.junk (kernelRun1_B c i arg2 harg2 arg3 harg3 arg4 harg4 arg5 harg5 arg6 harg6 arg7 harg7 arg8 harg8 hc0 hc1 x0 x1 x2 x3 xs0 xs1).2.2.1)
/-- At the first tile nothing is stored into the output's buffer and the block is not written back: a placeholder that
    nothing consults. -/
def out1_A_4 : Vec F S8x1 .f32 := VO1_4.read (Elt F) VO1_4.junk

/-! ## What the buffers hold after each point -/

/-- After the body at position `n`: the output's staging buffer, then the two accumulators. -/
def outsAt1 (c : Dev nD) : (n : ℕ) → n < cfg1.N → Vec F S8x1 .f32 × Vec F S8x9 .f32 × Vec F S8x9 .f32
  | 0, hn => (out1_A_4,
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) (caseA1_of ⟨0, hn⟩ (Nat.zero_mod _)).1 (caseA1_of ⟨0, hn⟩ (Nat.zero_mod _)).2 (iblk1 V c 0 ⟨0, hn⟩) (iblk1 V c 1 ⟨0, hn⟩) (iblk1 V c 2 ⟨0, hn⟩) (iblk1 V c 3 ⟨0, hn⟩),
      sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) (caseA1_of ⟨0, hn⟩ (Nat.zero_mod _)).1 (caseA1_of ⟨0, hn⟩ (Nat.zero_mod _)).2 (iblk1 V c 0 ⟨0, hn⟩) (iblk1 V c 1 ⟨0, hn⟩) (iblk1 V c 2 ⟨0, hn⟩) (iblk1 V c 3 ⟨0, hn⟩))
  | n + 1, hn =>
    if h0 : (n + 1) % 2 = 0 then
      (out1_A_4,
        sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (caseA1_of ⟨n + 1, hn⟩ h0).1 (caseA1_of ⟨n + 1, hn⟩ h0).2 (iblk1 V c 0 ⟨n + 1, hn⟩) (iblk1 V c 1 ⟨n + 1, hn⟩) (iblk1 V c 2 ⟨n + 1, hn⟩) (iblk1 V c 3 ⟨n + 1, hn⟩),
        sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (caseA1_of ⟨n + 1, hn⟩ h0).1 (caseA1_of ⟨n + 1, hn⟩ h0).2 (iblk1 V c 0 ⟨n + 1, hn⟩) (iblk1 V c 1 ⟨n + 1, hn⟩) (iblk1 V c 2 ⟨n + 1, hn⟩) (iblk1 V c 3 ⟨n + 1, hn⟩))
    else
      (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (caseB1_of ⟨n + 1, hn⟩ (Nat.mod_two_ne_zero.mp h0)).1 (caseB1_of ⟨n + 1, hn⟩ (Nat.mod_two_ne_zero.mp h0)).2 (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2,
        sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (caseB1_of ⟨n + 1, hn⟩ (Nat.mod_two_ne_zero.mp h0)).1 (caseB1_of ⟨n + 1, hn⟩ (Nat.mod_two_ne_zero.mp h0)).2 (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2,
        sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (caseB1_of ⟨n + 1, hn⟩ (Nat.mod_two_ne_zero.mp h0)).1 (caseB1_of ⟨n + 1, hn⟩ (Nat.mod_two_ne_zero.mp h0)).2 (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2)

/-- At a first tile: that case's contents. -/
theorem outsAt1_A (c : Dev nD) (t : Fin cfg1.N) (h0 : t.val % 2 = 0) :
    outsAt1 V c t.val t.isLt = (out1_A_4,
      sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (caseA1_of t h0).1 (caseA1_of t h0).2 (iblk1 V c 0 t) (iblk1 V c 1 t) (iblk1 V c 2 t) (iblk1 V c 3 t),
      sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (caseA1_of t h0).1 (caseA1_of t h0).2 (iblk1 V c 0 t) (iblk1 V c 1 t) (iblk1 V c 2 t) (iblk1 V c 3 t)) := by
  obtain ⟨n, hn⟩ := t
  cases n with
  | zero => exact rfl
  | succ n => exact (dif_pos h0).trans rfl

/-- At a second tile: that case's contents, over what the point before left in the accumulators. -/
theorem outsAt1_B (c : Dev nD) (t : Fin cfg1.N) (h1 : t.val % 2 = 1) :
    outsAt1 V c t.val t.isLt = (
      out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (caseB1_of t h1).1 (caseB1_of t h1).2 (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2,
      sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (caseB1_of t h1).1 (caseB1_of t h1).2 (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2,
      sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (caseB1_of t h1).1 (caseB1_of t h1).2 (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by dsimp only at h1; omega)
  | succ n => exact (dif_neg (by dsimp only at h1; omega)).trans rfl

/-! ## The invariant between points -/

/-- The core's other scoped buffers (the other call's staging buffers and accumulators), each at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- Before position `n`: before the first point whatever the launch hands the region; afterwards the two accumulators at
    what the point before left in them, the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.1) ∗ owns (c : Thread nD τ) scM1_1 fullShare ((outsAt1 V c n hn).2.2) ∗ rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2.1) ∗ owns (c : Thread nD τ) scM1_1 fullShare ((outsAt1 V c n hn).2.2) ∗ rest1 c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2.1) ∗ owns (c : Thread nD τ) scM1_1 fullShare ((outsAt1 V c (n - 1) (by omega)).2.2) ∗ rest1 c) ∗ (∃ r, prngReg c r)) := by
  cases n with
  | zero => exact absurd rfl hz
  | succ n => rfl

/-- What the launch hands the region: the two accumulators as memrefs at some contents, the rest named. -/
theorem PhiA1_split (c : Dev nD) : (Pipeline.ΦA spec1 c : sProp 𝕄) ⊢ iprop(iprop((∃ d, owns (c : Thread nD τ) scM1_0 fullShare d) ∗ (∃ d, owns (c : Thread nD τ) scM1_1 fullShare d) ∗ rest1 c) ∗ (∃ r, prngReg c r)) := by
  rw [PhiA1_eq]
  unfold rest1
  iintro ⟨⟨H1, H2, H3, H4, H5, H6, H7, H8, H9, H10, H11, H12, HA, HB⟩, Hg⟩
  isplitr [Hg]; swap; · iexact Hg
  isplitl [HA]; · iexact HA
  isplitl [HB]; · iexact HB
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12
theorem PhiA1_join (c : Dev nD) : iprop(iprop((∃ d, owns (c : Thread nD τ) scM1_0 fullShare d) ∗ (∃ d, owns (c : Thread nD τ) scM1_1 fullShare d) ∗ rest1 c) ∗ (∃ r, prngReg c r)) ⊢ (Pipeline.ΦA spec1 c : sProp 𝕄) := by
  rw [PhiA1_eq]
  unfold rest1
  iintro ⟨⟨HA, HB, H1, H2, H3, H4, H5, H6, H7, H8, H9, H10, H11, H12⟩, Hg⟩
  isplitr [Hg]; swap; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HA]; · iexact HA
  iexact HB

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the point's parity says which case it is in; the
    invariant hands the body the accumulators (at anything at a first tile, at what the first tile left at a second)
    and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1
  rw [bodyAt1_eq]
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 2 = 0
  · -- a first tile
    rw [Dat.leavesExact_idle (dat1 V c) 4 t (idleAt1_4_A t (caseA1_of t h0).1 (caseA1_of t h0).2) (noFlush1_4_A t (caseA1_of t h0).1 (caseA1_of t h0).2)]
    rw [outsAt1_A V c t h0]
    unfold sout1_A_0 sout1_A_1; (try dsimp only)
    have hΦ : (dat1 V c).Φ t.castSucc ⊢ (iprop(iprop((∃ d, owns (c : Thread nD τ) scM1_0 fullShare d) ∗ (∃ d, owns (c : Thread nD τ) scM1_1 fullShare d) ∗ rest1 c) ∗ (∃ r, prngReg c r)) : sProp 𝕄) := by
      rw [PhiS1_castSucc V c t]
      by_cases hz : t.val = 0
      · rw [PhiS1_zero V c _ _ hz]; exact PhiA1_split c
      · rw [PhiS1_pos V c _ _ hz]
        iintro ⟨⟨HS0, HS1, Hr⟩, Hg⟩
        isplitl [HS0 HS1 Hr]
        · isplitl [HS0]; · iexists _; iexact HS0
          isplitl [HS1]; · iexists _; iexact HS1
          iexact Hr
        iexact Hg
    iintro ⟨HΦ, Ho, ⟨%d0, H0⟩, ⟨%d1, H1⟩, ⟨%d2, H2⟩, ⟨%d3, H3⟩, ⟨%d4, H4⟩⟩
    ihave HΦ' := hΦ $$ HΦ
    icases HΦ' with ⟨⟨HS0, HS1, Hr⟩, Hg⟩
    iapply ((kernelRun1_A c (grid1.coords t) _ _ _ _ _ _ _ _ _ _ _ _ _ _ (caseA1_of t h0).1 (caseA1_of t h0).2 (iblk1 V c 0 t) (iblk1 V c 1 t) (iblk1 V c 2 t) (iblk1 V c 3 t)).2.2 _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, ⟨%es0, HS0⟩, ⟨%es1, HS1⟩⟩
    isplitl [HS0 HS1 Hr Hg]
    · isplitl [HS0 HS1 Hr]
      · isplitl [HS0]
        · unfold owns; iexists _; isplitr
          swap; · iexact HS0
          ipureintro; exact View.read_writes_of_cover _ _ _ _ _ (scover1_A_0 c _ _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    iexists _; iexact H4
  · -- a second tile
    have h1 : t.val % 2 = 1 := by omega
    have hz : t.val ≠ 0 := by omega
    rw [show (dat1 V c).leavesExact 4 t = owns (c : Thread nD τ) (ms1_4 t) fullShare ((dat1 V c).after 4 t) from by
      unfold Dat.leavesExact; rw [liveAt1_4_B t (caseB1_of t h1).1 (caseB1_of t h1).2], after1_4]
    rw [outsAt1_B V c t h1]
    unfold out1_B_4 sout1_B_0 sout1_B_1; (try dsimp only)
    rw [PhiS1_castSucc V c t, PhiS1_pos V c _ _ hz]
    iintro ⟨⟨⟨HS0, HS1, Hr⟩, Hg⟩, Ho, ⟨%d0, H0⟩, ⟨%d1, H1⟩, ⟨%d2, H2⟩, ⟨%d3, H3⟩, ⟨%d4, H4⟩⟩
    iapply ((kernelRun1_B c (grid1.coords t) _ _ _ _ _ _ _ _ _ _ _ _ _ _ (caseB1_of t h1).1 (caseB1_of t h1).2 (iblk1 V c 0 t) (iblk1 V c 1 t) (iblk1 V c 2 t) (iblk1 V c 3 t) _ _).2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, ⟨%e4, H4⟩, ⟨%es0, HS0⟩, ⟨%es1, HS1⟩⟩
    isplitl [HS0 HS1 Hr Hg]
    · isplitl [HS0 HS1 Hr]
      · isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_B_4 c _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the same back: the accumulators' named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 16 := N_1; omega)]
  refine BIBase.Entails.trans ?_ (PhiA1_join c)
  iintro ⟨⟨HS0, HS1, Hr⟩, Hg⟩
  isplitl [HS0 HS1 Hr]
  · isplitl [HS0]; · iexists _; iexact HS0
    isplitl [HS1]; · iexists _; iexact HS1
    iexact Hr
  iexact Hg

end Cert.Kernel.Hand

end
-- ==== Proof.K.Regions.lean ====
/-
  The run of @main: host operations, the first kernel region, a reshape, the second kernel region, and the host
  tail, composed in order.  Between two items every unscoped buffer of the core is held at a known valuation:
  the launch memory, then each host stretch folded over it, then — after a region — the region's arrays at what
  its pipeline's write-backs leave and every other buffer as entered.  The final state is read back whole against
  the last valuation, so that both the frame (the arguments end as launched) and the value of the result buffer
  follow from it.
-/
import proofs.«122145_j70437463654548_2_alg».proof.Proof.Gen.Kernel.Launch
import proofs.«122145_j70437463654548_2_alg».proof.Proof.Gen.Kernel.Skeleton
import proofs.«122145_j70437463654548_2_alg».proof.Proof.Gen.Kernel.Points
import proofs.«122145_j70437463654548_2_alg».proof.Proof.Gen.Kernel.Regions
import proofs.«122145_j70437463654548_2_alg».proof.Proof.K.Half0
import proofs.«122145_j70437463654548_2_alg».proof.Proof.K.Half1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the three mask conversions (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the reshape of region 0's result (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the three stretches of the host tail. -/
abbrev W5 : Dev nD → Valuation τ sig (Elt F) := fun c => StableHlo.after hostOps2 (W4 m ρ c)
abbrev W6 : Dev nD → Valuation τ sig (Elt F) := fun c => StableHlo.after hostOps2_1 (W5 m ρ c)
abbrev W7 : Dev nD → Valuation τ sig (Elt F) := fun c => StableHlo.after hostOps2_2 (W6 m ρ c)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 over the thread state: entered from every unscoped buffer at `W1`, left at `W2`. Its arrays are
    split out of the unscoped buffers and put back at the exit contents; the generator register and the scoped rest
    go into the region's invariant and come back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are
    split out of the unscoped buffers and put back at the exit contents; the generator register and the scoped rest
    go into the region's invariant and come back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .host (hseg hostOps2_1 hostOps2_1_sub hostOps2_1_fresh (W5 m ρ)),
    .host (hseg hostOps2_2 hostOps2_2_sub hostOps2_2_fresh (W6 m ρ)) ]

theorem main_run (c : Dev nD) : main (F := F) c = Pipeline.Seg.run (segs m ρ) := (main_chain c).trans (by chain_rfl)

set_option backward.isDefEq.respectTransparency.types false in
/-- Every weakly fair execution of @main from memory `m` with zero counters terminates, nothing faulting, and the final
    memory holds every unscoped buffer of every core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.Kernel.Hand

end
-- ==== Proof.K.Args.lean ====
/-
  The frame: every argument array ends as launched.  The final memory holds every unscoped buffer at the last
  valuation of the run, and an argument's buffer is carried unchanged through every item: no host operation writes
  it, and a kernel region either reads it through an input window (whose array the pipeline never writes) or does
  not touch it.
-/
import proofs.«122145_j70437463654548_2_alg».proof.Proof.Gen.Kernel.Launch
import proofs.«122145_j70437463654548_2_alg».proof.Proof.Gen.Kernel.Skeleton
import proofs.«122145_j70437463654548_2_alg».proof.Proof.Gen.Kernel.Points
import proofs.«122145_j70437463654548_2_alg».proof.Proof.K.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- `main_arg0` ends as launched: no host operation writes it, and a region reads it through an input window or not at all. -/
theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps2_2 _ hostOps2_2_writes (by decide)
    _ = W5 m ρ c (Proc.devRef .tc main_arg0) := StableHlo.after_of_writes_sub hostOps2_1 _ hostOps2_1_writes (by decide)
    _ = W4 m ρ c (Proc.devRef .tc main_arg0) := StableHlo.after_of_writes_sub hostOps2 _ hostOps2_writes (by decide)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl

/-- `main_arg1` ends as launched: no host operation writes it, and a region reads it through an input window or not at all. -/
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps2_2 _ hostOps2_2_writes (by decide)
    _ = W5 m ρ c (Proc.devRef .tc main_arg1) := StableHlo.after_of_writes_sub hostOps2_1 _ hostOps2_1_writes (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := (W2_arr m ρ c 2).trans (((dat0 (V1 m ρ) c).arrAt_in 2 rfl _).trans (A_eq0 (V1 m ρ) c 2))
    _ = W0 m ρ c (Proc.devRef .tc main_arg1) := StableHlo.after_of_writes_sub hostOps0 _ hostOps0_writes (by decide)
    _ = m ((c : Thread nD τ).loc main_arg1) := rfl

/-- `main_arg2` ends as launched: no host operation writes it, and a region reads it through an input window or not at all. -/
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps2_2 _ hostOps2_2_writes (by decide)
    _ = W5 m ρ c (Proc.devRef .tc main_arg2) := StableHlo.after_of_writes_sub hostOps2_1 _ hostOps2_1_writes (by decide)
    _ = W4 m ρ c (Proc.devRef .tc main_arg2) := StableHlo.after_of_writes_sub hostOps2 _ hostOps2_writes (by decide)
    _ = W3 m ρ c (Proc.devRef .tc main_arg2) := (W4_arr m ρ c 2).trans (((dat1 (V3 m ρ) c).arrAt_in 2 rfl _).trans (A_eq1 (V3 m ρ) c 2))
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-- `main_arg3` ends as launched: no host operation writes it, and a region reads it through an input window or not at all. -/
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps2_2 _ hostOps2_2_writes (by decide)
    _ = W5 m ρ c (Proc.devRef .tc main_arg3) := StableHlo.after_of_writes_sub hostOps2_1 _ hostOps2_1_writes (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-- `main_arg4` ends as launched: no host operation writes it, and a region reads it through an input window or not at all. -/
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_writes_sub hostOps2_2 _ hostOps2_2_writes (by decide)
    _ = W5 m ρ c (Proc.devRef .tc main_arg4) := StableHlo.after_of_writes_sub hostOps2_1 _ hostOps2_1_writes (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

/-- `main_arg5` ends as launched: no host operation writes it, and a region reads it through an input window or not at all. -/
theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_writes_sub hostOps2_2 _ hostOps2_2_writes (by decide)
    _ = W5 m ρ c (Proc.devRef .tc main_arg5) := StableHlo.after_of_writes_sub hostOps2_1 _ hostOps2_1_writes (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

/-- The frame claim's post, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c)⟩) (run_all m ρ)

end Cert.Kernel.Hand

end
-- ==== Proof.KI.Runs.lean ====
/- What the runs of kernel 0's body are stated over: the two branch conditions of the body as propositions over the
   grid coordinates with their closed forms over the points, where the output window is idle and where it is live,
   the staging memrefs the pipeline passes at a point, the two scratch accumulators as whole memrefs, and the
   region invariant with the two accumulators owned at some contents. -/
import proofs.«122145_j70437463654548_2_alg».proof.Proof.Gen.KernelIdeal.Launch
import proofs.«122145_j70437463654548_2_alg».proof.Proof.Gen.KernelIdeal.Skeleton
import proofs.«122145_j70437463654548_2_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions -/

/-- The first branch (`h == 0`: the accumulators are zero-filled), from the grid coordinates. -/
abbrev cond0_0 (i : grid0.Coords) : Prop := (Scalar.cmpi .ne (Scalar.extui (Scalar.cmpi .eq (BitVec.ofNat 32 (i 1).val) 0#32)) 0#32) = 1#1
/-- It holds at the even points: the second grid coordinate is the point's parity. -/
theorem hcond0_0 : ∀ t : Fin cfg0.N, cond0_0 (grid0.coords t) ↔ t.val % 2 = 0 :=
  (by decide +kernel : ∀ t : Fin grid0.N, cond0_0 (grid0.coords t) ↔ t.val % 2 = 0)

/-- The second branch (`h == 1`: the output block is computed from the accumulators), from the grid coordinates. -/
abbrev cond0_1 (i : grid0.Coords) : Prop := k0_cond2 i = 1#1
/-- It holds at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-- Exactly one of the two cases is met at every point: the first branch alone at the even points (case A). -/
theorem caseA0_of (t : Fin cfg0.N) (h : t.val % 2 = 0) : cond0_0 (grid0.coords t) ∧ ¬cond0_1 (grid0.coords t) :=
  ⟨(hcond0_0 t).2 h, fun h1 => by have := (hcond0_1 t).1 h1; omega⟩
/-- The second branch alone at the odd points (case B). -/
theorem caseB0_of (t : Fin cfg0.N) (h : t.val % 2 = 1) : ¬cond0_0 (grid0.coords t) ∧ cond0_1 (grid0.coords t) :=
  ⟨fun h0 => by have := (hcond0_0 t).1 h0; omega, (hcond0_1 t).2 h⟩

/-! ## Where the windows are idle -/

/-- The four inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- In case A the output window is idle: nothing is stored into it. -/
theorem idleAt0_4_A : ∀ t : Fin cfg0.N, cond0_0 (grid0.coords t) → ¬cond0_1 (grid0.coords t) → cfg0.idle 4 (grid0.coords t) = true := by decide +kernel
/-- In case A the output block is not written back. -/
theorem noFlush0_4_A : ∀ t : Fin cfg0.N, cond0_0 (grid0.coords t) → ¬cond0_1 (grid0.coords t) → (cfg0.win 4).flush t = false := by decide +kernel
/-- In case B the output window is live: the block is stored whole. -/
theorem liveAt0_4_B : ∀ t : Fin cfg0.N, ¬cond0_0 (grid0.coords t) → cond0_1 (grid0.coords t) → cfg0.idle 4 (grid0.coords t) = false := by decide +kernel
/-- In case B the output block is written back. -/
theorem flush0_4_B : ∀ t : Fin cfg0.N, ¬cond0_0 (grid0.coords t) → cond0_1 (grid0.coords t) → (cfg0.win 4).flush t = true := by decide +kernel

/-! ## The memrefs the body is called on -/

/-- One staging buffer of the output window, through which its contents are stated. -/
abbrev VO0_4 : View sig .tc .vmem S8x1 .f32 := (Memref.whole cc0_stg4_0 : Memref sig .tc .vmem S8x1 .f32).view
/-- Window 0's current staging memref at point `t`, as the pipeline passes it, and its wholeness. -/
abbrev ms0_0 (t : Fin cfg0.N) : Memref sig .tc .vmem S8x16x16x512 .f32 := win0_0.stage (cfg0.slots t 0)
abbrev hs0_0 (t : Fin cfg0.N) : (ms0_0 t).IsWhole := hstage0_0 ((cfg0.slots t 0).cast nbuf0_0)
/-- Window 1's current staging memref at point `t`, as the pipeline passes it, and its wholeness. -/
abbrev ms0_1 (t : Fin cfg0.N) : Memref sig .tc .vmem S8x1x16x512 .f32 := win0_1.stage (cfg0.slots t 1)
abbrev hs0_1 (t : Fin cfg0.N) : (ms0_1 t).IsWhole := hstage0_1 ((cfg0.slots t 1).cast nbuf0_1)
/-- Window 2's current staging memref at point `t`, as the pipeline passes it, and its wholeness. -/
abbrev ms0_2 (t : Fin cfg0.N) : Memref sig .tc .vmem S8x16x16x512 .f32 := win0_2.stage (cfg0.slots t 2)
abbrev hs0_2 (t : Fin cfg0.N) : (ms0_2 t).IsWhole := hstage0_2 ((cfg0.slots t 2).cast nbuf0_2)
/-- Window 3's current staging memref at point `t`, as the pipeline passes it, and its wholeness. -/
abbrev ms0_3 (t : Fin cfg0.N) : Memref sig .tc .vmem S8x1x16x512 .f32 := win0_3.stage (cfg0.slots t 3)
abbrev hs0_3 (t : Fin cfg0.N) : (ms0_3 t).IsWhole := hstage0_3 ((cfg0.slots t 3).cast nbuf0_3)
/-- Window 4's current staging memref at point `t`, as the pipeline passes it, and its wholeness. -/
abbrev ms0_4 (t : Fin cfg0.N) : Memref sig .tc .vmem S8x1 .f32 := win0_4.stage (cfg0.slots t 4)
abbrev hs0_4 (t : Fin cfg0.N) : (ms0_4 t).IsWhole := hstage0_4 ((cfg0.slots t 4).cast nbuf0_4)
/-- The two accumulators: whole scoped buffers of the kernel's own, passed beside the windows. -/
abbrev scM0_0 : Memref sig .tc .vmem S8x9 .f32 := Memref.whole cc0_scratch0
abbrev scM0_1 : Memref sig .tc .vmem S8x9 .f32 := Memref.whole cc0_scratch1
/-- The accumulators as views: what they hold between points is stated through these. -/
abbrev VS0_0 : View sig .tc .vmem S8x9 .f32 := scM0_0.view
abbrev VS0_1 : View sig .tc .vmem S8x9 .f32 := scM0_1.view

/-- The body at point `t` is the kernel function on these memrefs. -/
theorem bodyAt0_eq (t : Fin cfg0.N) :
    bodyAt0 (F := F) t = cc0__shift_loss_kernel (grid0.coords t) (ms0_0 t) (hs0_0 t) (ms0_1 t) (hs0_1 t) (ms0_2 t) (hs0_2 t) (ms0_3 t) (hs0_3 t) (ms0_4 t) (hs0_4 t)
      scM0_0 (Memref.isWhole_whole _) scM0_1 (Memref.isWhole_whole _) := rfl

/-- The region invariant with the two accumulators as memrefs owned at some contents; the other scoped buffers of the
    core (the other call's staging buffers and accumulators) at some contents each, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)) ∗ (∃ r, prngReg c r)) := by
  unfold Pipeline.ΦA; rw [scopedRest0_eq]; simp only [scM0_0, scM0_1, owns_whole]; try rfl

end Cert.KernelIdeal.Hand

end
-- ==== Proof.KI.Run0A.lean ====
/- The run of kernel 0's body at a point of case A (the second grid coordinate is 0): the accumulators are zero-filled
   whole, each of the nine shifts then adds its column into each accumulator, and the output block is not touched. -/
import proofs.«122145_j70437463654548_2_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case A: on whole memrefs — the four input blocks at their contents, the output block at contents `xi4` (handed back
    untouched), the two accumulators at anything — the body runs to the continuation holding the inputs and the output as
    they were and each accumulator with its pieces written (`LS0`, `LS1`: a whole zero block, then one column per shift,
    last first). The pieces are what the run finds. -/
noncomputable def kernelRun0_A (c : Dev nD) (i : grid0.Coords) (arg2 : Memref sig .tc .vmem S8x16x16x512 .f32) (harg2 : arg2.IsWhole) (arg3 : Memref sig .tc .vmem S8x1x16x512 .f32) (harg3 : arg3.IsWhole) (arg4 : Memref sig .tc .vmem S8x16x16x512 .f32) (harg4 : arg4.IsWhole) (arg5 : Memref sig .tc .vmem S8x1x16x512 .f32) (harg5 : arg5.IsWhole) (arg6 : Memref sig .tc .vmem S8x1 .f32) (harg6 : arg6.IsWhole) (arg7 : Memref sig .tc .vmem S8x9 .f32) (harg7 : arg7.IsWhole) (arg8 : Memref sig .tc .vmem S8x9 .f32) (harg8 : arg8.IsWhole) (hc0 : cond0_0 i) (hc1 : ¬cond0_1 i)
    (x0 : Vec F S8x16x16x512 .f32) (x1 : Vec F S8x1x16x512 .f32) (x2 : Vec F S8x16x16x512 .f32) (x3 : Vec F S8x1x16x512 .f32) :
    Σ' (LS0 : List (View.Piece (Elt F) S8x9 .f32)), { LS1 : List (View.Piece (Elt F) S8x9 .f32) //
      ∀ (xi4 : Vec F S8x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__shift_loss_kernel i arg2 harg2 arg3 harg3 arg4 harg4 arg5 harg5 arg6 harg6 arg7 harg7 arg8 harg8) K } := by
  refine ⟨?_, ?_, fun xi4 E K => ?run⟩
  case run =>
    simp only [cc0__shift_loss_kernel_eq_skeleton]; unfold cc0__shift_loss_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Hand

end
-- ==== Proof.KI.Run0B.lean ====
/- The run of kernel 0's body at a point of case B (the second grid coordinate is 1): the accumulators arrive at what
   the point before left, each of the nine shifts adds its column into each accumulator, and the output block is
   computed from the two accumulators and stored whole. -/
import proofs.«122145_j70437463654548_2_alg».proof.Proof.KI.Run0A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case B: on whole memrefs — the four input blocks at their contents, the output block at anything, the two
    accumulators at the contents `xs0`, `xs1` the point before left — the body runs to the continuation holding the inputs
    as they were, each accumulator with its pieces written (`LS0`, `LS1`: one column per shift, last first) and the
    output block with its one piece written (`L4`). The pieces are what the run finds. -/
noncomputable def kernelRun0_B (c : Dev nD) (i : grid0.Coords) (arg2 : Memref sig .tc .vmem S8x16x16x512 .f32) (harg2 : arg2.IsWhole) (arg3 : Memref sig .tc .vmem S8x1x16x512 .f32) (harg3 : arg3.IsWhole) (arg4 : Memref sig .tc .vmem S8x16x16x512 .f32) (harg4 : arg4.IsWhole) (arg5 : Memref sig .tc .vmem S8x1x16x512 .f32) (harg5 : arg5.IsWhole) (arg6 : Memref sig .tc .vmem S8x1 .f32) (harg6 : arg6.IsWhole) (arg7 : Memref sig .tc .vmem S8x9 .f32) (harg7 : arg7.IsWhole) (arg8 : Memref sig .tc .vmem S8x9 .f32) (harg8 : arg8.IsWhole) (hc0 : ¬cond0_0 i) (hc1 : cond0_1 i)
    (x0 : Vec F S8x16x16x512 .f32) (x1 : Vec F S8x1x16x512 .f32) (x2 : Vec F S8x16x16x512 .f32) (x3 : Vec F S8x1x16x512 .f32) (xs0 : Vec F S8x9 .f32) (xs1 : Vec F S8x9 .f32) :
    Σ' (L4 : List (View.Piece (Elt F) S8x1 .f32)) (LS0 : List (View.Piece (Elt F) S8x9 .f32)), { LS1 : List (View.Piece (Elt F) S8x9 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__shift_loss_kernel i arg2 harg2 arg3 harg3 arg4 harg4 arg5 harg5 arg6 harg6 arg7 harg7 arg8 harg8) K } := by
  refine ⟨?_, ?_, ?_, fun E K => ?run⟩
  case run =>
    simp only [cc0__shift_loss_kernel_eq_skeleton]; unfold cc0__shift_loss_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    iexists _; iexact HS1

end Cert.KernelIdeal.Hand

end
-- ==== Proof.KI.Covers0.lean ====
/- The pieces the runs of kernel 0's body leave cover their buffers: in either case the nine column stores of an
   accumulator tile its [8,9] block in columns [8,1] (case A's whole zero block beneath them is not needed for the
   cover), and case B's one store of the output block is the block. -/
import proofs.«122145_j70437463654548_2_alg».proof.Proof.KI.Run0B
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A's pieces for the first accumulator cover it: the nine columns. -/
theorem scover0_A_0 (c : Dev nD) (i : grid0.Coords) (arg2 : Memref sig .tc .vmem S8x16x16x512 .f32) (harg2 : arg2.IsWhole) (arg3 : Memref sig .tc .vmem S8x1x16x512 .f32) (harg3 : arg3.IsWhole) (arg4 : Memref sig .tc .vmem S8x16x16x512 .f32) (harg4 : arg4.IsWhole) (arg5 : Memref sig .tc .vmem S8x1x16x512 .f32) (harg5 : arg5.IsWhole) (arg6 : Memref sig .tc .vmem S8x1 .f32) (harg6 : arg6.IsWhole) (arg7 : Memref sig .tc .vmem S8x9 .f32) (harg7 : arg7.IsWhole) (arg8 : Memref sig .tc .vmem S8x9 .f32) (harg8 : arg8.IsWhole) (hc0 : cond0_0 i) (hc1 : ¬cond0_1 i)
    (x0 : Vec F S8x16x16x512 .f32) (x1 : Vec F S8x1x16x512 .f32) (x2 : Vec F S8x16x16x512 .f32) (x3 : Vec F S8x1x16x512 .f32) (y : S8x9.Idx) :
    ∃ pc ∈ (kernelRun0_A c i arg2 harg2 arg3 harg3 arg4 harg4 arg5 harg5 arg6 harg6 arg7 harg7 arg8 harg8 hc0 hc1 x0 x1 x2 x3).1, y ∈ pc.1.set :=
  View.cover_of_tiledL (kernelRun0_A c i arg2 harg2 arg3 harg3 arg4 harg4 arg5 harg5 arg6 harg6 arg7 harg7 arg8 harg8 hc0 hc1 x0 x1 x2 x3).1 S8x1.size (by sl_kernel_rfl) y

/-- Case A's pieces for the second accumulator cover it: the nine columns. -/
theorem scover0_A_1 (c : Dev nD) (i : grid0.Coords) (arg2 : Memref sig .tc .vmem S8x16x16x512 .f32) (harg2 : arg2.IsWhole) (arg3 : Memref sig .tc .vmem S8x1x16x512 .f32) (harg3 : arg3.IsWhole) (arg4 : Memref sig .tc .vmem S8x16x16x512 .f32) (harg4 : arg4.IsWhole) (arg5 : Memref sig .tc .vmem S8x1x16x512 .f32) (harg5 : arg5.IsWhole) (arg6 : Memref sig .tc .vmem S8x1 .f32) (harg6 : arg6.IsWhole) (arg7 : Memref sig .tc .vmem S8x9 .f32) (harg7 : arg7.IsWhole) (arg8 : Memref sig .tc .vmem S8x9 .f32) (harg8 : arg8.IsWhole) (hc0 : cond0_0 i) (hc1 : ¬cond0_1 i)
    (x0 : Vec F S8x16x16x512 .f32) (x1 : Vec F S8x1x16x512 .f32) (x2 : Vec F S8x16x16x512 .f32) (x3 : Vec F S8x1x16x512 .f32) (y : S8x9.Idx) :
    ∃ pc ∈ (kernelRun0_A c i arg2 harg2 arg3 harg3 arg4 harg4 arg5 harg5 arg6 harg6 arg7 harg7 arg8 harg8 hc0 hc1 x0 x1 x2 x3).2.1, y ∈ pc.1.set :=
  View.cover_of_tiledL (kernelRun0_A c i arg2 harg2 arg3 harg3 arg4 harg4 arg5 harg5 arg6 harg6 arg7 harg7 arg8 harg8 hc0 hc1 x0 x1 x2 x3).2.1 S8x1.size (by sl_kernel_rfl) y

/-- Case B's one piece for the output block covers it. -/
theorem cover0_B_4 (c : Dev nD) (i : grid0.Coords) (arg2 : Memref sig .tc .vmem S8x16x16x512 .f32) (harg2 : arg2.IsWhole) (arg3 : Memref sig .tc .vmem S8x1x16x512 .f32) (harg3 : arg3.IsWhole) (arg4 : Memref sig .tc .vmem S8x16x16x512 .f32) (harg4 : arg4.IsWhole) (arg5 : Memref sig .tc .vmem S8x1x16x512 .f32) (harg5 : arg5.IsWhole) (arg6 : Memref sig .tc .vmem S8x1 .f32) (harg6 : arg6.IsWhole) (arg7 : Memref sig .tc .vmem S8x9 .f32) (harg7 : arg7.IsWhole) (arg8 : Memref sig .tc .vmem S8x9 .f32) (harg8 : arg8.IsWhole) (hc0 : ¬cond0_0 i) (hc1 : cond0_1 i)
    (x0 : Vec F S8x16x16x512 .f32) (x1 : Vec F S8x1x16x512 .f32) (x2 : Vec F S8x16x16x512 .f32) (x3 : Vec F S8x1x16x512 .f32) (xs0 : Vec F S8x9 .f32) (xs1 : Vec F S8x9 .f32) (y : S8x1.Idx) :
    ∃ pc ∈ (kernelRun0_B c i arg2 harg2 arg3 harg3 arg4 harg4 arg5 harg5 arg6 harg6 arg7 harg7 arg8 harg8 hc0 hc1 x0 x1 x2 x3 xs0 xs1).1, y ∈ pc.1.set :=
  View.cover_of_tiledL (kernelRun0_B c i arg2 harg2 arg3 harg3 arg4 harg4 arg5 harg5 arg6 harg6 arg7 harg7 arg8 harg8 hc0 hc1 x0 x1 x2 x3 xs0 xs1).1 S8x1.size (by sl_kernel_rfl) y

/-- Case B's pieces for the first accumulator cover it: the nine columns. -/
theorem scover0_B_0 (c : Dev nD) (i : grid0.Coords) (arg2 : Memref sig .tc .vmem S8x16x16x512 .f32) (harg2 : arg2.IsWhole) (arg3 : Memref sig .tc .vmem S8x1x16x512 .f32) (harg3 : arg3.IsWhole) (arg4 : Memref sig .tc .vmem S8x16x16x512 .f32) (harg4 : arg4.IsWhole) (arg5 : Memref sig .tc .vmem S8x1x16x512 .f32) (harg5 : arg5.IsWhole) (arg6 : Memref sig .tc .vmem S8x1 .f32) (harg6 : arg6.IsWhole) (arg7 : Memref sig .tc .vmem S8x9 .f32) (harg7 : arg7.IsWhole) (arg8 : Memref sig .tc .vmem S8x9 .f32) (harg8 : arg8.IsWhole) (hc0 : ¬cond0_0 i) (hc1 : cond0_1 i)
    (x0 : Vec F S8x16x16x512 .f32) (x1 : Vec F S8x1x16x512 .f32) (x2 : Vec F S8x16x16x512 .f32) (x3 : Vec F S8x1x16x512 .f32) (xs0 : Vec F S8x9 .f32) (xs1 : Vec F S8x9 .f32) (y : S8x9.Idx) :
    ∃ pc ∈ (kernelRun0_B c i arg2 harg2 arg3 harg3 arg4 harg4 arg5 harg5 arg6 harg6 arg7 harg7 arg8 harg8 hc0 hc1 x0 x1 x2 x3 xs0 xs1).2.1, y ∈ pc.1.set :=
  View.cover_of_tiledL (kernelRun0_B c i arg2 harg2 arg3 harg3 arg4 harg4 arg5 harg5 arg6 harg6 arg7 harg7 arg8 harg8 hc0 hc1 x0 x1 x2 x3 xs0 xs1).2.1 S8x1.size (by sl_kernel_rfl) y

/-- Case B's pieces for the second accumulator cover it: the nine columns. -/
theorem scover0_B_1 (c : Dev nD) (i : grid0.Coords) (arg2 : Memref sig .tc .vmem S8x16x16x512 .f32) (harg2 : arg2.IsWhole) (arg3 : Memref sig .tc .vmem S8x1x16x512 .f32) (harg3 : arg3.IsWhole) (arg4 : Memref sig .tc .vmem S8x16x16x512 .f32) (harg4 : arg4.IsWhole) (arg5 : Memref sig .tc .vmem S8x1x16x512 .f32) (harg5 : arg5.IsWhole) (arg6 : Memref sig .tc .vmem S8x1 .f32) (harg6 : arg6.IsWhole) (arg7 : Memref sig .tc .vmem S8x9 .f32) (harg7 : arg7.IsWhole) (arg8 : Memref sig .tc .vmem S8x9 .f32) (harg8 : arg8.IsWhole) (hc0 : ¬cond0_0 i) (hc1 : cond0_1 i)
    (x0 : Vec F S8x16x16x512 .f32) (x1 : Vec F S8x1x16x512 .f32) (x2 : Vec F S8x16x16x512 .f32) (x3 : Vec F S8x1x16x512 .f32) (xs0 : Vec F S8x9 .f32) (xs1 : Vec F S8x9 .f32) (y : S8x9.Idx) :
    ∃ pc ∈ (kernelRun0_B c i arg2 harg2 arg3 harg3 arg4 harg4 arg5 harg5 arg6 harg6 arg7 harg7 arg8 harg8 hc0 hc1 x0 x1 x2 x3 xs0 xs1).2.2.1, y ∈ pc.1.set :=
  View.cover_of_tiledL (kernelRun0_B c i arg2 harg2 arg3 harg3 arg4 harg4 arg5 harg5 arg6 harg6 arg7 harg7 arg8 harg8 hc0 hc1 x0 x1 x2 x3 xs0 xs1).2.2.1 S8x1.size (by sl_kernel_rfl) y

end Cert.KernelIdeal.Hand

end
-- ==== Proof.KI.Half0.lean ====
/-
  Region 0's half of the frame, at the buffer contents V the region is entered from.

  The grid walks the eight batch blocks, and within a block the two height tiles.  At the first tile (case A) the
  body zero-fills the two accumulators and adds the tile's nine column sums into each; at the second tile (case B)
  it adds that tile's sums to what the first left and stores the output block from the two accumulators.  What the
  accumulators and the output's staging buffer hold after each point is defined by recursion on the point; between
  points the region's invariant holds the two accumulators at exactly those contents.
-/
import proofs.«122145_j70437463654548_2_alg».proof.Proof.Gen.KernelIdeal.Launch
import proofs.«122145_j70437463654548_2_alg».proof.Proof.Gen.KernelIdeal.Skeleton
import proofs.«122145_j70437463654548_2_alg».proof.Proof.Gen.KernelIdeal.Points
import proofs.«122145_j70437463654548_2_alg».proof.Proof.KI.Run0B
import proofs.«122145_j70437463654548_2_alg».proof.Proof.KI.Covers0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

/-- What the first tile leaves in the first accumulator: its pieces read back. -/
def sout0_A_0 (c : Dev nD) (i : grid0.Coords) (arg2 : Memref sig .tc .vmem S8x16x16x512 .f32) (harg2 : arg2.IsWhole) (arg3 : Memref sig .tc .vmem S8x1x16x512 .f32) (harg3 : arg3.IsWhole) (arg4 : Memref sig .tc .vmem S8x16x16x512 .f32) (harg4 : arg4.IsWhole) (arg5 : Memref sig .tc .vmem S8x1x16x512 .f32) (harg5 : arg5.IsWhole) (arg6 : Memref sig .tc .vmem S8x1 .f32) (harg6 : arg6.IsWhole) (arg7 : Memref sig .tc .vmem S8x9 .f32) (harg7 : arg7.IsWhole) (arg8 : Memref sig .tc .vmem S8x9 .f32) (harg8 : arg8.IsWhole) (hc0 : cond0_0 i) (hc1 : ¬cond0_1 i) (x0 : Vec F S8x16x16x512 .f32) (x1 : Vec F S8x1x16x512 .f32) (x2 : Vec F S8x16x16x512 .f32) (x3 : Vec F S8x1x16x512 .f32) : Vec F S8x9 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3).1)
/-- What the first tile leaves in the second accumulator. -/
def sout0_A_1 (c : Dev nD) (i : grid0.Coords) (arg2 : Memref sig .tc .vmem S8x16x16x512 .f32) (harg2 : arg2.IsWhole) (arg3 : Memref sig .tc .vmem S8x1x16x512 .f32) (harg3 : arg3.IsWhole) (arg4 : Memref sig .tc .vmem S8x16x16x512 .f32) (harg4 : arg4.IsWhole) (arg5 : Memref sig .tc .vmem S8x1x16x512 .f32) (harg5 : arg5.IsWhole) (arg6 : Memref sig .tc .vmem S8x1 .f32) (harg6 : arg6.IsWhole) (arg7 : Memref sig .tc .vmem S8x9 .f32) (harg7 : arg7.IsWhole) (arg8 : Memref sig .tc .vmem S8x9 .f32) (harg8 : arg8.IsWhole) (hc0 : cond0_0 i) (hc1 : ¬cond0_1 i) (x0 : Vec F S8x16x16x512 .f32) (x1 : Vec F S8x1x16x512 .f32) (x2 : Vec F S8x16x16x512 .f32) (x3 : Vec F S8x1x16x512 .f32) : Vec F S8x9 .f32 :=
  VS0_1.read (Elt F) (VS0_1.writes (Elt F) VS0_1.junk (kernelRun0_A c i arg2 harg2 arg3 harg3 arg4 harg4 arg5 harg5 arg6 harg6 arg7 harg7 arg8 harg8 hc0 hc1 x0 x1 x2 x3).2.1)
/-- What the second tile leaves in the output's staging buffer. -/
def out0_B_4 (c : Dev nD) (i : grid0.Coords) (arg2 : Memref sig .tc .vmem S8x16x16x512 .f32) (harg2 : arg2.IsWhole) (arg3 : Memref sig .tc .vmem S8x1x16x512 .f32) (harg3 : arg3.IsWhole) (arg4 : Memref sig .tc .vmem S8x16x16x512 .f32) (harg4 : arg4.IsWhole) (arg5 : Memref sig .tc .vmem S8x1x16x512 .f32) (harg5 : arg5.IsWhole) (arg6 : Memref sig .tc .vmem S8x1 .f32) (harg6 : arg6.IsWhole) (arg7 : Memref sig .tc .vmem S8x9 .f32) (harg7 : arg7.IsWhole) (arg8 : Memref sig .tc .vmem S8x9 .f32) (harg8 : arg8.IsWhole) (hc0 : ¬cond0_0 i) (hc1 : cond0_1 i) (x0 : Vec F S8x16x16x512 .f32) (x1 : Vec F S8x1x16x512 .f32) (x2 : Vec F S8x16x16x512 .f32) (x3 : Vec F S8x1x16x512 .f32) (xs0 xs1 : Vec F S8x9 .f32) : Vec F S8x1 .f32 :=
  VO0_4.read (Elt F) (VO0_4.writes (Elt F) VO0_4.junk (kernelRun0_B c i arg2 harg2 arg3 harg3 arg4 harg4 arg5 harg5 arg6 harg6 arg7 harg7 arg8 harg8 hc0 hc1 x0 x1 x2 x3 xs0 xs1).1)
/-- What the second tile leaves in the first accumulator. -/
def sout0_B_0 (c : Dev nD) (i : grid0.Coords) (arg2 : Memref sig .tc .vmem S8x16x16x512 .f32) (harg2 : arg2.IsWhole) (arg3 : Memref sig .tc .vmem S8x1x16x512 .f32) (harg3 : arg3.IsWhole) (arg4 : Memref sig .tc .vmem S8x16x16x512 .f32) (harg4 : arg4.IsWhole) (arg5 : Memref sig .tc .vmem S8x1x16x512 .f32) (harg5 : arg5.IsWhole) (arg6 : Memref sig .tc .vmem S8x1 .f32) (harg6 : arg6.IsWhole) (arg7 : Memref sig .tc .vmem S8x9 .f32) (harg7 : arg7.IsWhole) (arg8 : Memref sig .tc .vmem S8x9 .f32) (harg8 : arg8.IsWhole) (hc0 : ¬cond0_0 i) (hc1 : cond0_1 i) (x0 : Vec F S8x16x16x512 .f32) (x1 : Vec F S8x1x16x512 .f32) (x2 : Vec F S8x16x16x512 .f32) (x3 : Vec F S8x1x16x512 .f32) (xs0 xs1 : Vec F S8x9 .f32) : Vec F S8x9 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 xs0 xs1).2.1)
/-- What the second tile leaves in the second accumulator. -/
def sout0_B_1 (c : Dev nD) (i : grid0.Coords) (arg2 : Memref sig .tc .vmem S8x16x16x512 .f32) (harg2 : arg2.IsWhole) (arg3 : Memref sig .tc .vmem S8x1x16x512 .f32) (harg3 : arg3.IsWhole) (arg4 : Memref sig .tc .vmem S8x16x16x512 .f32) (harg4 : arg4.IsWhole) (arg5 : Memref sig .tc .vmem S8x1x16x512 .f32) (harg5 : arg5.IsWhole) (arg6 : Memref sig .tc .vmem S8x1 .f32) (harg6 : arg6.IsWhole) (arg7 : Memref sig .tc .vmem S8x9 .f32) (harg7 : arg7.IsWhole) (arg8 : Memref sig .tc .vmem S8x9 .f32) (harg8 : arg8.IsWhole) (hc0 : ¬cond0_0 i) (hc1 : cond0_1 i) (x0 : Vec F S8x16x16x512 .f32) (x1 : Vec F S8x1x16x512 .f32) (x2 : Vec F S8x16x16x512 .f32) (x3 : Vec F S8x1x16x512 .f32) (xs0 xs1 : Vec F S8x9 .f32) : Vec F S8x9 .f32 :=
  VS0_1.read (Elt F) (VS0_1.writes (Elt F) VS0_1.junk (kernelRun0_B c i arg2 harg2 arg3 harg3 arg4 harg4 arg5 harg5 arg6 harg6 arg7 harg7 arg8 harg8 hc0 hc1 x0 x1 x2 x3 xs0 xs1).2.2.1)
/-- At the first tile nothing is stored into the output's buffer and the block is not written back: a placeholder that
    nothing consults. -/
def out0_A_4 : Vec F S8x1 .f32 := VO0_4.read (Elt F) VO0_4.junk

/-! ## What the buffers hold after each point -/

/-- After the body at position `n`: the output's staging buffer, then the two accumulators. -/
def outsAt0 (c : Dev nD) : (n : ℕ) → n < cfg0.N → Vec F S8x1 .f32 × Vec F S8x9 .f32 × Vec F S8x9 .f32
  | 0, hn => (out0_A_4,
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) (caseA0_of ⟨0, hn⟩ (Nat.zero_mod _)).1 (caseA0_of ⟨0, hn⟩ (Nat.zero_mod _)).2 (iblk0 V c 0 ⟨0, hn⟩) (iblk0 V c 1 ⟨0, hn⟩) (iblk0 V c 2 ⟨0, hn⟩) (iblk0 V c 3 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) (caseA0_of ⟨0, hn⟩ (Nat.zero_mod _)).1 (caseA0_of ⟨0, hn⟩ (Nat.zero_mod _)).2 (iblk0 V c 0 ⟨0, hn⟩) (iblk0 V c 1 ⟨0, hn⟩) (iblk0 V c 2 ⟨0, hn⟩) (iblk0 V c 3 ⟨0, hn⟩))
  | n + 1, hn =>
    if h0 : (n + 1) % 2 = 0 then
      (out0_A_4,
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (caseA0_of ⟨n + 1, hn⟩ h0).1 (caseA0_of ⟨n + 1, hn⟩ h0).2 (iblk0 V c 0 ⟨n + 1, hn⟩) (iblk0 V c 1 ⟨n + 1, hn⟩) (iblk0 V c 2 ⟨n + 1, hn⟩) (iblk0 V c 3 ⟨n + 1, hn⟩),
        sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (caseA0_of ⟨n + 1, hn⟩ h0).1 (caseA0_of ⟨n + 1, hn⟩ h0).2 (iblk0 V c 0 ⟨n + 1, hn⟩) (iblk0 V c 1 ⟨n + 1, hn⟩) (iblk0 V c 2 ⟨n + 1, hn⟩) (iblk0 V c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (caseB0_of ⟨n + 1, hn⟩ (Nat.mod_two_ne_zero.mp h0)).1 (caseB0_of ⟨n + 1, hn⟩ (Nat.mod_two_ne_zero.mp h0)).2 (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.1 (outsAt0 c n (Nat.lt_of_succ_lt hn)).2.2,
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (caseB0_of ⟨n + 1, hn⟩ (Nat.mod_two_ne_zero.mp h0)).1 (caseB0_of ⟨n + 1, hn⟩ (Nat.mod_two_ne_zero.mp h0)).2 (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.1 (outsAt0 c n (Nat.lt_of_succ_lt hn)).2.2,
        sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (caseB0_of ⟨n + 1, hn⟩ (Nat.mod_two_ne_zero.mp h0)).1 (caseB0_of ⟨n + 1, hn⟩ (Nat.mod_two_ne_zero.mp h0)).2 (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.1 (outsAt0 c n (Nat.lt_of_succ_lt hn)).2.2)

/-- At a first tile: that case's contents. -/
theorem outsAt0_A (c : Dev nD) (t : Fin cfg0.N) (h0 : t.val % 2 = 0) :
    outsAt0 V c t.val t.isLt = (out0_A_4,
      sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (caseA0_of t h0).1 (caseA0_of t h0).2 (iblk0 V c 0 t) (iblk0 V c 1 t) (iblk0 V c 2 t) (iblk0 V c 3 t),
      sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (caseA0_of t h0).1 (caseA0_of t h0).2 (iblk0 V c 0 t) (iblk0 V c 1 t) (iblk0 V c 2 t) (iblk0 V c 3 t)) := by
  obtain ⟨n, hn⟩ := t
  cases n with
  | zero => exact rfl
  | succ n => exact (dif_pos h0).trans rfl

/-- At a second tile: that case's contents, over what the point before left in the accumulators. -/
theorem outsAt0_B (c : Dev nD) (t : Fin cfg0.N) (h1 : t.val % 2 = 1) :
    outsAt0 V c t.val t.isLt = (
      out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (caseB0_of t h1).1 (caseB0_of t h1).2 (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2,
      sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (caseB0_of t h1).1 (caseB0_of t h1).2 (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2,
      sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (caseB0_of t h1).1 (caseB0_of t h1).2 (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by dsimp only at h1; omega)
  | succ n => exact (dif_neg (by dsimp only at h1; omega)).trans rfl

/-! ## The invariant between points -/

/-- The core's other scoped buffers (the other call's staging buffers and accumulators), each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- Before position `n`: before the first point whatever the launch hands the region; afterwards the two accumulators at
    what the point before left in them, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2.1) ∗ owns (c : Thread nD τ) scM0_1 fullShare ((outsAt0 V c n hn).2.2) ∗ rest0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.1) ∗ owns (c : Thread nD τ) scM0_1 fullShare ((outsAt0 V c (n - 1) (by omega)).2.2) ∗ rest0 c) ∗ (∃ r, prngReg c r)) := by
  cases n with
  | zero => exact absurd rfl hz
  | succ n => rfl

/-- What the launch hands the region: the two accumulators as memrefs at some contents, the rest named. -/
theorem PhiA0_split (c : Dev nD) : (Pipeline.ΦA spec0 c : sProp 𝕄) ⊢ iprop(iprop((∃ d, owns (c : Thread nD τ) scM0_0 fullShare d) ∗ (∃ d, owns (c : Thread nD τ) scM0_1 fullShare d) ∗ rest0 c) ∗ (∃ r, prngReg c r)) := by
  rw [PhiA0_eq]
  unfold rest0
  iintro ⟨⟨HA, HB, H1, H2, H3, H4, H5, H6, H7, H8, H9, H10, H11, H12⟩, Hg⟩
  isplitr [Hg]; swap; · iexact Hg
  isplitl [HA]; · iexact HA
  isplitl [HB]; · iexact HB
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12
theorem PhiA0_join (c : Dev nD) : iprop(iprop((∃ d, owns (c : Thread nD τ) scM0_0 fullShare d) ∗ (∃ d, owns (c : Thread nD τ) scM0_1 fullShare d) ∗ rest0 c) ∗ (∃ r, prngReg c r)) ⊢ (Pipeline.ΦA spec0 c : sProp 𝕄) := by
  rw [PhiA0_eq]
  unfold rest0
  iintro ⟨⟨HA, HB, H1, H2, H3, H4, H5, H6, H7, H8, H9, H10, H11, H12⟩, Hg⟩
  isplitr [Hg]; swap; · iexact Hg
  isplitl [HA]; · iexact HA
  isplitl [HB]; · iexact HB
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: the inputs' memrefs hold their blocks; the point's parity says which case it is in; the
    invariant hands the body the accumulators (at anything at a first tile, at what the first tile left at a second)
    and takes them back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0
  rw [bodyAt0_eq]
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 16 := lt_of_lt_of_eq t.isLt (show cfg0.N = 16 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h0 : t.val % 2 = 0
  · -- a first tile
    rw [Dat.leavesExact_idle (dat0 V c) 4 t (idleAt0_4_A t (caseA0_of t h0).1 (caseA0_of t h0).2) (noFlush0_4_A t (caseA0_of t h0).1 (caseA0_of t h0).2)]
    rw [outsAt0_A V c t h0]
    unfold sout0_A_0 sout0_A_1; (try dsimp only)
    have hΦ : (dat0 V c).Φ t.castSucc ⊢ (iprop(iprop((∃ d, owns (c : Thread nD τ) scM0_0 fullShare d) ∗ (∃ d, owns (c : Thread nD τ) scM0_1 fullShare d) ∗ rest0 c) ∗ (∃ r, prngReg c r)) : sProp 𝕄) := by
      rw [PhiS0_castSucc V c t]
      by_cases hz : t.val = 0
      · rw [PhiS0_zero V c _ _ hz]; exact PhiA0_split c
      · rw [PhiS0_pos V c _ _ hz]
        iintro ⟨⟨HS0, HS1, Hr⟩, Hg⟩
        isplitl [HS0 HS1 Hr]
        · isplitl [HS0]; · iexists _; iexact HS0
          isplitl [HS1]; · iexists _; iexact HS1
          iexact Hr
        iexact Hg
    iintro ⟨HΦ, Ho, ⟨%d0, H0⟩, ⟨%d1, H1⟩, ⟨%d2, H2⟩, ⟨%d3, H3⟩, ⟨%d4, H4⟩⟩
    ihave HΦ' := hΦ $$ HΦ
    icases HΦ' with ⟨⟨HS0, HS1, Hr⟩, Hg⟩
    iapply ((kernelRun0_A c (grid0.coords t) _ _ _ _ _ _ _ _ _ _ _ _ _ _ (caseA0_of t h0).1 (caseA0_of t h0).2 (iblk0 V c 0 t) (iblk0 V c 1 t) (iblk0 V c 2 t) (iblk0 V c 3 t)).2.2 _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, ⟨%es0, HS0⟩, ⟨%es1, HS1⟩⟩
    isplitl [HS0 HS1 Hr Hg]
    · isplitl [HS0 HS1 Hr]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    iexists _; iexact H4
  · -- a second tile
    have h1 : t.val % 2 = 1 := by omega
    have hz : t.val ≠ 0 := by omega
    rw [show (dat0 V c).leavesExact 4 t = owns (c : Thread nD τ) (ms0_4 t) fullShare ((dat0 V c).after 4 t) from by
      unfold Dat.leavesExact; rw [liveAt0_4_B t (caseB0_of t h1).1 (caseB0_of t h1).2], after0_4]
    rw [outsAt0_B V c t h1]
    unfold out0_B_4 sout0_B_0 sout0_B_1; (try dsimp only)
    rw [PhiS0_castSucc V c t, PhiS0_pos V c _ _ hz]
    iintro ⟨⟨⟨HS0, HS1, Hr⟩, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ _ _ (caseB0_of t h1).1 (caseB0_of t h1).2 (iblk0 V c 0 t) (iblk0 V c 1 t) (iblk0 V c 2 t) (iblk0 V c 3 t) _ _).2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, ⟨%e4, H4⟩, ⟨%es0, HS0⟩, ⟨%es1, HS1⟩⟩
    isplitl [HS0 HS1 Hr Hg]
    · isplitl [HS0 HS1 Hr]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover0_B_1 c _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the same back: the accumulators' named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 16 := N_0; omega)]
  refine BIBase.Entails.trans ?_ (PhiA0_join c)
  iintro ⟨⟨HS0, HS1, Hr⟩, Hg⟩
  isplitl [HS0 HS1 Hr]
  · isplitl [HS0]; · iexists _; iexact HS0
    isplitl [HS1]; · iexists _; iexact HS1
    iexact Hr
  iexact Hg

end Cert.KernelIdeal.Hand

end
-- ==== Proof.KI.Runs1.lean ====
/- What the runs of kernel 1's body are stated over: the two branch conditions of the body as propositions over the
   grid coordinates with their closed forms over the points, where the output window is idle and where it is live,
   the staging memrefs the pipeline passes at a point, the two scratch accumulators as whole memrefs, and the
   region invariant with the two accumulators owned at some contents. -/
import proofs.«122145_j70437463654548_2_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions -/

/-- The first branch (`h == 0`: the accumulators are zero-filled), from the grid coordinates. -/
abbrev cond1_0 (i : grid1.Coords) : Prop := (Scalar.cmpi .ne (Scalar.extui (Scalar.cmpi .eq (BitVec.ofNat 32 (i 1).val) 0#32)) 0#32) = 1#1
/-- It holds at the even points: the second grid coordinate is the point's parity. -/
theorem hcond1_0 : ∀ t : Fin cfg1.N, cond1_0 (grid1.coords t) ↔ t.val % 2 = 0 :=
  (by decide +kernel : ∀ t : Fin grid1.N, cond1_0 (grid1.coords t) ↔ t.val % 2 = 0)

/-- The second branch (`h == 1`: the output block is computed from the accumulators), from the grid coordinates. -/
abbrev cond1_1 (i : grid1.Coords) : Prop := k1_cond2 i = 1#1
/-- It holds at the odd points. -/
theorem hcond1_1 : ∀ t : Fin cfg1.N, cond1_1 (grid1.coords t) ↔ t.val % 2 = 1 :=
  (by decide +kernel : ∀ t : Fin grid1.N, cond1_1 (grid1.coords t) ↔ t.val % 2 = 1)

/-- Exactly one of the two cases is met at every point: the first branch alone at the even points (case A). -/
theorem caseA1_of (t : Fin cfg1.N) (h : t.val % 2 = 0) : cond1_0 (grid1.coords t) ∧ ¬cond1_1 (grid1.coords t) :=
  ⟨(hcond1_0 t).2 h, fun h1 => by have := (hcond1_1 t).1 h1; omega⟩
/-- The second branch alone at the odd points (case B). -/
theorem caseB1_of (t : Fin cfg1.N) (h : t.val % 2 = 1) : ¬cond1_0 (grid1.coords t) ∧ cond1_1 (grid1.coords t) :=
  ⟨fun h0 => by have := (hcond1_0 t).1 h0; omega, (hcond1_1 t).2 h⟩

/-! ## Where the windows are idle -/

/-- The four inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- In case A the output window is idle: nothing is stored into it. -/
theorem idleAt1_4_A : ∀ t : Fin cfg1.N, cond1_0 (grid1.coords t) → ¬cond1_1 (grid1.coords t) → cfg1.idle 4 (grid1.coords t) = true := by decide +kernel
/-- In case A the output block is not written back. -/
theorem noFlush1_4_A : ∀ t : Fin cfg1.N, cond1_0 (grid1.coords t) → ¬cond1_1 (grid1.coords t) → (cfg1.win 4).flush t = false := by decide +kernel
/-- In case B the output window is live: the block is stored whole. -/
theorem liveAt1_4_B : ∀ t : Fin cfg1.N, ¬cond1_0 (grid1.coords t) → cond1_1 (grid1.coords t) → cfg1.idle 4 (grid1.coords t) = false := by decide +kernel
/-- In case B the output block is written back. -/
theorem flush1_4_B : ∀ t : Fin cfg1.N, ¬cond1_0 (grid1.coords t) → cond1_1 (grid1.coords t) → (cfg1.win 4).flush t = true := by decide +kernel

/-! ## The memrefs the body is called on -/

/-- One staging buffer of the output window, through which its contents are stated. -/
abbrev VO1_4 : View sig .tc .vmem S8x1 .f32 := (Memref.whole cc1_stg4_0 : Memref sig .tc .vmem S8x1 .f32).view
/-- Window 0's current staging memref at point `t`, as the pipeline passes it, and its wholeness. -/
abbrev ms1_0 (t : Fin cfg1.N) : Memref sig .tc .vmem S8x16x16x512 .f32 := win1_0.stage (cfg1.slots t 0)
abbrev hs1_0 (t : Fin cfg1.N) : (ms1_0 t).IsWhole := hstage1_0 ((cfg1.slots t 0).cast nbuf1_0)
/-- Window 1's current staging memref at point `t`, as the pipeline passes it, and its wholeness. -/
abbrev ms1_1 (t : Fin cfg1.N) : Memref sig .tc .vmem S8x1x16x512 .f32 := win1_1.stage (cfg1.slots t 1)
abbrev hs1_1 (t : Fin cfg1.N) : (ms1_1 t).IsWhole := hstage1_1 ((cfg1.slots t 1).cast nbuf1_1)
/-- Window 2's current staging memref at point `t`, as the pipeline passes it, and its wholeness. -/
abbrev ms1_2 (t : Fin cfg1.N) : Memref sig .tc .vmem S8x16x16x512 .f32 := win1_2.stage (cfg1.slots t 2)
abbrev hs1_2 (t : Fin cfg1.N) : (ms1_2 t).IsWhole := hstage1_2 ((cfg1.slots t 2).cast nbuf1_2)
/-- Window 3's current staging memref at point `t`, as the pipeline passes it, and its wholeness. -/
abbrev ms1_3 (t : Fin cfg1.N) : Memref sig .tc .vmem S8x1x16x512 .f32 := win1_3.stage (cfg1.slots t 3)
abbrev hs1_3 (t : Fin cfg1.N) : (ms1_3 t).IsWhole := hstage1_3 ((cfg1.slots t 3).cast nbuf1_3)
/-- Window 4's current staging memref at point `t`, as the pipeline passes it, and its wholeness. -/
abbrev ms1_4 (t : Fin cfg1.N) : Memref sig .tc .vmem S8x1 .f32 := win1_4.stage (cfg1.slots t 4)
abbrev hs1_4 (t : Fin cfg1.N) : (ms1_4 t).IsWhole := hstage1_4 ((cfg1.slots t 4).cast nbuf1_4)
/-- The two accumulators: whole scoped buffers of the kernel's own, passed beside the windows. -/
abbrev scM1_0 : Memref sig .tc .vmem S8x9 .f32 := Memref.whole cc1_scratch0
abbrev scM1_1 : Memref sig .tc .vmem S8x9 .f32 := Memref.whole cc1_scratch1
/-- The accumulators as views: what they hold between points is stated through these. -/
abbrev VS1_0 : View sig .tc .vmem S8x9 .f32 := scM1_0.view
abbrev VS1_1 : View sig .tc .vmem S8x9 .f32 := scM1_1.view

/-- The body at point `t` is the kernel function on these memrefs. -/
theorem bodyAt1_eq (t : Fin cfg1.N) :
    bodyAt1 (F := F) t = cc1__shift_loss_kernel (grid1.coords t) (ms1_0 t) (hs1_0 t) (ms1_1 t) (hs1_1 t) (ms1_2 t) (hs1_2 t) (ms1_3 t) (hs1_3 t) (ms1_4 t) (hs1_4 t)
      scM1_0 (Memref.isWhole_whole _) scM1_1 (Memref.isWhole_whole _) := rfl

/-- The region invariant with the two accumulators as memrefs owned at some contents; the other scoped buffers of the
    core (the other call's staging buffers and accumulators) at some contents each, and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

end Cert.KernelIdeal.Hand

end
-- ==== Proof.KI.Run1A.lean ====
/- The run of kernel 1's body at a point of case A (the second grid coordinate is 0): the accumulators are zero-filled
   whole, each of the nine shifts then adds its column into each accumulator, and the output block is not touched. -/
import proofs.«122145_j70437463654548_2_alg».proof.Proof.KI.Runs1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case A: on whole memrefs — the four input blocks at their contents, the output block at contents `xi4` (handed back
    untouched), the two accumulators at anything — the body runs to the continuation holding the inputs and the output as
    they were and each accumulator with its pieces written (`LS0`, `LS1`: a whole zero block, then one column per shift,
    last first). The pieces are what the run finds. -/
noncomputable def kernelRun1_A (c : Dev nD) (i : grid1.Coords) (arg2 : Memref sig .tc .vmem S8x16x16x512 .f32) (harg2 : arg2.IsWhole) (arg3 : Memref sig .tc .vmem S8x1x16x512 .f32) (harg3 : arg3.IsWhole) (arg4 : Memref sig .tc .vmem S8x16x16x512 .f32) (harg4 : arg4.IsWhole) (arg5 : Memref sig .tc .vmem S8x1x16x512 .f32) (harg5 : arg5.IsWhole) (arg6 : Memref sig .tc .vmem S8x1 .f32) (harg6 : arg6.IsWhole) (arg7 : Memref sig .tc .vmem S8x9 .f32) (harg7 : arg7.IsWhole) (arg8 : Memref sig .tc .vmem S8x9 .f32) (harg8 : arg8.IsWhole) (hc0 : cond1_0 i) (hc1 : ¬cond1_1 i)
    (x0 : Vec F S8x16x16x512 .f32) (x1 : Vec F S8x1x16x512 .f32) (x2 : Vec F S8x16x16x512 .f32) (x3 : Vec F S8x1x16x512 .f32) :
    Σ' (LS0 : List (View.Piece (Elt F) S8x9 .f32)), { LS1 : List (View.Piece (Elt F) S8x9 .f32) //
      ∀ (xi4 : Vec F S8x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__shift_loss_kernel i arg2 harg2 arg3 harg3 arg4 harg4 arg5 harg5 arg6 harg6 arg7 harg7 arg8 harg8) K } := by
  refine ⟨?_, ?_, fun xi4 E K => ?run⟩
  case run =>
    simp only [cc1__shift_loss_kernel_eq_skeleton]; unfold cc1__shift_loss_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Hand

end
-- ==== Proof.KI.Run1B.lean ====
/- The run of kernel 1's body at a point of case B (the second grid coordinate is 1): the accumulators arrive at what
   the point before left, each of the nine shifts adds its column into each accumulator, and the output block is
   computed from the two accumulators and stored whole. -/
import proofs.«122145_j70437463654548_2_alg».proof.Proof.KI.Run1A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case B: on whole memrefs — the four input blocks at their contents, the output block at anything, the two
    accumulators at the contents `xs0`, `xs1` the point before left — the body runs to the continuation holding the inputs
    as they were, each accumulator with its pieces written (`LS0`, `LS1`: one column per shift, last first) and the
    output block with its one piece written (`L4`). The pieces are what the run finds. -/
noncomputable def kernelRun1_B (c : Dev nD) (i : grid1.Coords) (arg2 : Memref sig .tc .vmem S8x16x16x512 .f32) (harg2 : arg2.IsWhole) (arg3 : Memref sig .tc .vmem S8x1x16x512 .f32) (harg3 : arg3.IsWhole) (arg4 : Memref sig .tc .vmem S8x16x16x512 .f32) (harg4 : arg4.IsWhole) (arg5 : Memref sig .tc .vmem S8x1x16x512 .f32) (harg5 : arg5.IsWhole) (arg6 : Memref sig .tc .vmem S8x1 .f32) (harg6 : arg6.IsWhole) (arg7 : Memref sig .tc .vmem S8x9 .f32) (harg7 : arg7.IsWhole) (arg8 : Memref sig .tc .vmem S8x9 .f32) (harg8 : arg8.IsWhole) (hc0 : ¬cond1_0 i) (hc1 : cond1_1 i)
    (x0 : Vec F S8x16x16x512 .f32) (x1 : Vec F S8x1x16x512 .f32) (x2 : Vec F S8x16x16x512 .f32) (x3 : Vec F S8x1x16x512 .f32) (xs0 : Vec F S8x9 .f32) (xs1 : Vec F S8x9 .f32) :
    Σ' (L4 : List (View.Piece (Elt F) S8x1 .f32)) (LS0 : List (View.Piece (Elt F) S8x9 .f32)), { LS1 : List (View.Piece (Elt F) S8x9 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__shift_loss_kernel i arg2 harg2 arg3 harg3 arg4 harg4 arg5 harg5 arg6 harg6 arg7 harg7 arg8 harg8) K } := by
  refine ⟨?_, ?_, ?_, fun E K => ?run⟩
  case run =>
    simp only [cc1__shift_loss_kernel_eq_skeleton]; unfold cc1__shift_loss_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    iexists _; iexact HS1

end Cert.KernelIdeal.Hand

end
-- ==== Proof.KI.Covers1.lean ====
/- The pieces the runs of kernel 1's body leave cover their buffers: in either case the nine column stores of an
   accumulator tile its [8,9] block in columns [8,1] (case A's whole zero block beneath them is not needed for the
   cover), and case B's one store of the output block is the block. -/
import proofs.«122145_j70437463654548_2_alg».proof.Proof.KI.Run1B
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A's pieces for the first accumulator cover it: the nine columns. -/
theorem scover1_A_0 (c : Dev nD) (i : grid1.Coords) (arg2 : Memref sig .tc .vmem S8x16x16x512 .f32) (harg2 : arg2.IsWhole) (arg3 : Memref sig .tc .vmem S8x1x16x512 .f32) (harg3 : arg3.IsWhole) (arg4 : Memref sig .tc .vmem S8x16x16x512 .f32) (harg4 : arg4.IsWhole) (arg5 : Memref sig .tc .vmem S8x1x16x512 .f32) (harg5 : arg5.IsWhole) (arg6 : Memref sig .tc .vmem S8x1 .f32) (harg6 : arg6.IsWhole) (arg7 : Memref sig .tc .vmem S8x9 .f32) (harg7 : arg7.IsWhole) (arg8 : Memref sig .tc .vmem S8x9 .f32) (harg8 : arg8.IsWhole) (hc0 : cond1_0 i) (hc1 : ¬cond1_1 i)
    (x0 : Vec F S8x16x16x512 .f32) (x1 : Vec F S8x1x16x512 .f32) (x2 : Vec F S8x16x16x512 .f32) (x3 : Vec F S8x1x16x512 .f32) (y : S8x9.Idx) :
    ∃ pc ∈ (kernelRun1_A c i arg2 harg2 arg3 harg3 arg4 harg4 arg5 harg5 arg6 harg6 arg7 harg7 arg8 harg8 hc0 hc1 x0 x1 x2 x3).1, y ∈ pc.1.set :=
  View.cover_of_tiledL (kernelRun1_A c i arg2 harg2 arg3 harg3 arg4 harg4 arg5 harg5 arg6 harg6 arg7 harg7 arg8 harg8 hc0 hc1 x0 x1 x2 x3).1 S8x1.size (by sl_kernel_rfl) y

/-- Case A's pieces for the second accumulator cover it: the nine columns. -/
theorem scover1_A_1 (c : Dev nD) (i : grid1.Coords) (arg2 : Memref sig .tc .vmem S8x16x16x512 .f32) (harg2 : arg2.IsWhole) (arg3 : Memref sig .tc .vmem S8x1x16x512 .f32) (harg3 : arg3.IsWhole) (arg4 : Memref sig .tc .vmem S8x16x16x512 .f32) (harg4 : arg4.IsWhole) (arg5 : Memref sig .tc .vmem S8x1x16x512 .f32) (harg5 : arg5.IsWhole) (arg6 : Memref sig .tc .vmem S8x1 .f32) (harg6 : arg6.IsWhole) (arg7 : Memref sig .tc .vmem S8x9 .f32) (harg7 : arg7.IsWhole) (arg8 : Memref sig .tc .vmem S8x9 .f32) (harg8 : arg8.IsWhole) (hc0 : cond1_0 i) (hc1 : ¬cond1_1 i)
    (x0 : Vec F S8x16x16x512 .f32) (x1 : Vec F S8x1x16x512 .f32) (x2 : Vec F S8x16x16x512 .f32) (x3 : Vec F S8x1x16x512 .f32) (y : S8x9.Idx) :
    ∃ pc ∈ (kernelRun1_A c i arg2 harg2 arg3 harg3 arg4 harg4 arg5 harg5 arg6 harg6 arg7 harg7 arg8 harg8 hc0 hc1 x0 x1 x2 x3).2.1, y ∈ pc.1.set :=
  View.cover_of_tiledL (kernelRun1_A c i arg2 harg2 arg3 harg3 arg4 harg4 arg5 harg5 arg6 harg6 arg7 harg7 arg8 harg8 hc0 hc1 x0 x1 x2 x3).2.1 S8x1.size (by sl_kernel_rfl) y

/-- Case B's one piece for the output block covers it. -/
theorem cover1_B_4 (c : Dev nD) (i : grid1.Coords) (arg2 : Memref sig .tc .vmem S8x16x16x512 .f32) (harg2 : arg2.IsWhole) (arg3 : Memref sig .tc .vmem S8x1x16x512 .f32) (harg3 : arg3.IsWhole) (arg4 : Memref sig .tc .vmem S8x16x16x512 .f32) (harg4 : arg4.IsWhole) (arg5 : Memref sig .tc .vmem S8x1x16x512 .f32) (harg5 : arg5.IsWhole) (arg6 : Memref sig .tc .vmem S8x1 .f32) (harg6 : arg6.IsWhole) (arg7 : Memref sig .tc .vmem S8x9 .f32) (harg7 : arg7.IsWhole) (arg8 : Memref sig .tc .vmem S8x9 .f32) (harg8 : arg8.IsWhole) (hc0 : ¬cond1_0 i) (hc1 : cond1_1 i)
    (x0 : Vec F S8x16x16x512 .f32) (x1 : Vec F S8x1x16x512 .f32) (x2 : Vec F S8x16x16x512 .f32) (x3 : Vec F S8x1x16x512 .f32) (xs0 : Vec F S8x9 .f32) (xs1 : Vec F S8x9 .f32) (y : S8x1.Idx) :
    ∃ pc ∈ (kernelRun1_B c i arg2 harg2 arg3 harg3 arg4 harg4 arg5 harg5 arg6 harg6 arg7 harg7 arg8 harg8 hc0 hc1 x0 x1 x2 x3 xs0 xs1).1, y ∈ pc.1.set :=
  View.cover_of_tiledL (kernelRun1_B c i arg2 harg2 arg3 harg3 arg4 harg4 arg5 harg5 arg6 harg6 arg7 harg7 arg8 harg8 hc0 hc1 x0 x1 x2 x3 xs0 xs1).1 S8x1.size (by sl_kernel_rfl) y

/-- Case B's pieces for the first accumulator cover it: the nine columns. -/
theorem scover1_B_0 (c : Dev nD) (i : grid1.Coords) (arg2 : Memref sig .tc .vmem S8x16x16x512 .f32) (harg2 : arg2.IsWhole) (arg3 : Memref sig .tc .vmem S8x1x16x512 .f32) (harg3 : arg3.IsWhole) (arg4 : Memref sig .tc .vmem S8x16x16x512 .f32) (harg4 : arg4.IsWhole) (arg5 : Memref sig .tc .vmem S8x1x16x512 .f32) (harg5 : arg5.IsWhole) (arg6 : Memref sig .tc .vmem S8x1 .f32) (harg6 : arg6.IsWhole) (arg7 : Memref sig .tc .vmem S8x9 .f32) (harg7 : arg7.IsWhole) (arg8 : Memref sig .tc .vmem S8x9 .f32) (harg8 : arg8.IsWhole) (hc0 : ¬cond1_0 i) (hc1 : cond1_1 i)
    (x0 : Vec F S8x16x16x512 .f32) (x1 : Vec F S8x1x16x512 .f32) (x2 : Vec F S8x16x16x512 .f32) (x3 : Vec F S8x1x16x512 .f32) (xs0 : Vec F S8x9 .f32) (xs1 : Vec F S8x9 .f32) (y : S8x9.Idx) :
    ∃ pc ∈ (kernelRun1_B c i arg2 harg2 arg3 harg3 arg4 harg4 arg5 harg5 arg6 harg6 arg7 harg7 arg8 harg8 hc0 hc1 x0 x1 x2 x3 xs0 xs1).2.1, y ∈ pc.1.set :=
  View.cover_of_tiledL (kernelRun1_B c i arg2 harg2 arg3 harg3 arg4 harg4 arg5 harg5 arg6 harg6 arg7 harg7 arg8 harg8 hc0 hc1 x0 x1 x2 x3 xs0 xs1).2.1 S8x1.size (by sl_kernel_rfl) y

/-- Case B's pieces for the second accumulator cover it: the nine columns. -/
theorem scover1_B_1 (c : Dev nD) (i : grid1.Coords) (arg2 : Memref sig .tc .vmem S8x16x16x512 .f32) (harg2 : arg2.IsWhole) (arg3 : Memref sig .tc .vmem S8x1x16x512 .f32) (harg3 : arg3.IsWhole) (arg4 : Memref sig .tc .vmem S8x16x16x512 .f32) (harg4 : arg4.IsWhole) (arg5 : Memref sig .tc .vmem S8x1x16x512 .f32) (harg5 : arg5.IsWhole) (arg6 : Memref sig .tc .vmem S8x1 .f32) (harg6 : arg6.IsWhole) (arg7 : Memref sig .tc .vmem S8x9 .f32) (harg7 : arg7.IsWhole) (arg8 : Memref sig .tc .vmem S8x9 .f32) (harg8 : arg8.IsWhole) (hc0 : ¬cond1_0 i) (hc1 : cond1_1 i)
    (x0 : Vec F S8x16x16x512 .f32) (x1 : Vec F S8x1x16x512 .f32) (x2 : Vec F S8x16x16x512 .f32) (x3 : Vec F S8x1x16x512 .f32) (xs0 : Vec F S8x9 .f32) (xs1 : Vec F S8x9 .f32) (y : S8x9.Idx) :
    ∃ pc ∈ (kernelRun1_B c i arg2 harg2 arg3 harg3 arg4 harg4 arg5 harg5 arg6 harg6 arg7 harg7 arg8 harg8 hc0 hc1 x0 x1 x2 x3 xs0 xs1).2.2.1, y ∈ pc.1.set :=
  View.cover_of_tiledL (kernelRun1_B c i arg2 harg2 arg3 harg3 arg4 harg4 arg5 harg5 arg6 harg6 arg7 harg7 arg8 harg8 hc0 hc1 x0 x1 x2 x3 xs0 xs1).2.2.1 S8x1.size (by sl_kernel_rfl) y

end Cert.KernelIdeal.Hand

end
-- ==== Proof.KI.Half1.lean ====
/-
  Region 1's half of the frame, at the buffer contents V the region is entered from.

  The grid walks the eight batch blocks, and within a block the two height tiles.  At the first tile (case A) the
  body zero-fills the two accumulators and adds the tile's nine column sums into each; at the second tile (case B)
  it adds that tile's sums to what the first left and stores the output block from the two accumulators.  What the
  accumulators and the output's staging buffer hold after each point is defined by recursion on the point; between
  points the region's invariant holds the two accumulators at exactly those contents.
-/
import proofs.«122145_j70437463654548_2_alg».proof.Proof.Gen.KernelIdeal.Launch
import proofs.«122145_j70437463654548_2_alg».proof.Proof.Gen.KernelIdeal.Skeleton
import proofs.«122145_j70437463654548_2_alg».proof.Proof.Gen.KernelIdeal.Points
import proofs.«122145_j70437463654548_2_alg».proof.Proof.KI.Run1B
import proofs.«122145_j70437463654548_2_alg».proof.Proof.KI.Covers1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- What the first tile leaves in the first accumulator: its pieces read back. -/
def sout1_A_0 (c : Dev nD) (i : grid1.Coords) (arg2 : Memref sig .tc .vmem S8x16x16x512 .f32) (harg2 : arg2.IsWhole) (arg3 : Memref sig .tc .vmem S8x1x16x512 .f32) (harg3 : arg3.IsWhole) (arg4 : Memref sig .tc .vmem S8x16x16x512 .f32) (harg4 : arg4.IsWhole) (arg5 : Memref sig .tc .vmem S8x1x16x512 .f32) (harg5 : arg5.IsWhole) (arg6 : Memref sig .tc .vmem S8x1 .f32) (harg6 : arg6.IsWhole) (arg7 : Memref sig .tc .vmem S8x9 .f32) (harg7 : arg7.IsWhole) (arg8 : Memref sig .tc .vmem S8x9 .f32) (harg8 : arg8.IsWhole) (hc0 : cond1_0 i) (hc1 : ¬cond1_1 i) (x0 : Vec F S8x16x16x512 .f32) (x1 : Vec F S8x1x16x512 .f32) (x2 : Vec F S8x16x16x512 .f32) (x3 : Vec F S8x1x16x512 .f32) : Vec F S8x9 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3).1)
/-- What the first tile leaves in the second accumulator. -/
def sout1_A_1 (c : Dev nD) (i : grid1.Coords) (arg2 : Memref sig .tc .vmem S8x16x16x512 .f32) (harg2 : arg2.IsWhole) (arg3 : Memref sig .tc .vmem S8x1x16x512 .f32) (harg3 : arg3.IsWhole) (arg4 : Memref sig .tc .vmem S8x16x16x512 .f32) (harg4 : arg4.IsWhole) (arg5 : Memref sig .tc .vmem S8x1x16x512 .f32) (harg5 : arg5.IsWhole) (arg6 : Memref sig .tc .vmem S8x1 .f32) (harg6 : arg6.IsWhole) (arg7 : Memref sig .tc .vmem S8x9 .f32) (harg7 : arg7.IsWhole) (arg8 : Memref sig .tc .vmem S8x9 .f32) (harg8 : arg8.IsWhole) (hc0 : cond1_0 i) (hc1 : ¬cond1_1 i) (x0 : Vec F S8x16x16x512 .f32) (x1 : Vec F S8x1x16x512 .f32) (x2 : Vec F S8x16x16x512 .f32) (x3 : Vec F S8x1x16x512 .f32) : Vec F S8x9 .f32 :=
  VS1_1.read (Elt F) (VS1_1.writes (Elt F) VS1_1.junk (kernelRun1_A c i arg2 harg2 arg3 harg3 arg4 harg4 arg5 harg5 arg6 harg6 arg7 harg7 arg8 harg8 hc0 hc1 x0 x1 x2 x3).2.1)
/-- What the second tile leaves in the output's staging buffer. -/
def out1_B_4 (c : Dev nD) (i : grid1.Coords) (arg2 : Memref sig .tc .vmem S8x16x16x512 .f32) (harg2 : arg2.IsWhole) (arg3 : Memref sig .tc .vmem S8x1x16x512 .f32) (harg3 : arg3.IsWhole) (arg4 : Memref sig .tc .vmem S8x16x16x512 .f32) (harg4 : arg4.IsWhole) (arg5 : Memref sig .tc .vmem S8x1x16x512 .f32) (harg5 : arg5.IsWhole) (arg6 : Memref sig .tc .vmem S8x1 .f32) (harg6 : arg6.IsWhole) (arg7 : Memref sig .tc .vmem S8x9 .f32) (harg7 : arg7.IsWhole) (arg8 : Memref sig .tc .vmem S8x9 .f32) (harg8 : arg8.IsWhole) (hc0 : ¬cond1_0 i) (hc1 : cond1_1 i) (x0 : Vec F S8x16x16x512 .f32) (x1 : Vec F S8x1x16x512 .f32) (x2 : Vec F S8x16x16x512 .f32) (x3 : Vec F S8x1x16x512 .f32) (xs0 xs1 : Vec F S8x9 .f32) : Vec F S8x1 .f32 :=
  VO1_4.read (Elt F) (VO1_4.writes (Elt F) VO1_4.junk (kernelRun1_B c i arg2 harg2 arg3 harg3 arg4 harg4 arg5 harg5 arg6 harg6 arg7 harg7 arg8 harg8 hc0 hc1 x0 x1 x2 x3 xs0 xs1).1)
/-- What the second tile leaves in the first accumulator. -/
def sout1_B_0 (c : Dev nD) (i : grid1.Coords) (arg2 : Memref sig .tc .vmem S8x16x16x512 .f32) (harg2 : arg2.IsWhole) (arg3 : Memref sig .tc .vmem S8x1x16x512 .f32) (harg3 : arg3.IsWhole) (arg4 : Memref sig .tc .vmem S8x16x16x512 .f32) (harg4 : arg4.IsWhole) (arg5 : Memref sig .tc .vmem S8x1x16x512 .f32) (harg5 : arg5.IsWhole) (arg6 : Memref sig .tc .vmem S8x1 .f32) (harg6 : arg6.IsWhole) (arg7 : Memref sig .tc .vmem S8x9 .f32) (harg7 : arg7.IsWhole) (arg8 : Memref sig .tc .vmem S8x9 .f32) (harg8 : arg8.IsWhole) (hc0 : ¬cond1_0 i) (hc1 : cond1_1 i) (x0 : Vec F S8x16x16x512 .f32) (x1 : Vec F S8x1x16x512 .f32) (x2 : Vec F S8x16x16x512 .f32) (x3 : Vec F S8x1x16x512 .f32) (xs0 xs1 : Vec F S8x9 .f32) : Vec F S8x9 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 xs0 xs1).2.1)
/-- What the second tile leaves in the second accumulator. -/
def sout1_B_1 (c : Dev nD) (i : grid1.Coords) (arg2 : Memref sig .tc .vmem S8x16x16x512 .f32) (harg2 : arg2.IsWhole) (arg3 : Memref sig .tc .vmem S8x1x16x512 .f32) (harg3 : arg3.IsWhole) (arg4 : Memref sig .tc .vmem S8x16x16x512 .f32) (harg4 : arg4.IsWhole) (arg5 : Memref sig .tc .vmem S8x1x16x512 .f32) (harg5 : arg5.IsWhole) (arg6 : Memref sig .tc .vmem S8x1 .f32) (harg6 : arg6.IsWhole) (arg7 : Memref sig .tc .vmem S8x9 .f32) (harg7 : arg7.IsWhole) (arg8 : Memref sig .tc .vmem S8x9 .f32) (harg8 : arg8.IsWhole) (hc0 : ¬cond1_0 i) (hc1 : cond1_1 i) (x0 : Vec F S8x16x16x512 .f32) (x1 : Vec F S8x1x16x512 .f32) (x2 : Vec F S8x16x16x512 .f32) (x3 : Vec F S8x1x16x512 .f32) (xs0 xs1 : Vec F S8x9 .f32) : Vec F S8x9 .f32 :=
  VS1_1.read (Elt F) (VS1_1.writes (Elt F) VS1_1.junk (kernelRun1_B c i arg2 harg2 arg3 harg3 arg4 harg4 arg5 harg5 arg6 harg6 arg7 harg7 arg8 harg8 hc0 hc1 x0 x1 x2 x3 xs0 xs1).2.2.1)
/-- At the first tile nothing is stored into the output's buffer and the block is not written back: a placeholder that
    nothing consults. -/
def out1_A_4 : Vec F S8x1 .f32 := VO1_4.read (Elt F) VO1_4.junk

/-! ## What the buffers hold after each point -/

/-- After the body at position `n`: the output's staging buffer, then the two accumulators. -/
def outsAt1 (c : Dev nD) : (n : ℕ) → n < cfg1.N → Vec F S8x1 .f32 × Vec F S8x9 .f32 × Vec F S8x9 .f32
  | 0, hn => (out1_A_4,
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) (caseA1_of ⟨0, hn⟩ (Nat.zero_mod _)).1 (caseA1_of ⟨0, hn⟩ (Nat.zero_mod _)).2 (iblk1 V c 0 ⟨0, hn⟩) (iblk1 V c 1 ⟨0, hn⟩) (iblk1 V c 2 ⟨0, hn⟩) (iblk1 V c 3 ⟨0, hn⟩),
      sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) (caseA1_of ⟨0, hn⟩ (Nat.zero_mod _)).1 (caseA1_of ⟨0, hn⟩ (Nat.zero_mod _)).2 (iblk1 V c 0 ⟨0, hn⟩) (iblk1 V c 1 ⟨0, hn⟩) (iblk1 V c 2 ⟨0, hn⟩) (iblk1 V c 3 ⟨0, hn⟩))
  | n + 1, hn =>
    if h0 : (n + 1) % 2 = 0 then
      (out1_A_4,
        sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (caseA1_of ⟨n + 1, hn⟩ h0).1 (caseA1_of ⟨n + 1, hn⟩ h0).2 (iblk1 V c 0 ⟨n + 1, hn⟩) (iblk1 V c 1 ⟨n + 1, hn⟩) (iblk1 V c 2 ⟨n + 1, hn⟩) (iblk1 V c 3 ⟨n + 1, hn⟩),
        sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (caseA1_of ⟨n + 1, hn⟩ h0).1 (caseA1_of ⟨n + 1, hn⟩ h0).2 (iblk1 V c 0 ⟨n + 1, hn⟩) (iblk1 V c 1 ⟨n + 1, hn⟩) (iblk1 V c 2 ⟨n + 1, hn⟩) (iblk1 V c 3 ⟨n + 1, hn⟩))
    else
      (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (caseB1_of ⟨n + 1, hn⟩ (Nat.mod_two_ne_zero.mp h0)).1 (caseB1_of ⟨n + 1, hn⟩ (Nat.mod_two_ne_zero.mp h0)).2 (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2,
        sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (caseB1_of ⟨n + 1, hn⟩ (Nat.mod_two_ne_zero.mp h0)).1 (caseB1_of ⟨n + 1, hn⟩ (Nat.mod_two_ne_zero.mp h0)).2 (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2,
        sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (caseB1_of ⟨n + 1, hn⟩ (Nat.mod_two_ne_zero.mp h0)).1 (caseB1_of ⟨n + 1, hn⟩ (Nat.mod_two_ne_zero.mp h0)).2 (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2)

/-- At a first tile: that case's contents. -/
theorem outsAt1_A (c : Dev nD) (t : Fin cfg1.N) (h0 : t.val % 2 = 0) :
    outsAt1 V c t.val t.isLt = (out1_A_4,
      sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (caseA1_of t h0).1 (caseA1_of t h0).2 (iblk1 V c 0 t) (iblk1 V c 1 t) (iblk1 V c 2 t) (iblk1 V c 3 t),
      sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (caseA1_of t h0).1 (caseA1_of t h0).2 (iblk1 V c 0 t) (iblk1 V c 1 t) (iblk1 V c 2 t) (iblk1 V c 3 t)) := by
  obtain ⟨n, hn⟩ := t
  cases n with
  | zero => exact rfl
  | succ n => exact (dif_pos h0).trans rfl

/-- At a second tile: that case's contents, over what the point before left in the accumulators. -/
theorem outsAt1_B (c : Dev nD) (t : Fin cfg1.N) (h1 : t.val % 2 = 1) :
    outsAt1 V c t.val t.isLt = (
      out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (caseB1_of t h1).1 (caseB1_of t h1).2 (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2,
      sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (caseB1_of t h1).1 (caseB1_of t h1).2 (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2,
      sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (caseB1_of t h1).1 (caseB1_of t h1).2 (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by dsimp only at h1; omega)
  | succ n => exact (dif_neg (by dsimp only at h1; omega)).trans rfl

/-! ## The invariant between points -/

/-- The core's other scoped buffers (the other call's staging buffers and accumulators), each at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- Before position `n`: before the first point whatever the launch hands the region; afterwards the two accumulators at
    what the point before left in them, the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.1) ∗ owns (c : Thread nD τ) scM1_1 fullShare ((outsAt1 V c n hn).2.2) ∗ rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2.1) ∗ owns (c : Thread nD τ) scM1_1 fullShare ((outsAt1 V c n hn).2.2) ∗ rest1 c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2.1) ∗ owns (c : Thread nD τ) scM1_1 fullShare ((outsAt1 V c (n - 1) (by omega)).2.2) ∗ rest1 c) ∗ (∃ r, prngReg c r)) := by
  cases n with
  | zero => exact absurd rfl hz
  | succ n => rfl

/-- What the launch hands the region: the two accumulators as memrefs at some contents, the rest named. -/
theorem PhiA1_split (c : Dev nD) : (Pipeline.ΦA spec1 c : sProp 𝕄) ⊢ iprop(iprop((∃ d, owns (c : Thread nD τ) scM1_0 fullShare d) ∗ (∃ d, owns (c : Thread nD τ) scM1_1 fullShare d) ∗ rest1 c) ∗ (∃ r, prngReg c r)) := by
  rw [PhiA1_eq]
  unfold rest1
  iintro ⟨⟨H1, H2, H3, H4, H5, H6, H7, H8, H9, H10, H11, H12, HA, HB⟩, Hg⟩
  isplitr [Hg]; swap; · iexact Hg
  isplitl [HA]; · iexact HA
  isplitl [HB]; · iexact HB
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12
theorem PhiA1_join (c : Dev nD) : iprop(iprop((∃ d, owns (c : Thread nD τ) scM1_0 fullShare d) ∗ (∃ d, owns (c : Thread nD τ) scM1_1 fullShare d) ∗ rest1 c) ∗ (∃ r, prngReg c r)) ⊢ (Pipeline.ΦA spec1 c : sProp 𝕄) := by
  rw [PhiA1_eq]
  unfold rest1
  iintro ⟨⟨HA, HB, H1, H2, H3, H4, H5, H6, H7, H8, H9, H10, H11, H12⟩, Hg⟩
  isplitr [Hg]; swap; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HA]; · iexact HA
  iexact HB

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the point's parity says which case it is in; the
    invariant hands the body the accumulators (at anything at a first tile, at what the first tile left at a second)
    and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1
  rw [bodyAt1_eq]
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 2 = 0
  · -- a first tile
    rw [Dat.leavesExact_idle (dat1 V c) 4 t (idleAt1_4_A t (caseA1_of t h0).1 (caseA1_of t h0).2) (noFlush1_4_A t (caseA1_of t h0).1 (caseA1_of t h0).2)]
    rw [outsAt1_A V c t h0]
    unfold sout1_A_0 sout1_A_1; (try dsimp only)
    have hΦ : (dat1 V c).Φ t.castSucc ⊢ (iprop(iprop((∃ d, owns (c : Thread nD τ) scM1_0 fullShare d) ∗ (∃ d, owns (c : Thread nD τ) scM1_1 fullShare d) ∗ rest1 c) ∗ (∃ r, prngReg c r)) : sProp 𝕄) := by
      rw [PhiS1_castSucc V c t]
      by_cases hz : t.val = 0
      · rw [PhiS1_zero V c _ _ hz]; exact PhiA1_split c
      · rw [PhiS1_pos V c _ _ hz]
        iintro ⟨⟨HS0, HS1, Hr⟩, Hg⟩
        isplitl [HS0 HS1 Hr]
        · isplitl [HS0]; · iexists _; iexact HS0
          isplitl [HS1]; · iexists _; iexact HS1
          iexact Hr
        iexact Hg
    iintro ⟨HΦ, Ho, ⟨%d0, H0⟩, ⟨%d1, H1⟩, ⟨%d2, H2⟩, ⟨%d3, H3⟩, ⟨%d4, H4⟩⟩
    ihave HΦ' := hΦ $$ HΦ
    icases HΦ' with ⟨⟨HS0, HS1, Hr⟩, Hg⟩
    iapply ((kernelRun1_A c (grid1.coords t) _ _ _ _ _ _ _ _ _ _ _ _ _ _ (caseA1_of t h0).1 (caseA1_of t h0).2 (iblk1 V c 0 t) (iblk1 V c 1 t) (iblk1 V c 2 t) (iblk1 V c 3 t)).2.2 _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, ⟨%es0, HS0⟩, ⟨%es1, HS1⟩⟩
    isplitl [HS0 HS1 Hr Hg]
    · isplitl [HS0 HS1 Hr]
      · isplitl [HS0]
        · unfold owns; iexists _; isplitr
          swap; · iexact HS0
          ipureintro; exact View.read_writes_of_cover _ _ _ _ _ (scover1_A_0 c _ _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    iexists _; iexact H4
  · -- a second tile
    have h1 : t.val % 2 = 1 := by omega
    have hz : t.val ≠ 0 := by omega
    rw [show (dat1 V c).leavesExact 4 t = owns (c : Thread nD τ) (ms1_4 t) fullShare ((dat1 V c).after 4 t) from by
      unfold Dat.leavesExact; rw [liveAt1_4_B t (caseB1_of t h1).1 (caseB1_of t h1).2], after1_4]
    rw [outsAt1_B V c t h1]
    unfold out1_B_4 sout1_B_0 sout1_B_1; (try dsimp only)
    rw [PhiS1_castSucc V c t, PhiS1_pos V c _ _ hz]
    iintro ⟨⟨⟨HS0, HS1, Hr⟩, Hg⟩, Ho, ⟨%d0, H0⟩, ⟨%d1, H1⟩, ⟨%d2, H2⟩, ⟨%d3, H3⟩, ⟨%d4, H4⟩⟩
    iapply ((kernelRun1_B c (grid1.coords t) _ _ _ _ _ _ _ _ _ _ _ _ _ _ (caseB1_of t h1).1 (caseB1_of t h1).2 (iblk1 V c 0 t) (iblk1 V c 1 t) (iblk1 V c 2 t) (iblk1 V c 3 t) _ _).2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, ⟨%e4, H4⟩, ⟨%es0, HS0⟩, ⟨%es1, HS1⟩⟩
    isplitl [HS0 HS1 Hr Hg]
    · isplitl [HS0 HS1 Hr]
      · isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_B_4 c _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the same back: the accumulators' named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 16 := N_1; omega)]
  refine BIBase.Entails.trans ?_ (PhiA1_join c)
  iintro ⟨⟨HS0, HS1, Hr⟩, Hg⟩
  isplitl [HS0 HS1 Hr]
  · isplitl [HS0]; · iexists _; iexact HS0
    isplitl [HS1]; · iexists _; iexact HS1
    iexact Hr
  iexact Hg

end Cert.KernelIdeal.Hand

end
-- ==== Proof.KI.Regions.lean ====
/-
  The run of @main: host operations, the first kernel region, a reshape, the second kernel region, and the host
  tail, composed in order.  Between two items every unscoped buffer of the core is held at a known valuation:
  the launch memory, then each host stretch folded over it, then — after a region — the region's arrays at what
  its pipeline's write-backs leave and every other buffer as entered.  The final state is read back whole against
  the last valuation, so that both the frame (the arguments end as launched) and the value of the result buffer
  follow from it.
-/
import proofs.«122145_j70437463654548_2_alg».proof.Proof.Gen.KernelIdeal.Launch
import proofs.«122145_j70437463654548_2_alg».proof.Proof.Gen.KernelIdeal.Skeleton
import proofs.«122145_j70437463654548_2_alg».proof.Proof.Gen.KernelIdeal.Points
import proofs.«122145_j70437463654548_2_alg».proof.Proof.Gen.KernelIdeal.Regions
import proofs.«122145_j70437463654548_2_alg».proof.Proof.KI.Half0
import proofs.«122145_j70437463654548_2_alg».proof.Proof.KI.Half1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the three mask conversions (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the reshape of region 0's result (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the three stretches of the host tail. -/
abbrev W5 : Dev nD → Valuation τ sig (Elt F) := fun c => StableHlo.after hostOps2 (W4 m ρ c)
abbrev W6 : Dev nD → Valuation τ sig (Elt F) := fun c => StableHlo.after hostOps2_1 (W5 m ρ c)
abbrev W7 : Dev nD → Valuation τ sig (Elt F) := fun c => StableHlo.after hostOps2_2 (W6 m ρ c)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 over the thread state: entered from every unscoped buffer at `W1`, left at `W2`. Its arrays are
    split out of the unscoped buffers and put back at the exit contents; the generator register and the scoped rest
    go into the region's invariant and come back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are
    split out of the unscoped buffers and put back at the exit contents; the generator register and the scoped rest
    go into the region's invariant and come back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .host (hseg hostOps2_1 hostOps2_1_sub hostOps2_1_fresh (W5 m ρ)),
    .host (hseg hostOps2_2 hostOps2_2_sub hostOps2_2_fresh (W6 m ρ)) ]

theorem main_run (c : Dev nD) : main (F := F) c = Pipeline.Seg.run (segs m ρ) := (main_chain c).trans (by chain_rfl)

set_option backward.isDefEq.respectTransparency.types false in
/-- Every weakly fair execution of @main from memory `m` with zero counters terminates, nothing faulting, and the final
    memory holds every unscoped buffer of every core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.KernelIdeal.Hand

end
-- ==== Proof.KI.Args.lean ====
/-
  The frame: every argument array ends as launched.  The final memory holds every unscoped buffer at the last
  valuation of the run, and an argument's buffer is carried unchanged through every item: no host operation writes
  it, and a kernel region either reads it through an input window (whose array the pipeline never writes) or does
  not touch it.
-/
import proofs.«122145_j70437463654548_2_alg».proof.Proof.Gen.KernelIdeal.Launch
import proofs.«122145_j70437463654548_2_alg».proof.Proof.Gen.KernelIdeal.Skeleton
import proofs.«122145_j70437463654548_2_alg».proof.Proof.Gen.KernelIdeal.Points
import proofs.«122145_j70437463654548_2_alg».proof.Proof.KI.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- `main_arg0` ends as launched: no host operation writes it, and a region reads it through an input window or not at all. -/
theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps2_2 _ hostOps2_2_writes (by decide)
    _ = W5 m ρ c (Proc.devRef .tc main_arg0) := StableHlo.after_of_writes_sub hostOps2_1 _ hostOps2_1_writes (by decide)
    _ = W4 m ρ c (Proc.devRef .tc main_arg0) := StableHlo.after_of_writes_sub hostOps2 _ hostOps2_writes (by decide)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl

/-- `main_arg1` ends as launched: no host operation writes it, and a region reads it through an input window or not at all. -/
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps2_2 _ hostOps2_2_writes (by decide)
    _ = W5 m ρ c (Proc.devRef .tc main_arg1) := StableHlo.after_of_writes_sub hostOps2_1 _ hostOps2_1_writes (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := (W2_arr m ρ c 2).trans (((dat0 (V1 m ρ) c).arrAt_in 2 rfl _).trans (A_eq0 (V1 m ρ) c 2))
    _ = W0 m ρ c (Proc.devRef .tc main_arg1) := StableHlo.after_of_writes_sub hostOps0 _ hostOps0_writes (by decide)
    _ = m ((c : Thread nD τ).loc main_arg1) := rfl

/-- `main_arg2` ends as launched: no host operation writes it, and a region reads it through an input window or not at all. -/
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps2_2 _ hostOps2_2_writes (by decide)
    _ = W5 m ρ c (Proc.devRef .tc main_arg2) := StableHlo.after_of_writes_sub hostOps2_1 _ hostOps2_1_writes (by decide)
    _ = W4 m ρ c (Proc.devRef .tc main_arg2) := StableHlo.after_of_writes_sub hostOps2 _ hostOps2_writes (by decide)
    _ = W3 m ρ c (Proc.devRef .tc main_arg2) := (W4_arr m ρ c 2).trans (((dat1 (V3 m ρ) c).arrAt_in 2 rfl _).trans (A_eq1 (V3 m ρ) c 2))
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-- `main_arg3` ends as launched: no host operation writes it, and a region reads it through an input window or not at all. -/
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps2_2 _ hostOps2_2_writes (by decide)
    _ = W5 m ρ c (Proc.devRef .tc main_arg3) := StableHlo.after_of_writes_sub hostOps2_1 _ hostOps2_1_writes (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-- `main_arg4` ends as launched: no host operation writes it, and a region reads it through an input window or not at all. -/
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_writes_sub hostOps2_2 _ hostOps2_2_writes (by decide)
    _ = W5 m ρ c (Proc.devRef .tc main_arg4) := StableHlo.after_of_writes_sub hostOps2_1 _ hostOps2_1_writes (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

/-- `main_arg5` ends as launched: no host operation writes it, and a region reads it through an input window or not at all. -/
theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_writes_sub hostOps2_2 _ hostOps2_2_writes (by decide)
    _ = W5 m ρ c (Proc.devRef .tc main_arg5) := StableHlo.after_of_writes_sub hostOps2_1 _ hostOps2_1_writes (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

/-- The frame claim's post, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c)⟩) (run_all m ρ)

end Cert.KernelIdeal.Hand

end
-- ==== Proof.Spec.lean ====
/-
  The mathematics both programs compute, stated once over the argument arrays on the extended reals.

  For a pair of feature arrays f1, f2 : [64,16,32,512] and mask arrays m1, m2 : [64,1,32,512] of bits, and a
  shift i = 0..8 (offset i - 4 along the last axis, cyclic), the masked squared distance of batch row b is

      num i b = sum over (c,h,w) of ((f1[b,c,h,w] - f2[b,c,h,src i w]) * (m1[b,0,h,w] * m2[b,0,h,src i w]))^2
      cnt i b = sum over (h,w)   of  m1[b,0,h,w] * m2[b,0,h,src i w]
      dist i b = num i b / (16 * cnt i b + 0.001f)

  with src i w = (w + 4 - i) mod 512 (the element a cyclic roll by i - 4 brings to lane w), a mask bit read as
  the real 0 or 1.  The shift loss of row b is the minimum of dist i b over the nine shifts; the result is the
  mean over the 64 rows of max (loss(a,p) - loss(a,n) + 0.15f, 0).

  Multiplying by a 0/1 mask and selecting by it agree on every extended real (x * 0 = 0 and x * 1 = x hold at the
  infinities too), and the sums are sums in a commutative monoid, so no finiteness of the inputs is needed; the one
  law that needs real numbers is 16 * (s + t) = 16 * s + 16 * t for the two half-counts, which are real.
-/
import Idealize.ShloMosaic.PureOps.Ideal
import Idealize.ShloMosaic.Lib.ValueIdx

noncomputable section

namespace Cert.ShiftLoss

open Idealize.ShloMosaic ValueIdx

/-- A feature array [64,16,32,512] on the extended reals. -/
abbrev Feat : Type := (⟨4, ![64, 16, 32, 512]⟩ : Shape).Idx → EReal
/-- A mask array [64,1,32,512] of bits. -/
abbrev Mask : Type := (⟨4, ![64, 1, 32, 512]⟩ : Shape).Idx → BitVec 1
/-- A mask array already converted to 0/1 extended reals. -/
abbrev MaskF : Type := (⟨4, ![64, 1, 32, 512]⟩ : Shape).Idx → EReal

/-- The lane a cyclic roll by `i - 4` brings to lane `w`: `(w - (i - 4)) mod 512`. -/
def src (i : Fin 9) (w : Fin 512) : Fin 512 := ⟨(w.val + 516 - i.val) % 512, Nat.mod_lt _ (by decide)⟩

/-- A bit as the real 0 or 1. -/
def bit (b : BitVec 1) : EReal := ((b.toNat : ℝ) : EReal)

/-- A bit mask as a 0/1 array. -/
def maskF (m : Mask) : MaskF := fun j => bit (m j)

/-- The pair mask of shift `i` at `(b, h, w)`. -/
def pm (m1 m2 : MaskF) (i : Fin 9) (b : Fin 64) (h : Fin 32) (w : Fin 512) : EReal :=
  m1 (ix4 b 0 h w) * m2 (ix4 b 0 h (src i w))

/-- The masked difference of shift `i` at `(b, c, h, w)`, squared. -/
def term (f1 f2 : Feat) (m1 m2 : MaskF) (i : Fin 9) (b : Fin 64) (c : Fin 16) (h : Fin 32) (w : Fin 512) : EReal :=
  ((f1 (ix4 b c h w) - f2 (ix4 b c h (src i w))) * pm m1 m2 i b h w)
    * ((f1 (ix4 b c h w) - f2 (ix4 b c h (src i w))) * pm m1 m2 i b h w)

/-- The masked squared distance of row `b` at shift `i`. -/
def num (f1 f2 : Feat) (m1 m2 : MaskF) (i : Fin 9) (b : Fin 64) : EReal :=
  ∑ c : Fin 16, ∑ h : Fin 32, ∑ w : Fin 512, term f1 f2 m1 m2 i b c h w

/-- The number of unmasked positions of row `b` at shift `i`. -/
def cnt (m1 m2 : MaskF) (i : Fin 9) (b : Fin 64) : EReal :=
  ∑ h : Fin 32, ∑ w : Fin 512, pm m1 m2 i b h w

/-- The float 16.0. -/
def sixteen : EReal := Ideal.ofBits .f32 0x41800000#32
/-- The float nearest 0.001. -/
def eps : EReal := Ideal.ofBits .f32 0x3A83126F#32
/-- The float nearest 0.15. -/
def margin : EReal := Ideal.ofBits .f32 0x3E19999A#32
/-- The float 64.0. -/
def sixtyFour : EReal := Ideal.ofBits .f32 0x42800000#32
/-- The float 0.0. -/
def zero : EReal := Ideal.ofBits .f32 0x00000000#32

/-- The normalised distance of row `b` at shift `i`. -/
def dist (f1 f2 : Feat) (m1 m2 : MaskF) (i : Fin 9) (b : Fin 64) : EReal :=
  Ideal.div (num f1 f2 m1 m2 i b) (sixteen * cnt m1 m2 i b + eps)

/-- The shift loss of row `b`: the least normalised distance over the nine shifts. -/
def loss (f1 f2 : Feat) (m1 m2 : MaskF) (b : Fin 64) : EReal :=
  (Finset.univ : Finset (Fin 9)).inf fun i => dist f1 f2 m1 m2 i b

/-- The mean over the rows of the hinge of two per-row losses. -/
def total (La Ln : Fin 64 → EReal) : EReal :=
  Ideal.div (zero + ∑ b : Fin 64, max (La b - Ln b + margin) zero) sixtyFour

/-- The whole result, from the six argument arrays. -/
def result (a p n : Feat) (ma mp mn : Mask) : EReal :=
  total (loss a p (maskF ma) (maskF mp)) (loss a n (maskF ma) (maskF mn))

/-! ## The two half-height tiles

  The kernel walks the 32 rows of the height axis in two tiles of 16, adding each tile's sums into running
  totals; row `h'` of tile `g` is row `16 g + h'`. -/

/-- Row `h'` of tile `g`. -/
def hAt (g : Fin 2) (h' : Fin 16) : Fin 32 := ⟨16 * g.val + h'.val, by omega⟩

/-- Tile `g`'s share of `num`. -/
def numTile (f1 f2 : Feat) (m1 m2 : MaskF) (i : Fin 9) (b : Fin 64) (g : Fin 2) : EReal :=
  ∑ c : Fin 16, ∑ h' : Fin 16, ∑ w : Fin 512, term f1 f2 m1 m2 i b c (hAt g h') w

/-- Tile `g`'s share of `cnt`. -/
def cntTile (m1 m2 : MaskF) (i : Fin 9) (b : Fin 64) (g : Fin 2) : EReal :=
  ∑ h' : Fin 16, ∑ w : Fin 512, pm m1 m2 i b (hAt g h') w

/-! ## One block of the kernel's pipeline

  At a grid point the kernel holds blocks x0, x2 : [8,16,16,512] of the two feature arrays and x1, x3 : [8,1,16,512]
  of the two (converted) masks; row `b'` of the block contributes these sums at shift `i`. -/

/-- A feature block [8,16,16,512]. -/
abbrev FeatBlk : Type := (⟨4, ![8, 16, 16, 512]⟩ : Shape).Idx → EReal
/-- A mask block [8,1,16,512] of 0/1 extended reals. -/
abbrev MaskBlk : Type := (⟨4, ![8, 1, 16, 512]⟩ : Shape).Idx → EReal

/-- The block's pair mask of shift `i` at `(b', h', w)`. -/
def blockPm (x1 x3 : MaskBlk) (i : Fin 9) (b' : Fin 8) (h' : Fin 16) (w : Fin 512) : EReal :=
  x1 (ix4 b' 0 h' w) * x3 (ix4 b' 0 h' (src i w))

/-- The block's masked difference of shift `i` at `(b', c, h', w)`, squared. -/
def blockTerm (x0 x2 : FeatBlk) (x1 x3 : MaskBlk) (i : Fin 9) (b' : Fin 8) (c : Fin 16) (h' : Fin 16) (w : Fin 512) : EReal :=
  ((x0 (ix4 b' c h' w) - x2 (ix4 b' c h' (src i w))) * blockPm x1 x3 i b' h' w)
    * ((x0 (ix4 b' c h' w) - x2 (ix4 b' c h' (src i w))) * blockPm x1 x3 i b' h' w)

/-- Row `b'`'s masked squared distance within the block at shift `i`. -/
def blockNum (x0 x2 : FeatBlk) (x1 x3 : MaskBlk) (i : Fin 9) (b' : Fin 8) : EReal :=
  ∑ c : Fin 16, ∑ h' : Fin 16, ∑ w : Fin 512, blockTerm x0 x2 x1 x3 i b' c h' w

/-- Row `b'`'s unmasked count within the block at shift `i`. -/
def blockCnt (x1 x3 : MaskBlk) (i : Fin 9) (b' : Fin 8) : EReal :=
  ∑ h' : Fin 16, ∑ w : Fin 512, blockPm x1 x3 i b' h' w

/-- What the last tile's finishing step makes of the two accumulators [8,9] (column `i` for shift `i`): per row the
    least quotient `numAcc / (denAcc + 0.001f)` over the nine columns. -/
def finish (numAcc denAcc : (⟨2, ![8, 9]⟩ : Shape).Idx → EReal) (b' : Fin 8) : EReal :=
  (Finset.univ : Finset (Fin 9)).inf fun i => Ideal.div (numAcc (ix2 b' i)) (denAcc (ix2 b' i) + eps)

end Cert.ShiftLoss

end
-- ==== Proof.LibHostStages.lean ====
/-
  Two facts about a straight line of host operations, for any topology, buffer signature and element values.

  Running two lists of operations one after the other is running their concatenation (`after_append`): a long program can
  be read back stage by stage, each stage from ANY contents before it.

  An outlined function's intermediate values live in buffers typed through the call's record; a value is stored into
  such a buffer and read back through a change of type along the buffer's type equation, there and back. The round trip
  is the identity (`ofBuf_toBuf`): rewriting with it removes those changes of type in pairs, however deeply the function's
  operations nest them, before two spellings of the function's result are compared.
-/
import Idealize.ShloMosaic.Lib.StableHlo.Run

noncomputable section

namespace Cert.Lib.HostStages

open Idealize.ShloMosaic Idealize.ShloMosaic.StableHlo

variable {τ : Topo} {sig : RefSig} {Val : EltTy → Type}

/-- Running two lists of operations one after the other is running their concatenation. -/
theorem after_append (l₁ l₂ : List (HloOp τ sig Val)) :
    ∀ V : Valuation τ sig Val, after (l₁ ++ l₂) V = after l₂ (after l₁ V) := by
  induction l₁ with
  | nil => intro V; rfl
  | cons op l ih => intro V; exact ih (op.result V)

/-- A value stored in a typed buffer and read back is the value. -/
theorem ofBuf_toBuf {T : BufTy} (x : TRef sig T) (v : T.Contents Val) : x.ofBuf (x.toBuf v) = v := by
  obtain ⟨r, h, _, _⟩ := x
  subst h
  rfl

end Cert.Lib.HostStages

end
-- ==== Proof.KI.Tail.lean ====
/-
  The host tail after the two regions, read at the ideal instance: from the two per-row loss vectors it forms
  mean over the 64 rows of max (La - Ln + 0.15f, 0) — a reshape of the second region's [64,1] result to [64], a
  subtraction, the margin added, the rectifier, the sum from zero and the division by 64.
-/
import proofs.«122145_j70437463654548_2_alg».proof.Proof.Gen.KernelIdeal.Launch
import proofs.«122145_j70437463654548_2_alg».proof.Proof.Gen.KernelIdeal.Skeleton
import proofs.«122145_j70437463654548_2_alg».proof.Proof.Gen.KernelIdeal.Points
import proofs.«122145_j70437463654548_2_alg».proof.Proof.KI.Runs
import proofs.«122145_j70437463654548_2_alg».proof.Proof.Spec
import proofs.«122145_j70437463654548_2_alg».proof.Proof.LibHostStages
import Idealize.ShloMosaic.Lib.StableHlo.Run
import Idealize.ShloMosaic.Lib.ValueIdx
import Idealize.ShloMosaic.Lib.Pipeline.Value
import Idealize.ShloMosaic.Lib.IdealHost
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open ValueIdx

/-- A column [64,1] flattened to [64]: element p is row p. -/
theorem colVec (col : S64x1.Idx → EReal) (p : Fin 64) :
    shapeCast S64 col shapeCasts_S64x1_S64 (ix1 p) = col (ix2 p (0 : Fin 1)) := by
  refine shapeCast_apply col _ (ix1 p) (ix2 p (0 : Fin 1)) ?_
  rw [Shape.rowMajor_val_one, Shape.rowMajor_val_two]
  show p.val * 1 + 0 = p.val
  omega

/-- The indices of a [64] vector are the 64 positions. -/
def idx1 : Fin 64 ≃ S64.Idx where
  toFun := ix1
  invFun j := j 0
  left_inv _ := rfl
  right_inv j := (eq_ix1 j).symm

theorem tail_value (X : Valuation τ sig (Elt Ideal)) : StableHlo.after hostOps2_2 (StableHlo.after hostOps2_1 (StableHlo.after hostOps2 X)) (Proc.devRef .tc main_v12)
    = fun _ => Cert.ShiftLoss.total (fun b => X (Proc.devRef .tc main_v4) (ix1 b)) (fun b => X (Proc.devRef .tc main_v5) (ix2 b (0 : Fin 1))) := by
  after_results
  simp only [Cert.Lib.HostStages.ofBuf_toBuf]
  funext i
  rw [hostDivf_apply, hostReduceAdd_apply, Ideal.hostReduceAdd_total reducesTo_S64_S_d0 (fun b => b.elim0)]
  unfold Cert.ShiftLoss.total
  refine congrArg₂ Ideal.div (congrArg₂ (· + ·) rfl ?_) rfl
  refine (Fintype.sum_equiv idx1 _ _ fun k => ?_).symm
  refine congrArg₂ max (congrArg₂ (· + ·) (congrArg₂ (· - ·) rfl ?_) rfl) rfl
  exact (colVec _ k).symm

end Cert.KernelIdeal.Hand

end
-- ==== Proof.KI.Blocks0.lean ====
/-
  Region 0's blocks read at an index: element (b', ch, h', w) of a window's block at grid point t — batch block
  t / 2, height tile t % 2 — is the window's array at (8 (t / 2) + b', ch, 16 (t % 2) + h', w).
-/
import proofs.«122145_j70437463654548_2_alg».proof.Proof.Gen.KernelIdeal.Launch
import proofs.«122145_j70437463654548_2_alg».proof.Proof.Gen.KernelIdeal.Skeleton
import proofs.«122145_j70437463654548_2_alg».proof.Proof.Gen.KernelIdeal.Points
import proofs.«122145_j70437463654548_2_alg».proof.Proof.KI.Half0
import Idealize.ShloMosaic.Lib.ValueIdx
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open ValueIdx

variable (V : (c : Dev nD) → (b : Ref sig .tc) → Buf (Elt F) ((c : Thread nD τ).loc b))

/-- Where the four input windows' blocks and the output's sit at point `t`. -/
theorem idx_in0 : ∀ t : Fin cfg0.N,
    (win0_0.index t 0 = t.val / 2 ∧ win0_0.index t 1 = 0 ∧ win0_0.index t 2 = t.val % 2 ∧ win0_0.index t 3 = 0)
    ∧ (win0_1.index t 0 = t.val / 2 ∧ win0_1.index t 1 = 0 ∧ win0_1.index t 2 = t.val % 2 ∧ win0_1.index t 3 = 0)
    ∧ (win0_2.index t 0 = t.val / 2 ∧ win0_2.index t 1 = 0 ∧ win0_2.index t 2 = t.val % 2 ∧ win0_2.index t 3 = 0)
    ∧ (win0_3.index t 0 = t.val / 2 ∧ win0_3.index t 1 = 0 ∧ win0_3.index t 2 = t.val % 2 ∧ win0_3.index t 3 = 0)
    ∧ (win0_4.index t 0 = t.val / 2 ∧ win0_4.index t 1 = 0) :=
  (by decide +kernel : ∀ t : Fin grid0.N, _)

/-- Row `8 g + b'` of the batch axis. -/
def bAt0 (g : ℕ) (hg : g < 8) (b' : Fin 8) : Fin 64 := ⟨8 * g + b'.val, by omega⟩
/-- Row `16 g + h'` of the height axis. -/
def hRow0 (g : ℕ) (hg : g < 2) (h' : Fin 16) : Fin 32 := ⟨16 * g + h'.val, by omega⟩

theorem tdiv0 (t : Fin cfg0.N) : t.val / 2 < 8 := by have : t.val < 16 := lt_of_lt_of_eq t.isLt (show cfg0.N = 16 from N_0); omega

theorem iblk0_0_apply (c : Dev nD) (t : Fin cfg0.N) (b' : Fin 8) (ch : Fin 16) (h' : Fin 16) (w : Fin 512) :
    iblk0 V c 0 t (ix4 b' ch h' w) = V c (Pipeline.arrRef spec0 0) (ix4 (bAt0 (t.val / 2) (tdiv0 t) b') ch (hRow0 (t.val % 2) (Nat.mod_lt _ (by decide)) h') w) := by
  obtain ⟨⟨i0, i1, i2, i3⟩, -⟩ := idx_in0 t
  unfold iblk0
  rw [View.read_apply]
  refine congrArg (V c (Pipeline.arrRef spec0 0)) (funext fun a => Fin.ext ?_)
  match a with
  | ⟨0, _⟩ => show win0_0.index t 0 * 8 + 1 * b'.val = 8 * (t.val / 2) + b'.val; rw [i0]; omega
  | ⟨1, _⟩ => show win0_0.index t 1 * 16 + 1 * ch.val = ch.val; rw [i1]; omega
  | ⟨2, _⟩ => show win0_0.index t 2 * 16 + 1 * h'.val = 16 * (t.val % 2) + h'.val; rw [i2]; omega
  | ⟨3, _⟩ => show win0_0.index t 3 * 512 + 1 * w.val = w.val; rw [i3]; omega

theorem iblk0_1_apply (c : Dev nD) (t : Fin cfg0.N) (b' : Fin 8)  (h' : Fin 16) (w : Fin 512) :
    iblk0 V c 1 t (ix4 b' (0 : Fin 1) h' w) = V c (Pipeline.arrRef spec0 1) (ix4 (bAt0 (t.val / 2) (tdiv0 t) b') (0 : Fin 1) (hRow0 (t.val % 2) (Nat.mod_lt _ (by decide)) h') w) := by
  obtain ⟨-, ⟨i0, i1, i2, i3⟩, -⟩ := idx_in0 t
  unfold iblk0
  rw [View.read_apply]
  refine congrArg (V c (Pipeline.arrRef spec0 1)) (funext fun a => Fin.ext ?_)
  match a with
  | ⟨0, _⟩ => show win0_1.index t 0 * 8 + 1 * b'.val = 8 * (t.val / 2) + b'.val; rw [i0]; omega
  | ⟨1, _⟩ => show win0_1.index t 1 * 1 + 1 * 0 = 0; rw [i1]
  | ⟨2, _⟩ => show win0_1.index t 2 * 16 + 1 * h'.val = 16 * (t.val % 2) + h'.val; rw [i2]; omega
  | ⟨3, _⟩ => show win0_1.index t 3 * 512 + 1 * w.val = w.val; rw [i3]; omega

theorem iblk0_2_apply (c : Dev nD) (t : Fin cfg0.N) (b' : Fin 8) (ch : Fin 16) (h' : Fin 16) (w : Fin 512) :
    iblk0 V c 2 t (ix4 b' ch h' w) = V c (Pipeline.arrRef spec0 2) (ix4 (bAt0 (t.val / 2) (tdiv0 t) b') ch (hRow0 (t.val % 2) (Nat.mod_lt _ (by decide)) h') w) := by
  obtain ⟨-, -, ⟨i0, i1, i2, i3⟩, -⟩ := idx_in0 t
  unfold iblk0
  rw [View.read_apply]
  refine congrArg (V c (Pipeline.arrRef spec0 2)) (funext fun a => Fin.ext ?_)
  match a with
  | ⟨0, _⟩ => show win0_2.index t 0 * 8 + 1 * b'.val = 8 * (t.val / 2) + b'.val; rw [i0]; omega
  | ⟨1, _⟩ => show win0_2.index t 1 * 16 + 1 * ch.val = ch.val; rw [i1]; omega
  | ⟨2, _⟩ => show win0_2.index t 2 * 16 + 1 * h'.val = 16 * (t.val % 2) + h'.val; rw [i2]; omega
  | ⟨3, _⟩ => show win0_2.index t 3 * 512 + 1 * w.val = w.val; rw [i3]; omega

theorem iblk0_3_apply (c : Dev nD) (t : Fin cfg0.N) (b' : Fin 8)  (h' : Fin 16) (w : Fin 512) :
    iblk0 V c 3 t (ix4 b' (0 : Fin 1) h' w) = V c (Pipeline.arrRef spec0 3) (ix4 (bAt0 (t.val / 2) (tdiv0 t) b') (0 : Fin 1) (hRow0 (t.val % 2) (Nat.mod_lt _ (by decide)) h') w) := by
  obtain ⟨-, -, -, ⟨i0, i1, i2, i3⟩, -⟩ := idx_in0 t
  unfold iblk0
  rw [View.read_apply]
  refine congrArg (V c (Pipeline.arrRef spec0 3)) (funext fun a => Fin.ext ?_)
  match a with
  | ⟨0, _⟩ => show win0_3.index t 0 * 8 + 1 * b'.val = 8 * (t.val / 2) + b'.val; rw [i0]; omega
  | ⟨1, _⟩ => show win0_3.index t 1 * 1 + 1 * 0 = 0; rw [i1]
  | ⟨2, _⟩ => show win0_3.index t 2 * 16 + 1 * h'.val = 16 * (t.val % 2) + h'.val; rw [i2]; omega
  | ⟨3, _⟩ => show win0_3.index t 3 * 512 + 1 * w.val = w.val; rw [i3]; omega

end Cert.KernelIdeal.Hand

end
-- ==== Proof.SpecLaws.lean ====
/-
  Laws of the shared mathematics: the sums over the 32 rows of the height axis split into the two tiles of 16,
  and the quotient formed from the two tiles' running totals is the normalised distance.  The one step that is
  not a law of a commutative monoid is 16 * (s + t) = 16 * s + 16 * t, which holds because the two half-counts
  are sums of products of non-negative numbers.
-/
import proofs.«122145_j70437463654548_2_alg».proof.Proof.Spec
import Mathlib.Data.EReal.Operations
import Idealize.ShloMosaic.PureOps.Ideal.Laws

noncomputable section

namespace Cert.ShiftLoss

open Idealize.ShloMosaic ValueIdx

/-- A sum over the 32 rows is the first tile's sum plus the second's. -/
theorem sum_rows (f : Fin 32 → EReal) : ∑ h : Fin 32, f h = (∑ h' : Fin 16, f (hAt 0 h')) + ∑ h' : Fin 16, f (hAt 1 h') := by
  have e : ∑ h : Fin 32, f h = ∑ p : Fin 2 × Fin 16, f (hAt p.1 p.2) := by
    refine (Fintype.sum_equiv (finProdFinEquiv (m := 2) (n := 16)) (fun p => f (hAt p.1 p.2)) f fun p => ?_).symm
    refine congrArg f (Fin.ext ?_)
    show 16 * p.1.val + p.2.val = p.2.val + 16 * p.1.val
    omega
  rw [e, Fintype.sum_prod_type, Fin.sum_univ_two]

theorem cnt_split (m1 m2 : MaskF) (i : Fin 9) (b : Fin 64) :
    cnt m1 m2 i b = cntTile m1 m2 i b 0 + cntTile m1 m2 i b 1 := by
  unfold cnt cntTile
  exact sum_rows fun h => ∑ w : Fin 512, pm m1 m2 i b h w

theorem num_split (f1 f2 : Feat) (m1 m2 : MaskF) (i : Fin 9) (b : Fin 64) :
    num f1 f2 m1 m2 i b = numTile f1 f2 m1 m2 i b 0 + numTile f1 f2 m1 m2 i b 1 := by
  unfold num numTile
  rw [← Finset.sum_add_distrib]
  exact Finset.sum_congr rfl fun c _ => sum_rows fun h => ∑ w : Fin 512, term f1 f2 m1 m2 i b c h w

theorem cntTile_nonneg (m1 m2 : MaskF) (h1 : ∀ j, 0 ≤ m1 j) (h2 : ∀ j, 0 ≤ m2 j) (i : Fin 9) (b : Fin 64) (g : Fin 2) :
    0 ≤ cntTile m1 m2 i b g :=
  Finset.sum_nonneg fun _ _ => Finset.sum_nonneg fun _ _ => mul_nonneg (h1 _) (h2 _)

theorem zero_eq : zero = 0 := Ideal.ofBits_zero_f32

/-- The quotient of the running totals after the two tiles is the normalised distance. -/
theorem dist_of_tiles (f1 f2 : Feat) (m1 m2 : MaskF) (h1 : ∀ j, 0 ≤ m1 j) (h2 : ∀ j, 0 ≤ m2 j) (i : Fin 9) (b : Fin 64) :
    Ideal.div ((zero + numTile f1 f2 m1 m2 i b 0) + numTile f1 f2 m1 m2 i b 1)
        (((zero + sixteen * cntTile m1 m2 i b 0) + sixteen * cntTile m1 m2 i b 1) + eps)
      = dist f1 f2 m1 m2 i b := by
  unfold dist
  rw [zero_eq, zero_add, zero_add, ← num_split, cnt_split,
    EReal.left_distrib_of_nonneg (cntTile_nonneg m1 m2 h1 h2 i b 0) (cntTile_nonneg m1 m2 h1 h2 i b 1)]

theorem bit_nonneg (b : BitVec 1) : 0 ≤ bit b := by
  unfold bit; exact_mod_cast Nat.cast_nonneg _

end Cert.ShiftLoss

end
-- ==== Proof.KV.Ops.lean ====
/-
  The vector operations of the kernel body that are not pointwise, each read at ONE index, at the ideal values
  (a float an extended real).  A cyclic rotation along the 512 lanes reads a source lane; the broadcast of a
  [8,1,16,512] array along the unit axis reads the operand at coordinate 0 of that axis; a chain of one-axis sums
  followed by the cast [8] → [8,1] reads as an iterated sum over the coordinates; a one-axis minimum from +∞ reads as the
  infimum over that axis's coordinates.
-/
import Idealize.ShloMosaic.PureOps.Ideal.Laws
import Idealize.ShloMosaic.Lib.ValueIdx
import Idealize.ShloMosaic.Lib.Pipeline.Value
import proofs.«122145_j70437463654548_2_alg».proof.Proof.Spec

noncomputable section

namespace Cert.KernelIdeal.PayValue

open Idealize.ShloMosaic ValueIdx

/-! ## The shapes -/

/-- A feature block. -/
abbrev SF : Shape := ⟨4, ![8, 16, 16, 512]⟩
/-- A mask block. -/
abbrev SM : Shape := ⟨4, ![8, 1, 16, 512]⟩
/-- A feature block summed over the lanes. -/
abbrev SF3 : Shape := ⟨3, ![8, 16, 16]⟩
/-- … and over the rows. -/
abbrev SF2 : Shape := ⟨2, ![8, 16]⟩
/-- A mask block summed over the lanes. -/
abbrev SM3 : Shape := ⟨3, ![8, 1, 16]⟩
/-- One value per batch row. -/
abbrev S1 : Shape := ⟨1, ![8]⟩
/-- One value per batch row, as a column. -/
abbrev SC : Shape := ⟨2, ![8, 1]⟩
/-- The accumulators: one column per shift. -/
abbrev SA : Shape := ⟨2, ![8, 9]⟩

/-! ## A cyclic rotation along the lanes -/

/-- The lane a rotation by `n` along an axis of 512 lanes brings to lane `w`: `(w - n) mod 512`. -/
def rotSrc (n : BitVec 32) (w : Fin 512) : Fin 512 :=
  ⟨(w.val + 512 - n.toNat % 512) % 512, Nat.mod_lt _ (by decide)⟩

/-- A rotation of a feature block along the lanes, read at an index. -/
theorem dynamicRotate_feat_apply {α : Type} (n : BitVec 32) (x : SF.Idx → α) (hr : SF.Rotates 3 none)
    (b' : Fin 8) (c : Fin 16) (h' : Fin 16) (w : Fin 512) :
    dynamicRotate 3 n none x hr (ix4 b' c h' w) = x (ix4 b' c h' (rotSrc n w)) := by
  unfold dynamicRotate
  refine congrArg x (funext fun e => Fin.ext ?_)
  match e with
  | ⟨0, _⟩ => rfl
  | ⟨1, _⟩ => rfl
  | ⟨2, _⟩ => rfl
  | ⟨3, _⟩ => rfl

/-- A rotation of a mask block along the lanes, read at an index. -/
theorem dynamicRotate_mask_apply {α : Type} (n : BitVec 32) (x : SM.Idx → α) (hr : SM.Rotates 3 none)
    (b' : Fin 8) (u : Fin 1) (h' : Fin 16) (w : Fin 512) :
    dynamicRotate 3 n none x hr (ix4 b' u h' w) = x (ix4 b' u h' (rotSrc n w)) := by
  unfold dynamicRotate
  refine congrArg x (funext fun e => Fin.ext ?_)
  match e with
  | ⟨0, _⟩ => rfl
  | ⟨1, _⟩ => rfl
  | ⟨2, _⟩ => rfl
  | ⟨3, _⟩ => rfl

/-- For each of the nine shifts the rotation amount `(i - 4) mod 512` reads the lane `src i`. -/
theorem rotSrc_508 (w : Fin 512) : rotSrc 508#32 w = Cert.ShiftLoss.src 0 w := Fin.ext (by
  show (w.val + 512 - 508 % 512) % 512 = (w.val + 516 - 0) % 512; omega)
theorem rotSrc_509 (w : Fin 512) : rotSrc 509#32 w = Cert.ShiftLoss.src 1 w := Fin.ext (by
  show (w.val + 512 - 509 % 512) % 512 = (w.val + 516 - 1) % 512; omega)
theorem rotSrc_510 (w : Fin 512) : rotSrc 510#32 w = Cert.ShiftLoss.src 2 w := Fin.ext (by
  show (w.val + 512 - 510 % 512) % 512 = (w.val + 516 - 2) % 512; omega)
theorem rotSrc_511 (w : Fin 512) : rotSrc 511#32 w = Cert.ShiftLoss.src 3 w := Fin.ext (by
  show (w.val + 512 - 511 % 512) % 512 = (w.val + 516 - 3) % 512; omega)
theorem rotSrc_0 (w : Fin 512) : rotSrc 0#32 w = Cert.ShiftLoss.src 4 w := Fin.ext (by
  show (w.val + 512 - 0 % 512) % 512 = (w.val + 516 - 4) % 512; omega)
theorem rotSrc_1 (w : Fin 512) : rotSrc 1#32 w = Cert.ShiftLoss.src 5 w := Fin.ext (by
  show (w.val + 512 - 1 % 512) % 512 = (w.val + 516 - 5) % 512; omega)
theorem rotSrc_2 (w : Fin 512) : rotSrc 2#32 w = Cert.ShiftLoss.src 6 w := Fin.ext (by
  show (w.val + 512 - 2 % 512) % 512 = (w.val + 516 - 6) % 512; omega)
theorem rotSrc_3 (w : Fin 512) : rotSrc 3#32 w = Cert.ShiftLoss.src 7 w := Fin.ext (by
  show (w.val + 512 - 3 % 512) % 512 = (w.val + 516 - 7) % 512; omega)
theorem rotSrc_4 (w : Fin 512) : rotSrc 4#32 w = Cert.ShiftLoss.src 8 w := Fin.ext (by
  show (w.val + 512 - 4 % 512) % 512 = (w.val + 516 - 8) % 512; omega)

/-! ## The broadcast along the unit axis -/

/-- A mask block broadcast over the 16 channels reads the operand at channel coordinate 0. -/
theorem broadcastTo_mask_apply {α : Type} (m : SM.Idx → α) (hb : SM.Broadcasts SF)
    (b' : Fin 8) (c : Fin 16) (h' : Fin 16) (w : Fin 512) :
    broadcastTo SF m hb (ix4 b' c h' w) = m (ix4 b' (0 : Fin 1) h' w) :=
  broadcastTo_apply m hb (ix4 b' c h' w) (ix4 b' (0 : Fin 1) h' w) fun a =>
    match a with
    | ⟨0, _⟩ => rfl
    | ⟨1, _⟩ => rfl
    | ⟨2, _⟩ => rfl
    | ⟨3, _⟩ => rfl

/-! ## The cast of a vector to a column -/

/-- An `[8]` vector cast to `[8, 1]` reads, at `(b', 0)`, the operand at `b'`. -/
theorem shapeCast_col_apply {α : Type} (x : S1.Idx → α) (h : S1.ShapeCasts SC) (b' : Fin 8) (u : Fin 1) :
    shapeCast SC x h (ix2 b' u) = x (ix1 b') :=
  shapeCast_apply x h _ _ (by
    have hu : u.val = 0 := by omega
    rw [Shape.rowMajor_val_two, Shape.rowMajor_val_one]
    show b'.val = b'.val * 1 + u.val
    rw [hu, Nat.mul_one, Nat.add_zero])

/-! ## Chains of one-axis sums -/

/-- Three chained one-axis sums of a feature block (lanes, then rows, then channels), each from the zero word, followed
    by the cast to a column: at `(b', 0)` the triple sum over channels, rows and lanes. -/
theorem sum3_apply (x : FVec Ideal SF .f32) (h3 : SF.Reduces [3] SF3) (h2 : SF3.Reduces [2] SF2) (h1 : SF2.Reduces [1] S1)
    (hc : S1.ShapeCasts SC) (hφ : FKind.Formats .f32)
    (ha3 ha2 ha1 : (0x00000000#32 : BitVec 32) = FKind.add.neutral .f32 hφ) (b' : Fin 8) (u : Fin 1) :
    shapeCast SC (multiReduction .add [1] S1 (multiReduction .add [2] SF2 (multiReduction .add [3] SF3 x 0x00000000#32 h3 hφ ha3)
      0x00000000#32 h2 hφ ha2) 0x00000000#32 h1 hφ ha1) hc (ix2 b' u)
      = ∑ c : Fin 16, ∑ h' : Fin 16, ∑ w : Fin 512, x (ix4 b' c h' w) := by
  refine (shapeCast_col_apply _ hc b' u).trans ?_
  refine (Ideal.multiReduction_add_single _ _ h1 hφ ha1 (ix1 b')).trans ?_
  refine Finset.sum_congr rfl fun c _ => ?_
  refine (Ideal.multiReduction_add_single _ _ h2 hφ ha2 _).trans ?_
  refine Finset.sum_congr rfl fun h' _ => ?_
  refine (Ideal.multiReduction_add_single _ _ h3 hφ ha3 _).trans ?_
  refine Finset.sum_congr rfl fun w _ => congrArg x (funext fun e => Fin.ext ?_)
  match e with
  | ⟨0, _⟩ => rfl
  | ⟨1, _⟩ => rfl
  | ⟨2, _⟩ => rfl
  | ⟨3, _⟩ => rfl

/-- Two chained one-axis sums of a mask block (lanes, then rows), each from the zero word: at `(b', 0)` the double sum
    over rows and lanes. -/
theorem sum2_apply (x : FVec Ideal SM .f32) (h3 : SM.Reduces [3] SM3) (h2 : SM3.Reduces [2] SC)
    (hφ : FKind.Formats .f32) (ha3 ha2 : (0x00000000#32 : BitVec 32) = FKind.add.neutral .f32 hφ) (b' : Fin 8) (u : Fin 1) :
    multiReduction .add [2] SC (multiReduction .add [3] SM3 x 0x00000000#32 h3 hφ ha3) 0x00000000#32 h2 hφ ha2 (ix2 b' u)
      = ∑ h' : Fin 16, ∑ w : Fin 512, x (ix4 b' (0 : Fin 1) h' w) := by
  refine (Ideal.multiReduction_add_single _ _ h2 hφ ha2 (ix2 b' u)).trans ?_
  refine Finset.sum_congr rfl fun h' _ => ?_
  refine (Ideal.multiReduction_add_single _ _ h3 hφ ha3 _).trans ?_
  refine Finset.sum_congr rfl fun w _ => congrArg x (funext fun e => Fin.ext ?_)
  have hu : u.val = 0 := by omega
  match e with
  | ⟨0, _⟩ => rfl
  | ⟨1, _⟩ => exact hu
  | ⟨2, _⟩ => rfl
  | ⟨3, _⟩ => rfl

/-! ## A one-axis minimum from +∞ -/

/-- The word `0x7F800000` is +∞. -/
theorem ofBits_inf_f32 : Ideal.ofBits .f32 0x7F800000#32 = ⊤ := by
  simp [Ideal.ofBits, Ideal.ieee]

/-- On the extended reals the fold of `min` from `⊤` over a finite set is the infimum over it. -/
theorem fold_min_top_eq_inf {ι : Type} (s : Finset ι) (f : ι → EReal) : s.fold min ⊤ f = s.inf f := by
  classical
  induction s using Finset.induction_on with
  | empty => rfl
  | insert a s ha ih =>
    rw [Finset.fold_insert ha, Finset.inf_insert, ih]

/-- The minimum over the nine columns of an accumulator-shaped array, from +∞: at `b'` the infimum over the columns. -/
theorem min9_apply (x : FVec Ideal SA .f32) (h : SA.Reduces [1] S1) (hφ : FKind.Formats .f32)
    (ha : (0x7F800000#32 : BitVec 32) = FKind.minimumf.neutral .f32 hφ) (b' : Fin 8) :
    multiReduction .minimumf [1] S1 x 0x7F800000#32 h hφ ha (ix1 b')
      = (Finset.univ : Finset (Fin 9)).inf fun i => x (ix2 b' i) := by
  classical
  refine (multiReduction_minimumf_eq_fold x _ h hφ ha (ix1 b')).trans ?_
  refine (h.fold_filter_drop_single _ _ x (ix1 b')).trans ?_
  show (Finset.univ : Finset (Fin 9)).fold min (Ideal.ofBits .f32 0x7F800000#32) (x ∘ h.lift (ix1 b')) = _
  rw [ofBits_inf_f32]
  refine (fold_min_top_eq_inf _ _).trans ?_
  refine Finset.inf_congr rfl fun i _ => congrArg x (funext fun e => Fin.ext ?_)
  match e with
  | ⟨0, _⟩ => rfl
  | ⟨1, _⟩ => rfl

end Cert.KernelIdeal.PayValue

end
-- ==== Proof.KV.Body.lean ====
/-
  The arithmetic of one shift of the kernel body, over an arbitrary rotation amount `n`: the pair mask
  `m1 · roll(m2)`, the masked difference `(f1 − roll(f2)) · mask`, its square summed over channels, rows and lanes,
  and sixteen times the mask summed over rows and lanes.  Read at row `b'` these are the block sums of the shift whose
  source lane the rotation by `n` reads.
-/
import proofs.«122145_j70437463654548_2_alg».proof.Proof.KV.Ops

noncomputable section

namespace Cert.KernelIdeal.PayValue

open Idealize.ShloMosaic ValueIdx

/-- The pair mask as the body computes it: the first mask times the second one rotated by `n` along the lanes. -/
def pairMask (n : BitVec 32) (x1 x3 : FVec Ideal SM .f32) : FVec Ideal SM .f32 :=
  mulf (shapeCast SM x1) (dynamicRotate 3 n none (shapeCast SM x3))

/-- The masked difference: the first feature block minus the second one rotated by `n`, times the pair mask broadcast
    over the channels. -/
def maskedDiff (n : BitVec 32) (x0 x2 : FVec Ideal SF .f32) (x1 x3 : FVec Ideal SM .f32) : FVec Ideal SF .f32 :=
  mulf (subf x0 (dynamicRotate 3 n none x2)) (broadcastTo SF (pairMask n x1 x3))

/-- The squared masked difference summed over lanes, rows and channels, as a column. -/
def numTerm (n : BitVec 32) (x0 x2 : FVec Ideal SF .f32) (x1 x3 : FVec Ideal SM .f32) : FVec Ideal SC .f32 :=
  shapeCast SC (multiReduction .add [1] S1 (multiReduction .add [2] SF2 (multiReduction .add [3] SF3
    (mulf (maskedDiff n x0 x2 x1 x3) (maskedDiff n x0 x2 x1 x3)) 0x00000000#32) 0x00000000#32) 0x00000000#32)

/-- Sixteen times the pair mask summed over lanes and rows. -/
def denTerm (n : BitVec 32) (x1 x3 : FVec Ideal SM .f32) : FVec Ideal SC .f32 :=
  mulf (broadcast SC (Scalar.ofBits (F := Ideal) .f32 0x41800000#32))
    (multiReduction .add [2] SC (multiReduction .add [3] SM3 (pairMask n x1 x3) 0x00000000#32) 0x00000000#32)

/-- The pair mask at `(b', 0, h', w)`: the first mask there times the second at the source lane. -/
theorem pairMask_apply (n : BitVec 32) (x1 x3 : FVec Ideal SM .f32) (b' : Fin 8) (h' : Fin 16) (w : Fin 512) :
    pairMask n x1 x3 (ix4 b' (0 : Fin 1) h' w)
      = x1 (ix4 b' (0 : Fin 1) h' w) * x3 (ix4 b' (0 : Fin 1) h' (rotSrc n w)) := by
  unfold pairMask
  refine congrArg₂ (· * ·) (congrFun (shapeCast_self x1 _) _) ?_
  exact (dynamicRotate_mask_apply n _ _ b' 0 h' w).trans (congrFun (shapeCast_self x3 _) _)

/-- The masked difference at `(b', c, h', w)`. -/
theorem maskedDiff_apply (n : BitVec 32) (x0 x2 : FVec Ideal SF .f32) (x1 x3 : FVec Ideal SM .f32)
    (b' : Fin 8) (c : Fin 16) (h' : Fin 16) (w : Fin 512) :
    maskedDiff n x0 x2 x1 x3 (ix4 b' c h' w)
      = (x0 (ix4 b' c h' w) - x2 (ix4 b' c h' (rotSrc n w)))
          * (x1 (ix4 b' (0 : Fin 1) h' w) * x3 (ix4 b' (0 : Fin 1) h' (rotSrc n w))) := by
  unfold maskedDiff
  refine congrArg₂ (· * ·) (congrArg (x0 (ix4 b' c h' w) - ·) (dynamicRotate_feat_apply n x2 _ b' c h' w)) ?_
  exact (broadcastTo_mask_apply _ _ b' c h' w).trans (pairMask_apply n x1 x3 b' h' w)

/-- When the rotation by `n` reads the source lane of shift `i`, the summed squares at row `b'` are the block's masked
    squared distance at that shift. -/
theorem numTerm_apply (n : BitVec 32) (i : Fin 9) (hn : ∀ w, rotSrc n w = Cert.ShiftLoss.src i w)
    (x0 x2 : FVec Ideal SF .f32) (x1 x3 : FVec Ideal SM .f32) (b' : Fin 8) (u : Fin 1) :
    numTerm n x0 x2 x1 x3 (ix2 b' u) = Cert.ShiftLoss.blockNum x0 x2 x1 x3 i b' := by
  unfold numTerm
  refine (sum3_apply _ _ _ _ _ _ _ _ _ b' u).trans ?_
  unfold Cert.ShiftLoss.blockNum
  refine Finset.sum_congr rfl fun c _ => Finset.sum_congr rfl fun h' _ => Finset.sum_congr rfl fun w _ => ?_
  have hD := maskedDiff_apply n x0 x2 x1 x3 b' c h' w
  rw [hn w] at hD
  exact congrArg₂ (· * ·) hD hD

/-- Likewise sixteen times the summed mask at row `b'` is sixteen times the block's unmasked count at that shift. -/
theorem denTerm_apply (n : BitVec 32) (i : Fin 9) (hn : ∀ w, rotSrc n w = Cert.ShiftLoss.src i w)
    (x1 x3 : FVec Ideal SM .f32) (b' : Fin 8) (u : Fin 1) :
    denTerm n x1 x3 (ix2 b' u) = Cert.ShiftLoss.sixteen * Cert.ShiftLoss.blockCnt x1 x3 i b' := by
  unfold denTerm
  refine congrArg (Cert.ShiftLoss.sixteen * ·) ?_
  refine (sum2_apply _ _ _ _ _ _ b' u).trans ?_
  unfold Cert.ShiftLoss.blockCnt
  refine Finset.sum_congr rfl fun h' _ => Finset.sum_congr rfl fun w _ => ?_
  have hP := pairMask_apply n x1 x3 b' h' w
  rw [hn w] at hP
  exact hP

/-- What is stored back into the numerator accumulator's column: the column loaded plus the block's masked squared
    distance. -/
theorem numStore_apply (n : BitVec 32) (i : Fin 9) (hn : ∀ w, rotSrc n w = Cert.ShiftLoss.src i w)
    (x0 x2 : FVec Ideal SF .f32) (x1 x3 : FVec Ideal SM .f32) (col : FVec Ideal SC .f32) (hc : SC.ShapeCasts SC)
    (b' : Fin 8) (u : Fin 1) :
    shapeCast SC (addf col (numTerm n x0 x2 x1 x3)) hc (ix2 b' u)
      = col (ix2 b' u) + Cert.ShiftLoss.blockNum x0 x2 x1 x3 i b' :=
  (congrFun (shapeCast_self _ hc) _).trans (congrArg (col (ix2 b' u) + ·) (numTerm_apply n i hn x0 x2 x1 x3 b' u))

/-- What is stored back into the denominator accumulator's column: the column loaded plus sixteen times the block's
    unmasked count. -/
theorem denStore_apply (n : BitVec 32) (i : Fin 9) (hn : ∀ w, rotSrc n w = Cert.ShiftLoss.src i w)
    (x1 x3 : FVec Ideal SM .f32) (col : FVec Ideal SC .f32) (hc : SC.ShapeCasts SC) (b' : Fin 8) (u : Fin 1) :
    shapeCast SC (addf col (denTerm n x1 x3)) hc (ix2 b' u)
      = col (ix2 b' u) + Cert.ShiftLoss.sixteen * Cert.ShiftLoss.blockCnt x1 x3 i b' :=
  (congrFun (shapeCast_self _ hc) _).trans (congrArg (col (ix2 b' u) + ·) (denTerm_apply n i hn x1 x3 b' u))

end Cert.KernelIdeal.PayValue

end
-- ==== Proof.KV.Num.lean ====
/-
  The value each shift stores into its column of the numerator accumulator, for both kernels: the column loaded plus the
  block's masked squared distance at that shift.  Each is the statement over an arbitrary rotation amount, at the
  amount the body uses for the shift.
-/
import proofs.«122145_j70437463654548_2_alg».proof.Proof.Gen.KernelIdeal.Skeleton
import proofs.«122145_j70437463654548_2_alg».proof.Proof.KV.Body

noncomputable section

namespace Cert.KernelIdeal.PayValue

open Idealize.ShloMosaic ValueIdx Cert.KernelIdeal Cert.KernelIdeal.Gen

variable (v3 v6 : Vec Ideal S8x16x16x512 .f32) (v4 v7 : Vec Ideal S8x1x16x512 .f32) (col : Vec Ideal S8x1 .f32)
  (b' : Fin 8)

/-! ## The first kernel -/

/-- Shift 0 (rotation by 508): the value stored into column 0 of the numerator accumulator. -/
theorem k0_num0 :
    k0_pay9 (F := Ideal) (k0_pay8 v3 v4 v6 v7 col) (ix2 b' (0 : Fin 1))
      = col (ix2 b' (0 : Fin 1)) + Cert.ShiftLoss.blockNum v3 v6 v4 v7 0 b' :=
  numStore_apply 508#32 0 rotSrc_508 v3 v6 v4 v7 col _ b' 0

/-- Shift 1 (rotation by 509): the value stored into column 1 of the numerator accumulator. -/
theorem k0_num1 :
    k0_pay12 (F := Ideal) v3 (k0_pay4 v4) v6 (k0_pay5 v7) col (ix2 b' (0 : Fin 1))
      = col (ix2 b' (0 : Fin 1)) + Cert.ShiftLoss.blockNum v3 v6 v4 v7 1 b' :=
  numStore_apply 509#32 1 rotSrc_509 v3 v6 v4 v7 col _ b' 0

/-- Shift 2 (rotation by 510): the value stored into column 2 of the numerator accumulator. -/
theorem k0_num2 :
    k0_pay17 (F := Ideal) v3 (k0_pay4 v4) (k0_pay14 v6) (k0_pay15 (k0_pay5 v7)) col (ix2 b' (0 : Fin 1))
      = col (ix2 b' (0 : Fin 1)) + Cert.ShiftLoss.blockNum v3 v6 v4 v7 2 b' :=
  numStore_apply 510#32 2 rotSrc_510 v3 v6 v4 v7 col _ b' 0

/-- Shift 3 (rotation by 511): the value stored into column 3 of the numerator accumulator. -/
theorem k0_num3 :
    k0_pay22 (F := Ideal) (k0_pay20 v3 (k0_pay4 v4) v6 (k0_pay5 v7)) col (ix2 b' (0 : Fin 1))
      = col (ix2 b' (0 : Fin 1)) + Cert.ShiftLoss.blockNum v3 v6 v4 v7 3 b' :=
  numStore_apply 511#32 3 rotSrc_511 v3 v6 v4 v7 col _ b' 0

/-- Shift 4 (rotation by 0): the value stored into column 4 of the numerator accumulator. -/
theorem k0_num4 :
    k0_pay25 (F := Ideal) v3 (k0_pay4 v4) v6 (k0_pay5 v7) col (ix2 b' (0 : Fin 1))
      = col (ix2 b' (0 : Fin 1)) + Cert.ShiftLoss.blockNum v3 v6 v4 v7 4 b' :=
  numStore_apply 0#32 4 rotSrc_0 v3 v6 v4 v7 col _ b' 0

/-- Shift 5 (rotation by 1): the value stored into column 5 of the numerator accumulator. -/
theorem k0_num5 :
    k0_pay29 (F := Ideal) v3 (k0_pay4 v4) v6 (k0_pay5 v7) col (ix2 b' (0 : Fin 1))
      = col (ix2 b' (0 : Fin 1)) + Cert.ShiftLoss.blockNum v3 v6 v4 v7 5 b' :=
  numStore_apply 1#32 5 rotSrc_1 v3 v6 v4 v7 col _ b' 0

/-- Shift 6 (rotation by 2): the value stored into column 6 of the numerator accumulator. -/
theorem k0_num6 :
    k0_pay33 (F := Ideal) (k0_pay32 v3 (k0_pay4 v4) v6 (k0_pay5 v7)) col (ix2 b' (0 : Fin 1))
      = col (ix2 b' (0 : Fin 1)) + Cert.ShiftLoss.blockNum v3 v6 v4 v7 6 b' :=
  numStore_apply 2#32 6 rotSrc_2 v3 v6 v4 v7 col _ b' 0

/-- Shift 7 (rotation by 3): the value stored into column 7 of the numerator accumulator. -/
theorem k0_num7 :
    k0_pay38 (F := Ideal) (k0_pay37 v3 (k0_pay4 v4) v6 (k0_pay5 v7) col) (ix2 b' (0 : Fin 1))
      = col (ix2 b' (0 : Fin 1)) + Cert.ShiftLoss.blockNum v3 v6 v4 v7 7 b' :=
  numStore_apply 3#32 7 rotSrc_3 v3 v6 v4 v7 col _ b' 0

/-- Shift 8 (rotation by 4): the value stored into column 8 of the numerator accumulator. -/
theorem k0_num8 :
    k0_pay41 (F := Ideal) v3 (k0_pay4 v4) v6 (k0_pay5 v7) col (ix2 b' (0 : Fin 1))
      = col (ix2 b' (0 : Fin 1)) + Cert.ShiftLoss.blockNum v3 v6 v4 v7 8 b' :=
  numStore_apply 4#32 8 rotSrc_4 v3 v6 v4 v7 col _ b' 0

/-! ## The second kernel -/

/-- Shift 0 (rotation by 508): the value stored into column 0 of the numerator accumulator. -/
theorem k1_num0 :
    k1_pay9 (F := Ideal) (k1_pay8 v3 v4 v6 v7 col) (ix2 b' (0 : Fin 1))
      = col (ix2 b' (0 : Fin 1)) + Cert.ShiftLoss.blockNum v3 v6 v4 v7 0 b' :=
  numStore_apply 508#32 0 rotSrc_508 v3 v6 v4 v7 col _ b' 0

/-- Shift 1 (rotation by 509): the value stored into column 1 of the numerator accumulator. -/
theorem k1_num1 :
    k1_pay12 (F := Ideal) v3 (k1_pay4 v4) v6 (k1_pay5 v7) col (ix2 b' (0 : Fin 1))
      = col (ix2 b' (0 : Fin 1)) + Cert.ShiftLoss.blockNum v3 v6 v4 v7 1 b' :=
  numStore_apply 509#32 1 rotSrc_509 v3 v6 v4 v7 col _ b' 0

/-- Shift 2 (rotation by 510): the value stored into column 2 of the numerator accumulator. -/
theorem k1_num2 :
    k1_pay17 (F := Ideal) v3 (k1_pay4 v4) (k1_pay14 v6) (k1_pay15 (k1_pay5 v7)) col (ix2 b' (0 : Fin 1))
      = col (ix2 b' (0 : Fin 1)) + Cert.ShiftLoss.blockNum v3 v6 v4 v7 2 b' :=
  numStore_apply 510#32 2 rotSrc_510 v3 v6 v4 v7 col _ b' 0

/-- Shift 3 (rotation by 511): the value stored into column 3 of the numerator accumulator. -/
theorem k1_num3 :
    k1_pay22 (F := Ideal) (k1_pay20 v3 (k1_pay4 v4) v6 (k1_pay5 v7)) col (ix2 b' (0 : Fin 1))
      = col (ix2 b' (0 : Fin 1)) + Cert.ShiftLoss.blockNum v3 v6 v4 v7 3 b' :=
  numStore_apply 511#32 3 rotSrc_511 v3 v6 v4 v7 col _ b' 0

/-- Shift 4 (rotation by 0): the value stored into column 4 of the numerator accumulator. -/
theorem k1_num4 :
    k1_pay25 (F := Ideal) v3 (k1_pay4 v4) v6 (k1_pay5 v7) col (ix2 b' (0 : Fin 1))
      = col (ix2 b' (0 : Fin 1)) + Cert.ShiftLoss.blockNum v3 v6 v4 v7 4 b' :=
  numStore_apply 0#32 4 rotSrc_0 v3 v6 v4 v7 col _ b' 0

/-- Shift 5 (rotation by 1): the value stored into column 5 of the numerator accumulator. -/
theorem k1_num5 :
    k1_pay29 (F := Ideal) v3 (k1_pay4 v4) v6 (k1_pay5 v7) col (ix2 b' (0 : Fin 1))
      = col (ix2 b' (0 : Fin 1)) + Cert.ShiftLoss.blockNum v3 v6 v4 v7 5 b' :=
  numStore_apply 1#32 5 rotSrc_1 v3 v6 v4 v7 col _ b' 0

/-- Shift 6 (rotation by 2): the value stored into column 6 of the numerator accumulator. -/
theorem k1_num6 :
    k1_pay33 (F := Ideal) (k1_pay32 v3 (k1_pay4 v4) v6 (k1_pay5 v7)) col (ix2 b' (0 : Fin 1))
      = col (ix2 b' (0 : Fin 1)) + Cert.ShiftLoss.blockNum v3 v6 v4 v7 6 b' :=
  numStore_apply 2#32 6 rotSrc_2 v3 v6 v4 v7 col _ b' 0

/-- Shift 7 (rotation by 3): the value stored into column 7 of the numerator accumulator. -/
theorem k1_num7 :
    k1_pay38 (F := Ideal) (k1_pay37 v3 (k1_pay4 v4) v6 (k1_pay5 v7) col) (ix2 b' (0 : Fin 1))
      = col (ix2 b' (0 : Fin 1)) + Cert.ShiftLoss.blockNum v3 v6 v4 v7 7 b' :=
  numStore_apply 3#32 7 rotSrc_3 v3 v6 v4 v7 col _ b' 0

/-- Shift 8 (rotation by 4): the value stored into column 8 of the numerator accumulator. -/
theorem k1_num8 :
    k1_pay41 (F := Ideal) v3 (k1_pay4 v4) v6 (k1_pay5 v7) col (ix2 b' (0 : Fin 1))
      = col (ix2 b' (0 : Fin 1)) + Cert.ShiftLoss.blockNum v3 v6 v4 v7 8 b' :=
  numStore_apply 4#32 8 rotSrc_4 v3 v6 v4 v7 col _ b' 0

end Cert.KernelIdeal.PayValue

end
-- ==== Proof.KV.Den.lean ====
/-
  The value each shift stores into its column of the denominator accumulator, for both kernels: the column loaded plus
  sixteen times the block's unmasked count at that shift.  Each is the statement over an arbitrary rotation
  amount, at the amount the body uses for the shift.
-/
import proofs.«122145_j70437463654548_2_alg».proof.Proof.Gen.KernelIdeal.Skeleton
import proofs.«122145_j70437463654548_2_alg».proof.Proof.KV.Body

noncomputable section

namespace Cert.KernelIdeal.PayValue

open Idealize.ShloMosaic ValueIdx Cert.KernelIdeal Cert.KernelIdeal.Gen

variable (v3 v6 : Vec Ideal S8x16x16x512 .f32) (v4 v7 : Vec Ideal S8x1x16x512 .f32) (col : Vec Ideal S8x1 .f32)
  (b' : Fin 8)

/-! ## The first kernel -/

/-- Shift 0 (rotation by 508): the value stored into column 0 of the denominator accumulator. -/
theorem k0_den0 :
    k0_pay10 (F := Ideal) (k0_pay7 v4 v7) col (ix2 b' (0 : Fin 1))
      = col (ix2 b' (0 : Fin 1)) + Cert.ShiftLoss.sixteen * Cert.ShiftLoss.blockCnt v4 v7 0 b' :=
  denStore_apply 508#32 0 rotSrc_508 v4 v7 col _ b' 0

/-- Shift 1 (rotation by 509): the value stored into column 1 of the denominator accumulator. -/
theorem k0_den1 :
    k0_pay13 (F := Ideal) (k0_pay4 v4) (k0_pay5 v7) col (ix2 b' (0 : Fin 1))
      = col (ix2 b' (0 : Fin 1)) + Cert.ShiftLoss.sixteen * Cert.ShiftLoss.blockCnt v4 v7 1 b' :=
  denStore_apply 509#32 1 rotSrc_509 v4 v7 col _ b' 0

/-- Shift 2 (rotation by 510): the value stored into column 2 of the denominator accumulator. -/
theorem k0_den2 :
    k0_pay18 (F := Ideal) (k0_pay4 v4) (k0_pay15 (k0_pay5 v7)) col (ix2 b' (0 : Fin 1))
      = col (ix2 b' (0 : Fin 1)) + Cert.ShiftLoss.sixteen * Cert.ShiftLoss.blockCnt v4 v7 2 b' :=
  denStore_apply 510#32 2 rotSrc_510 v4 v7 col _ b' 0

/-- Shift 3 (rotation by 511): the value stored into column 3 of the denominator accumulator. -/
theorem k0_den3 :
    k0_pay23 (F := Ideal) (k0_pay21 (k0_pay4 v4) (k0_pay5 v7)) (Scalar.ofBits .f32 0x41800000#32) col (ix2 b' (0 : Fin 1))
      = col (ix2 b' (0 : Fin 1)) + Cert.ShiftLoss.sixteen * Cert.ShiftLoss.blockCnt v4 v7 3 b' :=
  denStore_apply 511#32 3 rotSrc_511 v4 v7 col _ b' 0

/-- Shift 4 (rotation by 0): the value stored into column 4 of the denominator accumulator. -/
theorem k0_den4 :
    k0_pay27 (F := Ideal) (k0_pay26 (k0_pay4 v4) (k0_pay5 v7) col) (ix2 b' (0 : Fin 1))
      = col (ix2 b' (0 : Fin 1)) + Cert.ShiftLoss.sixteen * Cert.ShiftLoss.blockCnt v4 v7 4 b' :=
  denStore_apply 0#32 4 rotSrc_0 v4 v7 col _ b' 0

/-- Shift 5 (rotation by 1): the value stored into column 5 of the denominator accumulator. -/
theorem k0_den5 :
    k0_pay30 (F := Ideal) (k0_pay4 v4) (k0_pay5 v7) col (ix2 b' (0 : Fin 1))
      = col (ix2 b' (0 : Fin 1)) + Cert.ShiftLoss.sixteen * Cert.ShiftLoss.blockCnt v4 v7 5 b' :=
  denStore_apply 1#32 5 rotSrc_1 v4 v7 col _ b' 0

/-- Shift 6 (rotation by 2): the value stored into column 6 of the denominator accumulator. -/
theorem k0_den6 :
    k0_pay34 (F := Ideal) (k0_pay31 (k0_pay4 v4) (k0_pay5 v7)) col (ix2 b' (0 : Fin 1))
      = col (ix2 b' (0 : Fin 1)) + Cert.ShiftLoss.sixteen * Cert.ShiftLoss.blockCnt v4 v7 6 b' :=
  denStore_apply 2#32 6 rotSrc_2 v4 v7 col _ b' 0

/-- Shift 7 (rotation by 3): the value stored into column 7 of the denominator accumulator. -/
theorem k0_den7 :
    k0_pay39 (F := Ideal) (k0_pay36 (k0_pay4 v4) (k0_pay5 v7)) col (ix2 b' (0 : Fin 1))
      = col (ix2 b' (0 : Fin 1)) + Cert.ShiftLoss.sixteen * Cert.ShiftLoss.blockCnt v4 v7 7 b' :=
  denStore_apply 3#32 7 rotSrc_3 v4 v7 col _ b' 0

/-- Shift 8 (rotation by 4): the value stored into column 8 of the denominator accumulator. -/
theorem k0_den8 :
    k0_pay42 (F := Ideal) (k0_pay4 v4) (k0_pay5 v7) col (ix2 b' (0 : Fin 1))
      = col (ix2 b' (0 : Fin 1)) + Cert.ShiftLoss.sixteen * Cert.ShiftLoss.blockCnt v4 v7 8 b' :=
  denStore_apply 4#32 8 rotSrc_4 v4 v7 col _ b' 0

/-! ## The second kernel -/

/-- Shift 0 (rotation by 508): the value stored into column 0 of the denominator accumulator. -/
theorem k1_den0 :
    k1_pay10 (F := Ideal) (k1_pay7 v4 v7) col (ix2 b' (0 : Fin 1))
      = col (ix2 b' (0 : Fin 1)) + Cert.ShiftLoss.sixteen * Cert.ShiftLoss.blockCnt v4 v7 0 b' :=
  denStore_apply 508#32 0 rotSrc_508 v4 v7 col _ b' 0

/-- Shift 1 (rotation by 509): the value stored into column 1 of the denominator accumulator. -/
theorem k1_den1 :
    k1_pay13 (F := Ideal) (k1_pay4 v4) (k1_pay5 v7) col (ix2 b' (0 : Fin 1))
      = col (ix2 b' (0 : Fin 1)) + Cert.ShiftLoss.sixteen * Cert.ShiftLoss.blockCnt v4 v7 1 b' :=
  denStore_apply 509#32 1 rotSrc_509 v4 v7 col _ b' 0

/-- Shift 2 (rotation by 510): the value stored into column 2 of the denominator accumulator. -/
theorem k1_den2 :
    k1_pay18 (F := Ideal) (k1_pay4 v4) (k1_pay15 (k1_pay5 v7)) col (ix2 b' (0 : Fin 1))
      = col (ix2 b' (0 : Fin 1)) + Cert.ShiftLoss.sixteen * Cert.ShiftLoss.blockCnt v4 v7 2 b' :=
  denStore_apply 510#32 2 rotSrc_510 v4 v7 col _ b' 0

/-- Shift 3 (rotation by 511): the value stored into column 3 of the denominator accumulator. -/
theorem k1_den3 :
    k1_pay23 (F := Ideal) (k1_pay21 (k1_pay4 v4) (k1_pay5 v7)) (Scalar.ofBits .f32 0x41800000#32) col (ix2 b' (0 : Fin 1))
      = col (ix2 b' (0 : Fin 1)) + Cert.ShiftLoss.sixteen * Cert.ShiftLoss.blockCnt v4 v7 3 b' :=
  denStore_apply 511#32 3 rotSrc_511 v4 v7 col _ b' 0

/-- Shift 4 (rotation by 0): the value stored into column 4 of the denominator accumulator. -/
theorem k1_den4 :
    k1_pay27 (F := Ideal) (k1_pay26 (k1_pay4 v4) (k1_pay5 v7) col) (ix2 b' (0 : Fin 1))
      = col (ix2 b' (0 : Fin 1)) + Cert.ShiftLoss.sixteen * Cert.ShiftLoss.blockCnt v4 v7 4 b' :=
  denStore_apply 0#32 4 rotSrc_0 v4 v7 col _ b' 0

/-- Shift 5 (rotation by 1): the value stored into column 5 of the denominator accumulator. -/
theorem k1_den5 :
    k1_pay30 (F := Ideal) (k1_pay4 v4) (k1_pay5 v7) col (ix2 b' (0 : Fin 1))
      = col (ix2 b' (0 : Fin 1)) + Cert.ShiftLoss.sixteen * Cert.ShiftLoss.blockCnt v4 v7 5 b' :=
  denStore_apply 1#32 5 rotSrc_1 v4 v7 col _ b' 0

/-- Shift 6 (rotation by 2): the value stored into column 6 of the denominator accumulator. -/
theorem k1_den6 :
    k1_pay34 (F := Ideal) (k1_pay31 (k1_pay4 v4) (k1_pay5 v7)) col (ix2 b' (0 : Fin 1))
      = col (ix2 b' (0 : Fin 1)) + Cert.ShiftLoss.sixteen * Cert.ShiftLoss.blockCnt v4 v7 6 b' :=
  denStore_apply 2#32 6 rotSrc_2 v4 v7 col _ b' 0

/-- Shift 7 (rotation by 3): the value stored into column 7 of the denominator accumulator. -/
theorem k1_den7 :
    k1_pay39 (F := Ideal) (k1_pay36 (k1_pay4 v4) (k1_pay5 v7)) col (ix2 b' (0 : Fin 1))
      = col (ix2 b' (0 : Fin 1)) + Cert.ShiftLoss.sixteen * Cert.ShiftLoss.blockCnt v4 v7 7 b' :=
  denStore_apply 3#32 7 rotSrc_3 v4 v7 col _ b' 0

/-- Shift 8 (rotation by 4): the value stored into column 8 of the denominator accumulator. -/
theorem k1_den8 :
    k1_pay42 (F := Ideal) (k1_pay4 v4) (k1_pay5 v7) col (ix2 b' (0 : Fin 1))
      = col (ix2 b' (0 : Fin 1)) + Cert.ShiftLoss.sixteen * Cert.ShiftLoss.blockCnt v4 v7 8 b' :=
  denStore_apply 4#32 8 rotSrc_4 v4 v7 col _ b' 0

end Cert.KernelIdeal.PayValue

end
-- ==== Proof.KV.Finish.lean ====
/-
  The finishing step of the last tile and the zero fill of the first, for both kernels.  The finishing step divides the
  numerator accumulator by the denominator accumulator plus 0.001f, column by column, and takes per row the minimum over the
  nine columns from +∞: per row the least quotient.  The zero fill stores the float 0.0 everywhere.
-/
import proofs.«122145_j70437463654548_2_alg».proof.Proof.Gen.KernelIdeal.Skeleton
import proofs.«122145_j70437463654548_2_alg».proof.Proof.KV.Ops

noncomputable section

namespace Cert.KernelIdeal.PayValue

open Idealize.ShloMosaic ValueIdx Cert.KernelIdeal Cert.KernelIdeal.Gen

/-- The quotient of two accumulator-shaped arrays, the second shifted by 0.001f, minimised over the nine columns from +∞
    and cast to a column: at row `b'` the least of the nine quotients. -/
theorem finish_apply (a d : FVec Ideal SA .f32) (h : SA.Reduces [1] S1) (hφ : FKind.Formats .f32)
    (ha : (0x7F800000#32 : BitVec 32) = FKind.minimumf.neutral .f32 hφ) (hc : S1.ShapeCasts SC) (b' : Fin 8) (u : Fin 1) :
    shapeCast SC (multiReduction .minimumf [1] S1
        (divf a (addf d (broadcast SA (Scalar.ofBits (F := Ideal) .f32 0x3A83126F#32)))) 0x7F800000#32 h hφ ha) hc (ix2 b' u)
      = Cert.ShiftLoss.finish a d b' := by
  refine (shapeCast_col_apply _ hc b' u).trans ?_
  refine (min9_apply _ h hφ ha b').trans ?_
  unfold Cert.ShiftLoss.finish
  exact Finset.inf_congr rfl fun i _ => rfl

/-- The splat of the zero word, cast to its own shape, reads the float 0.0 everywhere. -/
theorem zeroFill_apply (hc : SA.ShapeCasts SA) (j : SA.Idx) :
    shapeCast SA (broadcast SA (Scalar.ofBits (F := Ideal) .f32 0x00000000#32)) hc j = Cert.ShiftLoss.zero :=
  congrFun (shapeCast_self (broadcast SA (Scalar.ofBits (F := Ideal) .f32 0x00000000#32)) hc) j

variable (v237 v238 : Vec Ideal S8x9 .f32) (b' : Fin 8) (j : S8x9.Idx)

/-! ## The first kernel -/

/-- What the output window gets under the last tile: per row the least quotient of the two accumulators. -/
theorem k0_finish : k0_pay1 (F := Ideal) v237 v238 (ix2 b' (0 : Fin 1)) = Cert.ShiftLoss.finish v237 v238 b' :=
  finish_apply v237 v238 _ _ _ _ b' 0

/-- The numerator accumulator's zero fill. -/
theorem k0_zeroNum : k0_pay2 (F := Ideal) j = Cert.ShiftLoss.zero := zeroFill_apply _ j

/-- The denominator accumulator's zero fill. -/
theorem k0_zeroDen : k0_pay3 (F := Ideal) j = Cert.ShiftLoss.zero := zeroFill_apply _ j

/-! ## The second kernel -/

/-- What the output window gets under the last tile: per row the least quotient of the two accumulators. -/
theorem k1_finish : k1_pay1 (F := Ideal) v237 v238 (ix2 b' (0 : Fin 1)) = Cert.ShiftLoss.finish v237 v238 b' :=
  finish_apply v237 v238 _ _ _ _ b' 0

/-- The numerator accumulator's zero fill. -/
theorem k1_zeroNum : k1_pay2 (F := Ideal) j = Cert.ShiftLoss.zero := zeroFill_apply _ j

/-- The denominator accumulator's zero fill. -/
theorem k1_zeroDen : k1_pay3 (F := Ideal) j = Cert.ShiftLoss.zero := zeroFill_apply _ j

end Cert.KernelIdeal.PayValue

end
-- ==== Proof.KV.Cols.lean ====
/-
  An [8,9] buffer written one [8,1] column at a time.  The canonical contents a list of stores leaves (the payload of the
  newest store that holds the index) are read here column by column: a store into column `j` decides column `j` and
  leaves every other column as the earlier stores left it.  A load of column `j` reads that column of whatever the buffer
  holds: the canonical contents of the stores made so far, or the contents the buffer was handed over with.
-/
import Idealize.ShloMosaic.Lib.Pipeline.Value
import proofs.«122145_j70437463654548_2_alg».proof.Proof.KV.Ops

noncomputable section

namespace Cert.KernelIdeal.PayValue

open Idealize.ShloMosaic ValueIdx

variable {sig : RefSig} {κ : Kind} {sp : Space}

/-- A store into the accumulator shape: a rectangle and the payload over it. -/
abbrev AccPiece : Type := View.Piece (Elt Ideal) SA .f32

/-- The zero offsets of rank two and four, spelt as the constant function. -/
theorem off2_zero : (![0, 0] : Fin 2 → Nat) = fun _ => 0 := funext fun a => by fin_cases a <;> rfl
theorem off4_zero : (![0, 0, 0, 0] : Fin 4 → Nat) = fun _ => 0 := funext fun a => by fin_cases a <;> rfl

/-- Row `b'` of the column rectangle at column `j` is the buffer's index `(b', j)`. -/
theorem col_emb (off : Fin 2 → Nat) (j : Fin 9) (hoff : off = ![0, j.val]) (inb : ∀ a, off a + SC.size a ≤ SA.size a)
    (b' : Fin 8) (u : Fin 1) : (Rect.unit (s := SA) off SC.size inb).emb (ix2 b' u) = ix2 b' j := by
  subst hoff
  have hu : u.val = 0 := by omega
  funext a
  refine Fin.ext ?_
  match a with
  | ⟨0, _⟩ => show 0 + 1 * b'.val = b'.val; omega
  | ⟨1, _⟩ => show j.val + 1 * u.val = j.val; omega

/-- An index of another column is not in the column rectangle at column `j`. -/
theorem not_mem_col (off : Fin 2 → Nat) (j : Fin 9) (hoff : off = ![0, j.val]) (inb : ∀ a, off a + SC.size a ≤ SA.size a)
    (b' : Fin 8) (k : Fin 9) (hk : k ≠ j) : ix2 b' k ∉ (Rect.unit (s := SA) off SC.size inb).set := by
  subst hoff
  intro h
  have h1 : j.val ≤ k.val ∧ k.val < j.val + 1 := (Rect.mem_set_unit.mp h) (1 : Fin 2)
  exact hk (Fin.ext (by omega))

/-- After a store into column `j`: the columns up to `j` hold `T` when the columns before `j` did and the stored column is
    `T`'s column `j`. -/
theorem canon_col_lt (L : List AccPiece) (j : Fin 9) (off : Fin 2 → Nat) (hoff : off = ![0, j.val])
    (inb : ∀ a, off a + SC.size a ≤ SA.size a) (w : SC.Idx → EReal) (T : Fin 8 → Fin 9 → EReal)
    (hL : ∀ (b' : Fin 8) (k : Fin 9), k.val < j.val → View.canon L (ix2 b' k) = T b' k)
    (hw : ∀ b' : Fin 8, w (ix2 b' (0 : Fin 1)) = T b' j) :
    ∀ (b' : Fin 8) (k : Fin 9), k.val < j.val + 1 →
      View.canon ((⟨Rect.unit (s := SA) off SC.size inb, w⟩ : AccPiece) :: L) (ix2 b' k) = T b' k := by
  intro b' k hk
  by_cases hkj : k = j
  · subst hkj
    have e := View.canon_cons_emb (Val := Elt Ideal) (Rect.unit (s := SA) off SC.size inb) w L (ix2 b' (0 : Fin 1))
    rw [col_emb off k hoff inb b' 0] at e
    exact e.trans (hw b')
  · exact (View.canon_cons_of_not_mem (Val := Elt Ideal) (⟨Rect.unit (s := SA) off SC.size inb, w⟩ : AccPiece) L
        (not_mem_col off j hoff inb b' k hkj)).trans
      (hL b' k (by have : k.val ≠ j.val := fun h => hkj (Fin.ext h); omega))

/-- After a store into column `j` the columns after `j` are as before. -/
theorem canon_col_ge (L : List AccPiece) (j : Fin 9) (off : Fin 2 → Nat) (hoff : off = ![0, j.val])
    (inb : ∀ a, off a + SC.size a ≤ SA.size a) (w : SC.Idx → EReal) (Z : Fin 8 → Fin 9 → EReal)
    (hL : ∀ (b' : Fin 8) (k : Fin 9), j.val ≤ k.val → View.canon L (ix2 b' k) = Z b' k) :
    ∀ (b' : Fin 8) (k : Fin 9), j.val + 1 ≤ k.val →
      View.canon ((⟨Rect.unit (s := SA) off SC.size inb, w⟩ : AccPiece) :: L) (ix2 b' k) = Z b' k := by
  intro b' k hk
  exact (View.canon_cons_of_not_mem (Val := Elt Ideal) (⟨Rect.unit (s := SA) off SC.size inb, w⟩ : AccPiece) L
      (not_mem_col off j hoff inb b' k (fun h => by subst h; omega))).trans (hL b' k (by omega))

/-- A load of column `j` after the stores `L` reads their canonical contents at column `j`. -/
theorem readCov_col (v : View sig κ sp SA .f32) (L : List AccPiece) (j : Fin 9) (off : Fin 2 → Nat) (hoff : off = ![0, j.val])
    (inb : ∀ a, off a + SC.size a ≤ SA.size a) (b' : Fin 8) (u : Fin 1) :
    v.readCov L (Rect.unit (s := SA) off SC.size inb).toLoadRect (ix2 b' u) = View.canon L (ix2 b' j) :=
  (congrFun (View.readCov_eq_canon' v L (Rect.unit (s := SA) off SC.size inb).toLoadRect) (ix2 b' u)).trans
    (congrArg (View.canon L) (col_emb off j hoff inb b' u))

/-- A load of column `j` of a whole buffer holding `xs` reads `xs` at column `j`. -/
theorem readAt_col (arg : Memref sig κ sp SA .f32) (harg : arg.IsWhole) (xs : SA.Idx → EReal) (j : Fin 9) (off : Fin 2 → Nat)
    (hoff : off = ![0, j.val]) (inb : ∀ a, off a + SC.size a ≤ SA.size a) (b' : Fin 8) (u : Fin 1) :
    View.readAt (Elt Ideal) arg.view (Rect.unit (s := SA) off SC.size inb).toLoadRect (harg.unread xs) (ix2 b' u) = xs (ix2 b' j) := by
  show arg.view.read (Elt Ideal) (harg.unread xs) ((Rect.unit (s := SA) off SC.size inb).emb (ix2 b' u)) = _
  rw [harg.read_unread, col_emb off j hoff inb b' u]

/-- A load of a whole buffer through its whole rectangle reads its contents. -/
theorem readAt_whole {S : Shape} (arg : Memref sig κ sp S .f32) (harg : arg.IsWhole) (x : S.Idx → EReal)
    (off : Fin S.rank → Nat) (hz : off = fun _ => 0) (inb : ∀ a, off a + S.size a ≤ S.size a) :
    View.readAt (Elt Ideal) arg.view (Rect.unit off S.size inb).toLoadRect (harg.unread x) = x := by
  rw [View.readAt_eq_ld, harg.read_unread]
  exact View.ld_unit_zero (Val := Elt Ideal) (e := .f32) hz inb x

/-- A load of a whole buffer after the stores `L`, through its whole rectangle, reads their canonical contents. -/
theorem readCov_whole {S : Shape} (v : View sig κ sp S .f32) (L : List (View.Piece (Elt Ideal) S .f32))
    (off : Fin S.rank → Nat) (hz : off = fun _ => 0) (inb : ∀ a, off a + S.size a ≤ S.size a) :
    v.readCov L (Rect.unit off S.size inb).toLoadRect = View.canon L := by
  rw [View.readCov_eq_canon']
  exact View.ld_unit_zero (Val := Elt Ideal) (e := .f32) hz inb (View.canon L)

/-! ## The invariant of a buffer filled column by column -/

/-- After the stores `L`: the first `j` columns hold `T`, the others `Z`. -/
def ColInv (L : List AccPiece) (j : ℕ) (T Z : Fin 8 → Fin 9 → EReal) : Prop :=
  (∀ (b' : Fin 8) (k : Fin 9), k.val < j → View.canon L (ix2 b' k) = T b' k) ∧
  (∀ (b' : Fin 8) (k : Fin 9), j ≤ k.val → View.canon L (ix2 b' k) = Z b' k)

/-- One store of a whole block `Z`: no column written yet. -/
theorem ColInv.base (off : Fin 2 → Nat) (hz : off = fun _ => 0) (inb : ∀ a, off a + SA.size a ≤ SA.size a)
    (w : SA.Idx → EReal) (T Z : Fin 8 → Fin 9 → EReal) (hw : ∀ (b' : Fin 8) (k : Fin 9), w (ix2 b' k) = Z b' k) :
    ColInv [(⟨Rect.unit (s := SA) off SA.size inb, w⟩ : AccPiece)] 0 T Z :=
  ⟨fun _ k hk => absurd hk (Nat.not_lt_zero _),
   fun b' k _ => (congrFun (View.canon_unit_zero (Val := Elt Ideal) (S := SA) (e := .f32) hz inb w) (ix2 b' k)).trans (hw b' k)⟩

/-- A store into column `j` of what a load of that column read plus `A`: one more column holds `T`. -/
theorem ColInv.step (v : View sig κ sp SA .f32) (L : List AccPiece) (j : Fin 9) (off : Fin 2 → Nat) (hoff : off = ![0, j.val])
    (inb : ∀ a, off a + SC.size a ≤ SA.size a) (w : SC.Idx → EReal) (T Z : Fin 8 → Fin 9 → EReal) (A : Fin 8 → EReal)
    (hInv : ColInv L j.val T Z)
    (hw : ∀ b' : Fin 8, w (ix2 b' (0 : Fin 1))
      = v.readCov L (Rect.unit (s := SA) off SC.size inb).toLoadRect (ix2 b' (0 : Fin 1)) + A b')
    (hT : ∀ b' : Fin 8, T b' j = Z b' j + A b') :
    ColInv ((⟨Rect.unit (s := SA) off SC.size inb, w⟩ : AccPiece) :: L) (j.val + 1) T Z :=
  ⟨canon_col_lt L j off hoff inb w T hInv.1 fun b' => (hw b').trans (by
      rw [readCov_col v L j off hoff inb b' 0, hInv.2 b' j (le_refl _)]; exact (hT b').symm),
   canon_col_ge L j off hoff inb w Z hInv.2⟩

/-- The columns written so far hold `T` (nothing is said of the others). -/
def ColLt (L : List AccPiece) (j : ℕ) (T : Fin 8 → Fin 9 → EReal) : Prop :=
  ∀ (b' : Fin 8) (k : Fin 9), k.val < j → View.canon L (ix2 b' k) = T b' k

theorem ColLt.base (T : Fin 8 → Fin 9 → EReal) : ColLt [] 0 T := fun _ _ hk => absurd hk (Nat.not_lt_zero _)

/-- A store into column `j` of `T`'s column `j`: one more column holds `T`. -/
theorem ColLt.step (L : List AccPiece) (j : Fin 9) (off : Fin 2 → Nat) (hoff : off = ![0, j.val])
    (inb : ∀ a, off a + SC.size a ≤ SA.size a) (w : SC.Idx → EReal) (T : Fin 8 → Fin 9 → EReal)
    (hL : ColLt L j.val T) (hw : ∀ b' : Fin 8, w (ix2 b' (0 : Fin 1)) = T b' j) :
    ColLt ((⟨Rect.unit (s := SA) off SC.size inb, w⟩ : AccPiece) :: L) (j.val + 1) T :=
  canon_col_lt L j off hoff inb w T hL hw

end Cert.KernelIdeal.PayValue

end
-- ==== Proof.KI.Cases0.lean ====
/-
  What each control case of the first kernel's body leaves in the two accumulators and in the output's buffer, read
  at an index at the ideal values.  At a first tile each accumulator column holds the zero it was filled with plus the
  block's sum for that shift; at a second tile it holds what the first tile left plus the block's sum; and the output block
  is, per row, the least quotient of the two accumulators as the second tile leaves them.  The stores are walked one column
  at a time: a store into column j decides column j and leaves the others.
-/
import proofs.«122145_j70437463654548_2_alg».proof.Proof.KI.Half0
import proofs.«122145_j70437463654548_2_alg».proof.Proof.KV.Num
import proofs.«122145_j70437463654548_2_alg».proof.Proof.KV.Den
import proofs.«122145_j70437463654548_2_alg».proof.Proof.KV.Finish
import proofs.«122145_j70437463654548_2_alg».proof.Proof.KV.Cols

set_option maxRecDepth 16384

noncomputable section

namespace Cert.KernelIdeal.Hand

open Idealize.ShloMosaic Idealize.ShloMosaic.TcCoe Idealize.ShloMosaic.Tactic
open Idealize.SL Idealize.SL.Sem
open Cert.KernelIdeal Cert.KernelIdeal.Gen
open Idealize.ShloMosaic.ValueIdx Cert.KernelIdeal.PayValue

theorem sA0 (c : Dev nD) (i : grid0.Coords) (arg2 : Memref sig .tc .vmem S8x16x16x512 .f32) (harg2 : arg2.IsWhole) (arg3 : Memref sig .tc .vmem S8x1x16x512 .f32) (harg3 : arg3.IsWhole) (arg4 : Memref sig .tc .vmem S8x16x16x512 .f32) (harg4 : arg4.IsWhole) (arg5 : Memref sig .tc .vmem S8x1x16x512 .f32) (harg5 : arg5.IsWhole) (arg6 : Memref sig .tc .vmem S8x1 .f32) (harg6 : arg6.IsWhole) (arg7 : Memref sig .tc .vmem S8x9 .f32) (harg7 : arg7.IsWhole) (arg8 : Memref sig .tc .vmem S8x9 .f32) (harg8 : arg8.IsWhole) (hc0 : cond0_0 i) (hc1 : ¬cond0_1 i)
    (x0 : Vec Ideal S8x16x16x512 .f32) (x1 : Vec Ideal S8x1x16x512 .f32) (x2 : Vec Ideal S8x16x16x512 .f32) (x3 : Vec Ideal S8x1x16x512 .f32) (b' : Fin 8) (j : Fin 9) :
    sout0_A_0 (F := Ideal) c i arg2 harg2 arg3 harg3 arg4 harg4 arg5 harg5 arg6 harg6 arg7 harg7 arg8 harg8 hc0 hc1 x0 x1 x2 x3 (ix2 b' j)
      = Cert.ShiftLoss.zero + Cert.ShiftLoss.blockNum x0 x2 x1 x3 j b' := by
  unfold sout0_A_0
  rw [View.read_writes_junk_eq_canon]
  suffices h : ColInv (kernelRun0_A (F := Ideal) c i arg2 harg2 arg3 harg3 arg4 harg4 arg5 harg5 arg6 harg6 arg7 harg7 arg8 harg8 hc0 hc1 x0 x1 x2 x3).1 9
      (fun b' k => Cert.ShiftLoss.zero + Cert.ShiftLoss.blockNum x0 x2 x1 x3 k b') (fun _ _ => Cert.ShiftLoss.zero) from
    h.1 b' j j.isLt
  have e2 := readAt_whole arg2 harg2 x0 ![0, 0, 0, 0] off4_zero inb_S8x16x16x512_S8x16x16x512_0_0_0_0
  have e3 := readAt_whole arg3 harg3 x1 ![0, 0, 0, 0] off4_zero inb_S8x1x16x512_S8x1x16x512_0_0_0_0
  have e4 := readAt_whole arg4 harg4 x2 ![0, 0, 0, 0] off4_zero inb_S8x16x16x512_S8x16x16x512_0_0_0_0
  have e5 := readAt_whole arg5 harg5 x3 ![0, 0, 0, 0] off4_zero inb_S8x1x16x512_S8x1x16x512_0_0_0_0
  unfold kernelRun0_A
  dsimp only
  -- column 8
  refine ColInv.step arg7.view _ 8 _ rfl _ _ _ _ (fun b' => Cert.ShiftLoss.blockNum x0 x2 x1 x3 8 b') ?_ ?_ (fun _ => rfl)
  rotate_left
  · intro b'
    unfold kernelRun0_A.sl.v224 kernelRun0_A.sl.r kernelRun0_A.sl.r_1 kernelRun0_A.sl.r_2 kernelRun0_A.sl.r_3
    rw [e2, e3, e4, e5]
    exact k0_num8 x0 x2 x1 x3 _ b'
  unfold kernelRun0_A.sl.HS0_9
  -- column 7
  refine ColInv.step arg7.view _ 7 _ rfl _ _ _ _ (fun b' => Cert.ShiftLoss.blockNum x0 x2 x1 x3 7 b') ?_ ?_ (fun _ => rfl)
  rotate_left
  · intro b'
    unfold kernelRun0_A.sl.r_14 kernelRun0_A.sl.v199 kernelRun0_A.sl.r kernelRun0_A.sl.r_1 kernelRun0_A.sl.r_2 kernelRun0_A.sl.r_3
    rw [e2, e3, e4, e5]
    exact k0_num7 x0 x2 x1 x3 _ b'
  unfold kernelRun0_A.sl.HS0_8
  -- column 6
  refine ColInv.step arg7.view _ 6 _ rfl _ _ _ _ (fun b' => Cert.ShiftLoss.blockNum x0 x2 x1 x3 6 b') ?_ ?_ (fun _ => rfl)
  rotate_left
  · intro b'
    unfold kernelRun0_A.sl.v174 kernelRun0_A.sl.r_12 kernelRun0_A.sl.r kernelRun0_A.sl.r_1 kernelRun0_A.sl.r_2 kernelRun0_A.sl.r_3
    rw [e2, e3, e4, e5]
    exact k0_num6 x0 x2 x1 x3 _ b'
  unfold kernelRun0_A.sl.HS0_7
  -- column 5
  refine ColInv.step arg7.view _ 5 _ rfl _ _ _ _ (fun b' => Cert.ShiftLoss.blockNum x0 x2 x1 x3 5 b') ?_ ?_ (fun _ => rfl)
  rotate_left
  · intro b'
    unfold kernelRun0_A.sl.v149 kernelRun0_A.sl.r kernelRun0_A.sl.r_1 kernelRun0_A.sl.r_2 kernelRun0_A.sl.r_3
    rw [e2, e3, e4, e5]
    exact k0_num5 x0 x2 x1 x3 _ b'
  unfold kernelRun0_A.sl.HS0_6
  -- column 4
  refine ColInv.step arg7.view _ 4 _ rfl _ _ _ _ (fun b' => Cert.ShiftLoss.blockNum x0 x2 x1 x3 4 b') ?_ ?_ (fun _ => rfl)
  rotate_left
  · intro b'
    unfold kernelRun0_A.sl.v124 kernelRun0_A.sl.r kernelRun0_A.sl.r_1 kernelRun0_A.sl.r_2 kernelRun0_A.sl.r_3
    rw [e2, e3, e4, e5]
    exact k0_num4 x0 x2 x1 x3 _ b'
  unfold kernelRun0_A.sl.HS0_5
  -- column 3
  refine ColInv.step arg7.view _ 3 _ rfl _ _ _ _ (fun b' => Cert.ShiftLoss.blockNum x0 x2 x1 x3 3 b') ?_ ?_ (fun _ => rfl)
  rotate_left
  · intro b'
    unfold kernelRun0_A.sl.v99 kernelRun0_A.sl.r_8 kernelRun0_A.sl.r kernelRun0_A.sl.r_1 kernelRun0_A.sl.r_2 kernelRun0_A.sl.r_3
    rw [e2, e3, e4, e5]
    exact k0_num3 x0 x2 x1 x3 _ b'
  unfold kernelRun0_A.sl.HS0_4
  -- column 2
  refine ColInv.step arg7.view _ 2 _ rfl _ _ _ _ (fun b' => Cert.ShiftLoss.blockNum x0 x2 x1 x3 2 b') ?_ ?_ (fun _ => rfl)
  rotate_left
  · intro b'
    unfold kernelRun0_A.sl.v74 kernelRun0_A.sl.r_6 kernelRun0_A.sl.r_7 kernelRun0_A.sl.r kernelRun0_A.sl.r_1 kernelRun0_A.sl.r_2 kernelRun0_A.sl.r_3
    rw [e2, e3, e4, e5]
    exact k0_num2 x0 x2 x1 x3 _ b'
  unfold kernelRun0_A.sl.HS0_3
  -- column 1
  refine ColInv.step arg7.view _ 1 _ rfl _ _ _ _ (fun b' => Cert.ShiftLoss.blockNum x0 x2 x1 x3 1 b') ?_ ?_ (fun _ => rfl)
  rotate_left
  · intro b'
    unfold kernelRun0_A.sl.v49 kernelRun0_A.sl.r kernelRun0_A.sl.r_1 kernelRun0_A.sl.r_2 kernelRun0_A.sl.r_3
    rw [e2, e3, e4, e5]
    exact k0_num1 x0 x2 x1 x3 _ b'
  unfold kernelRun0_A.sl.HS0_2
  -- column 0
  refine ColInv.step arg7.view _ 0 _ rfl _ _ _ _ (fun b' => Cert.ShiftLoss.blockNum x0 x2 x1 x3 0 b') ?_ ?_ (fun _ => rfl)
  rotate_left
  · intro b'
    unfold kernelRun0_A.sl.r_5 kernelRun0_A.sl.v24
    rw [e2, e3, e4, e5]
    exact k0_num0 x0 x2 x1 x3 _ b'
  unfold kernelRun0_A.sl.HS0_1
  exact ColInv.base _ off2_zero _ _ _ _ fun b' k => k0_zeroNum (ix2 b' k)

theorem sA1 (c : Dev nD) (i : grid0.Coords) (arg2 : Memref sig .tc .vmem S8x16x16x512 .f32) (harg2 : arg2.IsWhole) (arg3 : Memref sig .tc .vmem S8x1x16x512 .f32) (harg3 : arg3.IsWhole) (arg4 : Memref sig .tc .vmem S8x16x16x512 .f32) (harg4 : arg4.IsWhole) (arg5 : Memref sig .tc .vmem S8x1x16x512 .f32) (harg5 : arg5.IsWhole) (arg6 : Memref sig .tc .vmem S8x1 .f32) (harg6 : arg6.IsWhole) (arg7 : Memref sig .tc .vmem S8x9 .f32) (harg7 : arg7.IsWhole) (arg8 : Memref sig .tc .vmem S8x9 .f32) (harg8 : arg8.IsWhole) (hc0 : cond0_0 i) (hc1 : ¬cond0_1 i)
    (x0 : Vec Ideal S8x16x16x512 .f32) (x1 : Vec Ideal S8x1x16x512 .f32) (x2 : Vec Ideal S8x16x16x512 .f32) (x3 : Vec Ideal S8x1x16x512 .f32) (b' : Fin 8) (j : Fin 9) :
    sout0_A_1 (F := Ideal) c i arg2 harg2 arg3 harg3 arg4 harg4 arg5 harg5 arg6 harg6 arg7 harg7 arg8 harg8 hc0 hc1 x0 x1 x2 x3 (ix2 b' j)
      = Cert.ShiftLoss.zero + Cert.ShiftLoss.sixteen * Cert.ShiftLoss.blockCnt x1 x3 j b' := by
  unfold sout0_A_1
  rw [View.read_writes_junk_eq_canon]
  suffices h : ColInv (kernelRun0_A (F := Ideal) c i arg2 harg2 arg3 harg3 arg4 harg4 arg5 harg5 arg6 harg6 arg7 harg7 arg8 harg8 hc0 hc1 x0 x1 x2 x3).2.1 9
      (fun b' k => Cert.ShiftLoss.zero + Cert.ShiftLoss.sixteen * Cert.ShiftLoss.blockCnt x1 x3 k b')
      (fun _ _ => Cert.ShiftLoss.zero) from
    h.1 b' j j.isLt
  have e3 := readAt_whole arg3 harg3 x1 ![0, 0, 0, 0] off4_zero inb_S8x1x16x512_S8x1x16x512_0_0_0_0
  have e5 := readAt_whole arg5 harg5 x3 ![0, 0, 0, 0] off4_zero inb_S8x1x16x512_S8x1x16x512_0_0_0_0
  unfold kernelRun0_A
  dsimp only
  -- column 8
  refine ColInv.step arg8.view _ 8 _ rfl _ _ _ _
    (fun b' => Cert.ShiftLoss.sixteen * Cert.ShiftLoss.blockCnt x1 x3 8 b') ?_ ?_ (fun _ => rfl)
  rotate_left
  · intro b'
    unfold kernelRun0_A.sl.v229 kernelRun0_A.sl.r_1 kernelRun0_A.sl.r_3
    rw [e3, e5]
    exact k0_den8 x1 x3 _ b'
  unfold kernelRun0_A.sl.HS1_9
  -- column 7
  refine ColInv.step arg8.view _ 7 _ rfl _ _ _ _
    (fun b' => Cert.ShiftLoss.sixteen * Cert.ShiftLoss.blockCnt x1 x3 7 b') ?_ ?_ (fun _ => rfl)
  rotate_left
  · intro b'
    unfold kernelRun0_A.sl.v204 kernelRun0_A.sl.r_13 kernelRun0_A.sl.r_1 kernelRun0_A.sl.r_3
    rw [e3, e5]
    exact k0_den7 x1 x3 _ b'
  unfold kernelRun0_A.sl.HS1_8
  -- column 6
  refine ColInv.step arg8.view _ 6 _ rfl _ _ _ _
    (fun b' => Cert.ShiftLoss.sixteen * Cert.ShiftLoss.blockCnt x1 x3 6 b') ?_ ?_ (fun _ => rfl)
  rotate_left
  · intro b'
    unfold kernelRun0_A.sl.v179 kernelRun0_A.sl.r_11 kernelRun0_A.sl.r_1 kernelRun0_A.sl.r_3
    rw [e3, e5]
    exact k0_den6 x1 x3 _ b'
  unfold kernelRun0_A.sl.HS1_7
  -- column 5
  refine ColInv.step arg8.view _ 5 _ rfl _ _ _ _
    (fun b' => Cert.ShiftLoss.sixteen * Cert.ShiftLoss.blockCnt x1 x3 5 b') ?_ ?_ (fun _ => rfl)
  rotate_left
  · intro b'
    unfold kernelRun0_A.sl.v154 kernelRun0_A.sl.r_1 kernelRun0_A.sl.r_3
    rw [e3, e5]
    exact k0_den5 x1 x3 _ b'
  unfold kernelRun0_A.sl.HS1_6
  -- column 4
  refine ColInv.step arg8.view _ 4 _ rfl _ _ _ _
    (fun b' => Cert.ShiftLoss.sixteen * Cert.ShiftLoss.blockCnt x1 x3 4 b') ?_ ?_ (fun _ => rfl)
  rotate_left
  · intro b'
    unfold kernelRun0_A.sl.r_10 kernelRun0_A.sl.v129 kernelRun0_A.sl.r_1 kernelRun0_A.sl.r_3
    rw [e3, e5]
    exact k0_den4 x1 x3 _ b'
  unfold kernelRun0_A.sl.HS1_5
  -- column 3
  refine ColInv.step arg8.view _ 3 _ rfl _ _ _ _
    (fun b' => Cert.ShiftLoss.sixteen * Cert.ShiftLoss.blockCnt x1 x3 3 b') ?_ ?_ (fun _ => rfl)
  rotate_left
  · intro b'
    unfold kernelRun0_A.sl.v104 kernelRun0_A.sl.r_9 kernelRun0_A.sl.cst_64 kernelRun0_A.sl.r_1 kernelRun0_A.sl.r_3
    rw [e3, e5]
    exact k0_den3 x1 x3 _ b'
  unfold kernelRun0_A.sl.HS1_4
  -- column 2
  refine ColInv.step arg8.view _ 2 _ rfl _ _ _ _
    (fun b' => Cert.ShiftLoss.sixteen * Cert.ShiftLoss.blockCnt x1 x3 2 b') ?_ ?_ (fun _ => rfl)
  rotate_left
  · intro b'
    unfold kernelRun0_A.sl.v79 kernelRun0_A.sl.r_7 kernelRun0_A.sl.r_1 kernelRun0_A.sl.r_3
    rw [e3, e5]
    exact k0_den2 x1 x3 _ b'
  unfold kernelRun0_A.sl.HS1_3
  -- column 1
  refine ColInv.step arg8.view _ 1 _ rfl _ _ _ _
    (fun b' => Cert.ShiftLoss.sixteen * Cert.ShiftLoss.blockCnt x1 x3 1 b') ?_ ?_ (fun _ => rfl)
  rotate_left
  · intro b'
    unfold kernelRun0_A.sl.v54 kernelRun0_A.sl.r_1 kernelRun0_A.sl.r_3
    rw [e3, e5]
    exact k0_den1 x1 x3 _ b'
  unfold kernelRun0_A.sl.HS1_2
  -- column 0
  refine ColInv.step arg8.view _ 0 _ rfl _ _ _ _
    (fun b' => Cert.ShiftLoss.sixteen * Cert.ShiftLoss.blockCnt x1 x3 0 b') ?_ ?_ (fun _ => rfl)
  rotate_left
  · intro b'
    unfold kernelRun0_A.sl.r_4 kernelRun0_A.sl.v29
    rw [e3, e5]
    exact k0_den0 x1 x3 _ b'
  unfold kernelRun0_A.sl.HS1_1
  exact ColInv.base _ off2_zero _ _ _ _ fun b' k => k0_zeroDen (ix2 b' k)

theorem sB0 (c : Dev nD) (i : grid0.Coords) (arg2 : Memref sig .tc .vmem S8x16x16x512 .f32) (harg2 : arg2.IsWhole) (arg3 : Memref sig .tc .vmem S8x1x16x512 .f32) (harg3 : arg3.IsWhole) (arg4 : Memref sig .tc .vmem S8x16x16x512 .f32) (harg4 : arg4.IsWhole) (arg5 : Memref sig .tc .vmem S8x1x16x512 .f32) (harg5 : arg5.IsWhole) (arg6 : Memref sig .tc .vmem S8x1 .f32) (harg6 : arg6.IsWhole) (arg7 : Memref sig .tc .vmem S8x9 .f32) (harg7 : arg7.IsWhole) (arg8 : Memref sig .tc .vmem S8x9 .f32) (harg8 : arg8.IsWhole) (hc0 : ¬cond0_0 i) (hc1 : cond0_1 i)
    (x0 : Vec Ideal S8x16x16x512 .f32) (x1 : Vec Ideal S8x1x16x512 .f32) (x2 : Vec Ideal S8x16x16x512 .f32) (x3 : Vec Ideal S8x1x16x512 .f32) (xs0 xs1 : Vec Ideal S8x9 .f32) (b' : Fin 8) (j : Fin 9) :
    sout0_B_0 (F := Ideal) c i arg2 harg2 arg3 harg3 arg4 harg4 arg5 harg5 arg6 harg6 arg7 harg7 arg8 harg8 hc0 hc1 x0 x1 x2 x3 xs0 xs1 (ix2 b' j)
      = xs0 (ix2 b' j) + Cert.ShiftLoss.blockNum x0 x2 x1 x3 j b' := by
  unfold sout0_B_0
  rw [View.read_writes_junk_eq_canon]
  suffices h : ColLt (kernelRun0_B (F := Ideal) c i arg2 harg2 arg3 harg3 arg4 harg4 arg5 harg5 arg6 harg6 arg7 harg7 arg8 harg8 hc0 hc1 x0 x1 x2 x3 xs0 xs1).2.1 9
      (fun b' k => xs0 (ix2 b' k) + Cert.ShiftLoss.blockNum x0 x2 x1 x3 k b') from
    h b' j j.isLt
  have e2 := readAt_whole arg2 harg2 x0 ![0, 0, 0, 0] off4_zero inb_S8x16x16x512_S8x16x16x512_0_0_0_0
  have e3 := readAt_whole arg3 harg3 x1 ![0, 0, 0, 0] off4_zero inb_S8x1x16x512_S8x1x16x512_0_0_0_0
  have e4 := readAt_whole arg4 harg4 x2 ![0, 0, 0, 0] off4_zero inb_S8x16x16x512_S8x16x16x512_0_0_0_0
  have e5 := readAt_whole arg5 harg5 x3 ![0, 0, 0, 0] off4_zero inb_S8x1x16x512_S8x1x16x512_0_0_0_0
  unfold kernelRun0_B
  dsimp only
  unfold kernelRun0_B.sl.HS0_9
  -- column 8
  refine ColLt.step _ 8 _ rfl _ _ _ ?_ ?_
  rotate_left
  · intro b'
    unfold kernelRun0_B.sl.v224 kernelRun0_B.sl.r kernelRun0_B.sl.r_1 kernelRun0_B.sl.r_2 kernelRun0_B.sl.r_3
    rw [e2, e3, e4, e5]
    refine (k0_num8 x0 x2 x1 x3 _ b').trans ?_
    exact congrArg (· + Cert.ShiftLoss.blockNum x0 x2 x1 x3 8 b') (readAt_col arg7 harg7 xs0 8 _ rfl _ b' 0)
  -- column 7
  refine ColLt.step _ 7 _ rfl _ _ _ ?_ ?_
  rotate_left
  · intro b'
    unfold kernelRun0_B.sl.r_15 kernelRun0_B.sl.v199 kernelRun0_B.sl.r kernelRun0_B.sl.r_1 kernelRun0_B.sl.r_2 kernelRun0_B.sl.r_3
    rw [e2, e3, e4, e5]
    refine (k0_num7 x0 x2 x1 x3 _ b').trans ?_
    exact congrArg (· + Cert.ShiftLoss.blockNum x0 x2 x1 x3 7 b') (readAt_col arg7 harg7 xs0 7 _ rfl _ b' 0)
  -- column 6
  refine ColLt.step _ 6 _ rfl _ _ _ ?_ ?_
  rotate_left
  · intro b'
    unfold kernelRun0_B.sl.v174 kernelRun0_B.sl.r_13 kernelRun0_B.sl.r kernelRun0_B.sl.r_1 kernelRun0_B.sl.r_2 kernelRun0_B.sl.r_3
    rw [e2, e3, e4, e5]
    refine (k0_num6 x0 x2 x1 x3 _ b').trans ?_
    exact congrArg (· + Cert.ShiftLoss.blockNum x0 x2 x1 x3 6 b') (readAt_col arg7 harg7 xs0 6 _ rfl _ b' 0)
  -- column 5
  refine ColLt.step _ 5 _ rfl _ _ _ ?_ ?_
  rotate_left
  · intro b'
    unfold kernelRun0_B.sl.v149 kernelRun0_B.sl.r kernelRun0_B.sl.r_1 kernelRun0_B.sl.r_2 kernelRun0_B.sl.r_3
    rw [e2, e3, e4, e5]
    refine (k0_num5 x0 x2 x1 x3 _ b').trans ?_
    exact congrArg (· + Cert.ShiftLoss.blockNum x0 x2 x1 x3 5 b') (readAt_col arg7 harg7 xs0 5 _ rfl _ b' 0)
  -- column 4
  refine ColLt.step _ 4 _ rfl _ _ _ ?_ ?_
  rotate_left
  · intro b'
    unfold kernelRun0_B.sl.v124 kernelRun0_B.sl.r kernelRun0_B.sl.r_1 kernelRun0_B.sl.r_2 kernelRun0_B.sl.r_3
    rw [e2, e3, e4, e5]
    refine (k0_num4 x0 x2 x1 x3 _ b').trans ?_
    exact congrArg (· + Cert.ShiftLoss.blockNum x0 x2 x1 x3 4 b') (readAt_col arg7 harg7 xs0 4 _ rfl _ b' 0)
  -- column 3
  refine ColLt.step _ 3 _ rfl _ _ _ ?_ ?_
  rotate_left
  · intro b'
    unfold kernelRun0_B.sl.v99 kernelRun0_B.sl.r_9 kernelRun0_B.sl.r kernelRun0_B.sl.r_1 kernelRun0_B.sl.r_2 kernelRun0_B.sl.r_3
    rw [e2, e3, e4, e5]
    refine (k0_num3 x0 x2 x1 x3 _ b').trans ?_
    exact congrArg (· + Cert.ShiftLoss.blockNum x0 x2 x1 x3 3 b') (readAt_col arg7 harg7 xs0 3 _ rfl _ b' 0)
  -- column 2
  refine ColLt.step _ 2 _ rfl _ _ _ ?_ ?_
  rotate_left
  · intro b'
    unfold kernelRun0_B.sl.v74 kernelRun0_B.sl.r_7 kernelRun0_B.sl.r_8 kernelRun0_B.sl.r kernelRun0_B.sl.r_1 kernelRun0_B.sl.r_2 kernelRun0_B.sl.r_3
    rw [e2, e3, e4, e5]
    refine (k0_num2 x0 x2 x1 x3 _ b').trans ?_
    exact congrArg (· + Cert.ShiftLoss.blockNum x0 x2 x1 x3 2 b') (readAt_col arg7 harg7 xs0 2 _ rfl _ b' 0)
  -- column 1
  refine ColLt.step _ 1 _ rfl _ _ _ ?_ ?_
  rotate_left
  · intro b'
    unfold kernelRun0_B.sl.v49 kernelRun0_B.sl.r kernelRun0_B.sl.r_1 kernelRun0_B.sl.r_2 kernelRun0_B.sl.r_3
    rw [e2, e3, e4, e5]
    refine (k0_num1 x0 x2 x1 x3 _ b').trans ?_
    exact congrArg (· + Cert.ShiftLoss.blockNum x0 x2 x1 x3 1 b') (readAt_col arg7 harg7 xs0 1 _ rfl _ b' 0)
  -- column 0
  refine ColLt.step _ 0 _ rfl _ _ _ ?_ ?_
  rotate_left
  · intro b'
    unfold kernelRun0_B.sl.r_5
    rw [e2, e3, e4, e5]
    refine (k0_num0 x0 x2 x1 x3 _ b').trans ?_
    exact congrArg (· + Cert.ShiftLoss.blockNum x0 x2 x1 x3 0 b') (readAt_col arg7 harg7 xs0 0 _ rfl _ b' 0)
  exact ColLt.base _

theorem sB1 (c : Dev nD) (i : grid0.Coords) (arg2 : Memref sig .tc .vmem S8x16x16x512 .f32) (harg2 : arg2.IsWhole) (arg3 : Memref sig .tc .vmem S8x1x16x512 .f32) (harg3 : arg3.IsWhole) (arg4 : Memref sig .tc .vmem S8x16x16x512 .f32) (harg4 : arg4.IsWhole) (arg5 : Memref sig .tc .vmem S8x1x16x512 .f32) (harg5 : arg5.IsWhole) (arg6 : Memref sig .tc .vmem S8x1 .f32) (harg6 : arg6.IsWhole) (arg7 : Memref sig .tc .vmem S8x9 .f32) (harg7 : arg7.IsWhole) (arg8 : Memref sig .tc .vmem S8x9 .f32) (harg8 : arg8.IsWhole) (hc0 : ¬cond0_0 i) (hc1 : cond0_1 i)
    (x0 : Vec Ideal S8x16x16x512 .f32) (x1 : Vec Ideal S8x1x16x512 .f32) (x2 : Vec Ideal S8x16x16x512 .f32) (x3 : Vec Ideal S8x1x16x512 .f32) (xs0 xs1 : Vec Ideal S8x9 .f32) (b' : Fin 8) (j : Fin 9) :
    sout0_B_1 (F := Ideal) c i arg2 harg2 arg3 harg3 arg4 harg4 arg5 harg5 arg6 harg6 arg7 harg7 arg8 harg8 hc0 hc1 x0 x1 x2 x3 xs0 xs1 (ix2 b' j)
      = xs1 (ix2 b' j) + Cert.ShiftLoss.sixteen * Cert.ShiftLoss.blockCnt x1 x3 j b' := by
  unfold sout0_B_1
  rw [View.read_writes_junk_eq_canon]
  suffices h : ColLt (kernelRun0_B (F := Ideal) c i arg2 harg2 arg3 harg3 arg4 harg4 arg5 harg5 arg6 harg6 arg7 harg7 arg8 harg8 hc0 hc1 x0 x1 x2 x3 xs0 xs1).2.2.1 9
      (fun b' k => xs1 (ix2 b' k) + Cert.ShiftLoss.sixteen * Cert.ShiftLoss.blockCnt x1 x3 k b') from
    h b' j j.isLt
  have e3 := readAt_whole arg3 harg3 x1 ![0, 0, 0, 0] off4_zero inb_S8x1x16x512_S8x1x16x512_0_0_0_0
  have e5 := readAt_whole arg5 harg5 x3 ![0, 0, 0, 0] off4_zero inb_S8x1x16x512_S8x1x16x512_0_0_0_0
  unfold kernelRun0_B
  dsimp only
  unfold kernelRun0_B.sl.HS1_9
  -- column 8
  refine ColLt.step _ 8 _ rfl _ _ _ ?_ ?_
  rotate_left
  · intro b'
    unfold kernelRun0_B.sl.v229 kernelRun0_B.sl.r_1 kernelRun0_B.sl.r_3
    rw [e3, e5]
    refine (k0_den8 x1 x3 _ b').trans ?_
    exact congrArg (· + Cert.ShiftLoss.sixteen * Cert.ShiftLoss.blockCnt x1 x3 8 b')
      (readAt_col arg8 harg8 xs1 8 _ rfl _ b' 0)
  -- column 7
  refine ColLt.step _ 7 _ rfl _ _ _ ?_ ?_
  rotate_left
  · intro b'
    unfold kernelRun0_B.sl.v204 kernelRun0_B.sl.r_14 kernelRun0_B.sl.r_1 kernelRun0_B.sl.r_3
    rw [e3, e5]
    refine (k0_den7 x1 x3 _ b').trans ?_
    exact congrArg (· + Cert.ShiftLoss.sixteen * Cert.ShiftLoss.blockCnt x1 x3 7 b')
      (readAt_col arg8 harg8 xs1 7 _ rfl _ b' 0)
  -- column 6
  refine ColLt.step _ 6 _ rfl _ _ _ ?_ ?_
  rotate_left
  · intro b'
    unfold kernelRun0_B.sl.v179 kernelRun0_B.sl.r_12 kernelRun0_B.sl.r_1 kernelRun0_B.sl.r_3
    rw [e3, e5]
    refine (k0_den6 x1 x3 _ b').trans ?_
    exact congrArg (· + Cert.ShiftLoss.sixteen * Cert.ShiftLoss.blockCnt x1 x3 6 b')
      (readAt_col arg8 harg8 xs1 6 _ rfl _ b' 0)
  -- column 5
  refine ColLt.step _ 5 _ rfl _ _ _ ?_ ?_
  rotate_left
  · intro b'
    unfold kernelRun0_B.sl.v154 kernelRun0_B.sl.r_1 kernelRun0_B.sl.r_3
    rw [e3, e5]
    refine (k0_den5 x1 x3 _ b').trans ?_
    exact congrArg (· + Cert.ShiftLoss.sixteen * Cert.ShiftLoss.blockCnt x1 x3 5 b')
      (readAt_col arg8 harg8 xs1 5 _ rfl _ b' 0)
  -- column 4
  refine ColLt.step _ 4 _ rfl _ _ _ ?_ ?_
  rotate_left
  · intro b'
    unfold kernelRun0_B.sl.r_11 kernelRun0_B.sl.v129 kernelRun0_B.sl.r_1 kernelRun0_B.sl.r_3
    rw [e3, e5]
    refine (k0_den4 x1 x3 _ b').trans ?_
    exact congrArg (· + Cert.ShiftLoss.sixteen * Cert.ShiftLoss.blockCnt x1 x3 4 b')
      (readAt_col arg8 harg8 xs1 4 _ rfl _ b' 0)
  -- column 3
  refine ColLt.step _ 3 _ rfl _ _ _ ?_ ?_
  rotate_left
  · intro b'
    unfold kernelRun0_B.sl.v104 kernelRun0_B.sl.r_10 kernelRun0_B.sl.cst_64 kernelRun0_B.sl.r_1 kernelRun0_B.sl.r_3
    rw [e3, e5]
    refine (k0_den3 x1 x3 _ b').trans ?_
    exact congrArg (· + Cert.ShiftLoss.sixteen * Cert.ShiftLoss.blockCnt x1 x3 3 b')
      (readAt_col arg8 harg8 xs1 3 _ rfl _ b' 0)
  -- column 2
  refine ColLt.step _ 2 _ rfl _ _ _ ?_ ?_
  rotate_left
  · intro b'
    unfold kernelRun0_B.sl.v79 kernelRun0_B.sl.r_8 kernelRun0_B.sl.r_1 kernelRun0_B.sl.r_3
    rw [e3, e5]
    refine (k0_den2 x1 x3 _ b').trans ?_
    exact congrArg (· + Cert.ShiftLoss.sixteen * Cert.ShiftLoss.blockCnt x1 x3 2 b')
      (readAt_col arg8 harg8 xs1 2 _ rfl _ b' 0)
  -- column 1
  refine ColLt.step _ 1 _ rfl _ _ _ ?_ ?_
  rotate_left
  · intro b'
    unfold kernelRun0_B.sl.v54 kernelRun0_B.sl.r_1 kernelRun0_B.sl.r_3
    rw [e3, e5]
    refine (k0_den1 x1 x3 _ b').trans ?_
    exact congrArg (· + Cert.ShiftLoss.sixteen * Cert.ShiftLoss.blockCnt x1 x3 1 b')
      (readAt_col arg8 harg8 xs1 1 _ rfl _ b' 0)
  -- column 0
  refine ColLt.step _ 0 _ rfl _ _ _ ?_ ?_
  rotate_left
  · intro b'
    unfold kernelRun0_B.sl.r_4
    rw [e3, e5]
    refine (k0_den0 x1 x3 _ b').trans ?_
    exact congrArg (· + Cert.ShiftLoss.sixteen * Cert.ShiftLoss.blockCnt x1 x3 0 b')
      (readAt_col arg8 harg8 xs1 0 _ rfl _ b' 0)
  exact ColLt.base _

theorem oB4 (c : Dev nD) (i : grid0.Coords) (arg2 : Memref sig .tc .vmem S8x16x16x512 .f32) (harg2 : arg2.IsWhole) (arg3 : Memref sig .tc .vmem S8x1x16x512 .f32) (harg3 : arg3.IsWhole) (arg4 : Memref sig .tc .vmem S8x16x16x512 .f32) (harg4 : arg4.IsWhole) (arg5 : Memref sig .tc .vmem S8x1x16x512 .f32) (harg5 : arg5.IsWhole) (arg6 : Memref sig .tc .vmem S8x1 .f32) (harg6 : arg6.IsWhole) (arg7 : Memref sig .tc .vmem S8x9 .f32) (harg7 : arg7.IsWhole) (arg8 : Memref sig .tc .vmem S8x9 .f32) (harg8 : arg8.IsWhole) (hc0 : ¬cond0_0 i) (hc1 : cond0_1 i)
    (x0 : Vec Ideal S8x16x16x512 .f32) (x1 : Vec Ideal S8x1x16x512 .f32) (x2 : Vec Ideal S8x16x16x512 .f32) (x3 : Vec Ideal S8x1x16x512 .f32) (xs0 xs1 : Vec Ideal S8x9 .f32) (b' : Fin 8) :
    out0_B_4 (F := Ideal) c i arg2 harg2 arg3 harg3 arg4 harg4 arg5 harg5 arg6 harg6 arg7 harg7 arg8 harg8 hc0 hc1 x0 x1 x2 x3 xs0 xs1 (ix2 b' (0 : Fin 1))
      = Cert.ShiftLoss.finish (sout0_B_0 (F := Ideal) c i arg2 harg2 arg3 harg3 arg4 harg4 arg5 harg5 arg6 harg6 arg7 harg7 arg8 harg8 hc0 hc1 x0 x1 x2 x3 xs0 xs1)
          (sout0_B_1 (F := Ideal) c i arg2 harg2 arg3 harg3 arg4 harg4 arg5 harg5 arg6 harg6 arg7 harg7 arg8 harg8 hc0 hc1 x0 x1 x2 x3 xs0 xs1) b' := by
  unfold out0_B_4 sout0_B_0 sout0_B_1
  rw [View.read_writes_junk_eq_canon, View.read_writes_junk_eq_canon, View.read_writes_junk_eq_canon]
  unfold kernelRun0_B
  dsimp only
  rw [View.canon_unit_zero off2_zero]
  unfold kernelRun0_B.sl.v237 kernelRun0_B.sl.v238
  rw [readCov_whole arg7.view _ _ off2_zero, readCov_whole arg8.view _ _ off2_zero]
  exact k0_finish _ _ b'

end Cert.KernelIdeal.Hand

end
-- ==== Proof.KI.Value0.lean ====
/-
  What region 0 leaves in its result array, at the ideal instance: row b of the [64,1] array is the shift loss of
  batch row b.  The second tile's output block is the finishing step applied to the two accumulators, each of
  which holds, column by column, zero plus the first tile's sum plus the second tile's sum; a tile's block sums
  are the corresponding tile sums of the whole arrays (a block's element sits at block index times block size plus
  its coordinate); and the quotient of the totals is the normalised distance.  The eight second-tile points write
  back the eight row blocks, which tile the array.
-/
import proofs.«122145_j70437463654548_2_alg».proof.Proof.Gen.KernelIdeal.Launch
import proofs.«122145_j70437463654548_2_alg».proof.Proof.Gen.KernelIdeal.Skeleton
import proofs.«122145_j70437463654548_2_alg».proof.Proof.Gen.KernelIdeal.Points
import proofs.«122145_j70437463654548_2_alg».proof.Proof.KI.Blocks0
import proofs.«122145_j70437463654548_2_alg».proof.Proof.SpecLaws
import proofs.«122145_j70437463654548_2_alg».proof.Proof.KI.Cases0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open ValueIdx

variable (V : (c : Dev nD) → (b : Ref sig .tc) → Buf (Elt Ideal) ((c : Thread nD τ).loc b))

/-- The four arrays the region reads, as the shared mathematics types them. -/
abbrev af1_r0 (c : Dev nD) : Cert.ShiftLoss.Feat := V c (Pipeline.arrRef spec0 0)
abbrev am1_r0 (c : Dev nD) : Cert.ShiftLoss.MaskF := V c (Pipeline.arrRef spec0 1)
abbrev af2_r0 (c : Dev nD) : Cert.ShiftLoss.Feat := V c (Pipeline.arrRef spec0 2)
abbrev am2_r0 (c : Dev nD) : Cert.ShiftLoss.MaskF := V c (Pipeline.arrRef spec0 3)

theorem tile_lt_r0 (t : Fin cfg0.N) : t.val % 2 < 2 := Nat.mod_lt _ (by decide)

/-- A block's sums are the tile's sums of the whole arrays. -/
theorem blockNum_eq_r0 (c : Dev nD) (t : Fin cfg0.N) (j : Fin 9) (b' : Fin 8) :
    Cert.ShiftLoss.blockNum (iblk0 V c 0 t) (iblk0 V c 2 t) (iblk0 V c 1 t) (iblk0 V c 3 t) j b'
      = Cert.ShiftLoss.numTile (af1_r0 V c) (af2_r0 V c) (am1_r0 V c) (am2_r0 V c) j (bAt0 (t.val / 2) (tdiv0 t) b') ⟨t.val % 2, tile_lt_r0 t⟩ := by
  unfold Cert.ShiftLoss.blockNum Cert.ShiftLoss.numTile Cert.ShiftLoss.blockTerm Cert.ShiftLoss.term Cert.ShiftLoss.blockPm Cert.ShiftLoss.pm
  refine Finset.sum_congr rfl fun ch _ => Finset.sum_congr rfl fun h' _ => Finset.sum_congr rfl fun w _ => ?_
  rw [iblk0_0_apply, iblk0_2_apply, iblk0_1_apply, iblk0_3_apply]
  rfl

theorem blockCnt_eq_r0 (c : Dev nD) (t : Fin cfg0.N) (j : Fin 9) (b' : Fin 8) :
    Cert.ShiftLoss.blockCnt (iblk0 V c 1 t) (iblk0 V c 3 t) j b'
      = Cert.ShiftLoss.cntTile (am1_r0 V c) (am2_r0 V c) j (bAt0 (t.val / 2) (tdiv0 t) b') ⟨t.val % 2, tile_lt_r0 t⟩ := by
  unfold Cert.ShiftLoss.blockCnt Cert.ShiftLoss.cntTile Cert.ShiftLoss.blockPm Cert.ShiftLoss.pm
  refine Finset.sum_congr rfl fun h' _ => Finset.sum_congr rfl fun w _ => ?_
  rw [iblk0_1_apply, iblk0_3_apply]
  rfl

/-- The point before a second tile's point: the first tile of the same batch block. -/
def prevPt_r0 (t : Fin cfg0.N) : Fin cfg0.N := ⟨t.val - 1, Nat.lt_of_le_of_lt (Nat.sub_le _ _) t.isLt⟩

/-- After a second tile's point the output's staging buffer holds, row by row, the shift loss of the block's rows. -/
theorem out_odd_r0 (c : Dev nD) (hm1 : ∀ j, 0 ≤ am1_r0 V c j) (hm2 : ∀ j, 0 ≤ am2_r0 V c j) (t : Fin cfg0.N) (h1 : t.val % 2 = 1) (b' : Fin 8) :
    (outsAt0 V c t.val t.isLt).1 (ix2 b' (0 : Fin 1))
      = Cert.ShiftLoss.loss (af1_r0 V c) (af2_r0 V c) (am1_r0 V c) (am2_r0 V c) (bAt0 (t.val / 2) (tdiv0 t) b') := by
  have h0 : (prevPt_r0 t).val % 2 = 0 := by show (t.val - 1) % 2 = 0; omega
  have hdiv : (prevPt_r0 t).val / 2 = t.val / 2 := by show (t.val - 1) / 2 = t.val / 2; omega
  have hp := outsAt0_A V c (prevPt_r0 t) h0
  rw [outsAt0_B V c t h1]
  dsimp only
  rw [oB4]
  unfold Cert.ShiftLoss.finish Cert.ShiftLoss.loss
  refine Finset.inf_congr rfl fun j _ => ?_
  rw [sB0, sB1]
  rw [show outsAt0 V c (t.val - 1) (Nat.lt_of_le_of_lt (Nat.sub_le _ _) t.isLt) = outsAt0 V c (prevPt_r0 t).val (prevPt_r0 t).isLt from rfl, hp]
  dsimp only
  rw [sA0, sA1, blockNum_eq_r0, blockNum_eq_r0, blockCnt_eq_r0, blockCnt_eq_r0]
  have e0 : (⟨(prevPt_r0 t).val % 2, tile_lt_r0 (prevPt_r0 t)⟩ : Fin 2) = 0 := Fin.ext h0
  have e1 : (⟨t.val % 2, tile_lt_r0 t⟩ : Fin 2) = 1 := Fin.ext h1
  have eb : bAt0 ((prevPt_r0 t).val / 2) (tdiv0 (prevPt_r0 t)) b' = bAt0 (t.val / 2) (tdiv0 t) b' := Fin.ext (by show 8 * ((prevPt_r0 t).val / 2) + b'.val = 8 * (t.val / 2) + b'.val; rw [hdiv])
  rw [e0, e1, eb]
  exact Cert.ShiftLoss.dist_of_tiles _ _ _ _ hm1 hm2 j _

/-- The result array as one function of the arrays the region reads: row b holds the shift loss of batch row b. -/
abbrev lossArr_r0 (c : Dev nD) : S64x1.Idx → Elt Ideal .f32 :=
  fun j => Cert.ShiftLoss.loss (af1_r0 V c) (af2_r0 V c) (am1_r0 V c) (am2_r0 V c) (j 0)

/-- What a second tile's point writes back is its block of that function. -/
theorem flushed_eq_r0 (c : Dev nD) (hm1 : ∀ j, 0 ≤ am1_r0 V c j) (hm2 : ∀ j, 0 ≤ am2_r0 V c j) (t : Fin cfg0.N) (hf : (cfg0.win 4).flush t = true) :
    (dat0 V c).flushed 4 t = ((cfg0.win 4).blk t).view.read (Elt Ideal) (lossArr_r0 V c) := by
  have h1 : t.val % 2 = 1 := (flush0_4 t).mp hf
  obtain ⟨-, -, -, -, ⟨i0, i1⟩⟩ := idx_in0 t
  show (cfg0.win 4).cut (grid0.coords t) ((dat0 V c).after 4 t) = _
  rw [after0_4]
  funext y
  obtain ⟨b', rfl⟩ : ∃ b' : Fin 8, y = ix2 b' (0 : Fin 1) := ⟨y 0, by
    have hy : (y 1).val < 1 := (y 1).isLt
    rw [eq_ix2 y]; exact congrArg (ix2 (y 0)) (Fin.ext (by show (y 1).val = 0; omega))⟩
  show (outsAt0 V c t.val t.isLt).1 (ix2 b' (0 : Fin 1)) = lossArr_r0 V c (((cfg0.win 4).blk t).view.emb (ix2 b' (0 : Fin 1)))
  rw [out_odd_r0 V c hm1 hm2 t h1 b']
  refine congrArg (Cert.ShiftLoss.loss (af1_r0 V c) (af2_r0 V c) (am1_r0 V c) (am2_r0 V c)) (Fin.ext ?_)
  show 8 * (t.val / 2) + b'.val = win0_4.index t 0 * 8 + 1 * b'.val
  rw [i0]; omega

theorem mem_blk_r0 (t : Fin cfg0.N) (i : S64x1.Idx) :
    i ∈ ((cfg0.win 4).blk t).view.set ↔ ∀ a : Fin 2, win0_4.index t a * S8x1.size a ≤ (i a).val ∧ (i a).val < win0_4.index t a * S8x1.size a + S8x1.size a := by
  show i ∈ ((View.whole main_v3).slice (win0_4.rect t)).set ↔ _
  rw [View.set_slice_whole, Rect.mem_set_unit]
  exact Iff.rfl

/-- The eight second-tile points' blocks tile the array. -/
theorem covered_r0 (i : S64x1.Idx) : ∃ t : Fin cfg0.N, (cfg0.win 4).flush t = true ∧ i ∈ ((cfg0.win 4).blk t).view.set := by
  have hi0 : (i 0).val < 64 := (i 0).isLt
  have hi1 : (i 1).val < 1 := (i 1).isLt
  have hN : cfg0.N = 16 := N_0
  let t : Fin cfg0.N := ⟨2 * ((i 0).val / 8) + 1, by rw [hN]; omega⟩
  obtain ⟨-, -, -, -, ⟨i0, i1⟩⟩ := idx_in0 t
  have ht : t.val = 2 * ((i 0).val / 8) + 1 := rfl
  refine ⟨t, (flush0_4 t).mpr (by rw [ht]; omega), ?_⟩
  rw [mem_blk_r0]
  intro a
  match a with
  | ⟨0, _⟩ => show win0_4.index t 0 * 8 ≤ (i 0).val ∧ (i 0).val < win0_4.index t 0 * 8 + 8; rw [i0, ht]; omega
  | ⟨1, _⟩ => show win0_4.index t 1 * 1 ≤ (i 1).val ∧ (i 1).val < win0_4.index t 1 * 1 + 1; rw [i1]; omega

/-- So the region's result array ends holding the per-row shift losses. -/
theorem final_r0 (c : Dev nD) (hm1 : ∀ j, 0 ≤ am1_r0 V c j) (hm2 : ∀ j, 0 ≤ am2_r0 V c j) :
    (dat0 V c).arrAt 4 cfg0.N = lossArr_r0 V c :=
  (dat0 V c).arrAt_eq_of_cover 4 (lossArr_r0 V c) (flushed_eq_r0 V c hm1 hm2) covered_r0

end Cert.KernelIdeal.Hand

end
-- ==== Proof.KI.Blocks1.lean ====
/-
  Region 1's blocks read at an index: element (b', ch, h', w) of a window's block at grid point t — batch block
  t / 2, height tile t % 2 — is the window's array at (8 (t / 2) + b', ch, 16 (t % 2) + h', w).
-/
import proofs.«122145_j70437463654548_2_alg».proof.Proof.Gen.KernelIdeal.Launch
import proofs.«122145_j70437463654548_2_alg».proof.Proof.Gen.KernelIdeal.Skeleton
import proofs.«122145_j70437463654548_2_alg».proof.Proof.Gen.KernelIdeal.Points
import proofs.«122145_j70437463654548_2_alg».proof.Proof.KI.Half1
import Idealize.ShloMosaic.Lib.ValueIdx
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open ValueIdx

variable (V : (c : Dev nD) → (b : Ref sig .tc) → Buf (Elt F) ((c : Thread nD τ).loc b))

/-- Where the four input windows' blocks and the output's sit at point `t`. -/
theorem idx_in1 : ∀ t : Fin cfg1.N,
    (win1_0.index t 0 = t.val / 2 ∧ win1_0.index t 1 = 0 ∧ win1_0.index t 2 = t.val % 2 ∧ win1_0.index t 3 = 0)
    ∧ (win1_1.index t 0 = t.val / 2 ∧ win1_1.index t 1 = 0 ∧ win1_1.index t 2 = t.val % 2 ∧ win1_1.index t 3 = 0)
    ∧ (win1_2.index t 0 = t.val / 2 ∧ win1_2.index t 1 = 0 ∧ win1_2.index t 2 = t.val % 2 ∧ win1_2.index t 3 = 0)
    ∧ (win1_3.index t 0 = t.val / 2 ∧ win1_3.index t 1 = 0 ∧ win1_3.index t 2 = t.val % 2 ∧ win1_3.index t 3 = 0)
    ∧ (win1_4.index t 0 = t.val / 2 ∧ win1_4.index t 1 = 0) :=
  (by decide +kernel : ∀ t : Fin grid1.N, _)

/-- Row `8 g + b'` of the batch axis. -/
def bAt1 (g : ℕ) (hg : g < 8) (b' : Fin 8) : Fin 64 := ⟨8 * g + b'.val, by omega⟩
/-- Row `16 g + h'` of the height axis. -/
def hRow1 (g : ℕ) (hg : g < 2) (h' : Fin 16) : Fin 32 := ⟨16 * g + h'.val, by omega⟩

theorem tdiv1 (t : Fin cfg1.N) : t.val / 2 < 8 := by have : t.val < 16 := lt_of_lt_of_eq t.isLt (show cfg1.N = 16 from N_1); omega

theorem iblk1_0_apply (c : Dev nD) (t : Fin cfg1.N) (b' : Fin 8) (ch : Fin 16) (h' : Fin 16) (w : Fin 512) :
    iblk1 V c 0 t (ix4 b' ch h' w) = V c (Pipeline.arrRef spec1 0) (ix4 (bAt1 (t.val / 2) (tdiv1 t) b') ch (hRow1 (t.val % 2) (Nat.mod_lt _ (by decide)) h') w) := by
  obtain ⟨⟨i0, i1, i2, i3⟩, -⟩ := idx_in1 t
  unfold iblk1
  rw [View.read_apply]
  refine congrArg (V c (Pipeline.arrRef spec1 0)) (funext fun a => Fin.ext ?_)
  match a with
  | ⟨0, _⟩ => show win1_0.index t 0 * 8 + 1 * b'.val = 8 * (t.val / 2) + b'.val; rw [i0]; omega
  | ⟨1, _⟩ => show win1_0.index t 1 * 16 + 1 * ch.val = ch.val; rw [i1]; omega
  | ⟨2, _⟩ => show win1_0.index t 2 * 16 + 1 * h'.val = 16 * (t.val % 2) + h'.val; rw [i2]; omega
  | ⟨3, _⟩ => show win1_0.index t 3 * 512 + 1 * w.val = w.val; rw [i3]; omega

theorem iblk1_1_apply (c : Dev nD) (t : Fin cfg1.N) (b' : Fin 8)  (h' : Fin 16) (w : Fin 512) :
    iblk1 V c 1 t (ix4 b' (0 : Fin 1) h' w) = V c (Pipeline.arrRef spec1 1) (ix4 (bAt1 (t.val / 2) (tdiv1 t) b') (0 : Fin 1) (hRow1 (t.val % 2) (Nat.mod_lt _ (by decide)) h') w) := by
  obtain ⟨-, ⟨i0, i1, i2, i3⟩, -⟩ := idx_in1 t
  unfold iblk1
  rw [View.read_apply]
  refine congrArg (V c (Pipeline.arrRef spec1 1)) (funext fun a => Fin.ext ?_)
  match a with
  | ⟨0, _⟩ => show win1_1.index t 0 * 8 + 1 * b'.val = 8 * (t.val / 2) + b'.val; rw [i0]; omega
  | ⟨1, _⟩ => show win1_1.index t 1 * 1 + 1 * 0 = 0; rw [i1]
  | ⟨2, _⟩ => show win1_1.index t 2 * 16 + 1 * h'.val = 16 * (t.val % 2) + h'.val; rw [i2]; omega
  | ⟨3, _⟩ => show win1_1.index t 3 * 512 + 1 * w.val = w.val; rw [i3]; omega

theorem iblk1_2_apply (c : Dev nD) (t : Fin cfg1.N) (b' : Fin 8) (ch : Fin 16) (h' : Fin 16) (w : Fin 512) :
    iblk1 V c 2 t (ix4 b' ch h' w) = V c (Pipeline.arrRef spec1 2) (ix4 (bAt1 (t.val / 2) (tdiv1 t) b') ch (hRow1 (t.val % 2) (Nat.mod_lt _ (by decide)) h') w) := by
  obtain ⟨-, -, ⟨i0, i1, i2, i3⟩, -⟩ := idx_in1 t
  unfold iblk1
  rw [View.read_apply]
  refine congrArg (V c (Pipeline.arrRef spec1 2)) (funext fun a => Fin.ext ?_)
  match a with
  | ⟨0, _⟩ => show win1_2.index t 0 * 8 + 1 * b'.val = 8 * (t.val / 2) + b'.val; rw [i0]; omega
  | ⟨1, _⟩ => show win1_2.index t 1 * 16 + 1 * ch.val = ch.val; rw [i1]; omega
  | ⟨2, _⟩ => show win1_2.index t 2 * 16 + 1 * h'.val = 16 * (t.val % 2) + h'.val; rw [i2]; omega
  | ⟨3, _⟩ => show win1_2.index t 3 * 512 + 1 * w.val = w.val; rw [i3]; omega

theorem iblk1_3_apply (c : Dev nD) (t : Fin cfg1.N) (b' : Fin 8)  (h' : Fin 16) (w : Fin 512) :
    iblk1 V c 3 t (ix4 b' (0 : Fin 1) h' w) = V c (Pipeline.arrRef spec1 3) (ix4 (bAt1 (t.val / 2) (tdiv1 t) b') (0 : Fin 1) (hRow1 (t.val % 2) (Nat.mod_lt _ (by decide)) h') w) := by
  obtain ⟨-, -, -, ⟨i0, i1, i2, i3⟩, -⟩ := idx_in1 t
  unfold iblk1
  rw [View.read_apply]
  refine congrArg (V c (Pipeline.arrRef spec1 3)) (funext fun a => Fin.ext ?_)
  match a with
  | ⟨0, _⟩ => show win1_3.index t 0 * 8 + 1 * b'.val = 8 * (t.val / 2) + b'.val; rw [i0]; omega
  | ⟨1, _⟩ => show win1_3.index t 1 * 1 + 1 * 0 = 0; rw [i1]
  | ⟨2, _⟩ => show win1_3.index t 2 * 16 + 1 * h'.val = 16 * (t.val % 2) + h'.val; rw [i2]; omega
  | ⟨3, _⟩ => show win1_3.index t 3 * 512 + 1 * w.val = w.val; rw [i3]; omega

end Cert.KernelIdeal.Hand

end
-- ==== Proof.KI.Cases1.lean ====
/-
  What each control case of the second kernel's body leaves in the two accumulators and in the output's buffer, read
  at an index at the ideal values.  At a first tile each accumulator column holds the zero it was filled with plus the
  block's sum for that shift; at a second tile it holds what the first tile left plus the block's sum; and the output block
  is, per row, the least quotient of the two accumulators as the second tile leaves them.  The stores are walked one column
  at a time: a store into column j decides column j and leaves the others.
-/
import proofs.«122145_j70437463654548_2_alg».proof.Proof.KI.Half1
import proofs.«122145_j70437463654548_2_alg».proof.Proof.KV.Num
import proofs.«122145_j70437463654548_2_alg».proof.Proof.KV.Den
import proofs.«122145_j70437463654548_2_alg».proof.Proof.KV.Finish
import proofs.«122145_j70437463654548_2_alg».proof.Proof.KV.Cols

set_option maxRecDepth 16384

noncomputable section

namespace Cert.KernelIdeal.Hand

open Idealize.ShloMosaic Idealize.ShloMosaic.TcCoe Idealize.ShloMosaic.Tactic
open Idealize.SL Idealize.SL.Sem
open Cert.KernelIdeal Cert.KernelIdeal.Gen
open Idealize.ShloMosaic.ValueIdx Cert.KernelIdeal.PayValue

theorem sA0_1 (c : Dev nD) (i : grid1.Coords) (arg2 : Memref sig .tc .vmem S8x16x16x512 .f32) (harg2 : arg2.IsWhole) (arg3 : Memref sig .tc .vmem S8x1x16x512 .f32) (harg3 : arg3.IsWhole) (arg4 : Memref sig .tc .vmem S8x16x16x512 .f32) (harg4 : arg4.IsWhole) (arg5 : Memref sig .tc .vmem S8x1x16x512 .f32) (harg5 : arg5.IsWhole) (arg6 : Memref sig .tc .vmem S8x1 .f32) (harg6 : arg6.IsWhole) (arg7 : Memref sig .tc .vmem S8x9 .f32) (harg7 : arg7.IsWhole) (arg8 : Memref sig .tc .vmem S8x9 .f32) (harg8 : arg8.IsWhole) (hc0 : cond1_0 i) (hc1 : ¬cond1_1 i)
    (x0 : Vec Ideal S8x16x16x512 .f32) (x1 : Vec Ideal S8x1x16x512 .f32) (x2 : Vec Ideal S8x16x16x512 .f32) (x3 : Vec Ideal S8x1x16x512 .f32) (b' : Fin 8) (j : Fin 9) :
    sout1_A_0 (F := Ideal) c i arg2 harg2 arg3 harg3 arg4 harg4 arg5 harg5 arg6 harg6 arg7 harg7 arg8 harg8 hc0 hc1 x0 x1 x2 x3 (ix2 b' j)
      = Cert.ShiftLoss.zero + Cert.ShiftLoss.blockNum x0 x2 x1 x3 j b' := by
  unfold sout1_A_0
  rw [View.read_writes_junk_eq_canon]
  suffices h : ColInv (kernelRun1_A (F := Ideal) c i arg2 harg2 arg3 harg3 arg4 harg4 arg5 harg5 arg6 harg6 arg7 harg7 arg8 harg8 hc0 hc1 x0 x1 x2 x3).1 9
      (fun b' k => Cert.ShiftLoss.zero + Cert.ShiftLoss.blockNum x0 x2 x1 x3 k b') (fun _ _ => Cert.ShiftLoss.zero) from
    h.1 b' j j.isLt
  have e2 := readAt_whole arg2 harg2 x0 ![0, 0, 0, 0] off4_zero inb_S8x16x16x512_S8x16x16x512_0_0_0_0
  have e3 := readAt_whole arg3 harg3 x1 ![0, 0, 0, 0] off4_zero inb_S8x1x16x512_S8x1x16x512_0_0_0_0
  have e4 := readAt_whole arg4 harg4 x2 ![0, 0, 0, 0] off4_zero inb_S8x16x16x512_S8x16x16x512_0_0_0_0
  have e5 := readAt_whole arg5 harg5 x3 ![0, 0, 0, 0] off4_zero inb_S8x1x16x512_S8x1x16x512_0_0_0_0
  unfold kernelRun1_A
  dsimp only
  -- column 8
  refine ColInv.step arg7.view _ 8 _ rfl _ _ _ _ (fun b' => Cert.ShiftLoss.blockNum x0 x2 x1 x3 8 b') ?_ ?_ (fun _ => rfl)
  rotate_left
  · intro b'
    unfold kernelRun1_A.sl.v224 kernelRun1_A.sl.r kernelRun1_A.sl.r_1 kernelRun1_A.sl.r_2 kernelRun1_A.sl.r_3
    rw [e2, e3, e4, e5]
    exact k1_num8 x0 x2 x1 x3 _ b'
  unfold kernelRun1_A.sl.HS0_9
  -- column 7
  refine ColInv.step arg7.view _ 7 _ rfl _ _ _ _ (fun b' => Cert.ShiftLoss.blockNum x0 x2 x1 x3 7 b') ?_ ?_ (fun _ => rfl)
  rotate_left
  · intro b'
    unfold kernelRun1_A.sl.r_14 kernelRun1_A.sl.v199 kernelRun1_A.sl.r kernelRun1_A.sl.r_1 kernelRun1_A.sl.r_2 kernelRun1_A.sl.r_3
    rw [e2, e3, e4, e5]
    exact k1_num7 x0 x2 x1 x3 _ b'
  unfold kernelRun1_A.sl.HS0_8
  -- column 6
  refine ColInv.step arg7.view _ 6 _ rfl _ _ _ _ (fun b' => Cert.ShiftLoss.blockNum x0 x2 x1 x3 6 b') ?_ ?_ (fun _ => rfl)
  rotate_left
  · intro b'
    unfold kernelRun1_A.sl.v174 kernelRun1_A.sl.r_12 kernelRun1_A.sl.r kernelRun1_A.sl.r_1 kernelRun1_A.sl.r_2 kernelRun1_A.sl.r_3
    rw [e2, e3, e4, e5]
    exact k1_num6 x0 x2 x1 x3 _ b'
  unfold kernelRun1_A.sl.HS0_7
  -- column 5
  refine ColInv.step arg7.view _ 5 _ rfl _ _ _ _ (fun b' => Cert.ShiftLoss.blockNum x0 x2 x1 x3 5 b') ?_ ?_ (fun _ => rfl)
  rotate_left
  · intro b'
    unfold kernelRun1_A.sl.v149 kernelRun1_A.sl.r kernelRun1_A.sl.r_1 kernelRun1_A.sl.r_2 kernelRun1_A.sl.r_3
    rw [e2, e3, e4, e5]
    exact k1_num5 x0 x2 x1 x3 _ b'
  unfold kernelRun1_A.sl.HS0_6
  -- column 4
  refine ColInv.step arg7.view _ 4 _ rfl _ _ _ _ (fun b' => Cert.ShiftLoss.blockNum x0 x2 x1 x3 4 b') ?_ ?_ (fun _ => rfl)
  rotate_left
  · intro b'
    unfold kernelRun1_A.sl.v124 kernelRun1_A.sl.r kernelRun1_A.sl.r_1 kernelRun1_A.sl.r_2 kernelRun1_A.sl.r_3
    rw [e2, e3, e4, e5]
    exact k1_num4 x0 x2 x1 x3 _ b'
  unfold kernelRun1_A.sl.HS0_5
  -- column 3
  refine ColInv.step arg7.view _ 3 _ rfl _ _ _ _ (fun b' => Cert.ShiftLoss.blockNum x0 x2 x1 x3 3 b') ?_ ?_ (fun _ => rfl)
  rotate_left
  · intro b'
    unfold kernelRun1_A.sl.v99 kernelRun1_A.sl.r_8 kernelRun1_A.sl.r kernelRun1_A.sl.r_1 kernelRun1_A.sl.r_2 kernelRun1_A.sl.r_3
    rw [e2, e3, e4, e5]
    exact k1_num3 x0 x2 x1 x3 _ b'
  unfold kernelRun1_A.sl.HS0_4
  -- column 2
  refine ColInv.step arg7.view _ 2 _ rfl _ _ _ _ (fun b' => Cert.ShiftLoss.blockNum x0 x2 x1 x3 2 b') ?_ ?_ (fun _ => rfl)
  rotate_left
  · intro b'
    unfold kernelRun1_A.sl.v74 kernelRun1_A.sl.r_6 kernelRun1_A.sl.r_7 kernelRun1_A.sl.r kernelRun1_A.sl.r_1 kernelRun1_A.sl.r_2 kernelRun1_A.sl.r_3
    rw [e2, e3, e4, e5]
    exact k1_num2 x0 x2 x1 x3 _ b'
  unfold kernelRun1_A.sl.HS0_3
  -- column 1
  refine ColInv.step arg7.view _ 1 _ rfl _ _ _ _ (fun b' => Cert.ShiftLoss.blockNum x0 x2 x1 x3 1 b') ?_ ?_ (fun _ => rfl)
  rotate_left
  · intro b'
    unfold kernelRun1_A.sl.v49 kernelRun1_A.sl.r kernelRun1_A.sl.r_1 kernelRun1_A.sl.r_2 kernelRun1_A.sl.r_3
    rw [e2, e3, e4, e5]
    exact k1_num1 x0 x2 x1 x3 _ b'
  unfold kernelRun1_A.sl.HS0_2
  -- column 0
  refine ColInv.step arg7.view _ 0 _ rfl _ _ _ _ (fun b' => Cert.ShiftLoss.blockNum x0 x2 x1 x3 0 b') ?_ ?_ (fun _ => rfl)
  rotate_left
  · intro b'
    unfold kernelRun1_A.sl.r_5 kernelRun1_A.sl.v24
    rw [e2, e3, e4, e5]
    exact k1_num0 x0 x2 x1 x3 _ b'
  unfold kernelRun1_A.sl.HS0_1
  exact ColInv.base _ off2_zero _ _ _ _ fun b' k => k1_zeroNum (ix2 b' k)

theorem sA1_1 (c : Dev nD) (i : grid1.Coords) (arg2 : Memref sig .tc .vmem S8x16x16x512 .f32) (harg2 : arg2.IsWhole) (arg3 : Memref sig .tc .vmem S8x1x16x512 .f32) (harg3 : arg3.IsWhole) (arg4 : Memref sig .tc .vmem S8x16x16x512 .f32) (harg4 : arg4.IsWhole) (arg5 : Memref sig .tc .vmem S8x1x16x512 .f32) (harg5 : arg5.IsWhole) (arg6 : Memref sig .tc .vmem S8x1 .f32) (harg6 : arg6.IsWhole) (arg7 : Memref sig .tc .vmem S8x9 .f32) (harg7 : arg7.IsWhole) (arg8 : Memref sig .tc .vmem S8x9 .f32) (harg8 : arg8.IsWhole) (hc0 : cond1_0 i) (hc1 : ¬cond1_1 i)
    (x0 : Vec Ideal S8x16x16x512 .f32) (x1 : Vec Ideal S8x1x16x512 .f32) (x2 : Vec Ideal S8x16x16x512 .f32) (x3 : Vec Ideal S8x1x16x512 .f32) (b' : Fin 8) (j : Fin 9) :
    sout1_A_1 (F := Ideal) c i arg2 harg2 arg3 harg3 arg4 harg4 arg5 harg5 arg6 harg6 arg7 harg7 arg8 harg8 hc0 hc1 x0 x1 x2 x3 (ix2 b' j)
      = Cert.ShiftLoss.zero + Cert.ShiftLoss.sixteen * Cert.ShiftLoss.blockCnt x1 x3 j b' := by
  unfold sout1_A_1
  rw [View.read_writes_junk_eq_canon]
  suffices h : ColInv (kernelRun1_A (F := Ideal) c i arg2 harg2 arg3 harg3 arg4 harg4 arg5 harg5 arg6 harg6 arg7 harg7 arg8 harg8 hc0 hc1 x0 x1 x2 x3).2.1 9
      (fun b' k => Cert.ShiftLoss.zero + Cert.ShiftLoss.sixteen * Cert.ShiftLoss.blockCnt x1 x3 k b')
      (fun _ _ => Cert.ShiftLoss.zero) from
    h.1 b' j j.isLt
  have e3 := readAt_whole arg3 harg3 x1 ![0, 0, 0, 0] off4_zero inb_S8x1x16x512_S8x1x16x512_0_0_0_0
  have e5 := readAt_whole arg5 harg5 x3 ![0, 0, 0, 0] off4_zero inb_S8x1x16x512_S8x1x16x512_0_0_0_0
  unfold kernelRun1_A
  dsimp only
  -- column 8
  refine ColInv.step arg8.view _ 8 _ rfl _ _ _ _
    (fun b' => Cert.ShiftLoss.sixteen * Cert.ShiftLoss.blockCnt x1 x3 8 b') ?_ ?_ (fun _ => rfl)
  rotate_left
  · intro b'
    unfold kernelRun1_A.sl.v229 kernelRun1_A.sl.r_1 kernelRun1_A.sl.r_3
    rw [e3, e5]
    exact k1_den8 x1 x3 _ b'
  unfold kernelRun1_A.sl.HS1_9
  -- column 7
  refine ColInv.step arg8.view _ 7 _ rfl _ _ _ _
    (fun b' => Cert.ShiftLoss.sixteen * Cert.ShiftLoss.blockCnt x1 x3 7 b') ?_ ?_ (fun _ => rfl)
  rotate_left
  · intro b'
    unfold kernelRun1_A.sl.v204 kernelRun1_A.sl.r_13 kernelRun1_A.sl.r_1 kernelRun1_A.sl.r_3
    rw [e3, e5]
    exact k1_den7 x1 x3 _ b'
  unfold kernelRun1_A.sl.HS1_8
  -- column 6
  refine ColInv.step arg8.view _ 6 _ rfl _ _ _ _
    (fun b' => Cert.ShiftLoss.sixteen * Cert.ShiftLoss.blockCnt x1 x3 6 b') ?_ ?_ (fun _ => rfl)
  rotate_left
  · intro b'
    unfold kernelRun1_A.sl.v179 kernelRun1_A.sl.r_11 kernelRun1_A.sl.r_1 kernelRun1_A.sl.r_3
    rw [e3, e5]
    exact k1_den6 x1 x3 _ b'
  unfold kernelRun1_A.sl.HS1_7
  -- column 5
  refine ColInv.step arg8.view _ 5 _ rfl _ _ _ _
    (fun b' => Cert.ShiftLoss.sixteen * Cert.ShiftLoss.blockCnt x1 x3 5 b') ?_ ?_ (fun _ => rfl)
  rotate_left
  · intro b'
    unfold kernelRun1_A.sl.v154 kernelRun1_A.sl.r_1 kernelRun1_A.sl.r_3
    rw [e3, e5]
    exact k1_den5 x1 x3 _ b'
  unfold kernelRun1_A.sl.HS1_6
  -- column 4
  refine ColInv.step arg8.view _ 4 _ rfl _ _ _ _
    (fun b' => Cert.ShiftLoss.sixteen * Cert.ShiftLoss.blockCnt x1 x3 4 b') ?_ ?_ (fun _ => rfl)
  rotate_left
  · intro b'
    unfold kernelRun1_A.sl.r_10 kernelRun1_A.sl.v129 kernelRun1_A.sl.r_1 kernelRun1_A.sl.r_3
    rw [e3, e5]
    exact k1_den4 x1 x3 _ b'
  unfold kernelRun1_A.sl.HS1_5
  -- column 3
  refine ColInv.step arg8.view _ 3 _ rfl _ _ _ _
    (fun b' => Cert.ShiftLoss.sixteen * Cert.ShiftLoss.blockCnt x1 x3 3 b') ?_ ?_ (fun _ => rfl)
  rotate_left
  · intro b'
    unfold kernelRun1_A.sl.v104 kernelRun1_A.sl.r_9 kernelRun1_A.sl.cst_64 kernelRun1_A.sl.r_1 kernelRun1_A.sl.r_3
    rw [e3, e5]
    exact k1_den3 x1 x3 _ b'
  unfold kernelRun1_A.sl.HS1_4
  -- column 2
  refine ColInv.step arg8.view _ 2 _ rfl _ _ _ _
    (fun b' => Cert.ShiftLoss.sixteen * Cert.ShiftLoss.blockCnt x1 x3 2 b') ?_ ?_ (fun _ => rfl)
  rotate_left
  · intro b'
    unfold kernelRun1_A.sl.v79 kernelRun1_A.sl.r_7 kernelRun1_A.sl.r_1 kernelRun1_A.sl.r_3
    rw [e3, e5]
    exact k1_den2 x1 x3 _ b'
  unfold kernelRun1_A.sl.HS1_3
  -- column 1
  refine ColInv.step arg8.view _ 1 _ rfl _ _ _ _
    (fun b' => Cert.ShiftLoss.sixteen * Cert.ShiftLoss.blockCnt x1 x3 1 b') ?_ ?_ (fun _ => rfl)
  rotate_left
  · intro b'
    unfold kernelRun1_A.sl.v54 kernelRun1_A.sl.r_1 kernelRun1_A.sl.r_3
    rw [e3, e5]
    exact k1_den1 x1 x3 _ b'
  unfold kernelRun1_A.sl.HS1_2
  -- column 0
  refine ColInv.step arg8.view _ 0 _ rfl _ _ _ _
    (fun b' => Cert.ShiftLoss.sixteen * Cert.ShiftLoss.blockCnt x1 x3 0 b') ?_ ?_ (fun _ => rfl)
  rotate_left
  · intro b'
    unfold kernelRun1_A.sl.r_4 kernelRun1_A.sl.v29
    rw [e3, e5]
    exact k1_den0 x1 x3 _ b'
  unfold kernelRun1_A.sl.HS1_1
  exact ColInv.base _ off2_zero _ _ _ _ fun b' k => k1_zeroDen (ix2 b' k)

theorem sB0_1 (c : Dev nD) (i : grid1.Coords) (arg2 : Memref sig .tc .vmem S8x16x16x512 .f32) (harg2 : arg2.IsWhole) (arg3 : Memref sig .tc .vmem S8x1x16x512 .f32) (harg3 : arg3.IsWhole) (arg4 : Memref sig .tc .vmem S8x16x16x512 .f32) (harg4 : arg4.IsWhole) (arg5 : Memref sig .tc .vmem S8x1x16x512 .f32) (harg5 : arg5.IsWhole) (arg6 : Memref sig .tc .vmem S8x1 .f32) (harg6 : arg6.IsWhole) (arg7 : Memref sig .tc .vmem S8x9 .f32) (harg7 : arg7.IsWhole) (arg8 : Memref sig .tc .vmem S8x9 .f32) (harg8 : arg8.IsWhole) (hc0 : ¬cond1_0 i) (hc1 : cond1_1 i)
    (x0 : Vec Ideal S8x16x16x512 .f32) (x1 : Vec Ideal S8x1x16x512 .f32) (x2 : Vec Ideal S8x16x16x512 .f32) (x3 : Vec Ideal S8x1x16x512 .f32) (xs0 xs1 : Vec Ideal S8x9 .f32) (b' : Fin 8) (j : Fin 9) :
    sout1_B_0 (F := Ideal) c i arg2 harg2 arg3 harg3 arg4 harg4 arg5 harg5 arg6 harg6 arg7 harg7 arg8 harg8 hc0 hc1 x0 x1 x2 x3 xs0 xs1 (ix2 b' j)
      = xs0 (ix2 b' j) + Cert.ShiftLoss.blockNum x0 x2 x1 x3 j b' := by
  unfold sout1_B_0
  rw [View.read_writes_junk_eq_canon]
  suffices h : ColLt (kernelRun1_B (F := Ideal) c i arg2 harg2 arg3 harg3 arg4 harg4 arg5 harg5 arg6 harg6 arg7 harg7 arg8 harg8 hc0 hc1 x0 x1 x2 x3 xs0 xs1).2.1 9
      (fun b' k => xs0 (ix2 b' k) + Cert.ShiftLoss.blockNum x0 x2 x1 x3 k b') from
    h b' j j.isLt
  have e2 := readAt_whole arg2 harg2 x0 ![0, 0, 0, 0] off4_zero inb_S8x16x16x512_S8x16x16x512_0_0_0_0
  have e3 := readAt_whole arg3 harg3 x1 ![0, 0, 0, 0] off4_zero inb_S8x1x16x512_S8x1x16x512_0_0_0_0
  have e4 := readAt_whole arg4 harg4 x2 ![0, 0, 0, 0] off4_zero inb_S8x16x16x512_S8x16x16x512_0_0_0_0
  have e5 := readAt_whole arg5 harg5 x3 ![0, 0, 0, 0] off4_zero inb_S8x1x16x512_S8x1x16x512_0_0_0_0
  unfold kernelRun1_B
  dsimp only
  unfold kernelRun1_B.sl.HS0_9
  -- column 8
  refine ColLt.step _ 8 _ rfl _ _ _ ?_ ?_
  rotate_left
  · intro b'
    unfold kernelRun1_B.sl.v224 kernelRun1_B.sl.r kernelRun1_B.sl.r_1 kernelRun1_B.sl.r_2 kernelRun1_B.sl.r_3
    rw [e2, e3, e4, e5]
    refine (k1_num8 x0 x2 x1 x3 _ b').trans ?_
    exact congrArg (· + Cert.ShiftLoss.blockNum x0 x2 x1 x3 8 b') (readAt_col arg7 harg7 xs0 8 _ rfl _ b' 0)
  -- column 7
  refine ColLt.step _ 7 _ rfl _ _ _ ?_ ?_
  rotate_left
  · intro b'
    unfold kernelRun1_B.sl.r_15 kernelRun1_B.sl.v199 kernelRun1_B.sl.r kernelRun1_B.sl.r_1 kernelRun1_B.sl.r_2 kernelRun1_B.sl.r_3
    rw [e2, e3, e4, e5]
    refine (k1_num7 x0 x2 x1 x3 _ b').trans ?_
    exact congrArg (· + Cert.ShiftLoss.blockNum x0 x2 x1 x3 7 b') (readAt_col arg7 harg7 xs0 7 _ rfl _ b' 0)
  -- column 6
  refine ColLt.step _ 6 _ rfl _ _ _ ?_ ?_
  rotate_left
  · intro b'
    unfold kernelRun1_B.sl.v174 kernelRun1_B.sl.r_13 kernelRun1_B.sl.r kernelRun1_B.sl.r_1 kernelRun1_B.sl.r_2 kernelRun1_B.sl.r_3
    rw [e2, e3, e4, e5]
    refine (k1_num6 x0 x2 x1 x3 _ b').trans ?_
    exact congrArg (· + Cert.ShiftLoss.blockNum x0 x2 x1 x3 6 b') (readAt_col arg7 harg7 xs0 6 _ rfl _ b' 0)
  -- column 5
  refine ColLt.step _ 5 _ rfl _ _ _ ?_ ?_
  rotate_left
  · intro b'
    unfold kernelRun1_B.sl.v149 kernelRun1_B.sl.r kernelRun1_B.sl.r_1 kernelRun1_B.sl.r_2 kernelRun1_B.sl.r_3
    rw [e2, e3, e4, e5]
    refine (k1_num5 x0 x2 x1 x3 _ b').trans ?_
    exact congrArg (· + Cert.ShiftLoss.blockNum x0 x2 x1 x3 5 b') (readAt_col arg7 harg7 xs0 5 _ rfl _ b' 0)
  -- column 4
  refine ColLt.step _ 4 _ rfl _ _ _ ?_ ?_
  rotate_left
  · intro b'
    unfold kernelRun1_B.sl.v124 kernelRun1_B.sl.r kernelRun1_B.sl.r_1 kernelRun1_B.sl.r_2 kernelRun1_B.sl.r_3
    rw [e2, e3, e4, e5]
    refine (k1_num4 x0 x2 x1 x3 _ b').trans ?_
    exact congrArg (· + Cert.ShiftLoss.blockNum x0 x2 x1 x3 4 b') (readAt_col arg7 harg7 xs0 4 _ rfl _ b' 0)
  -- column 3
  refine ColLt.step _ 3 _ rfl _ _ _ ?_ ?_
  rotate_left
  · intro b'
    unfold kernelRun1_B.sl.v99 kernelRun1_B.sl.r_9 kernelRun1_B.sl.r kernelRun1_B.sl.r_1 kernelRun1_B.sl.r_2 kernelRun1_B.sl.r_3
    rw [e2, e3, e4, e5]
    refine (k1_num3 x0 x2 x1 x3 _ b').trans ?_
    exact congrArg (· + Cert.ShiftLoss.blockNum x0 x2 x1 x3 3 b') (readAt_col arg7 harg7 xs0 3 _ rfl _ b' 0)
  -- column 2
  refine ColLt.step _ 2 _ rfl _ _ _ ?_ ?_
  rotate_left
  · intro b'
    unfold kernelRun1_B.sl.v74 kernelRun1_B.sl.r_7 kernelRun1_B.sl.r_8 kernelRun1_B.sl.r kernelRun1_B.sl.r_1 kernelRun1_B.sl.r_2 kernelRun1_B.sl.r_3
    rw [e2, e3, e4, e5]
    refine (k1_num2 x0 x2 x1 x3 _ b').trans ?_
    exact congrArg (· + Cert.ShiftLoss.blockNum x0 x2 x1 x3 2 b') (readAt_col arg7 harg7 xs0 2 _ rfl _ b' 0)
  -- column 1
  refine ColLt.step _ 1 _ rfl _ _ _ ?_ ?_
  rotate_left
  · intro b'
    unfold kernelRun1_B.sl.v49 kernelRun1_B.sl.r kernelRun1_B.sl.r_1 kernelRun1_B.sl.r_2 kernelRun1_B.sl.r_3
    rw [e2, e3, e4, e5]
    refine (k1_num1 x0 x2 x1 x3 _ b').trans ?_
    exact congrArg (· + Cert.ShiftLoss.blockNum x0 x2 x1 x3 1 b') (readAt_col arg7 harg7 xs0 1 _ rfl _ b' 0)
  -- column 0
  refine ColLt.step _ 0 _ rfl _ _ _ ?_ ?_
  rotate_left
  · intro b'
    unfold kernelRun1_B.sl.r_5
    rw [e2, e3, e4, e5]
    refine (k1_num0 x0 x2 x1 x3 _ b').trans ?_
    exact congrArg (· + Cert.ShiftLoss.blockNum x0 x2 x1 x3 0 b') (readAt_col arg7 harg7 xs0 0 _ rfl _ b' 0)
  exact ColLt.base _

theorem sB1_1 (c : Dev nD) (i : grid1.Coords) (arg2 : Memref sig .tc .vmem S8x16x16x512 .f32) (harg2 : arg2.IsWhole) (arg3 : Memref sig .tc .vmem S8x1x16x512 .f32) (harg3 : arg3.IsWhole) (arg4 : Memref sig .tc .vmem S8x16x16x512 .f32) (harg4 : arg4.IsWhole) (arg5 : Memref sig .tc .vmem S8x1x16x512 .f32) (harg5 : arg5.IsWhole) (arg6 : Memref sig .tc .vmem S8x1 .f32) (harg6 : arg6.IsWhole) (arg7 : Memref sig .tc .vmem S8x9 .f32) (harg7 : arg7.IsWhole) (arg8 : Memref sig .tc .vmem S8x9 .f32) (harg8 : arg8.IsWhole) (hc0 : ¬cond1_0 i) (hc1 : cond1_1 i)
    (x0 : Vec Ideal S8x16x16x512 .f32) (x1 : Vec Ideal S8x1x16x512 .f32) (x2 : Vec Ideal S8x16x16x512 .f32) (x3 : Vec Ideal S8x1x16x512 .f32) (xs0 xs1 : Vec Ideal S8x9 .f32) (b' : Fin 8) (j : Fin 9) :
    sout1_B_1 (F := Ideal) c i arg2 harg2 arg3 harg3 arg4 harg4 arg5 harg5 arg6 harg6 arg7 harg7 arg8 harg8 hc0 hc1 x0 x1 x2 x3 xs0 xs1 (ix2 b' j)
      = xs1 (ix2 b' j) + Cert.ShiftLoss.sixteen * Cert.ShiftLoss.blockCnt x1 x3 j b' := by
  unfold sout1_B_1
  rw [View.read_writes_junk_eq_canon]
  suffices h : ColLt (kernelRun1_B (F := Ideal) c i arg2 harg2 arg3 harg3 arg4 harg4 arg5 harg5 arg6 harg6 arg7 harg7 arg8 harg8 hc0 hc1 x0 x1 x2 x3 xs0 xs1).2.2.1 9
      (fun b' k => xs1 (ix2 b' k) + Cert.ShiftLoss.sixteen * Cert.ShiftLoss.blockCnt x1 x3 k b') from
    h b' j j.isLt
  have e3 := readAt_whole arg3 harg3 x1 ![0, 0, 0, 0] off4_zero inb_S8x1x16x512_S8x1x16x512_0_0_0_0
  have e5 := readAt_whole arg5 harg5 x3 ![0, 0, 0, 0] off4_zero inb_S8x1x16x512_S8x1x16x512_0_0_0_0
  unfold kernelRun1_B
  dsimp only
  unfold kernelRun1_B.sl.HS1_9
  -- column 8
  refine ColLt.step _ 8 _ rfl _ _ _ ?_ ?_
  rotate_left
  · intro b'
    unfold kernelRun1_B.sl.v229 kernelRun1_B.sl.r_1 kernelRun1_B.sl.r_3
    rw [e3, e5]
    refine (k1_den8 x1 x3 _ b').trans ?_
    exact congrArg (· + Cert.ShiftLoss.sixteen * Cert.ShiftLoss.blockCnt x1 x3 8 b')
      (readAt_col arg8 harg8 xs1 8 _ rfl _ b' 0)
  -- column 7
  refine ColLt.step _ 7 _ rfl _ _ _ ?_ ?_
  rotate_left
  · intro b'
    unfold kernelRun1_B.sl.v204 kernelRun1_B.sl.r_14 kernelRun1_B.sl.r_1 kernelRun1_B.sl.r_3
    rw [e3, e5]
    refine (k1_den7 x1 x3 _ b').trans ?_
    exact congrArg (· + Cert.ShiftLoss.sixteen * Cert.ShiftLoss.blockCnt x1 x3 7 b')
      (readAt_col arg8 harg8 xs1 7 _ rfl _ b' 0)
  -- column 6
  refine ColLt.step _ 6 _ rfl _ _ _ ?_ ?_
  rotate_left
  · intro b'
    unfold kernelRun1_B.sl.v179 kernelRun1_B.sl.r_12 kernelRun1_B.sl.r_1 kernelRun1_B.sl.r_3
    rw [e3, e5]
    refine (k1_den6 x1 x3 _ b').trans ?_
    exact congrArg (· + Cert.ShiftLoss.sixteen * Cert.ShiftLoss.blockCnt x1 x3 6 b')
      (readAt_col arg8 harg8 xs1 6 _ rfl _ b' 0)
  -- column 5
  refine ColLt.step _ 5 _ rfl _ _ _ ?_ ?_
  rotate_left
  · intro b'
    unfold kernelRun1_B.sl.v154 kernelRun1_B.sl.r_1 kernelRun1_B.sl.r_3
    rw [e3, e5]
    refine (k1_den5 x1 x3 _ b').trans ?_
    exact congrArg (· + Cert.ShiftLoss.sixteen * Cert.ShiftLoss.blockCnt x1 x3 5 b')
      (readAt_col arg8 harg8 xs1 5 _ rfl _ b' 0)
  -- column 4
  refine ColLt.step _ 4 _ rfl _ _ _ ?_ ?_
  rotate_left
  · intro b'
    unfold kernelRun1_B.sl.r_11 kernelRun1_B.sl.v129 kernelRun1_B.sl.r_1 kernelRun1_B.sl.r_3
    rw [e3, e5]
    refine (k1_den4 x1 x3 _ b').trans ?_
    exact congrArg (· + Cert.ShiftLoss.sixteen * Cert.ShiftLoss.blockCnt x1 x3 4 b')
      (readAt_col arg8 harg8 xs1 4 _ rfl _ b' 0)
  -- column 3
  refine ColLt.step _ 3 _ rfl _ _ _ ?_ ?_
  rotate_left
  · intro b'
    unfold kernelRun1_B.sl.v104 kernelRun1_B.sl.r_10 kernelRun1_B.sl.cst_64 kernelRun1_B.sl.r_1 kernelRun1_B.sl.r_3
    rw [e3, e5]
    refine (k1_den3 x1 x3 _ b').trans ?_
    exact congrArg (· + Cert.ShiftLoss.sixteen * Cert.ShiftLoss.blockCnt x1 x3 3 b')
      (readAt_col arg8 harg8 xs1 3 _ rfl _ b' 0)
  -- column 2
  refine ColLt.step _ 2 _ rfl _ _ _ ?_ ?_
  rotate_left
  · intro b'
    unfold kernelRun1_B.sl.v79 kernelRun1_B.sl.r_8 kernelRun1_B.sl.r_1 kernelRun1_B.sl.r_3
    rw [e3, e5]
    refine (k1_den2 x1 x3 _ b').trans ?_
    exact congrArg (· + Cert.ShiftLoss.sixteen * Cert.ShiftLoss.blockCnt x1 x3 2 b')
      (readAt_col arg8 harg8 xs1 2 _ rfl _ b' 0)
  -- column 1
  refine ColLt.step _ 1 _ rfl _ _ _ ?_ ?_
  rotate_left
  · intro b'
    unfold kernelRun1_B.sl.v54 kernelRun1_B.sl.r_1 kernelRun1_B.sl.r_3
    rw [e3, e5]
    refine (k1_den1 x1 x3 _ b').trans ?_
    exact congrArg (· + Cert.ShiftLoss.sixteen * Cert.ShiftLoss.blockCnt x1 x3 1 b')
      (readAt_col arg8 harg8 xs1 1 _ rfl _ b' 0)
  -- column 0
  refine ColLt.step _ 0 _ rfl _ _ _ ?_ ?_
  rotate_left
  · intro b'
    unfold kernelRun1_B.sl.r_4
    rw [e3, e5]
    refine (k1_den0 x1 x3 _ b').trans ?_
    exact congrArg (· + Cert.ShiftLoss.sixteen * Cert.ShiftLoss.blockCnt x1 x3 0 b')
      (readAt_col arg8 harg8 xs1 0 _ rfl _ b' 0)
  exact ColLt.base _

theorem oB4_1 (c : Dev nD) (i : grid1.Coords) (arg2 : Memref sig .tc .vmem S8x16x16x512 .f32) (harg2 : arg2.IsWhole) (arg3 : Memref sig .tc .vmem S8x1x16x512 .f32) (harg3 : arg3.IsWhole) (arg4 : Memref sig .tc .vmem S8x16x16x512 .f32) (harg4 : arg4.IsWhole) (arg5 : Memref sig .tc .vmem S8x1x16x512 .f32) (harg5 : arg5.IsWhole) (arg6 : Memref sig .tc .vmem S8x1 .f32) (harg6 : arg6.IsWhole) (arg7 : Memref sig .tc .vmem S8x9 .f32) (harg7 : arg7.IsWhole) (arg8 : Memref sig .tc .vmem S8x9 .f32) (harg8 : arg8.IsWhole) (hc0 : ¬cond1_0 i) (hc1 : cond1_1 i)
    (x0 : Vec Ideal S8x16x16x512 .f32) (x1 : Vec Ideal S8x1x16x512 .f32) (x2 : Vec Ideal S8x16x16x512 .f32) (x3 : Vec Ideal S8x1x16x512 .f32) (xs0 xs1 : Vec Ideal S8x9 .f32) (b' : Fin 8) :
    out1_B_4 (F := Ideal) c i arg2 harg2 arg3 harg3 arg4 harg4 arg5 harg5 arg6 harg6 arg7 harg7 arg8 harg8 hc0 hc1 x0 x1 x2 x3 xs0 xs1 (ix2 b' (0 : Fin 1))
      = Cert.ShiftLoss.finish (sout1_B_0 (F := Ideal) c i arg2 harg2 arg3 harg3 arg4 harg4 arg5 harg5 arg6 harg6 arg7 harg7 arg8 harg8 hc0 hc1 x0 x1 x2 x3 xs0 xs1)
          (sout1_B_1 (F := Ideal) c i arg2 harg2 arg3 harg3 arg4 harg4 arg5 harg5 arg6 harg6 arg7 harg7 arg8 harg8 hc0 hc1 x0 x1 x2 x3 xs0 xs1) b' := by
  unfold out1_B_4 sout1_B_0 sout1_B_1
  rw [View.read_writes_junk_eq_canon, View.read_writes_junk_eq_canon, View.read_writes_junk_eq_canon]
  unfold kernelRun1_B
  dsimp only
  rw [View.canon_unit_zero off2_zero]
  unfold kernelRun1_B.sl.v237 kernelRun1_B.sl.v238
  rw [readCov_whole arg7.view _ _ off2_zero, readCov_whole arg8.view _ _ off2_zero]
  exact k1_finish _ _ b'

end Cert.KernelIdeal.Hand

end
-- ==== Proof.KI.Value1.lean ====
/-
  What region 1 leaves in its result array, at the ideal instance: row b of the [64,1] array is the shift loss of
  batch row b.  The second tile's output block is the finishing step applied to the two accumulators, each of
  which holds, column by column, zero plus the first tile's sum plus the second tile's sum; a tile's block sums
  are the corresponding tile sums of the whole arrays (a block's element sits at block index times block size plus
  its coordinate); and the quotient of the totals is the normalised distance.  The eight second-tile points write
  back the eight row blocks, which tile the array.
-/
import proofs.«122145_j70437463654548_2_alg».proof.Proof.Gen.KernelIdeal.Launch
import proofs.«122145_j70437463654548_2_alg».proof.Proof.Gen.KernelIdeal.Skeleton
import proofs.«122145_j70437463654548_2_alg».proof.Proof.Gen.KernelIdeal.Points
import proofs.«122145_j70437463654548_2_alg».proof.Proof.KI.Blocks1
import proofs.«122145_j70437463654548_2_alg».proof.Proof.SpecLaws
import proofs.«122145_j70437463654548_2_alg».proof.Proof.KI.Cases1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open ValueIdx

variable (V : (c : Dev nD) → (b : Ref sig .tc) → Buf (Elt Ideal) ((c : Thread nD τ).loc b))

/-- The four arrays the region reads, as the shared mathematics types them. -/
abbrev af1_r1 (c : Dev nD) : Cert.ShiftLoss.Feat := V c (Pipeline.arrRef spec1 0)
abbrev am1_r1 (c : Dev nD) : Cert.ShiftLoss.MaskF := V c (Pipeline.arrRef spec1 1)
abbrev af2_r1 (c : Dev nD) : Cert.ShiftLoss.Feat := V c (Pipeline.arrRef spec1 2)
abbrev am2_r1 (c : Dev nD) : Cert.ShiftLoss.MaskF := V c (Pipeline.arrRef spec1 3)

theorem tile_lt_r1 (t : Fin cfg1.N) : t.val % 2 < 2 := Nat.mod_lt _ (by decide)

/-- A block's sums are the tile's sums of the whole arrays. -/
theorem blockNum_eq_r1 (c : Dev nD) (t : Fin cfg1.N) (j : Fin 9) (b' : Fin 8) :
    Cert.ShiftLoss.blockNum (iblk1 V c 0 t) (iblk1 V c 2 t) (iblk1 V c 1 t) (iblk1 V c 3 t) j b'
      = Cert.ShiftLoss.numTile (af1_r1 V c) (af2_r1 V c) (am1_r1 V c) (am2_r1 V c) j (bAt1 (t.val / 2) (tdiv1 t) b') ⟨t.val % 2, tile_lt_r1 t⟩ := by
  unfold Cert.ShiftLoss.blockNum Cert.ShiftLoss.numTile Cert.ShiftLoss.blockTerm Cert.ShiftLoss.term Cert.ShiftLoss.blockPm Cert.ShiftLoss.pm
  refine Finset.sum_congr rfl fun ch _ => Finset.sum_congr rfl fun h' _ => Finset.sum_congr rfl fun w _ => ?_
  rw [iblk1_0_apply, iblk1_2_apply, iblk1_1_apply, iblk1_3_apply]
  rfl

theorem blockCnt_eq_r1 (c : Dev nD) (t : Fin cfg1.N) (j : Fin 9) (b' : Fin 8) :
    Cert.ShiftLoss.blockCnt (iblk1 V c 1 t) (iblk1 V c 3 t) j b'
      = Cert.ShiftLoss.cntTile (am1_r1 V c) (am2_r1 V c) j (bAt1 (t.val / 2) (tdiv1 t) b') ⟨t.val % 2, tile_lt_r1 t⟩ := by
  unfold Cert.ShiftLoss.blockCnt Cert.ShiftLoss.cntTile Cert.ShiftLoss.blockPm Cert.ShiftLoss.pm
  refine Finset.sum_congr rfl fun h' _ => Finset.sum_congr rfl fun w _ => ?_
  rw [iblk1_1_apply, iblk1_3_apply]
  rfl

/-- The point before a second tile's point: the first tile of the same batch block. -/
def prevPt_r1 (t : Fin cfg1.N) : Fin cfg1.N := ⟨t.val - 1, Nat.lt_of_le_of_lt (Nat.sub_le _ _) t.isLt⟩

/-- After a second tile's point the output's staging buffer holds, row by row, the shift loss of the block's rows. -/
theorem out_odd_r1 (c : Dev nD) (hm1 : ∀ j, 0 ≤ am1_r1 V c j) (hm2 : ∀ j, 0 ≤ am2_r1 V c j) (t : Fin cfg1.N) (h1 : t.val % 2 = 1) (b' : Fin 8) :
    (outsAt1 V c t.val t.isLt).1 (ix2 b' (0 : Fin 1))
      = Cert.ShiftLoss.loss (af1_r1 V c) (af2_r1 V c) (am1_r1 V c) (am2_r1 V c) (bAt1 (t.val / 2) (tdiv1 t) b') := by
  have h0 : (prevPt_r1 t).val % 2 = 0 := by show (t.val - 1) % 2 = 0; omega
  have hdiv : (prevPt_r1 t).val / 2 = t.val / 2 := by show (t.val - 1) / 2 = t.val / 2; omega
  have hp := outsAt1_A V c (prevPt_r1 t) h0
  rw [outsAt1_B V c t h1]
  dsimp only
  rw [oB4_1]
  unfold Cert.ShiftLoss.finish Cert.ShiftLoss.loss
  refine Finset.inf_congr rfl fun j _ => ?_
  rw [sB0_1, sB1_1]
  rw [show outsAt1 V c (t.val - 1) (Nat.lt_of_le_of_lt (Nat.sub_le _ _) t.isLt) = outsAt1 V c (prevPt_r1 t).val (prevPt_r1 t).isLt from rfl, hp]
  dsimp only
  rw [sA0_1, sA1_1, blockNum_eq_r1, blockNum_eq_r1, blockCnt_eq_r1, blockCnt_eq_r1]
  have e0 : (⟨(prevPt_r1 t).val % 2, tile_lt_r1 (prevPt_r1 t)⟩ : Fin 2) = 0 := Fin.ext h0
  have e1 : (⟨t.val % 2, tile_lt_r1 t⟩ : Fin 2) = 1 := Fin.ext h1
  have eb : bAt1 ((prevPt_r1 t).val / 2) (tdiv1 (prevPt_r1 t)) b' = bAt1 (t.val / 2) (tdiv1 t) b' := Fin.ext (by show 8 * ((prevPt_r1 t).val / 2) + b'.val = 8 * (t.val / 2) + b'.val; rw [hdiv])
  rw [e0, e1, eb]
  exact Cert.ShiftLoss.dist_of_tiles _ _ _ _ hm1 hm2 j _

/-- The result array as one function of the arrays the region reads: row b holds the shift loss of batch row b. -/
abbrev lossArr_r1 (c : Dev nD) : S64x1.Idx → Elt Ideal .f32 :=
  fun j => Cert.ShiftLoss.loss (af1_r1 V c) (af2_r1 V c) (am1_r1 V c) (am2_r1 V c) (j 0)

/-- What a second tile's point writes back is its block of that function. -/
theorem flushed_eq_r1 (c : Dev nD) (hm1 : ∀ j, 0 ≤ am1_r1 V c j) (hm2 : ∀ j, 0 ≤ am2_r1 V c j) (t : Fin cfg1.N) (hf : (cfg1.win 4).flush t = true) :
    (dat1 V c).flushed 4 t = ((cfg1.win 4).blk t).view.read (Elt Ideal) (lossArr_r1 V c) := by
  have h1 : t.val % 2 = 1 := (flush1_4 t).mp hf
  obtain ⟨-, -, -, -, ⟨i0, i1⟩⟩ := idx_in1 t
  show (cfg1.win 4).cut (grid1.coords t) ((dat1 V c).after 4 t) = _
  rw [after1_4]
  funext y
  obtain ⟨b', rfl⟩ : ∃ b' : Fin 8, y = ix2 b' (0 : Fin 1) := ⟨y 0, by
    have hy : (y 1).val < 1 := (y 1).isLt
    rw [eq_ix2 y]; exact congrArg (ix2 (y 0)) (Fin.ext (by show (y 1).val = 0; omega))⟩
  show (outsAt1 V c t.val t.isLt).1 (ix2 b' (0 : Fin 1)) = lossArr_r1 V c (((cfg1.win 4).blk t).view.emb (ix2 b' (0 : Fin 1)))
  rw [out_odd_r1 V c hm1 hm2 t h1 b']
  refine congrArg (Cert.ShiftLoss.loss (af1_r1 V c) (af2_r1 V c) (am1_r1 V c) (am2_r1 V c)) (Fin.ext ?_)
  show 8 * (t.val / 2) + b'.val = win1_4.index t 0 * 8 + 1 * b'.val
  rw [i0]; omega

theorem mem_blk_r1 (t : Fin cfg1.N) (i : S64x1.Idx) :
    i ∈ ((cfg1.win 4).blk t).view.set ↔ ∀ a : Fin 2, win1_4.index t a * S8x1.size a ≤ (i a).val ∧ (i a).val < win1_4.index t a * S8x1.size a + S8x1.size a := by
  show i ∈ ((View.whole main_v5).slice (win1_4.rect t)).set ↔ _
  rw [View.set_slice_whole, Rect.mem_set_unit]
  exact Iff.rfl

/-- The eight second-tile points' blocks tile the array. -/
theorem covered_r1 (i : S64x1.Idx) : ∃ t : Fin cfg1.N, (cfg1.win 4).flush t = true ∧ i ∈ ((cfg1.win 4).blk t).view.set := by
  have hi0 : (i 0).val < 64 := (i 0).isLt
  have hi1 : (i 1).val < 1 := (i 1).isLt
  have hN : cfg1.N = 16 := N_1
  let t : Fin cfg1.N := ⟨2 * ((i 0).val / 8) + 1, by rw [hN]; omega⟩
  obtain ⟨-, -, -, -, ⟨i0, i1⟩⟩ := idx_in1 t
  have ht : t.val = 2 * ((i 0).val / 8) + 1 := rfl
  refine ⟨t, (flush1_4 t).mpr (by rw [ht]; omega), ?_⟩
  rw [mem_blk_r1]
  intro a
  match a with
  | ⟨0, _⟩ => show win1_4.index t 0 * 8 ≤ (i 0).val ∧ (i 0).val < win1_4.index t 0 * 8 + 8; rw [i0, ht]; omega
  | ⟨1, _⟩ => show win1_4.index t 1 * 1 ≤ (i 1).val ∧ (i 1).val < win1_4.index t 1 * 1 + 1; rw [i1]; omega

/-- So the region's result array ends holding the per-row shift losses. -/
theorem final_r1 (c : Dev nD) (hm1 : ∀ j, 0 ≤ am1_r1 V c j) (hm2 : ∀ j, 0 ≤ am2_r1 V c j) :
    (dat1 V c).arrAt 4 cfg1.N = lossArr_r1 V c :=
  (dat1 V c).arrAt_eq_of_cover 4 (lossArr_r1 V c) (flushed_eq_r1 V c hm1 hm2) covered_r1

end Cert.KernelIdeal.Hand

end
-- ==== Proof.KI.Result.lean ====
/-
  The value of the kernel program's result at the ideal instance: the mean hinge of the two regions' per-row shift
  losses, each of the argument arrays.  The three masks are converted to 0/1 arrays before the first region; the first
  region reads (a, ma, p, mp) and leaves loss(a, p); the reshape and the second region, which reads (a, ma, n, mn),
  leave loss(a, n); the host tail forms the mean hinge.
-/
import proofs.«122145_j70437463654548_2_alg».proof.Proof.Gen.KernelIdeal.Launch
import proofs.«122145_j70437463654548_2_alg».proof.Proof.Gen.KernelIdeal.Skeleton
import proofs.«122145_j70437463654548_2_alg».proof.Proof.Gen.KernelIdeal.Points
import proofs.«122145_j70437463654548_2_alg».proof.Proof.KI.Args
import proofs.«122145_j70437463654548_2_alg».proof.Proof.KI.Tail
import proofs.«122145_j70437463654548_2_alg».proof.Proof.KI.Value0
import proofs.«122145_j70437463654548_2_alg».proof.Proof.KI.Value1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open ValueIdx

variable (m : (ℓ : Loc nD τ sig) → Buf (Elt Ideal) ℓ) (ρ : Dev nD → PrngReg)

/-! ## The arrays the first region reads -/

theorem W1_v0 (c : Dev nD) : W1 m ρ c (Proc.devRef .tc main_v0) = Cert.ShiftLoss.maskF (m ((c : Thread nD τ).loc main_arg3)) := by
  show StableHlo.after hostOps0 (W0 m ρ c) (Proc.devRef .tc main_v0) = _
  after_results
  rfl
theorem W1_v1 (c : Dev nD) : W1 m ρ c (Proc.devRef .tc main_v1) = Cert.ShiftLoss.maskF (m ((c : Thread nD τ).loc main_arg4)) := by
  show StableHlo.after hostOps0 (W0 m ρ c) (Proc.devRef .tc main_v1) = _
  after_results
  rfl
theorem W1_v2 (c : Dev nD) : W1 m ρ c (Proc.devRef .tc main_v2) = Cert.ShiftLoss.maskF (m ((c : Thread nD τ).loc main_arg5)) := by
  show StableHlo.after hostOps0 (W0 m ρ c) (Proc.devRef .tc main_v2) = _
  after_results
  rfl
theorem W1_arg (c : Dev nD) (r : Ref sig .tc) (h : r ∉ hostOps0_W) : W1 m ρ c (Proc.devRef .tc r) = m ((c : Thread nD τ).loc r) :=
  StableHlo.after_of_writes_sub hostOps0 _ hostOps0_writes h

theorem maskF_nonneg (x : Cert.ShiftLoss.Mask) (j) : 0 ≤ Cert.ShiftLoss.maskF x j := Cert.ShiftLoss.bit_nonneg _

/-- Region 0's result array: the per-row loss of (a, p) under (ma, mp). -/
theorem W2_v3 (c : Dev nD) : W2 m ρ c (Proc.devRef .tc main_v3)
    = fun j : S64x1.Idx => Cert.ShiftLoss.loss (m ((c : Thread nD τ).loc main_arg0)) (m ((c : Thread nD τ).loc main_arg1))
        (Cert.ShiftLoss.maskF (m ((c : Thread nD τ).loc main_arg3))) (Cert.ShiftLoss.maskF (m ((c : Thread nD τ).loc main_arg4))) (j 0) := by
  have e0 : af1_r0 (V1 m ρ) c = m ((c : Thread nD τ).loc main_arg0) := W1_arg m ρ c main_arg0 (by decide)
  have e1 : am1_r0 (V1 m ρ) c = Cert.ShiftLoss.maskF (m ((c : Thread nD τ).loc main_arg3)) := W1_v0 m ρ c
  have e2 : af2_r0 (V1 m ρ) c = m ((c : Thread nD τ).loc main_arg1) := W1_arg m ρ c main_arg1 (by decide)
  have e3 : am2_r0 (V1 m ρ) c = Cert.ShiftLoss.maskF (m ((c : Thread nD τ).loc main_arg4)) := W1_v1 m ρ c
  refine ((W2_arr m ρ c 4).trans (final_r0 (V1 m ρ) c (fun j => by rw [e1]; exact maskF_nonneg _ j) (fun j => by rw [e3]; exact maskF_nonneg _ j))).trans ?_
  unfold lossArr_r0
  rw [e0, e1, e2, e3]

/-! ## The arrays the second region reads -/

theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

theorem V3_f1 (c : Dev nD) : af1_r1 (V3 m ρ) c = m ((c : Thread nD τ).loc main_arg0) :=
  (W3_of m ρ c main_arg0 (by decide)).trans (((W2_arr m ρ c 0).trans (((dat0 (V1 m ρ) c).arrAt_in 0 rfl _).trans (A_eq0 (V1 m ρ) c 0))).trans (W1_arg m ρ c main_arg0 (by decide)))
theorem V3_m1 (c : Dev nD) : am1_r1 (V3 m ρ) c = Cert.ShiftLoss.maskF (m ((c : Thread nD τ).loc main_arg3)) :=
  (W3_of m ρ c main_v0 (by decide)).trans (((W2_arr m ρ c 1).trans (((dat0 (V1 m ρ) c).arrAt_in 1 rfl _).trans (A_eq0 (V1 m ρ) c 1))).trans (W1_v0 m ρ c))
theorem V3_f2 (c : Dev nD) : af2_r1 (V3 m ρ) c = m ((c : Thread nD τ).loc main_arg2) :=
  (W3_of m ρ c main_arg2 (by decide)).trans ((W2_of_ne m ρ c main_arg2 (by decide)).trans (W1_arg m ρ c main_arg2 (by decide)))
theorem V3_m2 (c : Dev nD) : am2_r1 (V3 m ρ) c = Cert.ShiftLoss.maskF (m ((c : Thread nD τ).loc main_arg5)) :=
  (W3_of m ρ c main_v2 (by decide)).trans ((W2_of_ne m ρ c main_v2 (by decide)).trans (W1_v2 m ρ c))

/-- Region 1's result array: the per-row loss of (a, n) under (ma, mn). -/
theorem W4_v5 (c : Dev nD) : W4 m ρ c (Proc.devRef .tc main_v5)
    = fun j : S64x1.Idx => Cert.ShiftLoss.loss (m ((c : Thread nD τ).loc main_arg0)) (m ((c : Thread nD τ).loc main_arg2))
        (Cert.ShiftLoss.maskF (m ((c : Thread nD τ).loc main_arg3))) (Cert.ShiftLoss.maskF (m ((c : Thread nD τ).loc main_arg5))) (j 0) := by
  have e0 := V3_f1 m ρ c
  have e1 := V3_m1 m ρ c
  have e2 := V3_f2 m ρ c
  have e3 := V3_m2 m ρ c
  refine ((W4_arr m ρ c 4).trans (final_r1 (V3 m ρ) c (fun j => by rw [e1]; exact maskF_nonneg _ j) (fun j => by rw [e3]; exact maskF_nonneg _ j))).trans ?_
  unfold lossArr_r1
  rw [e0, e1, e2, e3]

/-- The first region's result, reshaped to a vector before the second region, is untouched by it. -/
theorem W4_v4 (c : Dev nD) : W4 m ρ c (Proc.devRef .tc main_v4) = shapeCast S64 (W2 m ρ c (Proc.devRef .tc main_v3)) shapeCasts_S64x1_S64 := by
  rw [W4_of_ne m ρ c main_v4 (by decide)]
  show StableHlo.after hostOps1 (W2 m ρ c) (Proc.devRef .tc main_v4) = _
  after_results
  rfl

/-- The result buffer ends holding the mean hinge of the two per-row losses of the argument arrays. -/
theorem result_value (c : Dev nD) : W7 m ρ c (Proc.devRef .tc main_v12)
    = fun _ => Cert.ShiftLoss.result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (tail_value (W4 m ρ c)).trans ?_
  funext _
  unfold Cert.ShiftLoss.result
  refine congrArg₂ Cert.ShiftLoss.total (funext fun b => ?_) (funext fun b => ?_)
  · exact (congrFun (W4_v4 m ρ c) (ix1 b)).trans ((colVec _ b).trans (congrFun (W2_v3 m ρ c) (ix2 b (0 : Fin 1))))
  · exact congrFun (W4_v5 m ρ c) (ix2 b (0 : Fin 1))

/-- The run, read: the result at its value and every argument as launched — the kernel's side of the equivalence. -/
theorem run_value : θ_run defs (onTc (τ := τ) (main (F := Ideal))) ⟨m, fun _ => 0, ρ⟩ (fun r => ∀ c : Dev nD,
      r.2.mem ((c.tc : Thread nD τ).loc main_v12) = (fun _ => Cert.ShiftLoss.result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v12 (by decide))).trans (result_value m ρ c),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c)⟩) (run_all m ρ)

end Cert.KernelIdeal.Hand

end
-- ==== Proof.Ref.Math.lean ====
/-
  The arithmetic facts behind the reference program's value, over abstract arrays.

  * A sum over the indices of a [64, C, 32, 512] array that share their first coordinate is the triple sum over the
    other three coordinates.
  * A mask bit read as 0 or 1: the bit of a conjunction is the product of the bits, and selecting a value by a bit
    against zero is multiplying the value by the bit, on every extended real (x * 1 = x and x * 0 = 0 hold at the
    infinities too).
  * A 32-bit sum of at most 16384 zero/one words does not wrap, so converting it to a real gives the real sum of the
    bits.
-/
import proofs.«122145_j70437463654548_2_alg».proof.Proof.Spec
import Idealize.ShloMosaic.Lib.Pipeline.Value
import Idealize.ShloMosaic.PureOps.Ideal.Laws

noncomputable section

namespace Cert.ShiftLoss.RefMath

open Idealize.ShloMosaic ValueIdx Cert.ShiftLoss

/-- The shape [64, C, 32, n]. -/
abbrev F4 (C n : Nat) : Shape := ⟨4, ![64, C, 32, n]⟩

/-! ## Sums over index sets -/

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  simp only [Fintype.sum_prod_type]
  rfl

/-- A rank-1 index set is its coordinate range. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Dropping the last three coordinates of an index of [64, C, 32, n] leaves its first. -/
theorem kept_123 (C n : Nat) : (F4 C n).kept [1, 2, 3] = [0] := rfl

theorem drop_val {C n : Nat} (h : (F4 C n).ReducesTo [1, 2, 3] ⟨1, ![64]⟩) (i : (F4 C n).Idx) :
    (h.drop i (0 : Fin 1) : Nat) = i (0 : Fin 4) :=
  h.drop_apply_val_of_eq i 0 0 (by rw [kept_123]; exact Nat.zero_lt_one) (by simp only [kept_123]; rfl)

theorem drop_eq_iff {C n : Nat} (h : (F4 C n).ReducesTo [1, 2, 3] ⟨1, ![64]⟩) (a b : Fin 64) (c : Fin C) (hh : Fin 32)
    (w : Fin n) : h.drop (ix4 a c hh w) = ix1 b ↔ a = b := by
  constructor
  · intro e
    have e0 := congrArg (fun q : (⟨1, ![64]⟩ : Shape).Idx => (q 0).val) e
    have e1 : (h.drop (ix4 a c hh w) (0 : Fin 1) : Nat) = (ix4 a c hh w : (F4 C n).Idx) (0 : Fin 4) :=
      drop_val h (ix4 a c hh w)
    exact Fin.ext (e1.symm.trans e0)
  · rintro rfl
    funext d
    match d with
    | ⟨0, _⟩ => exact Fin.ext (drop_val h (ix4 a c hh w))

/-- The sum over the indices of [64, C, 32, n] that drop to row `b` is the triple sum over the other coordinates. -/
theorem sum_filter_drop {M : Type*} [AddCommMonoid M] {C n : Nat} (h : (F4 C n).ReducesTo [1, 2, 3] ⟨1, ![64]⟩)
    (x : (F4 C n).Idx → M) (b : Fin 64) :
    ∑ i ∈ Finset.univ.filter (fun i => h.drop i = ix1 b), x i
      = ∑ c : Fin C, ∑ hh : Fin 32, ∑ w : Fin n, x (ix4 b c hh w) := by
  rw [Finset.sum_filter, sum_idx4]
  simp only [drop_eq_iff h]
  rw [Finset.sum_eq_single b]
  · simp
  · intro a _ hab
    simp [hab]
  · intro hb
    exact absurd (Finset.mem_univ b) hb

/-! ## Bits -/

theorem bit_one : bit 1#1 = 1 := by simp [bit]
theorem bit_zero : bit 0#1 = 0 := by simp [bit]

/-- The bit of a conjunction is the product of the bits. -/
theorem bit_and (a b : BitVec 1) : bit (IntOp.andi a b) = bit a * bit b := by
  rcases BitVec.eq_zero_or_eq_one a with h | h <;> rcases BitVec.eq_zero_or_eq_one b with h' | h' <;>
    subst h <;> subst h' <;> simp [bit, IntOp.andi]

/-- Selecting a value by a bit against zero is multiplying it by the bit. -/
theorem select_eq_mul (m : BitVec 1) (d : EReal) : Scalar.select m d 0 = d * bit m := by
  rcases BitVec.eq_zero_or_eq_one m with h | h <;> subst h
  · rw [select_zero, bit_zero, mul_zero]
  · rw [select_one, bit_one, mul_one]

/-- A bit widened to 32 bits, read as a natural number, is the bit. -/
theorem toNat_setWidth_le_one (m : BitVec 1) : (m.setWidth 32).toNat ≤ 1 := by
  rcases BitVec.eq_zero_or_eq_one m with h | h <;> subst h <;> decide

theorem coe_toNat_setWidth (m : BitVec 1) : ((((m.setWidth 32).toNat : ℕ) : ℝ) : EReal) = bit m := by
  rcases BitVec.eq_zero_or_eq_one m with h | h <;> subst h <;> simp [bit]

/-! ## The count -/

/-- The coercion of a finite real sum is the sum of the coercions. -/
theorem coe_sum {ι : Type*} (s : Finset ι) (f : ι → ℝ) : ((∑ i ∈ s, f i : ℝ) : EReal) = ∑ i ∈ s, ((f i : ℝ) : EReal) := by
  induction s using Finset.cons_induction with
  | empty => simp
  | cons a s ha ih => rw [Finset.sum_cons, Finset.sum_cons, EReal.coe_add, ih]

/-- A fold of 32-bit addition from zero is the sum of the words' values, modulo 2^32. -/
theorem fold_addi {ι : Type*} (S : Finset ι) (f : ι → BitVec 32) :
    S.fold IntOp.addi 0#32 f = BitVec.ofNat 32 (∑ i ∈ S, (f i).toNat) := by
  induction S using Finset.cons_induction with
  | empty => rfl
  | cons a S ha ih =>
    rw [Finset.fold_cons, Finset.sum_cons, ih]
    apply BitVec.eq_of_toNat_eq
    simp [IntOp.addi, BitVec.toNat_add, BitVec.toNat_ofNat]

/-- A natural number below 2^31, as a 32-bit word read signed, is itself. -/
theorem toInt_ofNat_small (N : Nat) (hN : N ≤ 16384) : (BitVec.ofNat 32 N).toInt = (N : ℤ) := by
  rw [BitVec.toInt_eq_toNat_cond, BitVec.toNat_ofNat]
  have e : N % 2 ^ 32 = N := Nat.mod_eq_of_lt (by omega)
  rw [e]
  split <;> omega

/-- The reference's count of row `b`: the 32-bit sum over the row of the mask bits, converted to a float, is the real
    sum of the bits (at most 32 * 512 of them: no wrap-around). -/
theorem count_apply (h : (F4 1 512).ReducesTo [1, 2, 3] ⟨1, ![64]⟩) (hu : 0 < (⟨0, ![]⟩ : Shape).numel) (hlt : 1 < 32)
    (mk : IVec (F4 1 512) 1) (b : Fin 64) :
    (sitofp .f32 (Host.reduce IntOp.addi (extui 32 mk hlt) (constantI ⟨0, ![]⟩ 32 0#32) h hu) : FVec Ideal ⟨1, ![64]⟩ .f32) (ix1 b)
      = ∑ hh : Fin 32, ∑ w : Fin 512, bit (mk (ix4 b 0 hh w)) := by
  show ((((Host.reduce IntOp.addi (extui 32 mk hlt) (constantI ⟨0, ![]⟩ 32 0#32) h hu (ix1 b)).toInt : ℝ)) : EReal) = _
  rw [Host.reduce_eq_fold]
  show ((((Finset.univ.filter fun i => h.drop i = ix1 b).fold IntOp.addi 0#32 (fun i => (mk i).setWidth 32)).toInt : ℝ) : EReal) = _
  rw [fold_addi, sum_filter_drop h (fun i => ((mk i).setWidth 32).toNat) b, Fin.sum_univ_one]
  have hN : (∑ hh : Fin 32, ∑ w : Fin 512, ((mk (ix4 b 0 hh w)).setWidth 32).toNat) ≤ 16384 := by
    calc (∑ hh : Fin 32, ∑ w : Fin 512, ((mk (ix4 b 0 hh w)).setWidth 32).toNat)
        ≤ ∑ _hh : Fin 32, ∑ _w : Fin 512, 1 :=
          Finset.sum_le_sum fun _ _ => Finset.sum_le_sum fun _ _ => toNat_setWidth_le_one _
      _ = 16384 := by simp
  rw [toInt_ofNat_small _ hN, Int.cast_natCast, Nat.cast_sum, coe_sum]
  refine Finset.sum_congr rfl fun hh _ => ?_
  rw [Nat.cast_sum, coe_sum]
  exact Finset.sum_congr rfl fun w _ => coe_toNat_setWidth _

/-! ## Layout operations read at an index -/

/-- A cyclic roll along the last axis, printed as the slice from `n₂` on followed by the slice before `n₂`: lane
    `w` of the result is lane `(w + n₂) mod 512` of the operand. -/
theorem roll_apply {α : Type} (C n₁ n₂ : Nat) (hn : n₁ + n₂ = 512) (x : (F4 C 512).Idx → α)
    (hs₁ : (F4 C 512).Slices ![0, 0, 0, n₂] (F4 C n₁)) (hs₂ : (F4 C 512).Slices ![0, 0, 0, 0] (F4 C n₂))
    (hc : Shape.Concatenates [F4 C n₁, F4 C n₂] (F4 C 512) 3)
    (b : Fin 64) (c : Fin C) (hh : Fin 32) (w : Fin 512) :
    concatenate (F4 C 512) 3 [⟨F4 C n₁, extractStridedSlice (F4 C n₁) ![0, 0, 0, n₂] x hs₁⟩,
      ⟨F4 C n₂, extractStridedSlice (F4 C n₂) ![0, 0, 0, 0] x hs₂⟩] hc (ix4 b c hh w)
      = x (ix4 b c hh ⟨(w.val + n₂) % 512, Nat.mod_lt _ (by decide)⟩) := by
  by_cases hw : w.val < n₁
  · refine (concatenate_pair_apply_left (t := F4 C 512) (s₁ := F4 C n₁) (s₂ := F4 C n₂) (3 : Fin 4) _ _ hc (ix4 b c hh w) rfl
      (ix4 b c hh ⟨w.val, hw⟩) ?_).trans ?_
    · intro a
      match a with
      | ⟨0, _⟩ => rfl
      | ⟨1, _⟩ => rfl
      | ⟨2, _⟩ => rfl
      | ⟨3, _⟩ => rfl
    · refine extractStridedSlice_apply _ x hs₁ _ _ ?_
      intro a
      match a with
      | ⟨0, _⟩ => show b.val = 0 + b.val; omega
      | ⟨1, _⟩ => show c.val = 0 + c.val; omega
      | ⟨2, _⟩ => show hh.val = 0 + hh.val; omega
      | ⟨3, _⟩ =>
        show (w.val + n₂) % 512 = n₂ + w.val
        rw [Nat.mod_eq_of_lt (by omega)]; omega
  · have hw2 : w.val - n₁ < n₂ := by have := w.isLt; omega
    refine (concatenate_pair_apply_right (t := F4 C 512) (s₁ := F4 C n₁) (s₂ := F4 C n₂) (3 : Fin 4) _ _ hc (ix4 b c hh w) rfl rfl
      (ix4 b c hh ⟨w.val - n₁, hw2⟩) ?_ ?_).trans ?_
    · intro a ha
      match a with
      | ⟨0, _⟩ => rfl
      | ⟨1, _⟩ => rfl
      | ⟨2, _⟩ => rfl
      | ⟨3, _⟩ => exact absurd rfl ha
    · show w.val - n₁ + n₁ = w.val
      omega
    · refine extractStridedSlice_apply _ x hs₂ _ _ ?_
      intro a
      match a with
      | ⟨0, _⟩ => show b.val = 0 + b.val; omega
      | ⟨1, _⟩ => show c.val = 0 + c.val; omega
      | ⟨2, _⟩ => show hh.val = 0 + hh.val; omega
      | ⟨3, _⟩ =>
        show (w.val + n₂) % 512 = 0 + (w.val - n₁)
        have := w.isLt
        have e : w.val + n₂ = 512 + (w.val - n₁) := by omega
        rw [e, Nat.add_mod_left, Nat.mod_eq_of_lt (by omega)]; omega

/-- A [64, 1, 32, 512] array broadcast along the channel axis, at an index. -/
theorem bcastMask_apply {α : Type} (hb : (F4 1 512).BroadcastsInDim (F4 16 512) ![0, 1, 2, 3]) (mk : (F4 1 512).Idx → α)
    (b : Fin 64) (c : Fin 16) (hh : Fin 32) (w : Fin 512) :
    broadcastInDim (F4 16 512) ![0, 1, 2, 3] hb mk (ix4 b c hh w) = mk (ix4 b 0 hh w) := by
  refine broadcastInDim_apply _ hb mk _ _ ?_
  intro a
  match a with
  | ⟨0, _⟩ => show b.val = if (64 : Nat) = 1 then 0 else b.val; rw [if_neg (by decide)]
  | ⟨1, _⟩ => show (0 : Nat) = if (1 : Nat) = 1 then 0 else c.val; rw [if_pos rfl]
  | ⟨2, _⟩ => show hh.val = if (32 : Nat) = 1 then 0 else hh.val; rw [if_neg (by decide)]
  | ⟨3, _⟩ => show w.val = if (512 : Nat) = 1 then 0 else w.val; rw [if_neg (by decide)]

/-- A scalar broadcast to any shape, at an index. -/
theorem bcastScalar_apply {α : Type} {t : Shape} (dims : Fin 0 → Fin t.rank) (hb : (⟨0, ![]⟩ : Shape).BroadcastsInDim t dims)
    (z : (⟨0, ![]⟩ : Shape).Idx → α) (j : t.Idx) : broadcastInDim t dims hb z j = z ix0 :=
  broadcastInDim_apply dims hb z j ix0 fun a => a.elim0

/-- The host's float sum over the last three axes of [64, C, 32, n] from the zero word, at row `b`. -/
theorem hostReduceAdd123_apply {C n : Nat} (h : (F4 C n).ReducesTo [1, 2, 3] ⟨1, ![64]⟩) (hu : 0 < (⟨0, ![]⟩ : Shape).numel)
    (x : FVec Ideal (F4 C n) .f32) (b : Fin 64) :
    Host.reduceAdd x (constant (F := Ideal) ⟨0, ![]⟩ .f32 0x00000000#32) h hu (ix1 b)
      = ∑ c : Fin C, ∑ hh : Fin 32, ∑ w : Fin n, x (ix4 b c hh w) := by
  show Ideal.hostReduceAdd h x (Ideal.ofBits .f32 0x00000000#32) (ix1 b) = _
  unfold Ideal.hostReduceAdd
  rw [sum_filter_drop h x b, Ideal.ofBits_zero_f32, zero_add]

/-! ## One shift of the reference, as the program prints it -/

theorem slices_hi (C n₁ n₂ : Nat) (hn : n₁ + n₂ = 512) : (F4 C 512).Slices ![0, 0, 0, n₂] (F4 C n₁) :=
  ⟨rfl, fun a => match a with
    | ⟨0, _⟩ => by show 0 + 64 ≤ 64; omega
    | ⟨1, _⟩ => by show 0 + C ≤ C; omega
    | ⟨2, _⟩ => by show 0 + 32 ≤ 32; omega
    | ⟨3, _⟩ => by show n₂ + n₁ ≤ 512; omega⟩

theorem slices_lo (C n₁ n₂ : Nat) (hn : n₁ + n₂ = 512) : (F4 C 512).Slices ![0, 0, 0, 0] (F4 C n₂) :=
  ⟨rfl, fun a => match a with
    | ⟨0, _⟩ => by show 0 + 64 ≤ 64; omega
    | ⟨1, _⟩ => by show 0 + C ≤ C; omega
    | ⟨2, _⟩ => by show 0 + 32 ≤ 32; omega
    | ⟨3, _⟩ => by show 0 + n₂ ≤ 512; omega⟩

theorem concats (C n₁ n₂ : Nat) (hn : n₁ + n₂ = 512) : Shape.Concatenates [F4 C n₁, F4 C n₂] (F4 C 512) 3 := by
  refine ⟨Nat.le_refl 2, ?_, ?_⟩
  · intro s hs
    rcases List.mem_cons.1 hs with rfl | hs
    · exact ⟨rfl, fun b hb => by
        match b with
        | ⟨0, _⟩ => rfl
        | ⟨1, _⟩ => rfl
        | ⟨2, _⟩ => rfl
        | ⟨3, _⟩ => exact absurd rfl hb⟩
    · rcases List.mem_cons.1 hs with rfl | hs
      · exact ⟨rfl, fun b hb => by
          match b with
          | ⟨0, _⟩ => rfl
          | ⟨1, _⟩ => rfl
          | ⟨2, _⟩ => rfl
          | ⟨3, _⟩ => exact absurd rfl hb⟩
      · exact absurd hs List.not_mem_nil
  · show (if _h : (4 : Nat) = 4 then n₁ else 0) + ((if _h : (4 : Nat) = 4 then n₂ else 0) + 0) = 512
    simp only [dite_true, Nat.add_zero]
    exact hn

theorem bcM : (F4 1 512).BroadcastsInDim (F4 16 512) (![0, 1, 2, 3] : Fin 4 → Fin (F4 16 512).rank) := by decide
theorem bcZ : (⟨0, ![]⟩ : Shape).BroadcastsInDim (F4 16 512) (![] : Fin 0 → Fin (F4 16 512).rank) := by decide
theorem bcS : (⟨0, ![]⟩ : Shape).BroadcastsInDim ⟨1, ![64]⟩ (![] : Fin 0 → Fin (⟨1, ![64]⟩ : Shape).rank) := by decide
theorem rdF : (F4 16 512).ReducesTo [1, 2, 3] ⟨1, ![64]⟩ := by decide
theorem rdM : (F4 1 512).ReducesTo [1, 2, 3] ⟨1, ![64]⟩ := by decide
theorem posU : 0 < (⟨0, ![]⟩ : Shape).numel := by decide
theorem lt132 : 1 < 32 := by decide

/-- The roll: the slice from lane `n₂` on, followed by the slice of the first `n₂` lanes. -/
def rolled {α : Type} (C n₁ n₂ : Nat) (hn : n₁ + n₂ = 512) (x : (F4 C 512).Idx → α) : (F4 C 512).Idx → α :=
  concatenate (F4 C 512) 3 [⟨F4 C n₁, extractStridedSlice (F4 C n₁) ![0, 0, 0, n₂] x (slices_hi C n₁ n₂ hn)⟩,
    ⟨F4 C n₂, extractStridedSlice (F4 C n₂) ![0, 0, 0, 0] x (slices_lo C n₁ n₂ hn)⟩] (concats C n₁ n₂ hn)

/-- The pair mask: the first mask and the rolled second. -/
def pairMask (n₁ n₂ : Nat) (hn : n₁ + n₂ = 512) (m1 m2 : IVec (F4 1 512) 1) : IVec (F4 1 512) 1 :=
  andi m1 (rolled 1 n₁ n₂ hn m2)

/-- The masked difference: the difference where the pair mask is set, zero elsewhere. -/
def maskedDiff (n₁ n₂ : Nat) (hn : n₁ + n₂ = 512) (f1 f2 : FVec Ideal (F4 16 512) .f32) (m1 m2 : IVec (F4 1 512) 1) :
    FVec Ideal (F4 16 512) .f32 :=
  select (broadcastInDim (F4 16 512) ![0, 1, 2, 3] bcM (pairMask n₁ n₂ hn m1 m2)) (subf f1 (rolled 16 n₁ n₂ hn f2))
    (broadcastInDim (F4 16 512) ![] bcZ (id (constant (F := Ideal) ⟨0, ![]⟩ .f32 0x00000000#32)))

/-- One shift's normalised distance per row, operation by operation as the reference computes it. -/
def shiftDist (n₁ n₂ : Nat) (hn : n₁ + n₂ = 512) (f1 f2 : FVec Ideal (F4 16 512) .f32) (m1 m2 : IVec (F4 1 512) 1) :
    FVec Ideal ⟨1, ![64]⟩ .f32 :=
  Host.divf
    (Host.reduceAdd (mulf (maskedDiff n₁ n₂ hn f1 f2 m1 m2) (maskedDiff n₁ n₂ hn f1 f2 m1 m2))
      (constant (F := Ideal) ⟨0, ![]⟩ .f32 0x00000000#32) rdF posU)
    (addf
      (mulf (broadcastInDim ⟨1, ![64]⟩ ![] bcS (constant (F := Ideal) ⟨0, ![]⟩ .f32 0x41800000#32))
        (sitofp .f32 (Host.reduce IntOp.addi (extui 32 (pairMask n₁ n₂ hn m1 m2) lt132) (constantI ⟨0, ![]⟩ 32 0#32) rdM posU)))
      (broadcastInDim ⟨1, ![64]⟩ ![] bcS (constant (F := Ideal) ⟨0, ![]⟩ .f32 0x3A83126F#32)))

/-! ## The stack of nine and the tail -/

theorem bc1 : (⟨1, ![64]⟩ : Shape).BroadcastsInDim ⟨2, ![1, 64]⟩ (![1] : Fin 1 → Fin (⟨2, ![1, 64]⟩ : Shape).rank) := by decide
theorem cat9 : Shape.Concatenates [⟨2, ![1, 64]⟩, ⟨2, ![1, 64]⟩, ⟨2, ![1, 64]⟩, ⟨2, ![1, 64]⟩, ⟨2, ![1, 64]⟩, ⟨2, ![1, 64]⟩,
    ⟨2, ![1, 64]⟩, ⟨2, ![1, 64]⟩, ⟨2, ![1, 64]⟩] ⟨2, ![9, 64]⟩ 0 := by decide
theorem rd9 : (⟨2, ![9, 64]⟩ : Shape).ReducesTo [0] ⟨1, ![64]⟩ := by decide
theorem rd1 : (⟨1, ![64]⟩ : Shape).ReducesTo [0] ⟨0, ![]⟩ := by decide

/-- Nine per-row vectors stacked as the rows of a [9, 64] array and min-reduced over the stacking axis from +infinity. -/
def minNine (d0 d1 d2 d3 d4 d5 d6 d7 d8 : FVec Ideal ⟨1, ![64]⟩ .f32) : FVec Ideal ⟨1, ![64]⟩ .f32 :=
  Host.reduce FloatOps.minimumf
    (concatenate ⟨2, ![9, 64]⟩ 0
      [⟨⟨2, ![1, 64]⟩, broadcastInDim ⟨2, ![1, 64]⟩ ![1] bc1 d0⟩, ⟨⟨2, ![1, 64]⟩, broadcastInDim ⟨2, ![1, 64]⟩ ![1] bc1 d1⟩,
       ⟨⟨2, ![1, 64]⟩, broadcastInDim ⟨2, ![1, 64]⟩ ![1] bc1 d2⟩, ⟨⟨2, ![1, 64]⟩, broadcastInDim ⟨2, ![1, 64]⟩ ![1] bc1 d3⟩,
       ⟨⟨2, ![1, 64]⟩, broadcastInDim ⟨2, ![1, 64]⟩ ![1] bc1 d4⟩, ⟨⟨2, ![1, 64]⟩, broadcastInDim ⟨2, ![1, 64]⟩ ![1] bc1 d5⟩,
       ⟨⟨2, ![1, 64]⟩, broadcastInDim ⟨2, ![1, 64]⟩ ![1] bc1 d6⟩, ⟨⟨2, ![1, 64]⟩, broadcastInDim ⟨2, ![1, 64]⟩ ![1] bc1 d7⟩,
       ⟨⟨2, ![1, 64]⟩, broadcastInDim ⟨2, ![1, 64]⟩ ![1] bc1 d8⟩] cat9)
    (constant (F := Ideal) ⟨0, ![]⟩ .f32 0x7F800000#32) rd9 posU

/-- The nine shifts of one pair, least distance per row: offsets -4 … 4, that is the first slice starting at lane
    4, 3, 2, 1, 0, 511, 510, 509, 508. -/
def pairLoss (f1 f2 : FVec Ideal (F4 16 512) .f32) (m1 m2 : IVec (F4 1 512) 1) : FVec Ideal ⟨1, ![64]⟩ .f32 :=
  minNine (shiftDist 508 4 rfl f1 f2 m1 m2) (shiftDist 509 3 rfl f1 f2 m1 m2) (shiftDist 510 2 rfl f1 f2 m1 m2)
    (shiftDist 511 1 rfl f1 f2 m1 m2) (shiftDist 512 0 rfl f1 f2 m1 m2) (shiftDist 1 511 rfl f1 f2 m1 m2)
    (shiftDist 2 510 rfl f1 f2 m1 m2) (shiftDist 3 509 rfl f1 f2 m1 m2) (shiftDist 4 508 rfl f1 f2 m1 m2)

/-- The tail: the hinge of the difference of two per-row losses plus the margin, summed over the rows, divided by 64. -/
def tailOf (La Ln : FVec Ideal ⟨1, ![64]⟩ .f32) : FVec Ideal ⟨0, ![]⟩ .f32 :=
  Host.divf
    (Host.reduceAdd
      (maximumf (addf (subf La Ln) (broadcastInDim ⟨1, ![64]⟩ ![] bcS (constant (F := Ideal) ⟨0, ![]⟩ .f32 0x3E19999A#32)))
        (broadcastInDim ⟨1, ![64]⟩ ![] bcS (constant (F := Ideal) ⟨0, ![]⟩ .f32 0x00000000#32)))
      (constant (F := Ideal) ⟨0, ![]⟩ .f32 0x00000000#32) rd1 posU)
    (constant (F := Ideal) ⟨0, ![]⟩ .f32 0x42800000#32)

/-- The whole reference, as printed, from the six argument arrays. -/
def refTotal (a p n : FVec Ideal (F4 16 512) .f32) (ma mp mn : IVec (F4 1 512) 1) : FVec Ideal ⟨0, ![]⟩ .f32 :=
  tailOf (pairLoss a p ma mp) (pairLoss a n ma mn)

end Cert.ShiftLoss.RefMath

end
-- ==== Proof.Ref.Sh.SA0.lean ====
/-
  Shift 0 (offset -4) of the first pair of the reference: the 27 host operations that compute its per-row distance,
  what they write, and the distance they leave in their last buffer as the one-shift function of the four argument arrays.
-/
import proofs.«122145_j70437463654548_2_alg».proof.Proof.Gen.ReferenceIdeal
import proofs.«122145_j70437463654548_2_alg».proof.Proof.Ref.Math
import Idealize.ShloMosaic.Lib.StableHlo.Run

noncomputable section

namespace Cert.ReferenceIdeal.RefRun.SA0

open Cert.ReferenceIdeal Cert.ReferenceIdeal.Gen Idealize.ShloMosaic Idealize.ShloMosaic.TcCoe Idealize.SL.Sem Idealize.ShloMosaic.StableHlo

variable {F : FTy → Type} [FloatOps F]

/-- The operations, in order. -/
abbrev ops : List (HloOp τ sig (Elt F)) :=
  [ TRef.unary (TRef.of (T := ⟨S64x16x32x512, .f32⟩) main_arg1) (TRef.of (T := ⟨S64x16x32x508, .f32⟩) main_call0_v0) (extractStridedSlice S64x16x32x508 ![0, 0, 0, 4] · slices_S64x16x32x512_S64x16x32x508_0_0_0_4),
    TRef.unary (TRef.of (T := ⟨S64x16x32x512, .f32⟩) main_arg1) (TRef.of (T := ⟨S64x16x32x4, .f32⟩) main_call0_v1) (extractStridedSlice S64x16x32x4 ![0, 0, 0, 0] · slices_S64x16x32x512_S64x16x32x4_0_0_0_0),
    TRef.binary (TRef.of (T := ⟨S64x16x32x508, .f32⟩) main_call0_v0) (TRef.of (T := ⟨S64x16x32x4, .f32⟩) main_call0_v1) (TRef.of (T := ⟨S64x16x32x512, .f32⟩) main_v0) (fun a b => concatenate S64x16x32x512 3 [⟨S64x16x32x508, a⟩, ⟨S64x16x32x4, b⟩] concatenates_S64x16x32x508_S64x16x32x4_S64x16x32x512_d3),
    TRef.unary (TRef.of (T := ⟨S64x1x32x512, .i1⟩) main_arg4) (TRef.of (T := ⟨S64x1x32x508, .i1⟩) main_call1_v0) (extractStridedSlice S64x1x32x508 ![0, 0, 0, 4] · slices_S64x1x32x512_S64x1x32x508_0_0_0_4),
    TRef.unary (TRef.of (T := ⟨S64x1x32x512, .i1⟩) main_arg4) (TRef.of (T := ⟨S64x1x32x4, .i1⟩) main_call1_v1) (extractStridedSlice S64x1x32x4 ![0, 0, 0, 0] · slices_S64x1x32x512_S64x1x32x4_0_0_0_0),
    TRef.binary (TRef.of (T := ⟨S64x1x32x508, .i1⟩) main_call1_v0) (TRef.of (T := ⟨S64x1x32x4, .i1⟩) main_call1_v1) (TRef.of (T := ⟨S64x1x32x512, .i1⟩) main_v1) (fun a b => concatenate S64x1x32x512 3 [⟨S64x1x32x508, a⟩, ⟨S64x1x32x4, b⟩] concatenates_S64x1x32x508_S64x1x32x4_S64x1x32x512_d3),
    binary main_arg3 main_v1 main_v2 (andi : (⟨S64x1x32x512, .i1⟩ : BufTy).Contents (Elt F) → (⟨S64x1x32x512, .i1⟩ : BufTy).Contents (Elt F) → (⟨S64x1x32x512, .i1⟩ : BufTy).Contents (Elt F)),
    binary main_arg0 main_v0 main_v3 (subf : (⟨S64x16x32x512, .f32⟩ : BufTy).Contents (Elt F) → (⟨S64x16x32x512, .f32⟩ : BufTy).Contents (Elt F) → (⟨S64x16x32x512, .f32⟩ : BufTy).Contents (Elt F)),
    nullary main_cst (constant S_ .f32 0x00000000#32),
    TRef.unary (TRef.of (T := ⟨S_, .f32⟩) main_cst) (TRef.of (T := ⟨S_, .f32⟩) main_call2_v0) id,
    TRef.unary (TRef.of (T := ⟨S64x1x32x512, .i1⟩) main_v2) (TRef.of (T := ⟨S64x16x32x512, .i1⟩) main_call2_v1) (broadcastInDim S64x16x32x512 ![0, 1, 2, 3] bcast_S64x1x32x512_S64x16x32x512_0_1_2_3),
    TRef.unary (TRef.of (T := ⟨S_, .f32⟩) main_call2_v0) (TRef.of (T := ⟨S64x16x32x512, .f32⟩) main_call2_v2) (broadcastInDim S64x16x32x512 ![] bcast_S_S64x16x32x512),
    TRef.ternary (TRef.of (T := ⟨S64x16x32x512, .i1⟩) main_call2_v1) (TRef.of (T := ⟨S64x16x32x512, .f32⟩) main_v3) (TRef.of (T := ⟨S64x16x32x512, .f32⟩) main_call2_v2) (TRef.of (T := ⟨S64x16x32x512, .f32⟩) main_v4) select,
    binary main_v4 main_v4 main_v5 (mulf : (⟨S64x16x32x512, .f32⟩ : BufTy).Contents (Elt F) → (⟨S64x16x32x512, .f32⟩ : BufTy).Contents (Elt F) → (⟨S64x16x32x512, .f32⟩ : BufTy).Contents (Elt F)),
    nullary main_cst_0 (constant S_ .f32 0x00000000#32),
    binary main_v5 main_cst_0 main_v6 ((fun x v => Host.reduceAdd x v reducesTo_S64x16x32x512_S64_d1_2_3 h_S_) : (⟨S64x16x32x512, .f32⟩ : BufTy).Contents (Elt F) → (⟨S_, .f32⟩ : BufTy).Contents (Elt F) → (⟨S64, .f32⟩ : BufTy).Contents (Elt F)),
    unary main_v2 main_v7 ((extui 32 · natLt_1_32) : (⟨S64x1x32x512, .i1⟩ : BufTy).Contents (Elt F) → (⟨S64x1x32x512, .i32⟩ : BufTy).Contents (Elt F)),
    nullary main_c (constantI S_ 32 0#32),
    binary main_v7 main_c main_v8 ((fun x v => Host.reduce IntOp.addi x v reducesTo_S64x1x32x512_S64_d1_2_3 h_S_) : (⟨S64x1x32x512, .i32⟩ : BufTy).Contents (Elt F) → (⟨S_, .i32⟩ : BufTy).Contents (Elt F) → (⟨S64, .i32⟩ : BufTy).Contents (Elt F)),
    unary main_v8 main_v9 (sitofp .f32 : (⟨S64, .i32⟩ : BufTy).Contents (Elt F) → (⟨S64, .f32⟩ : BufTy).Contents (Elt F)),
    nullary main_cst_1 (constant S_ .f32 0x41800000#32),
    unary main_cst_1 main_v10 (broadcastInDim S64 ![] bcast_S_S64 : (⟨S_, .f32⟩ : BufTy).Contents (Elt F) → (⟨S64, .f32⟩ : BufTy).Contents (Elt F)),
    binary main_v10 main_v9 main_v11 (mulf : (⟨S64, .f32⟩ : BufTy).Contents (Elt F) → (⟨S64, .f32⟩ : BufTy).Contents (Elt F) → (⟨S64, .f32⟩ : BufTy).Contents (Elt F)),
    nullary main_cst_2 (constant S_ .f32 0x3A83126F#32),
    unary main_cst_2 main_v12 (broadcastInDim S64 ![] bcast_S_S64 : (⟨S_, .f32⟩ : BufTy).Contents (Elt F) → (⟨S64, .f32⟩ : BufTy).Contents (Elt F)),
    binary main_v11 main_v12 main_v13 (addf : (⟨S64, .f32⟩ : BufTy).Contents (Elt F) → (⟨S64, .f32⟩ : BufTy).Contents (Elt F) → (⟨S64, .f32⟩ : BufTy).Contents (Elt F)),
    binary main_v6 main_v13 main_v14 (Host.divf : (⟨S64, .f32⟩ : BufTy).Contents (Elt F) → (⟨S64, .f32⟩ : BufTy).Contents (Elt F) → (⟨S64, .f32⟩ : BufTy).Contents (Elt F)) ]

/-- Every buffer they touch is a TensorCore buffer. -/
theorem sub : (ops : List (HloOp τ sig (Elt F))).Forall fun op => op.bufs ⊆ tcRefs τ sig :=
  ⟨unary_bufs_sub .., unary_bufs_sub .., binary_bufs_sub .., unary_bufs_sub .., unary_bufs_sub .., binary_bufs_sub .., binary_bufs_sub .., binary_bufs_sub .., nullary_bufs_sub .., unary_bufs_sub .., unary_bufs_sub .., unary_bufs_sub .., ternary_bufs_sub .., binary_bufs_sub .., nullary_bufs_sub .., binary_bufs_sub .., unary_bufs_sub .., nullary_bufs_sub .., binary_bufs_sub .., unary_bufs_sub .., nullary_bufs_sub .., unary_bufs_sub .., binary_bufs_sub .., nullary_bufs_sub .., unary_bufs_sub .., binary_bufs_sub .., binary_bufs_sub ..⟩

/-- None of them allocates. -/
theorem fresh : ∀ op ∈ (ops : List (HloOp τ sig (Elt F))), op.fresh = ∅ := by
  intro _ h; (repeat (cases h with | head => rfl | tail _ h => ?_)); exact nomatch h

/-- The buffers they write. -/
abbrev W : List (Ref sig .tc) := [main_call0_v0, main_call0_v1, main_v0, main_call1_v0, main_call1_v1, main_v1, main_v2, main_v3, main_cst, main_call2_v0, main_call2_v1, main_call2_v2, main_v4, main_v5, main_cst_0, main_v6, main_v7, main_c, main_v8, main_v9, main_cst_1, main_v10, main_v11, main_cst_2, main_v12, main_v13, main_v14]

theorem writes : (ops : List (HloOp τ sig (Elt F))).Forall fun op =>
    op.writes ⊆ (W.map (Proc.devRef (τ := τ) .tc)).toFinset := by
  simp only [List.Forall]
  exact ⟨(by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide))⟩

/-- A buffer they do not write keeps its contents. -/
theorem keep (V : Valuation τ sig (Elt F)) (r : Ref sig .tc) (h : r ∉ W) :
    after ops V (Proc.devRef .tc r) = V (Proc.devRef .tc r) :=
  after_of_writes_sub ops V writes h

/-- The contents after these operations. -/
def aft (V : Valuation τ sig (Elt F)) : Valuation τ sig (Elt F) := after ops V

theorem aft_keep (V : Valuation τ sig (Elt F)) (r : Ref sig .tc) (h : r ∉ W) :
    aft V (no_index (Proc.devRef .tc r)) = V (Proc.devRef .tc r) :=
  keep V r h

/-- The distance the last operation leaves, as the one-shift function of the argument arrays' contents. -/
theorem aft_value (V : Valuation τ sig (Elt Ideal)) :
    aft (F := Ideal) V (no_index (Proc.devRef .tc main_v14))
      = Cert.ShiftLoss.RefMath.shiftDist 508 4 rfl (V (Proc.devRef .tc main_arg0)) (V (Proc.devRef .tc main_arg1))
          (V (Proc.devRef .tc main_arg3)) (V (Proc.devRef .tc main_arg4)) := by
  show after (ops (F := Ideal)) V (Proc.devRef .tc main_v14) = _
  after_results_simp <;> rfl

end Cert.ReferenceIdeal.RefRun.SA0

end
-- ==== Proof.Ref.Sh.SA1.lean ====
/-
  Shift 1 (offset -3) of the first pair of the reference: the 27 host operations that compute its per-row distance,
  what they write, and the distance they leave in their last buffer as the one-shift function of the four argument arrays.
-/
import proofs.«122145_j70437463654548_2_alg».proof.Proof.Gen.ReferenceIdeal
import proofs.«122145_j70437463654548_2_alg».proof.Proof.Ref.Math
import Idealize.ShloMosaic.Lib.StableHlo.Run

noncomputable section

namespace Cert.ReferenceIdeal.RefRun.SA1

open Cert.ReferenceIdeal Cert.ReferenceIdeal.Gen Idealize.ShloMosaic Idealize.ShloMosaic.TcCoe Idealize.SL.Sem Idealize.ShloMosaic.StableHlo

variable {F : FTy → Type} [FloatOps F]

/-- The operations, in order. -/
abbrev ops : List (HloOp τ sig (Elt F)) :=
  [ TRef.unary (TRef.of (T := ⟨S64x16x32x512, .f32⟩) main_arg1) (TRef.of (T := ⟨S64x16x32x509, .f32⟩) main_call3_v0) (extractStridedSlice S64x16x32x509 ![0, 0, 0, 3] · slices_S64x16x32x512_S64x16x32x509_0_0_0_3),
    TRef.unary (TRef.of (T := ⟨S64x16x32x512, .f32⟩) main_arg1) (TRef.of (T := ⟨S64x16x32x3, .f32⟩) main_call3_v1) (extractStridedSlice S64x16x32x3 ![0, 0, 0, 0] · slices_S64x16x32x512_S64x16x32x3_0_0_0_0),
    TRef.binary (TRef.of (T := ⟨S64x16x32x509, .f32⟩) main_call3_v0) (TRef.of (T := ⟨S64x16x32x3, .f32⟩) main_call3_v1) (TRef.of (T := ⟨S64x16x32x512, .f32⟩) main_v15) (fun a b => concatenate S64x16x32x512 3 [⟨S64x16x32x509, a⟩, ⟨S64x16x32x3, b⟩] concatenates_S64x16x32x509_S64x16x32x3_S64x16x32x512_d3),
    TRef.unary (TRef.of (T := ⟨S64x1x32x512, .i1⟩) main_arg4) (TRef.of (T := ⟨S64x1x32x509, .i1⟩) main_call4_v0) (extractStridedSlice S64x1x32x509 ![0, 0, 0, 3] · slices_S64x1x32x512_S64x1x32x509_0_0_0_3),
    TRef.unary (TRef.of (T := ⟨S64x1x32x512, .i1⟩) main_arg4) (TRef.of (T := ⟨S64x1x32x3, .i1⟩) main_call4_v1) (extractStridedSlice S64x1x32x3 ![0, 0, 0, 0] · slices_S64x1x32x512_S64x1x32x3_0_0_0_0),
    TRef.binary (TRef.of (T := ⟨S64x1x32x509, .i1⟩) main_call4_v0) (TRef.of (T := ⟨S64x1x32x3, .i1⟩) main_call4_v1) (TRef.of (T := ⟨S64x1x32x512, .i1⟩) main_v16) (fun a b => concatenate S64x1x32x512 3 [⟨S64x1x32x509, a⟩, ⟨S64x1x32x3, b⟩] concatenates_S64x1x32x509_S64x1x32x3_S64x1x32x512_d3),
    binary main_arg3 main_v16 main_v17 (andi : (⟨S64x1x32x512, .i1⟩ : BufTy).Contents (Elt F) → (⟨S64x1x32x512, .i1⟩ : BufTy).Contents (Elt F) → (⟨S64x1x32x512, .i1⟩ : BufTy).Contents (Elt F)),
    binary main_arg0 main_v15 main_v18 (subf : (⟨S64x16x32x512, .f32⟩ : BufTy).Contents (Elt F) → (⟨S64x16x32x512, .f32⟩ : BufTy).Contents (Elt F) → (⟨S64x16x32x512, .f32⟩ : BufTy).Contents (Elt F)),
    nullary main_cst_3 (constant S_ .f32 0x00000000#32),
    TRef.unary (TRef.of (T := ⟨S_, .f32⟩) main_cst_3) (TRef.of (T := ⟨S_, .f32⟩) main_call5_v0) id,
    TRef.unary (TRef.of (T := ⟨S64x1x32x512, .i1⟩) main_v17) (TRef.of (T := ⟨S64x16x32x512, .i1⟩) main_call5_v1) (broadcastInDim S64x16x32x512 ![0, 1, 2, 3] bcast_S64x1x32x512_S64x16x32x512_0_1_2_3),
    TRef.unary (TRef.of (T := ⟨S_, .f32⟩) main_call5_v0) (TRef.of (T := ⟨S64x16x32x512, .f32⟩) main_call5_v2) (broadcastInDim S64x16x32x512 ![] bcast_S_S64x16x32x512),
    TRef.ternary (TRef.of (T := ⟨S64x16x32x512, .i1⟩) main_call5_v1) (TRef.of (T := ⟨S64x16x32x512, .f32⟩) main_v18) (TRef.of (T := ⟨S64x16x32x512, .f32⟩) main_call5_v2) (TRef.of (T := ⟨S64x16x32x512, .f32⟩) main_v19) select,
    binary main_v19 main_v19 main_v20 (mulf : (⟨S64x16x32x512, .f32⟩ : BufTy).Contents (Elt F) → (⟨S64x16x32x512, .f32⟩ : BufTy).Contents (Elt F) → (⟨S64x16x32x512, .f32⟩ : BufTy).Contents (Elt F)),
    nullary main_cst_4 (constant S_ .f32 0x00000000#32),
    binary main_v20 main_cst_4 main_v21 ((fun x v => Host.reduceAdd x v reducesTo_S64x16x32x512_S64_d1_2_3 h_S_) : (⟨S64x16x32x512, .f32⟩ : BufTy).Contents (Elt F) → (⟨S_, .f32⟩ : BufTy).Contents (Elt F) → (⟨S64, .f32⟩ : BufTy).Contents (Elt F)),
    unary main_v17 main_v22 ((extui 32 · natLt_1_32) : (⟨S64x1x32x512, .i1⟩ : BufTy).Contents (Elt F) → (⟨S64x1x32x512, .i32⟩ : BufTy).Contents (Elt F)),
    nullary main_c_5 (constantI S_ 32 0#32),
    binary main_v22 main_c_5 main_v23 ((fun x v => Host.reduce IntOp.addi x v reducesTo_S64x1x32x512_S64_d1_2_3 h_S_) : (⟨S64x1x32x512, .i32⟩ : BufTy).Contents (Elt F) → (⟨S_, .i32⟩ : BufTy).Contents (Elt F) → (⟨S64, .i32⟩ : BufTy).Contents (Elt F)),
    unary main_v23 main_v24 (sitofp .f32 : (⟨S64, .i32⟩ : BufTy).Contents (Elt F) → (⟨S64, .f32⟩ : BufTy).Contents (Elt F)),
    nullary main_cst_6 (constant S_ .f32 0x41800000#32),
    unary main_cst_6 main_v25 (broadcastInDim S64 ![] bcast_S_S64 : (⟨S_, .f32⟩ : BufTy).Contents (Elt F) → (⟨S64, .f32⟩ : BufTy).Contents (Elt F)),
    binary main_v25 main_v24 main_v26 (mulf : (⟨S64, .f32⟩ : BufTy).Contents (Elt F) → (⟨S64, .f32⟩ : BufTy).Contents (Elt F) → (⟨S64, .f32⟩ : BufTy).Contents (Elt F)),
    nullary main_cst_7 (constant S_ .f32 0x3A83126F#32),
    unary main_cst_7 main_v27 (broadcastInDim S64 ![] bcast_S_S64 : (⟨S_, .f32⟩ : BufTy).Contents (Elt F) → (⟨S64, .f32⟩ : BufTy).Contents (Elt F)),
    binary main_v26 main_v27 main_v28 (addf : (⟨S64, .f32⟩ : BufTy).Contents (Elt F) → (⟨S64, .f32⟩ : BufTy).Contents (Elt F) → (⟨S64, .f32⟩ : BufTy).Contents (Elt F)),
    binary main_v21 main_v28 main_v29 (Host.divf : (⟨S64, .f32⟩ : BufTy).Contents (Elt F) → (⟨S64, .f32⟩ : BufTy).Contents (Elt F) → (⟨S64, .f32⟩ : BufTy).Contents (Elt F)) ]

/-- Every buffer they touch is a TensorCore buffer. -/
theorem sub : (ops : List (HloOp τ sig (Elt F))).Forall fun op => op.bufs ⊆ tcRefs τ sig :=
  ⟨unary_bufs_sub .., unary_bufs_sub .., binary_bufs_sub .., unary_bufs_sub .., unary_bufs_sub .., binary_bufs_sub .., binary_bufs_sub .., binary_bufs_sub .., nullary_bufs_sub .., unary_bufs_sub .., unary_bufs_sub .., unary_bufs_sub .., ternary_bufs_sub .., binary_bufs_sub .., nullary_bufs_sub .., binary_bufs_sub .., unary_bufs_sub .., nullary_bufs_sub .., binary_bufs_sub .., unary_bufs_sub .., nullary_bufs_sub .., unary_bufs_sub .., binary_bufs_sub .., nullary_bufs_sub .., unary_bufs_sub .., binary_bufs_sub .., binary_bufs_sub ..⟩

/-- None of them allocates. -/
theorem fresh : ∀ op ∈ (ops : List (HloOp τ sig (Elt F))), op.fresh = ∅ := by
  intro _ h; (repeat (cases h with | head => rfl | tail _ h => ?_)); exact nomatch h

/-- The buffers they write. -/
abbrev W : List (Ref sig .tc) := [main_call3_v0, main_call3_v1, main_v15, main_call4_v0, main_call4_v1, main_v16, main_v17, main_v18, main_cst_3, main_call5_v0, main_call5_v1, main_call5_v2, main_v19, main_v20, main_cst_4, main_v21, main_v22, main_c_5, main_v23, main_v24, main_cst_6, main_v25, main_v26, main_cst_7, main_v27, main_v28, main_v29]

theorem writes : (ops : List (HloOp τ sig (Elt F))).Forall fun op =>
    op.writes ⊆ (W.map (Proc.devRef (τ := τ) .tc)).toFinset := by
  simp only [List.Forall]
  exact ⟨(by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide))⟩

/-- A buffer they do not write keeps its contents. -/
theorem keep (V : Valuation τ sig (Elt F)) (r : Ref sig .tc) (h : r ∉ W) :
    after ops V (Proc.devRef .tc r) = V (Proc.devRef .tc r) :=
  after_of_writes_sub ops V writes h

/-- The contents after these operations. -/
def aft (V : Valuation τ sig (Elt F)) : Valuation τ sig (Elt F) := after ops V

theorem aft_keep (V : Valuation τ sig (Elt F)) (r : Ref sig .tc) (h : r ∉ W) :
    aft V (no_index (Proc.devRef .tc r)) = V (Proc.devRef .tc r) :=
  keep V r h

/-- The distance the last operation leaves, as the one-shift function of the argument arrays' contents. -/
theorem aft_value (V : Valuation τ sig (Elt Ideal)) :
    aft (F := Ideal) V (no_index (Proc.devRef .tc main_v29))
      = Cert.ShiftLoss.RefMath.shiftDist 509 3 rfl (V (Proc.devRef .tc main_arg0)) (V (Proc.devRef .tc main_arg1))
          (V (Proc.devRef .tc main_arg3)) (V (Proc.devRef .tc main_arg4)) := by
  show after (ops (F := Ideal)) V (Proc.devRef .tc main_v29) = _
  after_results_simp <;> rfl

end Cert.ReferenceIdeal.RefRun.SA1

end
-- ==== Proof.Ref.Sh.SA2.lean ====
/-
  Shift 2 (offset -2) of the first pair of the reference: the 27 host operations that compute its per-row distance,
  what they write, and the distance they leave in their last buffer as the one-shift function of the four argument arrays.
-/
import proofs.«122145_j70437463654548_2_alg».proof.Proof.Gen.ReferenceIdeal
import proofs.«122145_j70437463654548_2_alg».proof.Proof.Ref.Math
import Idealize.ShloMosaic.Lib.StableHlo.Run

noncomputable section

namespace Cert.ReferenceIdeal.RefRun.SA2

open Cert.ReferenceIdeal Cert.ReferenceIdeal.Gen Idealize.ShloMosaic Idealize.ShloMosaic.TcCoe Idealize.SL.Sem Idealize.ShloMosaic.StableHlo

variable {F : FTy → Type} [FloatOps F]

/-- The operations, in order. -/
abbrev ops : List (HloOp τ sig (Elt F)) :=
  [ TRef.unary (TRef.of (T := ⟨S64x16x32x512, .f32⟩) main_arg1) (TRef.of (T := ⟨S64x16x32x510, .f32⟩) main_call6_v0) (extractStridedSlice S64x16x32x510 ![0, 0, 0, 2] · slices_S64x16x32x512_S64x16x32x510_0_0_0_2),
    TRef.unary (TRef.of (T := ⟨S64x16x32x512, .f32⟩) main_arg1) (TRef.of (T := ⟨S64x16x32x2, .f32⟩) main_call6_v1) (extractStridedSlice S64x16x32x2 ![0, 0, 0, 0] · slices_S64x16x32x512_S64x16x32x2_0_0_0_0),
    TRef.binary (TRef.of (T := ⟨S64x16x32x510, .f32⟩) main_call6_v0) (TRef.of (T := ⟨S64x16x32x2, .f32⟩) main_call6_v1) (TRef.of (T := ⟨S64x16x32x512, .f32⟩) main_v30) (fun a b => concatenate S64x16x32x512 3 [⟨S64x16x32x510, a⟩, ⟨S64x16x32x2, b⟩] concatenates_S64x16x32x510_S64x16x32x2_S64x16x32x512_d3),
    TRef.unary (TRef.of (T := ⟨S64x1x32x512, .i1⟩) main_arg4) (TRef.of (T := ⟨S64x1x32x510, .i1⟩) main_call7_v0) (extractStridedSlice S64x1x32x510 ![0, 0, 0, 2] · slices_S64x1x32x512_S64x1x32x510_0_0_0_2),
    TRef.unary (TRef.of (T := ⟨S64x1x32x512, .i1⟩) main_arg4) (TRef.of (T := ⟨S64x1x32x2, .i1⟩) main_call7_v1) (extractStridedSlice S64x1x32x2 ![0, 0, 0, 0] · slices_S64x1x32x512_S64x1x32x2_0_0_0_0),
    TRef.binary (TRef.of (T := ⟨S64x1x32x510, .i1⟩) main_call7_v0) (TRef.of (T := ⟨S64x1x32x2, .i1⟩) main_call7_v1) (TRef.of (T := ⟨S64x1x32x512, .i1⟩) main_v31) (fun a b => concatenate S64x1x32x512 3 [⟨S64x1x32x510, a⟩, ⟨S64x1x32x2, b⟩] concatenates_S64x1x32x510_S64x1x32x2_S64x1x32x512_d3),
    binary main_arg3 main_v31 main_v32 (andi : (⟨S64x1x32x512, .i1⟩ : BufTy).Contents (Elt F) → (⟨S64x1x32x512, .i1⟩ : BufTy).Contents (Elt F) → (⟨S64x1x32x512, .i1⟩ : BufTy).Contents (Elt F)),
    binary main_arg0 main_v30 main_v33 (subf : (⟨S64x16x32x512, .f32⟩ : BufTy).Contents (Elt F) → (⟨S64x16x32x512, .f32⟩ : BufTy).Contents (Elt F) → (⟨S64x16x32x512, .f32⟩ : BufTy).Contents (Elt F)),
    nullary main_cst_8 (constant S_ .f32 0x00000000#32),
    TRef.unary (TRef.of (T := ⟨S_, .f32⟩) main_cst_8) (TRef.of (T := ⟨S_, .f32⟩) main_call8_v0) id,
    TRef.unary (TRef.of (T := ⟨S64x1x32x512, .i1⟩) main_v32) (TRef.of (T := ⟨S64x16x32x512, .i1⟩) main_call8_v1) (broadcastInDim S64x16x32x512 ![0, 1, 2, 3] bcast_S64x1x32x512_S64x16x32x512_0_1_2_3),
    TRef.unary (TRef.of (T := ⟨S_, .f32⟩) main_call8_v0) (TRef.of (T := ⟨S64x16x32x512, .f32⟩) main_call8_v2) (broadcastInDim S64x16x32x512 ![] bcast_S_S64x16x32x512),
    TRef.ternary (TRef.of (T := ⟨S64x16x32x512, .i1⟩) main_call8_v1) (TRef.of (T := ⟨S64x16x32x512, .f32⟩) main_v33) (TRef.of (T := ⟨S64x16x32x512, .f32⟩) main_call8_v2) (TRef.of (T := ⟨S64x16x32x512, .f32⟩) main_v34) select,
    binary main_v34 main_v34 main_v35 (mulf : (⟨S64x16x32x512, .f32⟩ : BufTy).Contents (Elt F) → (⟨S64x16x32x512, .f32⟩ : BufTy).Contents (Elt F) → (⟨S64x16x32x512, .f32⟩ : BufTy).Contents (Elt F)),
    nullary main_cst_9 (constant S_ .f32 0x00000000#32),
    binary main_v35 main_cst_9 main_v36 ((fun x v => Host.reduceAdd x v reducesTo_S64x16x32x512_S64_d1_2_3 h_S_) : (⟨S64x16x32x512, .f32⟩ : BufTy).Contents (Elt F) → (⟨S_, .f32⟩ : BufTy).Contents (Elt F) → (⟨S64, .f32⟩ : BufTy).Contents (Elt F)),
    unary main_v32 main_v37 ((extui 32 · natLt_1_32) : (⟨S64x1x32x512, .i1⟩ : BufTy).Contents (Elt F) → (⟨S64x1x32x512, .i32⟩ : BufTy).Contents (Elt F)),
    nullary main_c_10 (constantI S_ 32 0#32),
    binary main_v37 main_c_10 main_v38 ((fun x v => Host.reduce IntOp.addi x v reducesTo_S64x1x32x512_S64_d1_2_3 h_S_) : (⟨S64x1x32x512, .i32⟩ : BufTy).Contents (Elt F) → (⟨S_, .i32⟩ : BufTy).Contents (Elt F) → (⟨S64, .i32⟩ : BufTy).Contents (Elt F)),
    unary main_v38 main_v39 (sitofp .f32 : (⟨S64, .i32⟩ : BufTy).Contents (Elt F) → (⟨S64, .f32⟩ : BufTy).Contents (Elt F)),
    nullary main_cst_11 (constant S_ .f32 0x41800000#32),
    unary main_cst_11 main_v40 (broadcastInDim S64 ![] bcast_S_S64 : (⟨S_, .f32⟩ : BufTy).Contents (Elt F) → (⟨S64, .f32⟩ : BufTy).Contents (Elt F)),
    binary main_v40 main_v39 main_v41 (mulf : (⟨S64, .f32⟩ : BufTy).Contents (Elt F) → (⟨S64, .f32⟩ : BufTy).Contents (Elt F) → (⟨S64, .f32⟩ : BufTy).Contents (Elt F)),
    nullary main_cst_12 (constant S_ .f32 0x3A83126F#32),
    unary main_cst_12 main_v42 (broadcastInDim S64 ![] bcast_S_S64 : (⟨S_, .f32⟩ : BufTy).Contents (Elt F) → (⟨S64, .f32⟩ : BufTy).Contents (Elt F)),
    binary main_v41 main_v42 main_v43 (addf : (⟨S64, .f32⟩ : BufTy).Contents (Elt F) → (⟨S64, .f32⟩ : BufTy).Contents (Elt F) → (⟨S64, .f32⟩ : BufTy).Contents (Elt F)),
    binary main_v36 main_v43 main_v44 (Host.divf : (⟨S64, .f32⟩ : BufTy).Contents (Elt F) → (⟨S64, .f32⟩ : BufTy).Contents (Elt F) → (⟨S64, .f32⟩ : BufTy).Contents (Elt F)) ]

/-- Every buffer they touch is a TensorCore buffer. -/
theorem sub : (ops : List (HloOp τ sig (Elt F))).Forall fun op => op.bufs ⊆ tcRefs τ sig :=
  ⟨unary_bufs_sub .., unary_bufs_sub .., binary_bufs_sub .., unary_bufs_sub .., unary_bufs_sub .., binary_bufs_sub .., binary_bufs_sub .., binary_bufs_sub .., nullary_bufs_sub .., unary_bufs_sub .., unary_bufs_sub .., unary_bufs_sub .., ternary_bufs_sub .., binary_bufs_sub .., nullary_bufs_sub .., binary_bufs_sub .., unary_bufs_sub .., nullary_bufs_sub .., binary_bufs_sub .., unary_bufs_sub .., nullary_bufs_sub .., unary_bufs_sub .., binary_bufs_sub .., nullary_bufs_sub .., unary_bufs_sub .., binary_bufs_sub .., binary_bufs_sub ..⟩

/-- None of them allocates. -/
theorem fresh : ∀ op ∈ (ops : List (HloOp τ sig (Elt F))), op.fresh = ∅ := by
  intro _ h; (repeat (cases h with | head => rfl | tail _ h => ?_)); exact nomatch h

/-- The buffers they write. -/
abbrev W : List (Ref sig .tc) := [main_call6_v0, main_call6_v1, main_v30, main_call7_v0, main_call7_v1, main_v31, main_v32, main_v33, main_cst_8, main_call8_v0, main_call8_v1, main_call8_v2, main_v34, main_v35, main_cst_9, main_v36, main_v37, main_c_10, main_v38, main_v39, main_cst_11, main_v40, main_v41, main_cst_12, main_v42, main_v43, main_v44]

theorem writes : (ops : List (HloOp τ sig (Elt F))).Forall fun op =>
    op.writes ⊆ (W.map (Proc.devRef (τ := τ) .tc)).toFinset := by
  simp only [List.Forall]
  exact ⟨(by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide))⟩

/-- A buffer they do not write keeps its contents. -/
theorem keep (V : Valuation τ sig (Elt F)) (r : Ref sig .tc) (h : r ∉ W) :
    after ops V (Proc.devRef .tc r) = V (Proc.devRef .tc r) :=
  after_of_writes_sub ops V writes h

/-- The contents after these operations. -/
def aft (V : Valuation τ sig (Elt F)) : Valuation τ sig (Elt F) := after ops V

theorem aft_keep (V : Valuation τ sig (Elt F)) (r : Ref sig .tc) (h : r ∉ W) :
    aft V (no_index (Proc.devRef .tc r)) = V (Proc.devRef .tc r) :=
  keep V r h

/-- The distance the last operation leaves, as the one-shift function of the argument arrays' contents. -/
theorem aft_value (V : Valuation τ sig (Elt Ideal)) :
    aft (F := Ideal) V (no_index (Proc.devRef .tc main_v44))
      = Cert.ShiftLoss.RefMath.shiftDist 510 2 rfl (V (Proc.devRef .tc main_arg0)) (V (Proc.devRef .tc main_arg1))
          (V (Proc.devRef .tc main_arg3)) (V (Proc.devRef .tc main_arg4)) := by
  show after (ops (F := Ideal)) V (Proc.devRef .tc main_v44) = _
  after_results_simp <;> rfl

end Cert.ReferenceIdeal.RefRun.SA2

end
-- ==== Proof.Ref.P0.lean ====
/-
  Window 0 of the reference's @main (its statements 1 to 60) is the sequence of these chunks' operations: the calls
  unfold to their bodies' operations in place.
-/
import proofs.«122145_j70437463654548_2_alg».proof.Proof.Ref.Sh.SA0
import proofs.«122145_j70437463654548_2_alg».proof.Proof.Ref.Sh.SA1
import proofs.«122145_j70437463654548_2_alg».proof.Proof.Ref.Sh.SA2

noncomputable section

namespace Cert.ReferenceIdeal.RefRun.P0

open Cert.ReferenceIdeal Cert.ReferenceIdeal.Gen Idealize.ShloMosaic Idealize.ShloMosaic.TcCoe Idealize.SL.Sem Idealize.ShloMosaic.StableHlo
open Cert.ReferenceIdeal.RefRun

variable {F : FTy → Type} [FloatOps F]

/-- The window's operations. -/
def L : List (HloOp τ sig (Elt F)) := SA0.ops (F := F) ++ (SA1.ops (F := F) ++ (SA2.ops (F := F)))

set_option maxRecDepth 8192 in
set_option maxHeartbeats 4000000 in
theorem eq (d : Dev nD) : main_part0 (F := F) d = seq L := rfl

end Cert.ReferenceIdeal.RefRun.P0

end
-- ==== Proof.Ref.Sh.SA3.lean ====
/-
  Shift 3 (offset -1) of the first pair of the reference: the 27 host operations that compute its per-row distance,
  what they write, and the distance they leave in their last buffer as the one-shift function of the four argument arrays.
-/
import proofs.«122145_j70437463654548_2_alg».proof.Proof.Gen.ReferenceIdeal
import proofs.«122145_j70437463654548_2_alg».proof.Proof.Ref.Math
import Idealize.ShloMosaic.Lib.StableHlo.Run

noncomputable section

namespace Cert.ReferenceIdeal.RefRun.SA3

open Cert.ReferenceIdeal Cert.ReferenceIdeal.Gen Idealize.ShloMosaic Idealize.ShloMosaic.TcCoe Idealize.SL.Sem Idealize.ShloMosaic.StableHlo

variable {F : FTy → Type} [FloatOps F]

/-- The operations, in order. -/
abbrev ops : List (HloOp τ sig (Elt F)) :=
  [ TRef.unary (TRef.of (T := ⟨S64x16x32x512, .f32⟩) main_arg1) (TRef.of (T := ⟨S64x16x32x511, .f32⟩) main_call9_v0) (extractStridedSlice S64x16x32x511 ![0, 0, 0, 1] · slices_S64x16x32x512_S64x16x32x511_0_0_0_1),
    TRef.unary (TRef.of (T := ⟨S64x16x32x512, .f32⟩) main_arg1) (TRef.of (T := ⟨S64x16x32x1, .f32⟩) main_call9_v1) (extractStridedSlice S64x16x32x1 ![0, 0, 0, 0] · slices_S64x16x32x512_S64x16x32x1_0_0_0_0),
    TRef.binary (TRef.of (T := ⟨S64x16x32x511, .f32⟩) main_call9_v0) (TRef.of (T := ⟨S64x16x32x1, .f32⟩) main_call9_v1) (TRef.of (T := ⟨S64x16x32x512, .f32⟩) main_v45) (fun a b => concatenate S64x16x32x512 3 [⟨S64x16x32x511, a⟩, ⟨S64x16x32x1, b⟩] concatenates_S64x16x32x511_S64x16x32x1_S64x16x32x512_d3),
    TRef.unary (TRef.of (T := ⟨S64x1x32x512, .i1⟩) main_arg4) (TRef.of (T := ⟨S64x1x32x511, .i1⟩) main_call10_v0) (extractStridedSlice S64x1x32x511 ![0, 0, 0, 1] · slices_S64x1x32x512_S64x1x32x511_0_0_0_1),
    TRef.unary (TRef.of (T := ⟨S64x1x32x512, .i1⟩) main_arg4) (TRef.of (T := ⟨S64x1x32x1, .i1⟩) main_call10_v1) (extractStridedSlice S64x1x32x1 ![0, 0, 0, 0] · slices_S64x1x32x512_S64x1x32x1_0_0_0_0),
    TRef.binary (TRef.of (T := ⟨S64x1x32x511, .i1⟩) main_call10_v0) (TRef.of (T := ⟨S64x1x32x1, .i1⟩) main_call10_v1) (TRef.of (T := ⟨S64x1x32x512, .i1⟩) main_v46) (fun a b => concatenate S64x1x32x512 3 [⟨S64x1x32x511, a⟩, ⟨S64x1x32x1, b⟩] concatenates_S64x1x32x511_S64x1x32x1_S64x1x32x512_d3),
    binary main_arg3 main_v46 main_v47 (andi : (⟨S64x1x32x512, .i1⟩ : BufTy).Contents (Elt F) → (⟨S64x1x32x512, .i1⟩ : BufTy).Contents (Elt F) → (⟨S64x1x32x512, .i1⟩ : BufTy).Contents (Elt F)),
    binary main_arg0 main_v45 main_v48 (subf : (⟨S64x16x32x512, .f32⟩ : BufTy).Contents (Elt F) → (⟨S64x16x32x512, .f32⟩ : BufTy).Contents (Elt F) → (⟨S64x16x32x512, .f32⟩ : BufTy).Contents (Elt F)),
    nullary main_cst_13 (constant S_ .f32 0x00000000#32),
    TRef.unary (TRef.of (T := ⟨S_, .f32⟩) main_cst_13) (TRef.of (T := ⟨S_, .f32⟩) main_call11_v0) id,
    TRef.unary (TRef.of (T := ⟨S64x1x32x512, .i1⟩) main_v47) (TRef.of (T := ⟨S64x16x32x512, .i1⟩) main_call11_v1) (broadcastInDim S64x16x32x512 ![0, 1, 2, 3] bcast_S64x1x32x512_S64x16x32x512_0_1_2_3),
    TRef.unary (TRef.of (T := ⟨S_, .f32⟩) main_call11_v0) (TRef.of (T := ⟨S64x16x32x512, .f32⟩) main_call11_v2) (broadcastInDim S64x16x32x512 ![] bcast_S_S64x16x32x512),
    TRef.ternary (TRef.of (T := ⟨S64x16x32x512, .i1⟩) main_call11_v1) (TRef.of (T := ⟨S64x16x32x512, .f32⟩) main_v48) (TRef.of (T := ⟨S64x16x32x512, .f32⟩) main_call11_v2) (TRef.of (T := ⟨S64x16x32x512, .f32⟩) main_v49) select,
    binary main_v49 main_v49 main_v50 (mulf : (⟨S64x16x32x512, .f32⟩ : BufTy).Contents (Elt F) → (⟨S64x16x32x512, .f32⟩ : BufTy).Contents (Elt F) → (⟨S64x16x32x512, .f32⟩ : BufTy).Contents (Elt F)),
    nullary main_cst_14 (constant S_ .f32 0x00000000#32),
    binary main_v50 main_cst_14 main_v51 ((fun x v => Host.reduceAdd x v reducesTo_S64x16x32x512_S64_d1_2_3 h_S_) : (⟨S64x16x32x512, .f32⟩ : BufTy).Contents (Elt F) → (⟨S_, .f32⟩ : BufTy).Contents (Elt F) → (⟨S64, .f32⟩ : BufTy).Contents (Elt F)),
    unary main_v47 main_v52 ((extui 32 · natLt_1_32) : (⟨S64x1x32x512, .i1⟩ : BufTy).Contents (Elt F) → (⟨S64x1x32x512, .i32⟩ : BufTy).Contents (Elt F)),
    nullary main_c_15 (constantI S_ 32 0#32),
    binary main_v52 main_c_15 main_v53 ((fun x v => Host.reduce IntOp.addi x v reducesTo_S64x1x32x512_S64_d1_2_3 h_S_) : (⟨S64x1x32x512, .i32⟩ : BufTy).Contents (Elt F) → (⟨S_, .i32⟩ : BufTy).Contents (Elt F) → (⟨S64, .i32⟩ : BufTy).Contents (Elt F)),
    unary main_v53 main_v54 (sitofp .f32 : (⟨S64, .i32⟩ : BufTy).Contents (Elt F) → (⟨S64, .f32⟩ : BufTy).Contents (Elt F)),
    nullary main_cst_16 (constant S_ .f32 0x41800000#32),
    unary main_cst_16 main_v55 (broadcastInDim S64 ![] bcast_S_S64 : (⟨S_, .f32⟩ : BufTy).Contents (Elt F) → (⟨S64, .f32⟩ : BufTy).Contents (Elt F)),
    binary main_v55 main_v54 main_v56 (mulf : (⟨S64, .f32⟩ : BufTy).Contents (Elt F) → (⟨S64, .f32⟩ : BufTy).Contents (Elt F) → (⟨S64, .f32⟩ : BufTy).Contents (Elt F)),
    nullary main_cst_17 (constant S_ .f32 0x3A83126F#32),
    unary main_cst_17 main_v57 (broadcastInDim S64 ![] bcast_S_S64 : (⟨S_, .f32⟩ : BufTy).Contents (Elt F) → (⟨S64, .f32⟩ : BufTy).Contents (Elt F)),
    binary main_v56 main_v57 main_v58 (addf : (⟨S64, .f32⟩ : BufTy).Contents (Elt F) → (⟨S64, .f32⟩ : BufTy).Contents (Elt F) → (⟨S64, .f32⟩ : BufTy).Contents (Elt F)),
    binary main_v51 main_v58 main_v59 (Host.divf : (⟨S64, .f32⟩ : BufTy).Contents (Elt F) → (⟨S64, .f32⟩ : BufTy).Contents (Elt F) → (⟨S64, .f32⟩ : BufTy).Contents (Elt F)) ]

/-- Every buffer they touch is a TensorCore buffer. -/
theorem sub : (ops : List (HloOp τ sig (Elt F))).Forall fun op => op.bufs ⊆ tcRefs τ sig :=
  ⟨unary_bufs_sub .., unary_bufs_sub .., binary_bufs_sub .., unary_bufs_sub .., unary_bufs_sub .., binary_bufs_sub .., binary_bufs_sub .., binary_bufs_sub .., nullary_bufs_sub .., unary_bufs_sub .., unary_bufs_sub .., unary_bufs_sub .., ternary_bufs_sub .., binary_bufs_sub .., nullary_bufs_sub .., binary_bufs_sub .., unary_bufs_sub .., nullary_bufs_sub .., binary_bufs_sub .., unary_bufs_sub .., nullary_bufs_sub .., unary_bufs_sub .., binary_bufs_sub .., nullary_bufs_sub .., unary_bufs_sub .., binary_bufs_sub .., binary_bufs_sub ..⟩

/-- None of them allocates. -/
theorem fresh : ∀ op ∈ (ops : List (HloOp τ sig (Elt F))), op.fresh = ∅ := by
  intro _ h; (repeat (cases h with | head => rfl | tail _ h => ?_)); exact nomatch h

/-- The buffers they write. -/
abbrev W : List (Ref sig .tc) := [main_call9_v0, main_call9_v1, main_v45, main_call10_v0, main_call10_v1, main_v46, main_v47, main_v48, main_cst_13, main_call11_v0, main_call11_v1, main_call11_v2, main_v49, main_v50, main_cst_14, main_v51, main_v52, main_c_15, main_v53, main_v54, main_cst_16, main_v55, main_v56, main_cst_17, main_v57, main_v58, main_v59]

theorem writes : (ops : List (HloOp τ sig (Elt F))).Forall fun op =>
    op.writes ⊆ (W.map (Proc.devRef (τ := τ) .tc)).toFinset := by
  simp only [List.Forall]
  exact ⟨(by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide))⟩

/-- A buffer they do not write keeps its contents. -/
theorem keep (V : Valuation τ sig (Elt F)) (r : Ref sig .tc) (h : r ∉ W) :
    after ops V (Proc.devRef .tc r) = V (Proc.devRef .tc r) :=
  after_of_writes_sub ops V writes h

/-- The contents after these operations. -/
def aft (V : Valuation τ sig (Elt F)) : Valuation τ sig (Elt F) := after ops V

theorem aft_keep (V : Valuation τ sig (Elt F)) (r : Ref sig .tc) (h : r ∉ W) :
    aft V (no_index (Proc.devRef .tc r)) = V (Proc.devRef .tc r) :=
  keep V r h

/-- The distance the last operation leaves, as the one-shift function of the argument arrays' contents. -/
theorem aft_value (V : Valuation τ sig (Elt Ideal)) :
    aft (F := Ideal) V (no_index (Proc.devRef .tc main_v59))
      = Cert.ShiftLoss.RefMath.shiftDist 511 1 rfl (V (Proc.devRef .tc main_arg0)) (V (Proc.devRef .tc main_arg1))
          (V (Proc.devRef .tc main_arg3)) (V (Proc.devRef .tc main_arg4)) := by
  show after (ops (F := Ideal)) V (Proc.devRef .tc main_v59) = _
  after_results_simp <;> rfl

end Cert.ReferenceIdeal.RefRun.SA3

end
-- ==== Proof.Ref.Sh.SA4.lean ====
/-
  Shift 4 (offset 0) of the first pair of the reference: the 27 host operations that compute its per-row distance,
  what they write, and the distance they leave in their last buffer as the one-shift function of the four argument arrays.
-/
import proofs.«122145_j70437463654548_2_alg».proof.Proof.Gen.ReferenceIdeal
import proofs.«122145_j70437463654548_2_alg».proof.Proof.Ref.Math
import Idealize.ShloMosaic.Lib.StableHlo.Run

noncomputable section

namespace Cert.ReferenceIdeal.RefRun.SA4

open Cert.ReferenceIdeal Cert.ReferenceIdeal.Gen Idealize.ShloMosaic Idealize.ShloMosaic.TcCoe Idealize.SL.Sem Idealize.ShloMosaic.StableHlo

variable {F : FTy → Type} [FloatOps F]

/-- The operations, in order. -/
abbrev ops : List (HloOp τ sig (Elt F)) :=
  [ TRef.unary (TRef.of (T := ⟨S64x16x32x512, .f32⟩) main_arg1) (TRef.of (T := ⟨S64x16x32x512, .f32⟩) main_call12_v0) (extractStridedSlice S64x16x32x512 ![0, 0, 0, 0] · slices_S64x16x32x512_S64x16x32x512_0_0_0_0),
    TRef.unary (TRef.of (T := ⟨S64x16x32x512, .f32⟩) main_arg1) (TRef.of (T := ⟨S64x16x32x0, .f32⟩) main_call12_v1) (extractStridedSlice S64x16x32x0 ![0, 0, 0, 0] · slices_S64x16x32x512_S64x16x32x0_0_0_0_0),
    TRef.binary (TRef.of (T := ⟨S64x16x32x512, .f32⟩) main_call12_v0) (TRef.of (T := ⟨S64x16x32x0, .f32⟩) main_call12_v1) (TRef.of (T := ⟨S64x16x32x512, .f32⟩) main_v60) (fun a b => concatenate S64x16x32x512 3 [⟨S64x16x32x512, a⟩, ⟨S64x16x32x0, b⟩] concatenates_S64x16x32x512_S64x16x32x0_S64x16x32x512_d3),
    TRef.unary (TRef.of (T := ⟨S64x1x32x512, .i1⟩) main_arg4) (TRef.of (T := ⟨S64x1x32x512, .i1⟩) main_call13_v0) (extractStridedSlice S64x1x32x512 ![0, 0, 0, 0] · slices_S64x1x32x512_S64x1x32x512_0_0_0_0),
    TRef.unary (TRef.of (T := ⟨S64x1x32x512, .i1⟩) main_arg4) (TRef.of (T := ⟨S64x1x32x0, .i1⟩) main_call13_v1) (extractStridedSlice S64x1x32x0 ![0, 0, 0, 0] · slices_S64x1x32x512_S64x1x32x0_0_0_0_0),
    TRef.binary (TRef.of (T := ⟨S64x1x32x512, .i1⟩) main_call13_v0) (TRef.of (T := ⟨S64x1x32x0, .i1⟩) main_call13_v1) (TRef.of (T := ⟨S64x1x32x512, .i1⟩) main_v61) (fun a b => concatenate S64x1x32x512 3 [⟨S64x1x32x512, a⟩, ⟨S64x1x32x0, b⟩] concatenates_S64x1x32x512_S64x1x32x0_S64x1x32x512_d3),
    binary main_arg3 main_v61 main_v62 (andi : (⟨S64x1x32x512, .i1⟩ : BufTy).Contents (Elt F) → (⟨S64x1x32x512, .i1⟩ : BufTy).Contents (Elt F) → (⟨S64x1x32x512, .i1⟩ : BufTy).Contents (Elt F)),
    binary main_arg0 main_v60 main_v63 (subf : (⟨S64x16x32x512, .f32⟩ : BufTy).Contents (Elt F) → (⟨S64x16x32x512, .f32⟩ : BufTy).Contents (Elt F) → (⟨S64x16x32x512, .f32⟩ : BufTy).Contents (Elt F)),
    nullary main_cst_18 (constant S_ .f32 0x00000000#32),
    TRef.unary (TRef.of (T := ⟨S_, .f32⟩) main_cst_18) (TRef.of (T := ⟨S_, .f32⟩) main_call14_v0) id,
    TRef.unary (TRef.of (T := ⟨S64x1x32x512, .i1⟩) main_v62) (TRef.of (T := ⟨S64x16x32x512, .i1⟩) main_call14_v1) (broadcastInDim S64x16x32x512 ![0, 1, 2, 3] bcast_S64x1x32x512_S64x16x32x512_0_1_2_3),
    TRef.unary (TRef.of (T := ⟨S_, .f32⟩) main_call14_v0) (TRef.of (T := ⟨S64x16x32x512, .f32⟩) main_call14_v2) (broadcastInDim S64x16x32x512 ![] bcast_S_S64x16x32x512),
    TRef.ternary (TRef.of (T := ⟨S64x16x32x512, .i1⟩) main_call14_v1) (TRef.of (T := ⟨S64x16x32x512, .f32⟩) main_v63) (TRef.of (T := ⟨S64x16x32x512, .f32⟩) main_call14_v2) (TRef.of (T := ⟨S64x16x32x512, .f32⟩) main_v64) select,
    binary main_v64 main_v64 main_v65 (mulf : (⟨S64x16x32x512, .f32⟩ : BufTy).Contents (Elt F) → (⟨S64x16x32x512, .f32⟩ : BufTy).Contents (Elt F) → (⟨S64x16x32x512, .f32⟩ : BufTy).Contents (Elt F)),
    nullary main_cst_19 (constant S_ .f32 0x00000000#32),
    binary main_v65 main_cst_19 main_v66 ((fun x v => Host.reduceAdd x v reducesTo_S64x16x32x512_S64_d1_2_3 h_S_) : (⟨S64x16x32x512, .f32⟩ : BufTy).Contents (Elt F) → (⟨S_, .f32⟩ : BufTy).Contents (Elt F) → (⟨S64, .f32⟩ : BufTy).Contents (Elt F)),
    unary main_v62 main_v67 ((extui 32 · natLt_1_32) : (⟨S64x1x32x512, .i1⟩ : BufTy).Contents (Elt F) → (⟨S64x1x32x512, .i32⟩ : BufTy).Contents (Elt F)),
    nullary main_c_20 (constantI S_ 32 0#32),
    binary main_v67 main_c_20 main_v68 ((fun x v => Host.reduce IntOp.addi x v reducesTo_S64x1x32x512_S64_d1_2_3 h_S_) : (⟨S64x1x32x512, .i32⟩ : BufTy).Contents (Elt F) → (⟨S_, .i32⟩ : BufTy).Contents (Elt F) → (⟨S64, .i32⟩ : BufTy).Contents (Elt F)),
    unary main_v68 main_v69 (sitofp .f32 : (⟨S64, .i32⟩ : BufTy).Contents (Elt F) → (⟨S64, .f32⟩ : BufTy).Contents (Elt F)),
    nullary main_cst_21 (constant S_ .f32 0x41800000#32),
    unary main_cst_21 main_v70 (broadcastInDim S64 ![] bcast_S_S64 : (⟨S_, .f32⟩ : BufTy).Contents (Elt F) → (⟨S64, .f32⟩ : BufTy).Contents (Elt F)),
    binary main_v70 main_v69 main_v71 (mulf : (⟨S64, .f32⟩ : BufTy).Contents (Elt F) → (⟨S64, .f32⟩ : BufTy).Contents (Elt F) → (⟨S64, .f32⟩ : BufTy).Contents (Elt F)),
    nullary main_cst_22 (constant S_ .f32 0x3A83126F#32),
    unary main_cst_22 main_v72 (broadcastInDim S64 ![] bcast_S_S64 : (⟨S_, .f32⟩ : BufTy).Contents (Elt F) → (⟨S64, .f32⟩ : BufTy).Contents (Elt F)),
    binary main_v71 main_v72 main_v73 (addf : (⟨S64, .f32⟩ : BufTy).Contents (Elt F) → (⟨S64, .f32⟩ : BufTy).Contents (Elt F) → (⟨S64, .f32⟩ : BufTy).Contents (Elt F)),
    binary main_v66 main_v73 main_v74 (Host.divf : (⟨S64, .f32⟩ : BufTy).Contents (Elt F) → (⟨S64, .f32⟩ : BufTy).Contents (Elt F) → (⟨S64, .f32⟩ : BufTy).Contents (Elt F)) ]

/-- Every buffer they touch is a TensorCore buffer. -/
theorem sub : (ops : List (HloOp τ sig (Elt F))).Forall fun op => op.bufs ⊆ tcRefs τ sig :=
  ⟨unary_bufs_sub .., unary_bufs_sub .., binary_bufs_sub .., unary_bufs_sub .., unary_bufs_sub .., binary_bufs_sub .., binary_bufs_sub .., binary_bufs_sub .., nullary_bufs_sub .., unary_bufs_sub .., unary_bufs_sub .., unary_bufs_sub .., ternary_bufs_sub .., binary_bufs_sub .., nullary_bufs_sub .., binary_bufs_sub .., unary_bufs_sub .., nullary_bufs_sub .., binary_bufs_sub .., unary_bufs_sub .., nullary_bufs_sub .., unary_bufs_sub .., binary_bufs_sub .., nullary_bufs_sub .., unary_bufs_sub .., binary_bufs_sub .., binary_bufs_sub ..⟩

/-- None of them allocates. -/
theorem fresh : ∀ op ∈ (ops : List (HloOp τ sig (Elt F))), op.fresh = ∅ := by
  intro _ h; (repeat (cases h with | head => rfl | tail _ h => ?_)); exact nomatch h

/-- The buffers they write. -/
abbrev W : List (Ref sig .tc) := [main_call12_v0, main_call12_v1, main_v60, main_call13_v0, main_call13_v1, main_v61, main_v62, main_v63, main_cst_18, main_call14_v0, main_call14_v1, main_call14_v2, main_v64, main_v65, main_cst_19, main_v66, main_v67, main_c_20, main_v68, main_v69, main_cst_21, main_v70, main_v71, main_cst_22, main_v72, main_v73, main_v74]

theorem writes : (ops : List (HloOp τ sig (Elt F))).Forall fun op =>
    op.writes ⊆ (W.map (Proc.devRef (τ := τ) .tc)).toFinset := by
  simp only [List.Forall]
  exact ⟨(by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide))⟩

/-- A buffer they do not write keeps its contents. -/
theorem keep (V : Valuation τ sig (Elt F)) (r : Ref sig .tc) (h : r ∉ W) :
    after ops V (Proc.devRef .tc r) = V (Proc.devRef .tc r) :=
  after_of_writes_sub ops V writes h

/-- The contents after these operations. -/
def aft (V : Valuation τ sig (Elt F)) : Valuation τ sig (Elt F) := after ops V

theorem aft_keep (V : Valuation τ sig (Elt F)) (r : Ref sig .tc) (h : r ∉ W) :
    aft V (no_index (Proc.devRef .tc r)) = V (Proc.devRef .tc r) :=
  keep V r h

/-- The distance the last operation leaves, as the one-shift function of the argument arrays' contents. -/
theorem aft_value (V : Valuation τ sig (Elt Ideal)) :
    aft (F := Ideal) V (no_index (Proc.devRef .tc main_v74))
      = Cert.ShiftLoss.RefMath.shiftDist 512 0 rfl (V (Proc.devRef .tc main_arg0)) (V (Proc.devRef .tc main_arg1))
          (V (Proc.devRef .tc main_arg3)) (V (Proc.devRef .tc main_arg4)) := by
  show after (ops (F := Ideal)) V (Proc.devRef .tc main_v74) = _
  after_results_simp <;> rfl

end Cert.ReferenceIdeal.RefRun.SA4

end
-- ==== Proof.Ref.Sh.SA5.lean ====
/-
  Shift 5 (offset 1) of the first pair of the reference: the 27 host operations that compute its per-row distance,
  what they write, and the distance they leave in their last buffer as the one-shift function of the four argument arrays.
-/
import proofs.«122145_j70437463654548_2_alg».proof.Proof.Gen.ReferenceIdeal
import proofs.«122145_j70437463654548_2_alg».proof.Proof.Ref.Math
import Idealize.ShloMosaic.Lib.StableHlo.Run

noncomputable section

namespace Cert.ReferenceIdeal.RefRun.SA5

open Cert.ReferenceIdeal Cert.ReferenceIdeal.Gen Idealize.ShloMosaic Idealize.ShloMosaic.TcCoe Idealize.SL.Sem Idealize.ShloMosaic.StableHlo

variable {F : FTy → Type} [FloatOps F]

/-- The operations, in order. -/
abbrev ops : List (HloOp τ sig (Elt F)) :=
  [ TRef.unary (TRef.of (T := ⟨S64x16x32x512, .f32⟩) main_arg1) (TRef.of (T := ⟨S64x16x32x1, .f32⟩) main_call15_v0) (extractStridedSlice S64x16x32x1 ![0, 0, 0, 511] · slices_S64x16x32x512_S64x16x32x1_0_0_0_511),
    TRef.unary (TRef.of (T := ⟨S64x16x32x512, .f32⟩) main_arg1) (TRef.of (T := ⟨S64x16x32x511, .f32⟩) main_call15_v1) (extractStridedSlice S64x16x32x511 ![0, 0, 0, 0] · slices_S64x16x32x512_S64x16x32x511_0_0_0_0),
    TRef.binary (TRef.of (T := ⟨S64x16x32x1, .f32⟩) main_call15_v0) (TRef.of (T := ⟨S64x16x32x511, .f32⟩) main_call15_v1) (TRef.of (T := ⟨S64x16x32x512, .f32⟩) main_v75) (fun a b => concatenate S64x16x32x512 3 [⟨S64x16x32x1, a⟩, ⟨S64x16x32x511, b⟩] concatenates_S64x16x32x1_S64x16x32x511_S64x16x32x512_d3),
    TRef.unary (TRef.of (T := ⟨S64x1x32x512, .i1⟩) main_arg4) (TRef.of (T := ⟨S64x1x32x1, .i1⟩) main_call16_v0) (extractStridedSlice S64x1x32x1 ![0, 0, 0, 511] · slices_S64x1x32x512_S64x1x32x1_0_0_0_511),
    TRef.unary (TRef.of (T := ⟨S64x1x32x512, .i1⟩) main_arg4) (TRef.of (T := ⟨S64x1x32x511, .i1⟩) main_call16_v1) (extractStridedSlice S64x1x32x511 ![0, 0, 0, 0] · slices_S64x1x32x512_S64x1x32x511_0_0_0_0),
    TRef.binary (TRef.of (T := ⟨S64x1x32x1, .i1⟩) main_call16_v0) (TRef.of (T := ⟨S64x1x32x511, .i1⟩) main_call16_v1) (TRef.of (T := ⟨S64x1x32x512, .i1⟩) main_v76) (fun a b => concatenate S64x1x32x512 3 [⟨S64x1x32x1, a⟩, ⟨S64x1x32x511, b⟩] concatenates_S64x1x32x1_S64x1x32x511_S64x1x32x512_d3),
    binary main_arg3 main_v76 main_v77 (andi : (⟨S64x1x32x512, .i1⟩ : BufTy).Contents (Elt F) → (⟨S64x1x32x512, .i1⟩ : BufTy).Contents (Elt F) → (⟨S64x1x32x512, .i1⟩ : BufTy).Contents (Elt F)),
    binary main_arg0 main_v75 main_v78 (subf : (⟨S64x16x32x512, .f32⟩ : BufTy).Contents (Elt F) → (⟨S64x16x32x512, .f32⟩ : BufTy).Contents (Elt F) → (⟨S64x16x32x512, .f32⟩ : BufTy).Contents (Elt F)),
    nullary main_cst_23 (constant S_ .f32 0x00000000#32),
    TRef.unary (TRef.of (T := ⟨S_, .f32⟩) main_cst_23) (TRef.of (T := ⟨S_, .f32⟩) main_call17_v0) id,
    TRef.unary (TRef.of (T := ⟨S64x1x32x512, .i1⟩) main_v77) (TRef.of (T := ⟨S64x16x32x512, .i1⟩) main_call17_v1) (broadcastInDim S64x16x32x512 ![0, 1, 2, 3] bcast_S64x1x32x512_S64x16x32x512_0_1_2_3),
    TRef.unary (TRef.of (T := ⟨S_, .f32⟩) main_call17_v0) (TRef.of (T := ⟨S64x16x32x512, .f32⟩) main_call17_v2) (broadcastInDim S64x16x32x512 ![] bcast_S_S64x16x32x512),
    TRef.ternary (TRef.of (T := ⟨S64x16x32x512, .i1⟩) main_call17_v1) (TRef.of (T := ⟨S64x16x32x512, .f32⟩) main_v78) (TRef.of (T := ⟨S64x16x32x512, .f32⟩) main_call17_v2) (TRef.of (T := ⟨S64x16x32x512, .f32⟩) main_v79) select,
    binary main_v79 main_v79 main_v80 (mulf : (⟨S64x16x32x512, .f32⟩ : BufTy).Contents (Elt F) → (⟨S64x16x32x512, .f32⟩ : BufTy).Contents (Elt F) → (⟨S64x16x32x512, .f32⟩ : BufTy).Contents (Elt F)),
    nullary main_cst_24 (constant S_ .f32 0x00000000#32),
    binary main_v80 main_cst_24 main_v81 ((fun x v => Host.reduceAdd x v reducesTo_S64x16x32x512_S64_d1_2_3 h_S_) : (⟨S64x16x32x512, .f32⟩ : BufTy).Contents (Elt F) → (⟨S_, .f32⟩ : BufTy).Contents (Elt F) → (⟨S64, .f32⟩ : BufTy).Contents (Elt F)),
    unary main_v77 main_v82 ((extui 32 · natLt_1_32) : (⟨S64x1x32x512, .i1⟩ : BufTy).Contents (Elt F) → (⟨S64x1x32x512, .i32⟩ : BufTy).Contents (Elt F)),
    nullary main_c_25 (constantI S_ 32 0#32),
    binary main_v82 main_c_25 main_v83 ((fun x v => Host.reduce IntOp.addi x v reducesTo_S64x1x32x512_S64_d1_2_3 h_S_) : (⟨S64x1x32x512, .i32⟩ : BufTy).Contents (Elt F) → (⟨S_, .i32⟩ : BufTy).Contents (Elt F) → (⟨S64, .i32⟩ : BufTy).Contents (Elt F)),
    unary main_v83 main_v84 (sitofp .f32 : (⟨S64, .i32⟩ : BufTy).Contents (Elt F) → (⟨S64, .f32⟩ : BufTy).Contents (Elt F)),
    nullary main_cst_26 (constant S_ .f32 0x41800000#32),
    unary main_cst_26 main_v85 (broadcastInDim S64 ![] bcast_S_S64 : (⟨S_, .f32⟩ : BufTy).Contents (Elt F) → (⟨S64, .f32⟩ : BufTy).Contents (Elt F)),
    binary main_v85 main_v84 main_v86 (mulf : (⟨S64, .f32⟩ : BufTy).Contents (Elt F) → (⟨S64, .f32⟩ : BufTy).Contents (Elt F) → (⟨S64, .f32⟩ : BufTy).Contents (Elt F)),
    nullary main_cst_27 (constant S_ .f32 0x3A83126F#32),
    unary main_cst_27 main_v87 (broadcastInDim S64 ![] bcast_S_S64 : (⟨S_, .f32⟩ : BufTy).Contents (Elt F) → (⟨S64, .f32⟩ : BufTy).Contents (Elt F)),
    binary main_v86 main_v87 main_v88 (addf : (⟨S64, .f32⟩ : BufTy).Contents (Elt F) → (⟨S64, .f32⟩ : BufTy).Contents (Elt F) → (⟨S64, .f32⟩ : BufTy).Contents (Elt F)),
    binary main_v81 main_v88 main_v89 (Host.divf : (⟨S64, .f32⟩ : BufTy).Contents (Elt F) → (⟨S64, .f32⟩ : BufTy).Contents (Elt F) → (⟨S64, .f32⟩ : BufTy).Contents (Elt F)) ]

/-- Every buffer they touch is a TensorCore buffer. -/
theorem sub : (ops : List (HloOp τ sig (Elt F))).Forall fun op => op.bufs ⊆ tcRefs τ sig :=
  ⟨unary_bufs_sub .., unary_bufs_sub .., binary_bufs_sub .., unary_bufs_sub .., unary_bufs_sub .., binary_bufs_sub .., binary_bufs_sub .., binary_bufs_sub .., nullary_bufs_sub .., unary_bufs_sub .., unary_bufs_sub .., unary_bufs_sub .., ternary_bufs_sub .., binary_bufs_sub .., nullary_bufs_sub .., binary_bufs_sub .., unary_bufs_sub .., nullary_bufs_sub .., binary_bufs_sub .., unary_bufs_sub .., nullary_bufs_sub .., unary_bufs_sub .., binary_bufs_sub .., nullary_bufs_sub .., unary_bufs_sub .., binary_bufs_sub .., binary_bufs_sub ..⟩

/-- None of them allocates. -/
theorem fresh : ∀ op ∈ (ops : List (HloOp τ sig (Elt F))), op.fresh = ∅ := by
  intro _ h; (repeat (cases h with | head => rfl | tail _ h => ?_)); exact nomatch h

/-- The buffers they write. -/
abbrev W : List (Ref sig .tc) := [main_call15_v0, main_call15_v1, main_v75, main_call16_v0, main_call16_v1, main_v76, main_v77, main_v78, main_cst_23, main_call17_v0, main_call17_v1, main_call17_v2, main_v79, main_v80, main_cst_24, main_v81, main_v82, main_c_25, main_v83, main_v84, main_cst_26, main_v85, main_v86, main_cst_27, main_v87, main_v88, main_v89]

theorem writes : (ops : List (HloOp τ sig (Elt F))).Forall fun op =>
    op.writes ⊆ (W.map (Proc.devRef (τ := τ) .tc)).toFinset := by
  simp only [List.Forall]
  exact ⟨(by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide))⟩

/-- A buffer they do not write keeps its contents. -/
theorem keep (V : Valuation τ sig (Elt F)) (r : Ref sig .tc) (h : r ∉ W) :
    after ops V (Proc.devRef .tc r) = V (Proc.devRef .tc r) :=
  after_of_writes_sub ops V writes h

/-- The contents after these operations. -/
def aft (V : Valuation τ sig (Elt F)) : Valuation τ sig (Elt F) := after ops V

theorem aft_keep (V : Valuation τ sig (Elt F)) (r : Ref sig .tc) (h : r ∉ W) :
    aft V (no_index (Proc.devRef .tc r)) = V (Proc.devRef .tc r) :=
  keep V r h

/-- The distance the last operation leaves, as the one-shift function of the argument arrays' contents. -/
theorem aft_value (V : Valuation τ sig (Elt Ideal)) :
    aft (F := Ideal) V (no_index (Proc.devRef .tc main_v89))
      = Cert.ShiftLoss.RefMath.shiftDist 1 511 rfl (V (Proc.devRef .tc main_arg0)) (V (Proc.devRef .tc main_arg1))
          (V (Proc.devRef .tc main_arg3)) (V (Proc.devRef .tc main_arg4)) := by
  show after (ops (F := Ideal)) V (Proc.devRef .tc main_v89) = _
  after_results_simp <;> rfl

end Cert.ReferenceIdeal.RefRun.SA5

end
-- ==== Proof.Ref.P1.lean ====
/-
  Window 1 of the reference's @main (its statements 61 to 120) is the sequence of these chunks' operations: the calls
  unfold to their bodies' operations in place.
-/
import proofs.«122145_j70437463654548_2_alg».proof.Proof.Ref.Sh.SA3
import proofs.«122145_j70437463654548_2_alg».proof.Proof.Ref.Sh.SA4
import proofs.«122145_j70437463654548_2_alg».proof.Proof.Ref.Sh.SA5

noncomputable section

namespace Cert.ReferenceIdeal.RefRun.P1

open Cert.ReferenceIdeal Cert.ReferenceIdeal.Gen Idealize.ShloMosaic Idealize.ShloMosaic.TcCoe Idealize.SL.Sem Idealize.ShloMosaic.StableHlo
open Cert.ReferenceIdeal.RefRun

variable {F : FTy → Type} [FloatOps F]

/-- The window's operations. -/
def L : List (HloOp τ sig (Elt F)) := SA3.ops (F := F) ++ (SA4.ops (F := F) ++ (SA5.ops (F := F)))

set_option maxRecDepth 8192 in
set_option maxHeartbeats 4000000 in
theorem eq (d : Dev nD) : main_part1 (F := F) d = seq L := rfl

end Cert.ReferenceIdeal.RefRun.P1

end
-- ==== Proof.Ref.Sh.SA6.lean ====
/-
  Shift 6 (offset 2) of the first pair of the reference: the 27 host operations that compute its per-row distance,
  what they write, and the distance they leave in their last buffer as the one-shift function of the four argument arrays.
-/
import proofs.«122145_j70437463654548_2_alg».proof.Proof.Gen.ReferenceIdeal
import proofs.«122145_j70437463654548_2_alg».proof.Proof.Ref.Math
import Idealize.ShloMosaic.Lib.StableHlo.Run

noncomputable section

namespace Cert.ReferenceIdeal.RefRun.SA6

open Cert.ReferenceIdeal Cert.ReferenceIdeal.Gen Idealize.ShloMosaic Idealize.ShloMosaic.TcCoe Idealize.SL.Sem Idealize.ShloMosaic.StableHlo

variable {F : FTy → Type} [FloatOps F]

/-- The operations, in order. -/
abbrev ops : List (HloOp τ sig (Elt F)) :=
  [ TRef.unary (TRef.of (T := ⟨S64x16x32x512, .f32⟩) main_arg1) (TRef.of (T := ⟨S64x16x32x2, .f32⟩) main_call18_v0) (extractStridedSlice S64x16x32x2 ![0, 0, 0, 510] · slices_S64x16x32x512_S64x16x32x2_0_0_0_510),
    TRef.unary (TRef.of (T := ⟨S64x16x32x512, .f32⟩) main_arg1) (TRef.of (T := ⟨S64x16x32x510, .f32⟩) main_call18_v1) (extractStridedSlice S64x16x32x510 ![0, 0, 0, 0] · slices_S64x16x32x512_S64x16x32x510_0_0_0_0),
    TRef.binary (TRef.of (T := ⟨S64x16x32x2, .f32⟩) main_call18_v0) (TRef.of (T := ⟨S64x16x32x510, .f32⟩) main_call18_v1) (TRef.of (T := ⟨S64x16x32x512, .f32⟩) main_v90) (fun a b => concatenate S64x16x32x512 3 [⟨S64x16x32x2, a⟩, ⟨S64x16x32x510, b⟩] concatenates_S64x16x32x2_S64x16x32x510_S64x16x32x512_d3),
    TRef.unary (TRef.of (T := ⟨S64x1x32x512, .i1⟩) main_arg4) (TRef.of (T := ⟨S64x1x32x2, .i1⟩) main_call19_v0) (extractStridedSlice S64x1x32x2 ![0, 0, 0, 510] · slices_S64x1x32x512_S64x1x32x2_0_0_0_510),
    TRef.unary (TRef.of (T := ⟨S64x1x32x512, .i1⟩) main_arg4) (TRef.of (T := ⟨S64x1x32x510, .i1⟩) main_call19_v1) (extractStridedSlice S64x1x32x510 ![0, 0, 0, 0] · slices_S64x1x32x512_S64x1x32x510_0_0_0_0),
    TRef.binary (TRef.of (T := ⟨S64x1x32x2, .i1⟩) main_call19_v0) (TRef.of (T := ⟨S64x1x32x510, .i1⟩) main_call19_v1) (TRef.of (T := ⟨S64x1x32x512, .i1⟩) main_v91) (fun a b => concatenate S64x1x32x512 3 [⟨S64x1x32x2, a⟩, ⟨S64x1x32x510, b⟩] concatenates_S64x1x32x2_S64x1x32x510_S64x1x32x512_d3),
    binary main_arg3 main_v91 main_v92 (andi : (⟨S64x1x32x512, .i1⟩ : BufTy).Contents (Elt F) → (⟨S64x1x32x512, .i1⟩ : BufTy).Contents (Elt F) → (⟨S64x1x32x512, .i1⟩ : BufTy).Contents (Elt F)),
    binary main_arg0 main_v90 main_v93 (subf : (⟨S64x16x32x512, .f32⟩ : BufTy).Contents (Elt F) → (⟨S64x16x32x512, .f32⟩ : BufTy).Contents (Elt F) → (⟨S64x16x32x512, .f32⟩ : BufTy).Contents (Elt F)),
    nullary main_cst_28 (constant S_ .f32 0x00000000#32),
    TRef.unary (TRef.of (T := ⟨S_, .f32⟩) main_cst_28) (TRef.of (T := ⟨S_, .f32⟩) main_call20_v0) id,
    TRef.unary (TRef.of (T := ⟨S64x1x32x512, .i1⟩) main_v92) (TRef.of (T := ⟨S64x16x32x512, .i1⟩) main_call20_v1) (broadcastInDim S64x16x32x512 ![0, 1, 2, 3] bcast_S64x1x32x512_S64x16x32x512_0_1_2_3),
    TRef.unary (TRef.of (T := ⟨S_, .f32⟩) main_call20_v0) (TRef.of (T := ⟨S64x16x32x512, .f32⟩) main_call20_v2) (broadcastInDim S64x16x32x512 ![] bcast_S_S64x16x32x512),
    TRef.ternary (TRef.of (T := ⟨S64x16x32x512, .i1⟩) main_call20_v1) (TRef.of (T := ⟨S64x16x32x512, .f32⟩) main_v93) (TRef.of (T := ⟨S64x16x32x512, .f32⟩) main_call20_v2) (TRef.of (T := ⟨S64x16x32x512, .f32⟩) main_v94) select,
    binary main_v94 main_v94 main_v95 (mulf : (⟨S64x16x32x512, .f32⟩ : BufTy).Contents (Elt F) → (⟨S64x16x32x512, .f32⟩ : BufTy).Contents (Elt F) → (⟨S64x16x32x512, .f32⟩ : BufTy).Contents (Elt F)),
    nullary main_cst_29 (constant S_ .f32 0x00000000#32),
    binary main_v95 main_cst_29 main_v96 ((fun x v => Host.reduceAdd x v reducesTo_S64x16x32x512_S64_d1_2_3 h_S_) : (⟨S64x16x32x512, .f32⟩ : BufTy).Contents (Elt F) → (⟨S_, .f32⟩ : BufTy).Contents (Elt F) → (⟨S64, .f32⟩ : BufTy).Contents (Elt F)),
    unary main_v92 main_v97 ((extui 32 · natLt_1_32) : (⟨S64x1x32x512, .i1⟩ : BufTy).Contents (Elt F) → (⟨S64x1x32x512, .i32⟩ : BufTy).Contents (Elt F)),
    nullary main_c_30 (constantI S_ 32 0#32),
    binary main_v97 main_c_30 main_v98 ((fun x v => Host.reduce IntOp.addi x v reducesTo_S64x1x32x512_S64_d1_2_3 h_S_) : (⟨S64x1x32x512, .i32⟩ : BufTy).Contents (Elt F) → (⟨S_, .i32⟩ : BufTy).Contents (Elt F) → (⟨S64, .i32⟩ : BufTy).Contents (Elt F)),
    unary main_v98 main_v99 (sitofp .f32 : (⟨S64, .i32⟩ : BufTy).Contents (Elt F) → (⟨S64, .f32⟩ : BufTy).Contents (Elt F)),
    nullary main_cst_31 (constant S_ .f32 0x41800000#32),
    unary main_cst_31 main_v100 (broadcastInDim S64 ![] bcast_S_S64 : (⟨S_, .f32⟩ : BufTy).Contents (Elt F) → (⟨S64, .f32⟩ : BufTy).Contents (Elt F)),
    binary main_v100 main_v99 main_v101 (mulf : (⟨S64, .f32⟩ : BufTy).Contents (Elt F) → (⟨S64, .f32⟩ : BufTy).Contents (Elt F) → (⟨S64, .f32⟩ : BufTy).Contents (Elt F)),
    nullary main_cst_32 (constant S_ .f32 0x3A83126F#32),
    unary main_cst_32 main_v102 (broadcastInDim S64 ![] bcast_S_S64 : (⟨S_, .f32⟩ : BufTy).Contents (Elt F) → (⟨S64, .f32⟩ : BufTy).Contents (Elt F)),
    binary main_v101 main_v102 main_v103 (addf : (⟨S64, .f32⟩ : BufTy).Contents (Elt F) → (⟨S64, .f32⟩ : BufTy).Contents (Elt F) → (⟨S64, .f32⟩ : BufTy).Contents (Elt F)),
    binary main_v96 main_v103 main_v104 (Host.divf : (⟨S64, .f32⟩ : BufTy).Contents (Elt F) → (⟨S64, .f32⟩ : BufTy).Contents (Elt F) → (⟨S64, .f32⟩ : BufTy).Contents (Elt F)) ]

/-- Every buffer they touch is a TensorCore buffer. -/
theorem sub : (ops : List (HloOp τ sig (Elt F))).Forall fun op => op.bufs ⊆ tcRefs τ sig :=
  ⟨unary_bufs_sub .., unary_bufs_sub .., binary_bufs_sub .., unary_bufs_sub .., unary_bufs_sub .., binary_bufs_sub .., binary_bufs_sub .., binary_bufs_sub .., nullary_bufs_sub .., unary_bufs_sub .., unary_bufs_sub .., unary_bufs_sub .., ternary_bufs_sub .., binary_bufs_sub .., nullary_bufs_sub .., binary_bufs_sub .., unary_bufs_sub .., nullary_bufs_sub .., binary_bufs_sub .., unary_bufs_sub .., nullary_bufs_sub .., unary_bufs_sub .., binary_bufs_sub .., nullary_bufs_sub .., unary_bufs_sub .., binary_bufs_sub .., binary_bufs_sub ..⟩

/-- None of them allocates. -/
theorem fresh : ∀ op ∈ (ops : List (HloOp τ sig (Elt F))), op.fresh = ∅ := by
  intro _ h; (repeat (cases h with | head => rfl | tail _ h => ?_)); exact nomatch h

/-- The buffers they write. -/
abbrev W : List (Ref sig .tc) := [main_call18_v0, main_call18_v1, main_v90, main_call19_v0, main_call19_v1, main_v91, main_v92, main_v93, main_cst_28, main_call20_v0, main_call20_v1, main_call20_v2, main_v94, main_v95, main_cst_29, main_v96, main_v97, main_c_30, main_v98, main_v99, main_cst_31, main_v100, main_v101, main_cst_32, main_v102, main_v103, main_v104]

theorem writes : (ops : List (HloOp τ sig (Elt F))).Forall fun op =>
    op.writes ⊆ (W.map (Proc.devRef (τ := τ) .tc)).toFinset := by
  simp only [List.Forall]
  exact ⟨(by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide))⟩

/-- A buffer they do not write keeps its contents. -/
theorem keep (V : Valuation τ sig (Elt F)) (r : Ref sig .tc) (h : r ∉ W) :
    after ops V (Proc.devRef .tc r) = V (Proc.devRef .tc r) :=
  after_of_writes_sub ops V writes h

/-- The contents after these operations. -/
def aft (V : Valuation τ sig (Elt F)) : Valuation τ sig (Elt F) := after ops V

theorem aft_keep (V : Valuation τ sig (Elt F)) (r : Ref sig .tc) (h : r ∉ W) :
    aft V (no_index (Proc.devRef .tc r)) = V (Proc.devRef .tc r) :=
  keep V r h

/-- The distance the last operation leaves, as the one-shift function of the argument arrays' contents. -/
theorem aft_value (V : Valuation τ sig (Elt Ideal)) :
    aft (F := Ideal) V (no_index (Proc.devRef .tc main_v104))
      = Cert.ShiftLoss.RefMath.shiftDist 2 510 rfl (V (Proc.devRef .tc main_arg0)) (V (Proc.devRef .tc main_arg1))
          (V (Proc.devRef .tc main_arg3)) (V (Proc.devRef .tc main_arg4)) := by
  show after (ops (F := Ideal)) V (Proc.devRef .tc main_v104) = _
  after_results_simp <;> rfl

end Cert.ReferenceIdeal.RefRun.SA6

end
-- ==== Proof.Ref.Sh.SA7.lean ====
/-
  Shift 7 (offset 3) of the first pair of the reference: the 27 host operations that compute its per-row distance,
  what they write, and the distance they leave in their last buffer as the one-shift function of the four argument arrays.
-/
import proofs.«122145_j70437463654548_2_alg».proof.Proof.Gen.ReferenceIdeal
import proofs.«122145_j70437463654548_2_alg».proof.Proof.Ref.Math
import Idealize.ShloMosaic.Lib.StableHlo.Run

noncomputable section

namespace Cert.ReferenceIdeal.RefRun.SA7

open Cert.ReferenceIdeal Cert.ReferenceIdeal.Gen Idealize.ShloMosaic Idealize.ShloMosaic.TcCoe Idealize.SL.Sem Idealize.ShloMosaic.StableHlo

variable {F : FTy → Type} [FloatOps F]

/-- The operations, in order. -/
abbrev ops : List (HloOp τ sig (Elt F)) :=
  [ TRef.unary (TRef.of (T := ⟨S64x16x32x512, .f32⟩) main_arg1) (TRef.of (T := ⟨S64x16x32x3, .f32⟩) main_call21_v0) (extractStridedSlice S64x16x32x3 ![0, 0, 0, 509] · slices_S64x16x32x512_S64x16x32x3_0_0_0_509),
    TRef.unary (TRef.of (T := ⟨S64x16x32x512, .f32⟩) main_arg1) (TRef.of (T := ⟨S64x16x32x509, .f32⟩) main_call21_v1) (extractStridedSlice S64x16x32x509 ![0, 0, 0, 0] · slices_S64x16x32x512_S64x16x32x509_0_0_0_0),
    TRef.binary (TRef.of (T := ⟨S64x16x32x3, .f32⟩) main_call21_v0) (TRef.of (T := ⟨S64x16x32x509, .f32⟩) main_call21_v1) (TRef.of (T := ⟨S64x16x32x512, .f32⟩) main_v105) (fun a b => concatenate S64x16x32x512 3 [⟨S64x16x32x3, a⟩, ⟨S64x16x32x509, b⟩] concatenates_S64x16x32x3_S64x16x32x509_S64x16x32x512_d3),
    TRef.unary (TRef.of (T := ⟨S64x1x32x512, .i1⟩) main_arg4) (TRef.of (T := ⟨S64x1x32x3, .i1⟩) main_call22_v0) (extractStridedSlice S64x1x32x3 ![0, 0, 0, 509] · slices_S64x1x32x512_S64x1x32x3_0_0_0_509),
    TRef.unary (TRef.of (T := ⟨S64x1x32x512, .i1⟩) main_arg4) (TRef.of (T := ⟨S64x1x32x509, .i1⟩) main_call22_v1) (extractStridedSlice S64x1x32x509 ![0, 0, 0, 0] · slices_S64x1x32x512_S64x1x32x509_0_0_0_0),
    TRef.binary (TRef.of (T := ⟨S64x1x32x3, .i1⟩) main_call22_v0) (TRef.of (T := ⟨S64x1x32x509, .i1⟩) main_call22_v1) (TRef.of (T := ⟨S64x1x32x512, .i1⟩) main_v106) (fun a b => concatenate S64x1x32x512 3 [⟨S64x1x32x3, a⟩, ⟨S64x1x32x509, b⟩] concatenates_S64x1x32x3_S64x1x32x509_S64x1x32x512_d3),
    binary main_arg3 main_v106 main_v107 (andi : (⟨S64x1x32x512, .i1⟩ : BufTy).Contents (Elt F) → (⟨S64x1x32x512, .i1⟩ : BufTy).Contents (Elt F) → (⟨S64x1x32x512, .i1⟩ : BufTy).Contents (Elt F)),
    binary main_arg0 main_v105 main_v108 (subf : (⟨S64x16x32x512, .f32⟩ : BufTy).Contents (Elt F) → (⟨S64x16x32x512, .f32⟩ : BufTy).Contents (Elt F) → (⟨S64x16x32x512, .f32⟩ : BufTy).Contents (Elt F)),
    nullary main_cst_33 (constant S_ .f32 0x00000000#32),
    TRef.unary (TRef.of (T := ⟨S_, .f32⟩) main_cst_33) (TRef.of (T := ⟨S_, .f32⟩) main_call23_v0) id,
    TRef.unary (TRef.of (T := ⟨S64x1x32x512, .i1⟩) main_v107) (TRef.of (T := ⟨S64x16x32x512, .i1⟩) main_call23_v1) (broadcastInDim S64x16x32x512 ![0, 1, 2, 3] bcast_S64x1x32x512_S64x16x32x512_0_1_2_3),
    TRef.unary (TRef.of (T := ⟨S_, .f32⟩) main_call23_v0) (TRef.of (T := ⟨S64x16x32x512, .f32⟩) main_call23_v2) (broadcastInDim S64x16x32x512 ![] bcast_S_S64x16x32x512),
    TRef.ternary (TRef.of (T := ⟨S64x16x32x512, .i1⟩) main_call23_v1) (TRef.of (T := ⟨S64x16x32x512, .f32⟩) main_v108) (TRef.of (T := ⟨S64x16x32x512, .f32⟩) main_call23_v2) (TRef.of (T := ⟨S64x16x32x512, .f32⟩) main_v109) select,
    binary main_v109 main_v109 main_v110 (mulf : (⟨S64x16x32x512, .f32⟩ : BufTy).Contents (Elt F) → (⟨S64x16x32x512, .f32⟩ : BufTy).Contents (Elt F) → (⟨S64x16x32x512, .f32⟩ : BufTy).Contents (Elt F)),
    nullary main_cst_34 (constant S_ .f32 0x00000000#32),
    binary main_v110 main_cst_34 main_v111 ((fun x v => Host.reduceAdd x v reducesTo_S64x16x32x512_S64_d1_2_3 h_S_) : (⟨S64x16x32x512, .f32⟩ : BufTy).Contents (Elt F) → (⟨S_, .f32⟩ : BufTy).Contents (Elt F) → (⟨S64, .f32⟩ : BufTy).Contents (Elt F)),
    unary main_v107 main_v112 ((extui 32 · natLt_1_32) : (⟨S64x1x32x512, .i1⟩ : BufTy).Contents (Elt F) → (⟨S64x1x32x512, .i32⟩ : BufTy).Contents (Elt F)),
    nullary main_c_35 (constantI S_ 32 0#32),
    binary main_v112 main_c_35 main_v113 ((fun x v => Host.reduce IntOp.addi x v reducesTo_S64x1x32x512_S64_d1_2_3 h_S_) : (⟨S64x1x32x512, .i32⟩ : BufTy).Contents (Elt F) → (⟨S_, .i32⟩ : BufTy).Contents (Elt F) → (⟨S64, .i32⟩ : BufTy).Contents (Elt F)),
    unary main_v113 main_v114 (sitofp .f32 : (⟨S64, .i32⟩ : BufTy).Contents (Elt F) → (⟨S64, .f32⟩ : BufTy).Contents (Elt F)),
    nullary main_cst_36 (constant S_ .f32 0x41800000#32),
    unary main_cst_36 main_v115 (broadcastInDim S64 ![] bcast_S_S64 : (⟨S_, .f32⟩ : BufTy).Contents (Elt F) → (⟨S64, .f32⟩ : BufTy).Contents (Elt F)),
    binary main_v115 main_v114 main_v116 (mulf : (⟨S64, .f32⟩ : BufTy).Contents (Elt F) → (⟨S64, .f32⟩ : BufTy).Contents (Elt F) → (⟨S64, .f32⟩ : BufTy).Contents (Elt F)),
    nullary main_cst_37 (constant S_ .f32 0x3A83126F#32),
    unary main_cst_37 main_v117 (broadcastInDim S64 ![] bcast_S_S64 : (⟨S_, .f32⟩ : BufTy).Contents (Elt F) → (⟨S64, .f32⟩ : BufTy).Contents (Elt F)),
    binary main_v116 main_v117 main_v118 (addf : (⟨S64, .f32⟩ : BufTy).Contents (Elt F) → (⟨S64, .f32⟩ : BufTy).Contents (Elt F) → (⟨S64, .f32⟩ : BufTy).Contents (Elt F)),
    binary main_v111 main_v118 main_v119 (Host.divf : (⟨S64, .f32⟩ : BufTy).Contents (Elt F) → (⟨S64, .f32⟩ : BufTy).Contents (Elt F) → (⟨S64, .f32⟩ : BufTy).Contents (Elt F)) ]

/-- Every buffer they touch is a TensorCore buffer. -/
theorem sub : (ops : List (HloOp τ sig (Elt F))).Forall fun op => op.bufs ⊆ tcRefs τ sig :=
  ⟨unary_bufs_sub .., unary_bufs_sub .., binary_bufs_sub .., unary_bufs_sub .., unary_bufs_sub .., binary_bufs_sub .., binary_bufs_sub .., binary_bufs_sub .., nullary_bufs_sub .., unary_bufs_sub .., unary_bufs_sub .., unary_bufs_sub .., ternary_bufs_sub .., binary_bufs_sub .., nullary_bufs_sub .., binary_bufs_sub .., unary_bufs_sub .., nullary_bufs_sub .., binary_bufs_sub .., unary_bufs_sub .., nullary_bufs_sub .., unary_bufs_sub .., binary_bufs_sub .., nullary_bufs_sub .., unary_bufs_sub .., binary_bufs_sub .., binary_bufs_sub ..⟩

/-- None of them allocates. -/
theorem fresh : ∀ op ∈ (ops : List (HloOp τ sig (Elt F))), op.fresh = ∅ := by
  intro _ h; (repeat (cases h with | head => rfl | tail _ h => ?_)); exact nomatch h

/-- The buffers they write. -/
abbrev W : List (Ref sig .tc) := [main_call21_v0, main_call21_v1, main_v105, main_call22_v0, main_call22_v1, main_v106, main_v107, main_v108, main_cst_33, main_call23_v0, main_call23_v1, main_call23_v2, main_v109, main_v110, main_cst_34, main_v111, main_v112, main_c_35, main_v113, main_v114, main_cst_36, main_v115, main_v116, main_cst_37, main_v117, main_v118, main_v119]

theorem writes : (ops : List (HloOp τ sig (Elt F))).Forall fun op =>
    op.writes ⊆ (W.map (Proc.devRef (τ := τ) .tc)).toFinset := by
  simp only [List.Forall]
  exact ⟨(by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide))⟩

/-- A buffer they do not write keeps its contents. -/
theorem keep (V : Valuation τ sig (Elt F)) (r : Ref sig .tc) (h : r ∉ W) :
    after ops V (Proc.devRef .tc r) = V (Proc.devRef .tc r) :=
  after_of_writes_sub ops V writes h

/-- The contents after these operations. -/
def aft (V : Valuation τ sig (Elt F)) : Valuation τ sig (Elt F) := after ops V

theorem aft_keep (V : Valuation τ sig (Elt F)) (r : Ref sig .tc) (h : r ∉ W) :
    aft V (no_index (Proc.devRef .tc r)) = V (Proc.devRef .tc r) :=
  keep V r h

/-- The distance the last operation leaves, as the one-shift function of the argument arrays' contents. -/
theorem aft_value (V : Valuation τ sig (Elt Ideal)) :
    aft (F := Ideal) V (no_index (Proc.devRef .tc main_v119))
      = Cert.ShiftLoss.RefMath.shiftDist 3 509 rfl (V (Proc.devRef .tc main_arg0)) (V (Proc.devRef .tc main_arg1))
          (V (Proc.devRef .tc main_arg3)) (V (Proc.devRef .tc main_arg4)) := by
  show after (ops (F := Ideal)) V (Proc.devRef .tc main_v119) = _
  after_results_simp <;> rfl

end Cert.ReferenceIdeal.RefRun.SA7

end
-- ==== Proof.Ref.Sh.SA8.lean ====
/-
  Shift 8 (offset 4) of the first pair of the reference: the 27 host operations that compute its per-row distance,
  what they write, and the distance they leave in their last buffer as the one-shift function of the four argument arrays.
-/
import proofs.«122145_j70437463654548_2_alg».proof.Proof.Gen.ReferenceIdeal
import proofs.«122145_j70437463654548_2_alg».proof.Proof.Ref.Math
import Idealize.ShloMosaic.Lib.StableHlo.Run

noncomputable section

namespace Cert.ReferenceIdeal.RefRun.SA8

open Cert.ReferenceIdeal Cert.ReferenceIdeal.Gen Idealize.ShloMosaic Idealize.ShloMosaic.TcCoe Idealize.SL.Sem Idealize.ShloMosaic.StableHlo

variable {F : FTy → Type} [FloatOps F]

/-- The operations, in order. -/
abbrev ops : List (HloOp τ sig (Elt F)) :=
  [ TRef.unary (TRef.of (T := ⟨S64x16x32x512, .f32⟩) main_arg1) (TRef.of (T := ⟨S64x16x32x4, .f32⟩) main_call24_v0) (extractStridedSlice S64x16x32x4 ![0, 0, 0, 508] · slices_S64x16x32x512_S64x16x32x4_0_0_0_508),
    TRef.unary (TRef.of (T := ⟨S64x16x32x512, .f32⟩) main_arg1) (TRef.of (T := ⟨S64x16x32x508, .f32⟩) main_call24_v1) (extractStridedSlice S64x16x32x508 ![0, 0, 0, 0] · slices_S64x16x32x512_S64x16x32x508_0_0_0_0),
    TRef.binary (TRef.of (T := ⟨S64x16x32x4, .f32⟩) main_call24_v0) (TRef.of (T := ⟨S64x16x32x508, .f32⟩) main_call24_v1) (TRef.of (T := ⟨S64x16x32x512, .f32⟩) main_v120) (fun a b => concatenate S64x16x32x512 3 [⟨S64x16x32x4, a⟩, ⟨S64x16x32x508, b⟩] concatenates_S64x16x32x4_S64x16x32x508_S64x16x32x512_d3),
    TRef.unary (TRef.of (T := ⟨S64x1x32x512, .i1⟩) main_arg4) (TRef.of (T := ⟨S64x1x32x4, .i1⟩) main_call25_v0) (extractStridedSlice S64x1x32x4 ![0, 0, 0, 508] · slices_S64x1x32x512_S64x1x32x4_0_0_0_508),
    TRef.unary (TRef.of (T := ⟨S64x1x32x512, .i1⟩) main_arg4) (TRef.of (T := ⟨S64x1x32x508, .i1⟩) main_call25_v1) (extractStridedSlice S64x1x32x508 ![0, 0, 0, 0] · slices_S64x1x32x512_S64x1x32x508_0_0_0_0),
    TRef.binary (TRef.of (T := ⟨S64x1x32x4, .i1⟩) main_call25_v0) (TRef.of (T := ⟨S64x1x32x508, .i1⟩) main_call25_v1) (TRef.of (T := ⟨S64x1x32x512, .i1⟩) main_v121) (fun a b => concatenate S64x1x32x512 3 [⟨S64x1x32x4, a⟩, ⟨S64x1x32x508, b⟩] concatenates_S64x1x32x4_S64x1x32x508_S64x1x32x512_d3),
    binary main_arg3 main_v121 main_v122 (andi : (⟨S64x1x32x512, .i1⟩ : BufTy).Contents (Elt F) → (⟨S64x1x32x512, .i1⟩ : BufTy).Contents (Elt F) → (⟨S64x1x32x512, .i1⟩ : BufTy).Contents (Elt F)),
    binary main_arg0 main_v120 main_v123 (subf : (⟨S64x16x32x512, .f32⟩ : BufTy).Contents (Elt F) → (⟨S64x16x32x512, .f32⟩ : BufTy).Contents (Elt F) → (⟨S64x16x32x512, .f32⟩ : BufTy).Contents (Elt F)),
    nullary main_cst_38 (constant S_ .f32 0x00000000#32),
    TRef.unary (TRef.of (T := ⟨S_, .f32⟩) main_cst_38) (TRef.of (T := ⟨S_, .f32⟩) main_call26_v0) id,
    TRef.unary (TRef.of (T := ⟨S64x1x32x512, .i1⟩) main_v122) (TRef.of (T := ⟨S64x16x32x512, .i1⟩) main_call26_v1) (broadcastInDim S64x16x32x512 ![0, 1, 2, 3] bcast_S64x1x32x512_S64x16x32x512_0_1_2_3),
    TRef.unary (TRef.of (T := ⟨S_, .f32⟩) main_call26_v0) (TRef.of (T := ⟨S64x16x32x512, .f32⟩) main_call26_v2) (broadcastInDim S64x16x32x512 ![] bcast_S_S64x16x32x512),
    TRef.ternary (TRef.of (T := ⟨S64x16x32x512, .i1⟩) main_call26_v1) (TRef.of (T := ⟨S64x16x32x512, .f32⟩) main_v123) (TRef.of (T := ⟨S64x16x32x512, .f32⟩) main_call26_v2) (TRef.of (T := ⟨S64x16x32x512, .f32⟩) main_v124) select,
    binary main_v124 main_v124 main_v125 (mulf : (⟨S64x16x32x512, .f32⟩ : BufTy).Contents (Elt F) → (⟨S64x16x32x512, .f32⟩ : BufTy).Contents (Elt F) → (⟨S64x16x32x512, .f32⟩ : BufTy).Contents (Elt F)),
    nullary main_cst_39 (constant S_ .f32 0x00000000#32),
    binary main_v125 main_cst_39 main_v126 ((fun x v => Host.reduceAdd x v reducesTo_S64x16x32x512_S64_d1_2_3 h_S_) : (⟨S64x16x32x512, .f32⟩ : BufTy).Contents (Elt F) → (⟨S_, .f32⟩ : BufTy).Contents (Elt F) → (⟨S64, .f32⟩ : BufTy).Contents (Elt F)),
    unary main_v122 main_v127 ((extui 32 · natLt_1_32) : (⟨S64x1x32x512, .i1⟩ : BufTy).Contents (Elt F) → (⟨S64x1x32x512, .i32⟩ : BufTy).Contents (Elt F)),
    nullary main_c_40 (constantI S_ 32 0#32),
    binary main_v127 main_c_40 main_v128 ((fun x v => Host.reduce IntOp.addi x v reducesTo_S64x1x32x512_S64_d1_2_3 h_S_) : (⟨S64x1x32x512, .i32⟩ : BufTy).Contents (Elt F) → (⟨S_, .i32⟩ : BufTy).Contents (Elt F) → (⟨S64, .i32⟩ : BufTy).Contents (Elt F)),
    unary main_v128 main_v129 (sitofp .f32 : (⟨S64, .i32⟩ : BufTy).Contents (Elt F) → (⟨S64, .f32⟩ : BufTy).Contents (Elt F)),
    nullary main_cst_41 (constant S_ .f32 0x41800000#32),
    unary main_cst_41 main_v130 (broadcastInDim S64 ![] bcast_S_S64 : (⟨S_, .f32⟩ : BufTy).Contents (Elt F) → (⟨S64, .f32⟩ : BufTy).Contents (Elt F)),
    binary main_v130 main_v129 main_v131 (mulf : (⟨S64, .f32⟩ : BufTy).Contents (Elt F) → (⟨S64, .f32⟩ : BufTy).Contents (Elt F) → (⟨S64, .f32⟩ : BufTy).Contents (Elt F)),
    nullary main_cst_42 (constant S_ .f32 0x3A83126F#32),
    unary main_cst_42 main_v132 (broadcastInDim S64 ![] bcast_S_S64 : (⟨S_, .f32⟩ : BufTy).Contents (Elt F) → (⟨S64, .f32⟩ : BufTy).Contents (Elt F)),
    binary main_v131 main_v132 main_v133 (addf : (⟨S64, .f32⟩ : BufTy).Contents (Elt F) → (⟨S64, .f32⟩ : BufTy).Contents (Elt F) → (⟨S64, .f32⟩ : BufTy).Contents (Elt F)),
    binary main_v126 main_v133 main_v134 (Host.divf : (⟨S64, .f32⟩ : BufTy).Contents (Elt F) → (⟨S64, .f32⟩ : BufTy).Contents (Elt F) → (⟨S64, .f32⟩ : BufTy).Contents (Elt F)) ]

/-- Every buffer they touch is a TensorCore buffer. -/
theorem sub : (ops : List (HloOp τ sig (Elt F))).Forall fun op => op.bufs ⊆ tcRefs τ sig :=
  ⟨unary_bufs_sub .., unary_bufs_sub .., binary_bufs_sub .., unary_bufs_sub .., unary_bufs_sub .., binary_bufs_sub .., binary_bufs_sub .., binary_bufs_sub .., nullary_bufs_sub .., unary_bufs_sub .., unary_bufs_sub .., unary_bufs_sub .., ternary_bufs_sub .., binary_bufs_sub .., nullary_bufs_sub .., binary_bufs_sub .., unary_bufs_sub .., nullary_bufs_sub .., binary_bufs_sub .., unary_bufs_sub .., nullary_bufs_sub .., unary_bufs_sub .., binary_bufs_sub .., nullary_bufs_sub .., unary_bufs_sub .., binary_bufs_sub .., binary_bufs_sub ..⟩

/-- None of them allocates. -/
theorem fresh : ∀ op ∈ (ops : List (HloOp τ sig (Elt F))), op.fresh = ∅ := by
  intro _ h; (repeat (cases h with | head => rfl | tail _ h => ?_)); exact nomatch h

/-- The buffers they write. -/
abbrev W : List (Ref sig .tc) := [main_call24_v0, main_call24_v1, main_v120, main_call25_v0, main_call25_v1, main_v121, main_v122, main_v123, main_cst_38, main_call26_v0, main_call26_v1, main_call26_v2, main_v124, main_v125, main_cst_39, main_v126, main_v127, main_c_40, main_v128, main_v129, main_cst_41, main_v130, main_v131, main_cst_42, main_v132, main_v133, main_v134]

theorem writes : (ops : List (HloOp τ sig (Elt F))).Forall fun op =>
    op.writes ⊆ (W.map (Proc.devRef (τ := τ) .tc)).toFinset := by
  simp only [List.Forall]
  exact ⟨(by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide))⟩

/-- A buffer they do not write keeps its contents. -/
theorem keep (V : Valuation τ sig (Elt F)) (r : Ref sig .tc) (h : r ∉ W) :
    after ops V (Proc.devRef .tc r) = V (Proc.devRef .tc r) :=
  after_of_writes_sub ops V writes h

/-- The contents after these operations. -/
def aft (V : Valuation τ sig (Elt F)) : Valuation τ sig (Elt F) := after ops V

theorem aft_keep (V : Valuation τ sig (Elt F)) (r : Ref sig .tc) (h : r ∉ W) :
    aft V (no_index (Proc.devRef .tc r)) = V (Proc.devRef .tc r) :=
  keep V r h

/-- The distance the last operation leaves, as the one-shift function of the argument arrays' contents. -/
theorem aft_value (V : Valuation τ sig (Elt Ideal)) :
    aft (F := Ideal) V (no_index (Proc.devRef .tc main_v134))
      = Cert.ShiftLoss.RefMath.shiftDist 4 508 rfl (V (Proc.devRef .tc main_arg0)) (V (Proc.devRef .tc main_arg1))
          (V (Proc.devRef .tc main_arg3)) (V (Proc.devRef .tc main_arg4)) := by
  show after (ops (F := Ideal)) V (Proc.devRef .tc main_v134) = _
  after_results_simp <;> rfl

end Cert.ReferenceIdeal.RefRun.SA8

end
-- ==== Proof.Ref.P2.lean ====
/-
  Window 2 of the reference's @main (its statements 121 to 180) is the sequence of these chunks' operations: the calls
  unfold to their bodies' operations in place.
-/
import proofs.«122145_j70437463654548_2_alg».proof.Proof.Ref.Sh.SA6
import proofs.«122145_j70437463654548_2_alg».proof.Proof.Ref.Sh.SA7
import proofs.«122145_j70437463654548_2_alg».proof.Proof.Ref.Sh.SA8

noncomputable section

namespace Cert.ReferenceIdeal.RefRun.P2

open Cert.ReferenceIdeal Cert.ReferenceIdeal.Gen Idealize.ShloMosaic Idealize.ShloMosaic.TcCoe Idealize.SL.Sem Idealize.ShloMosaic.StableHlo
open Cert.ReferenceIdeal.RefRun

variable {F : FTy → Type} [FloatOps F]

/-- The window's operations. -/
def L : List (HloOp τ sig (Elt F)) := SA6.ops (F := F) ++ (SA7.ops (F := F) ++ (SA8.ops (F := F)))

set_option maxRecDepth 8192 in
set_option maxHeartbeats 4000000 in
theorem eq (d : Dev nD) : main_part2 (F := F) d = seq L := rfl

end Cert.ReferenceIdeal.RefRun.P2

end
-- ==== Proof.Ref.Sh.MA.lean ====
/-
  The least distance over the nine shifts of the first pair: the 12 host operations that stack the nine per-row
  distances and min-reduce the stack, what they write, and the vector they leave.
-/
import proofs.«122145_j70437463654548_2_alg».proof.Proof.Gen.ReferenceIdeal
import proofs.«122145_j70437463654548_2_alg».proof.Proof.Ref.Math
import Idealize.ShloMosaic.Lib.StableHlo.Run

noncomputable section

namespace Cert.ReferenceIdeal.RefRun.MA

open Cert.ReferenceIdeal Cert.ReferenceIdeal.Gen Idealize.ShloMosaic Idealize.ShloMosaic.TcCoe Idealize.SL.Sem Idealize.ShloMosaic.StableHlo

variable {F : FTy → Type} [FloatOps F]

/-- The operations, in order. -/
abbrev ops : List (HloOp τ sig (Elt F)) :=
  [ unary main_v14 main_v135 (broadcastInDim S1x64 ![1] bcast_S64_S1x64_1 : (⟨S64, .f32⟩ : BufTy).Contents (Elt F) → (⟨S1x64, .f32⟩ : BufTy).Contents (Elt F)),
    unary main_v29 main_v136 (broadcastInDim S1x64 ![1] bcast_S64_S1x64_1 : (⟨S64, .f32⟩ : BufTy).Contents (Elt F) → (⟨S1x64, .f32⟩ : BufTy).Contents (Elt F)),
    unary main_v44 main_v137 (broadcastInDim S1x64 ![1] bcast_S64_S1x64_1 : (⟨S64, .f32⟩ : BufTy).Contents (Elt F) → (⟨S1x64, .f32⟩ : BufTy).Contents (Elt F)),
    unary main_v59 main_v138 (broadcastInDim S1x64 ![1] bcast_S64_S1x64_1 : (⟨S64, .f32⟩ : BufTy).Contents (Elt F) → (⟨S1x64, .f32⟩ : BufTy).Contents (Elt F)),
    unary main_v74 main_v139 (broadcastInDim S1x64 ![1] bcast_S64_S1x64_1 : (⟨S64, .f32⟩ : BufTy).Contents (Elt F) → (⟨S1x64, .f32⟩ : BufTy).Contents (Elt F)),
    unary main_v89 main_v140 (broadcastInDim S1x64 ![1] bcast_S64_S1x64_1 : (⟨S64, .f32⟩ : BufTy).Contents (Elt F) → (⟨S1x64, .f32⟩ : BufTy).Contents (Elt F)),
    unary main_v104 main_v141 (broadcastInDim S1x64 ![1] bcast_S64_S1x64_1 : (⟨S64, .f32⟩ : BufTy).Contents (Elt F) → (⟨S1x64, .f32⟩ : BufTy).Contents (Elt F)),
    unary main_v119 main_v142 (broadcastInDim S1x64 ![1] bcast_S64_S1x64_1 : (⟨S64, .f32⟩ : BufTy).Contents (Elt F) → (⟨S1x64, .f32⟩ : BufTy).Contents (Elt F)),
    unary main_v134 main_v143 (broadcastInDim S1x64 ![1] bcast_S64_S1x64_1 : (⟨S64, .f32⟩ : BufTy).Contents (Elt F) → (⟨S1x64, .f32⟩ : BufTy).Contents (Elt F)),
    nary ![main_v135, main_v136, main_v137, main_v138, main_v139, main_v140, main_v141, main_v142, main_v143] main_v144 (fun u => concatenate S9x64 0 [⟨S1x64, u 0⟩, ⟨S1x64, u 1⟩, ⟨S1x64, u 2⟩, ⟨S1x64, u 3⟩, ⟨S1x64, u 4⟩, ⟨S1x64, u 5⟩, ⟨S1x64, u 6⟩, ⟨S1x64, u 7⟩, ⟨S1x64, u 8⟩] concatenates_S1x64_S1x64_S1x64_S1x64_S1x64_S1x64_S1x64_S1x64_S1x64_S9x64_d0),
    nullary main_cst_43 (constant S_ .f32 0x7F800000#32),
    binary main_v144 main_cst_43 main_v145 ((fun x v => Host.reduce FloatOps.minimumf x v reducesTo_S9x64_S64_d0 h_S_) : (⟨S9x64, .f32⟩ : BufTy).Contents (Elt F) → (⟨S_, .f32⟩ : BufTy).Contents (Elt F) → (⟨S64, .f32⟩ : BufTy).Contents (Elt F)) ]

/-- Every buffer they touch is a TensorCore buffer. -/
theorem sub : (ops : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., nary_bufs_sub .., nullary_bufs_sub .., binary_bufs_sub ..⟩

/-- None of them allocates. -/
theorem fresh : ∀ op ∈ (ops : List (HloOp τ sig (Elt F))), op.fresh = ∅ := by
  intro _ h; (repeat (cases h with | head => rfl | tail _ h => ?_)); exact nomatch h

/-- The buffers they write. -/
abbrev W : List (Ref sig .tc) := [main_v135, main_v136, main_v137, main_v138, main_v139, main_v140, main_v141, main_v142, main_v143, main_v144, main_cst_43, main_v145]

theorem writes : (ops : List (HloOp τ sig (Elt F))).Forall fun op =>
    op.writes ⊆ (W.map (Proc.devRef (τ := τ) .tc)).toFinset := by
  simp only [List.Forall]
  exact ⟨(by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide))⟩

/-- A buffer they do not write keeps its contents. -/
theorem keep (V : Valuation τ sig (Elt F)) (r : Ref sig .tc) (h : r ∉ W) :
    after ops V (Proc.devRef .tc r) = V (Proc.devRef .tc r) :=
  after_of_writes_sub ops V writes h

/-- The contents after these operations. -/
def aft (V : Valuation τ sig (Elt F)) : Valuation τ sig (Elt F) := after ops V

theorem aft_keep (V : Valuation τ sig (Elt F)) (r : Ref sig .tc) (h : r ∉ W) :
    aft V (no_index (Proc.devRef .tc r)) = V (Proc.devRef .tc r) :=
  keep V r h

/-- The per-row minimum the last operation leaves, from the nine distances' buffers. -/
theorem aft_value (V : Valuation τ sig (Elt Ideal)) :
    aft (F := Ideal) V (no_index (Proc.devRef .tc main_v145))
      = Cert.ShiftLoss.RefMath.minNine (V (Proc.devRef .tc main_v14)) (V (Proc.devRef .tc main_v29)) (V (Proc.devRef .tc main_v44)) (V (Proc.devRef .tc main_v59)) (V (Proc.devRef .tc main_v74)) (V (Proc.devRef .tc main_v89)) (V (Proc.devRef .tc main_v104)) (V (Proc.devRef .tc main_v119)) (V (Proc.devRef .tc main_v134)) := by
  show after (ops (F := Ideal)) V (Proc.devRef .tc main_v145) = _
  after_results_simp <;> rfl

end Cert.ReferenceIdeal.RefRun.MA

end
-- ==== Proof.Ref.Sh.SB0.lean ====
/-
  Shift 0 (offset -4) of the second pair of the reference: the 27 host operations that compute its per-row distance,
  what they write, and the distance they leave in their last buffer as the one-shift function of the four argument arrays.
-/
import proofs.«122145_j70437463654548_2_alg».proof.Proof.Gen.ReferenceIdeal
import proofs.«122145_j70437463654548_2_alg».proof.Proof.Ref.Math
import Idealize.ShloMosaic.Lib.StableHlo.Run

noncomputable section

namespace Cert.ReferenceIdeal.RefRun.SB0

open Cert.ReferenceIdeal Cert.ReferenceIdeal.Gen Idealize.ShloMosaic Idealize.ShloMosaic.TcCoe Idealize.SL.Sem Idealize.ShloMosaic.StableHlo

variable {F : FTy → Type} [FloatOps F]

/-- The operations, in order. -/
abbrev ops : List (HloOp τ sig (Elt F)) :=
  [ TRef.unary (TRef.of (T := ⟨S64x16x32x512, .f32⟩) main_arg2) (TRef.of (T := ⟨S64x16x32x508, .f32⟩) main_call27_v0) (extractStridedSlice S64x16x32x508 ![0, 0, 0, 4] · slices_S64x16x32x512_S64x16x32x508_0_0_0_4),
    TRef.unary (TRef.of (T := ⟨S64x16x32x512, .f32⟩) main_arg2) (TRef.of (T := ⟨S64x16x32x4, .f32⟩) main_call27_v1) (extractStridedSlice S64x16x32x4 ![0, 0, 0, 0] · slices_S64x16x32x512_S64x16x32x4_0_0_0_0),
    TRef.binary (TRef.of (T := ⟨S64x16x32x508, .f32⟩) main_call27_v0) (TRef.of (T := ⟨S64x16x32x4, .f32⟩) main_call27_v1) (TRef.of (T := ⟨S64x16x32x512, .f32⟩) main_v146) (fun a b => concatenate S64x16x32x512 3 [⟨S64x16x32x508, a⟩, ⟨S64x16x32x4, b⟩] concatenates_S64x16x32x508_S64x16x32x4_S64x16x32x512_d3),
    TRef.unary (TRef.of (T := ⟨S64x1x32x512, .i1⟩) main_arg5) (TRef.of (T := ⟨S64x1x32x508, .i1⟩) main_call28_v0) (extractStridedSlice S64x1x32x508 ![0, 0, 0, 4] · slices_S64x1x32x512_S64x1x32x508_0_0_0_4),
    TRef.unary (TRef.of (T := ⟨S64x1x32x512, .i1⟩) main_arg5) (TRef.of (T := ⟨S64x1x32x4, .i1⟩) main_call28_v1) (extractStridedSlice S64x1x32x4 ![0, 0, 0, 0] · slices_S64x1x32x512_S64x1x32x4_0_0_0_0),
    TRef.binary (TRef.of (T := ⟨S64x1x32x508, .i1⟩) main_call28_v0) (TRef.of (T := ⟨S64x1x32x4, .i1⟩) main_call28_v1) (TRef.of (T := ⟨S64x1x32x512, .i1⟩) main_v147) (fun a b => concatenate S64x1x32x512 3 [⟨S64x1x32x508, a⟩, ⟨S64x1x32x4, b⟩] concatenates_S64x1x32x508_S64x1x32x4_S64x1x32x512_d3),
    binary main_arg3 main_v147 main_v148 (andi : (⟨S64x1x32x512, .i1⟩ : BufTy).Contents (Elt F) → (⟨S64x1x32x512, .i1⟩ : BufTy).Contents (Elt F) → (⟨S64x1x32x512, .i1⟩ : BufTy).Contents (Elt F)),
    binary main_arg0 main_v146 main_v149 (subf : (⟨S64x16x32x512, .f32⟩ : BufTy).Contents (Elt F) → (⟨S64x16x32x512, .f32⟩ : BufTy).Contents (Elt F) → (⟨S64x16x32x512, .f32⟩ : BufTy).Contents (Elt F)),
    nullary main_cst_44 (constant S_ .f32 0x00000000#32),
    TRef.unary (TRef.of (T := ⟨S_, .f32⟩) main_cst_44) (TRef.of (T := ⟨S_, .f32⟩) main_call29_v0) id,
    TRef.unary (TRef.of (T := ⟨S64x1x32x512, .i1⟩) main_v148) (TRef.of (T := ⟨S64x16x32x512, .i1⟩) main_call29_v1) (broadcastInDim S64x16x32x512 ![0, 1, 2, 3] bcast_S64x1x32x512_S64x16x32x512_0_1_2_3),
    TRef.unary (TRef.of (T := ⟨S_, .f32⟩) main_call29_v0) (TRef.of (T := ⟨S64x16x32x512, .f32⟩) main_call29_v2) (broadcastInDim S64x16x32x512 ![] bcast_S_S64x16x32x512),
    TRef.ternary (TRef.of (T := ⟨S64x16x32x512, .i1⟩) main_call29_v1) (TRef.of (T := ⟨S64x16x32x512, .f32⟩) main_v149) (TRef.of (T := ⟨S64x16x32x512, .f32⟩) main_call29_v2) (TRef.of (T := ⟨S64x16x32x512, .f32⟩) main_v150) select,
    binary main_v150 main_v150 main_v151 (mulf : (⟨S64x16x32x512, .f32⟩ : BufTy).Contents (Elt F) → (⟨S64x16x32x512, .f32⟩ : BufTy).Contents (Elt F) → (⟨S64x16x32x512, .f32⟩ : BufTy).Contents (Elt F)),
    nullary main_cst_45 (constant S_ .f32 0x00000000#32),
    binary main_v151 main_cst_45 main_v152 ((fun x v => Host.reduceAdd x v reducesTo_S64x16x32x512_S64_d1_2_3 h_S_) : (⟨S64x16x32x512, .f32⟩ : BufTy).Contents (Elt F) → (⟨S_, .f32⟩ : BufTy).Contents (Elt F) → (⟨S64, .f32⟩ : BufTy).Contents (Elt F)),
    unary main_v148 main_v153 ((extui 32 · natLt_1_32) : (⟨S64x1x32x512, .i1⟩ : BufTy).Contents (Elt F) → (⟨S64x1x32x512, .i32⟩ : BufTy).Contents (Elt F)),
    nullary main_c_46 (constantI S_ 32 0#32),
    binary main_v153 main_c_46 main_v154 ((fun x v => Host.reduce IntOp.addi x v reducesTo_S64x1x32x512_S64_d1_2_3 h_S_) : (⟨S64x1x32x512, .i32⟩ : BufTy).Contents (Elt F) → (⟨S_, .i32⟩ : BufTy).Contents (Elt F) → (⟨S64, .i32⟩ : BufTy).Contents (Elt F)),
    unary main_v154 main_v155 (sitofp .f32 : (⟨S64, .i32⟩ : BufTy).Contents (Elt F) → (⟨S64, .f32⟩ : BufTy).Contents (Elt F)),
    nullary main_cst_47 (constant S_ .f32 0x41800000#32),
    unary main_cst_47 main_v156 (broadcastInDim S64 ![] bcast_S_S64 : (⟨S_, .f32⟩ : BufTy).Contents (Elt F) → (⟨S64, .f32⟩ : BufTy).Contents (Elt F)),
    binary main_v156 main_v155 main_v157 (mulf : (⟨S64, .f32⟩ : BufTy).Contents (Elt F) → (⟨S64, .f32⟩ : BufTy).Contents (Elt F) → (⟨S64, .f32⟩ : BufTy).Contents (Elt F)),
    nullary main_cst_48 (constant S_ .f32 0x3A83126F#32),
    unary main_cst_48 main_v158 (broadcastInDim S64 ![] bcast_S_S64 : (⟨S_, .f32⟩ : BufTy).Contents (Elt F) → (⟨S64, .f32⟩ : BufTy).Contents (Elt F)),
    binary main_v157 main_v158 main_v159 (addf : (⟨S64, .f32⟩ : BufTy).Contents (Elt F) → (⟨S64, .f32⟩ : BufTy).Contents (Elt F) → (⟨S64, .f32⟩ : BufTy).Contents (Elt F)),
    binary main_v152 main_v159 main_v160 (Host.divf : (⟨S64, .f32⟩ : BufTy).Contents (Elt F) → (⟨S64, .f32⟩ : BufTy).Contents (Elt F) → (⟨S64, .f32⟩ : BufTy).Contents (Elt F)) ]

/-- Every buffer they touch is a TensorCore buffer. -/
theorem sub : (ops : List (HloOp τ sig (Elt F))).Forall fun op => op.bufs ⊆ tcRefs τ sig :=
  ⟨unary_bufs_sub .., unary_bufs_sub .., binary_bufs_sub .., unary_bufs_sub .., unary_bufs_sub .., binary_bufs_sub .., binary_bufs_sub .., binary_bufs_sub .., nullary_bufs_sub .., unary_bufs_sub .., unary_bufs_sub .., unary_bufs_sub .., ternary_bufs_sub .., binary_bufs_sub .., nullary_bufs_sub .., binary_bufs_sub .., unary_bufs_sub .., nullary_bufs_sub .., binary_bufs_sub .., unary_bufs_sub .., nullary_bufs_sub .., unary_bufs_sub .., binary_bufs_sub .., nullary_bufs_sub .., unary_bufs_sub .., binary_bufs_sub .., binary_bufs_sub ..⟩

/-- None of them allocates. -/
theorem fresh : ∀ op ∈ (ops : List (HloOp τ sig (Elt F))), op.fresh = ∅ := by
  intro _ h; (repeat (cases h with | head => rfl | tail _ h => ?_)); exact nomatch h

/-- The buffers they write. -/
abbrev W : List (Ref sig .tc) := [main_call27_v0, main_call27_v1, main_v146, main_call28_v0, main_call28_v1, main_v147, main_v148, main_v149, main_cst_44, main_call29_v0, main_call29_v1, main_call29_v2, main_v150, main_v151, main_cst_45, main_v152, main_v153, main_c_46, main_v154, main_v155, main_cst_47, main_v156, main_v157, main_cst_48, main_v158, main_v159, main_v160]

theorem writes : (ops : List (HloOp τ sig (Elt F))).Forall fun op =>
    op.writes ⊆ (W.map (Proc.devRef (τ := τ) .tc)).toFinset := by
  simp only [List.Forall]
  exact ⟨(by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide))⟩

/-- A buffer they do not write keeps its contents. -/
theorem keep (V : Valuation τ sig (Elt F)) (r : Ref sig .tc) (h : r ∉ W) :
    after ops V (Proc.devRef .tc r) = V (Proc.devRef .tc r) :=
  after_of_writes_sub ops V writes h

/-- The contents after these operations. -/
def aft (V : Valuation τ sig (Elt F)) : Valuation τ sig (Elt F) := after ops V

theorem aft_keep (V : Valuation τ sig (Elt F)) (r : Ref sig .tc) (h : r ∉ W) :
    aft V (no_index (Proc.devRef .tc r)) = V (Proc.devRef .tc r) :=
  keep V r h

/-- The distance the last operation leaves, as the one-shift function of the argument arrays' contents. -/
theorem aft_value (V : Valuation τ sig (Elt Ideal)) :
    aft (F := Ideal) V (no_index (Proc.devRef .tc main_v160))
      = Cert.ShiftLoss.RefMath.shiftDist 508 4 rfl (V (Proc.devRef .tc main_arg0)) (V (Proc.devRef .tc main_arg2))
          (V (Proc.devRef .tc main_arg3)) (V (Proc.devRef .tc main_arg5)) := by
  show after (ops (F := Ideal)) V (Proc.devRef .tc main_v160) = _
  after_results_simp <;> rfl

end Cert.ReferenceIdeal.RefRun.SB0

end
-- ==== Proof.Ref.Sh.SB1.lean ====
/-
  Shift 1 (offset -3) of the second pair of the reference: the 27 host operations that compute its per-row distance,
  what they write, and the distance they leave in their last buffer as the one-shift function of the four argument arrays.
-/
import proofs.«122145_j70437463654548_2_alg».proof.Proof.Gen.ReferenceIdeal
import proofs.«122145_j70437463654548_2_alg».proof.Proof.Ref.Math
import Idealize.ShloMosaic.Lib.StableHlo.Run

noncomputable section

namespace Cert.ReferenceIdeal.RefRun.SB1

open Cert.ReferenceIdeal Cert.ReferenceIdeal.Gen Idealize.ShloMosaic Idealize.ShloMosaic.TcCoe Idealize.SL.Sem Idealize.ShloMosaic.StableHlo

variable {F : FTy → Type} [FloatOps F]

/-- The operations, in order. -/
abbrev ops : List (HloOp τ sig (Elt F)) :=
  [ TRef.unary (TRef.of (T := ⟨S64x16x32x512, .f32⟩) main_arg2) (TRef.of (T := ⟨S64x16x32x509, .f32⟩) main_call30_v0) (extractStridedSlice S64x16x32x509 ![0, 0, 0, 3] · slices_S64x16x32x512_S64x16x32x509_0_0_0_3),
    TRef.unary (TRef.of (T := ⟨S64x16x32x512, .f32⟩) main_arg2) (TRef.of (T := ⟨S64x16x32x3, .f32⟩) main_call30_v1) (extractStridedSlice S64x16x32x3 ![0, 0, 0, 0] · slices_S64x16x32x512_S64x16x32x3_0_0_0_0),
    TRef.binary (TRef.of (T := ⟨S64x16x32x509, .f32⟩) main_call30_v0) (TRef.of (T := ⟨S64x16x32x3, .f32⟩) main_call30_v1) (TRef.of (T := ⟨S64x16x32x512, .f32⟩) main_v161) (fun a b => concatenate S64x16x32x512 3 [⟨S64x16x32x509, a⟩, ⟨S64x16x32x3, b⟩] concatenates_S64x16x32x509_S64x16x32x3_S64x16x32x512_d3),
    TRef.unary (TRef.of (T := ⟨S64x1x32x512, .i1⟩) main_arg5) (TRef.of (T := ⟨S64x1x32x509, .i1⟩) main_call31_v0) (extractStridedSlice S64x1x32x509 ![0, 0, 0, 3] · slices_S64x1x32x512_S64x1x32x509_0_0_0_3),
    TRef.unary (TRef.of (T := ⟨S64x1x32x512, .i1⟩) main_arg5) (TRef.of (T := ⟨S64x1x32x3, .i1⟩) main_call31_v1) (extractStridedSlice S64x1x32x3 ![0, 0, 0, 0] · slices_S64x1x32x512_S64x1x32x3_0_0_0_0),
    TRef.binary (TRef.of (T := ⟨S64x1x32x509, .i1⟩) main_call31_v0) (TRef.of (T := ⟨S64x1x32x3, .i1⟩) main_call31_v1) (TRef.of (T := ⟨S64x1x32x512, .i1⟩) main_v162) (fun a b => concatenate S64x1x32x512 3 [⟨S64x1x32x509, a⟩, ⟨S64x1x32x3, b⟩] concatenates_S64x1x32x509_S64x1x32x3_S64x1x32x512_d3),
    binary main_arg3 main_v162 main_v163 (andi : (⟨S64x1x32x512, .i1⟩ : BufTy).Contents (Elt F) → (⟨S64x1x32x512, .i1⟩ : BufTy).Contents (Elt F) → (⟨S64x1x32x512, .i1⟩ : BufTy).Contents (Elt F)),
    binary main_arg0 main_v161 main_v164 (subf : (⟨S64x16x32x512, .f32⟩ : BufTy).Contents (Elt F) → (⟨S64x16x32x512, .f32⟩ : BufTy).Contents (Elt F) → (⟨S64x16x32x512, .f32⟩ : BufTy).Contents (Elt F)),
    nullary main_cst_49 (constant S_ .f32 0x00000000#32),
    TRef.unary (TRef.of (T := ⟨S_, .f32⟩) main_cst_49) (TRef.of (T := ⟨S_, .f32⟩) main_call32_v0) id,
    TRef.unary (TRef.of (T := ⟨S64x1x32x512, .i1⟩) main_v163) (TRef.of (T := ⟨S64x16x32x512, .i1⟩) main_call32_v1) (broadcastInDim S64x16x32x512 ![0, 1, 2, 3] bcast_S64x1x32x512_S64x16x32x512_0_1_2_3),
    TRef.unary (TRef.of (T := ⟨S_, .f32⟩) main_call32_v0) (TRef.of (T := ⟨S64x16x32x512, .f32⟩) main_call32_v2) (broadcastInDim S64x16x32x512 ![] bcast_S_S64x16x32x512),
    TRef.ternary (TRef.of (T := ⟨S64x16x32x512, .i1⟩) main_call32_v1) (TRef.of (T := ⟨S64x16x32x512, .f32⟩) main_v164) (TRef.of (T := ⟨S64x16x32x512, .f32⟩) main_call32_v2) (TRef.of (T := ⟨S64x16x32x512, .f32⟩) main_v165) select,
    binary main_v165 main_v165 main_v166 (mulf : (⟨S64x16x32x512, .f32⟩ : BufTy).Contents (Elt F) → (⟨S64x16x32x512, .f32⟩ : BufTy).Contents (Elt F) → (⟨S64x16x32x512, .f32⟩ : BufTy).Contents (Elt F)),
    nullary main_cst_50 (constant S_ .f32 0x00000000#32),
    binary main_v166 main_cst_50 main_v167 ((fun x v => Host.reduceAdd x v reducesTo_S64x16x32x512_S64_d1_2_3 h_S_) : (⟨S64x16x32x512, .f32⟩ : BufTy).Contents (Elt F) → (⟨S_, .f32⟩ : BufTy).Contents (Elt F) → (⟨S64, .f32⟩ : BufTy).Contents (Elt F)),
    unary main_v163 main_v168 ((extui 32 · natLt_1_32) : (⟨S64x1x32x512, .i1⟩ : BufTy).Contents (Elt F) → (⟨S64x1x32x512, .i32⟩ : BufTy).Contents (Elt F)),
    nullary main_c_51 (constantI S_ 32 0#32),
    binary main_v168 main_c_51 main_v169 ((fun x v => Host.reduce IntOp.addi x v reducesTo_S64x1x32x512_S64_d1_2_3 h_S_) : (⟨S64x1x32x512, .i32⟩ : BufTy).Contents (Elt F) → (⟨S_, .i32⟩ : BufTy).Contents (Elt F) → (⟨S64, .i32⟩ : BufTy).Contents (Elt F)),
    unary main_v169 main_v170 (sitofp .f32 : (⟨S64, .i32⟩ : BufTy).Contents (Elt F) → (⟨S64, .f32⟩ : BufTy).Contents (Elt F)),
    nullary main_cst_52 (constant S_ .f32 0x41800000#32),
    unary main_cst_52 main_v171 (broadcastInDim S64 ![] bcast_S_S64 : (⟨S_, .f32⟩ : BufTy).Contents (Elt F) → (⟨S64, .f32⟩ : BufTy).Contents (Elt F)),
    binary main_v171 main_v170 main_v172 (mulf : (⟨S64, .f32⟩ : BufTy).Contents (Elt F) → (⟨S64, .f32⟩ : BufTy).Contents (Elt F) → (⟨S64, .f32⟩ : BufTy).Contents (Elt F)),
    nullary main_cst_53 (constant S_ .f32 0x3A83126F#32),
    unary main_cst_53 main_v173 (broadcastInDim S64 ![] bcast_S_S64 : (⟨S_, .f32⟩ : BufTy).Contents (Elt F) → (⟨S64, .f32⟩ : BufTy).Contents (Elt F)),
    binary main_v172 main_v173 main_v174 (addf : (⟨S64, .f32⟩ : BufTy).Contents (Elt F) → (⟨S64, .f32⟩ : BufTy).Contents (Elt F) → (⟨S64, .f32⟩ : BufTy).Contents (Elt F)),
    binary main_v167 main_v174 main_v175 (Host.divf : (⟨S64, .f32⟩ : BufTy).Contents (Elt F) → (⟨S64, .f32⟩ : BufTy).Contents (Elt F) → (⟨S64, .f32⟩ : BufTy).Contents (Elt F)) ]

/-- Every buffer they touch is a TensorCore buffer. -/
theorem sub : (ops : List (HloOp τ sig (Elt F))).Forall fun op => op.bufs ⊆ tcRefs τ sig :=
  ⟨unary_bufs_sub .., unary_bufs_sub .., binary_bufs_sub .., unary_bufs_sub .., unary_bufs_sub .., binary_bufs_sub .., binary_bufs_sub .., binary_bufs_sub .., nullary_bufs_sub .., unary_bufs_sub .., unary_bufs_sub .., unary_bufs_sub .., ternary_bufs_sub .., binary_bufs_sub .., nullary_bufs_sub .., binary_bufs_sub .., unary_bufs_sub .., nullary_bufs_sub .., binary_bufs_sub .., unary_bufs_sub .., nullary_bufs_sub .., unary_bufs_sub .., binary_bufs_sub .., nullary_bufs_sub .., unary_bufs_sub .., binary_bufs_sub .., binary_bufs_sub ..⟩

/-- None of them allocates. -/
theorem fresh : ∀ op ∈ (ops : List (HloOp τ sig (Elt F))), op.fresh = ∅ := by
  intro _ h; (repeat (cases h with | head => rfl | tail _ h => ?_)); exact nomatch h

/-- The buffers they write. -/
abbrev W : List (Ref sig .tc) := [main_call30_v0, main_call30_v1, main_v161, main_call31_v0, main_call31_v1, main_v162, main_v163, main_v164, main_cst_49, main_call32_v0, main_call32_v1, main_call32_v2, main_v165, main_v166, main_cst_50, main_v167, main_v168, main_c_51, main_v169, main_v170, main_cst_52, main_v171, main_v172, main_cst_53, main_v173, main_v174, main_v175]

theorem writes : (ops : List (HloOp τ sig (Elt F))).Forall fun op =>
    op.writes ⊆ (W.map (Proc.devRef (τ := τ) .tc)).toFinset := by
  simp only [List.Forall]
  exact ⟨(by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide))⟩

/-- A buffer they do not write keeps its contents. -/
theorem keep (V : Valuation τ sig (Elt F)) (r : Ref sig .tc) (h : r ∉ W) :
    after ops V (Proc.devRef .tc r) = V (Proc.devRef .tc r) :=
  after_of_writes_sub ops V writes h

/-- The contents after these operations. -/
def aft (V : Valuation τ sig (Elt F)) : Valuation τ sig (Elt F) := after ops V

theorem aft_keep (V : Valuation τ sig (Elt F)) (r : Ref sig .tc) (h : r ∉ W) :
    aft V (no_index (Proc.devRef .tc r)) = V (Proc.devRef .tc r) :=
  keep V r h

/-- The distance the last operation leaves, as the one-shift function of the argument arrays' contents. -/
theorem aft_value (V : Valuation τ sig (Elt Ideal)) :
    aft (F := Ideal) V (no_index (Proc.devRef .tc main_v175))
      = Cert.ShiftLoss.RefMath.shiftDist 509 3 rfl (V (Proc.devRef .tc main_arg0)) (V (Proc.devRef .tc main_arg2))
          (V (Proc.devRef .tc main_arg3)) (V (Proc.devRef .tc main_arg5)) := by
  show after (ops (F := Ideal)) V (Proc.devRef .tc main_v175) = _
  after_results_simp <;> rfl

end Cert.ReferenceIdeal.RefRun.SB1

end
-- ==== Proof.Ref.Sh.SB2.lean ====
/-
  Shift 2 (offset -2) of the second pair of the reference: the 27 host operations that compute its per-row distance,
  what they write, and the distance they leave in their last buffer as the one-shift function of the four argument arrays.
-/
import proofs.«122145_j70437463654548_2_alg».proof.Proof.Gen.ReferenceIdeal
import proofs.«122145_j70437463654548_2_alg».proof.Proof.Ref.Math
import Idealize.ShloMosaic.Lib.StableHlo.Run

noncomputable section

namespace Cert.ReferenceIdeal.RefRun.SB2

open Cert.ReferenceIdeal Cert.ReferenceIdeal.Gen Idealize.ShloMosaic Idealize.ShloMosaic.TcCoe Idealize.SL.Sem Idealize.ShloMosaic.StableHlo

variable {F : FTy → Type} [FloatOps F]

/-- The operations, in order. -/
abbrev ops : List (HloOp τ sig (Elt F)) :=
  [ TRef.unary (TRef.of (T := ⟨S64x16x32x512, .f32⟩) main_arg2) (TRef.of (T := ⟨S64x16x32x510, .f32⟩) main_call33_v0) (extractStridedSlice S64x16x32x510 ![0, 0, 0, 2] · slices_S64x16x32x512_S64x16x32x510_0_0_0_2),
    TRef.unary (TRef.of (T := ⟨S64x16x32x512, .f32⟩) main_arg2) (TRef.of (T := ⟨S64x16x32x2, .f32⟩) main_call33_v1) (extractStridedSlice S64x16x32x2 ![0, 0, 0, 0] · slices_S64x16x32x512_S64x16x32x2_0_0_0_0),
    TRef.binary (TRef.of (T := ⟨S64x16x32x510, .f32⟩) main_call33_v0) (TRef.of (T := ⟨S64x16x32x2, .f32⟩) main_call33_v1) (TRef.of (T := ⟨S64x16x32x512, .f32⟩) main_v176) (fun a b => concatenate S64x16x32x512 3 [⟨S64x16x32x510, a⟩, ⟨S64x16x32x2, b⟩] concatenates_S64x16x32x510_S64x16x32x2_S64x16x32x512_d3),
    TRef.unary (TRef.of (T := ⟨S64x1x32x512, .i1⟩) main_arg5) (TRef.of (T := ⟨S64x1x32x510, .i1⟩) main_call34_v0) (extractStridedSlice S64x1x32x510 ![0, 0, 0, 2] · slices_S64x1x32x512_S64x1x32x510_0_0_0_2),
    TRef.unary (TRef.of (T := ⟨S64x1x32x512, .i1⟩) main_arg5) (TRef.of (T := ⟨S64x1x32x2, .i1⟩) main_call34_v1) (extractStridedSlice S64x1x32x2 ![0, 0, 0, 0] · slices_S64x1x32x512_S64x1x32x2_0_0_0_0),
    TRef.binary (TRef.of (T := ⟨S64x1x32x510, .i1⟩) main_call34_v0) (TRef.of (T := ⟨S64x1x32x2, .i1⟩) main_call34_v1) (TRef.of (T := ⟨S64x1x32x512, .i1⟩) main_v177) (fun a b => concatenate S64x1x32x512 3 [⟨S64x1x32x510, a⟩, ⟨S64x1x32x2, b⟩] concatenates_S64x1x32x510_S64x1x32x2_S64x1x32x512_d3),
    binary main_arg3 main_v177 main_v178 (andi : (⟨S64x1x32x512, .i1⟩ : BufTy).Contents (Elt F) → (⟨S64x1x32x512, .i1⟩ : BufTy).Contents (Elt F) → (⟨S64x1x32x512, .i1⟩ : BufTy).Contents (Elt F)),
    binary main_arg0 main_v176 main_v179 (subf : (⟨S64x16x32x512, .f32⟩ : BufTy).Contents (Elt F) → (⟨S64x16x32x512, .f32⟩ : BufTy).Contents (Elt F) → (⟨S64x16x32x512, .f32⟩ : BufTy).Contents (Elt F)),
    nullary main_cst_54 (constant S_ .f32 0x00000000#32),
    TRef.unary (TRef.of (T := ⟨S_, .f32⟩) main_cst_54) (TRef.of (T := ⟨S_, .f32⟩) main_call35_v0) id,
    TRef.unary (TRef.of (T := ⟨S64x1x32x512, .i1⟩) main_v178) (TRef.of (T := ⟨S64x16x32x512, .i1⟩) main_call35_v1) (broadcastInDim S64x16x32x512 ![0, 1, 2, 3] bcast_S64x1x32x512_S64x16x32x512_0_1_2_3),
    TRef.unary (TRef.of (T := ⟨S_, .f32⟩) main_call35_v0) (TRef.of (T := ⟨S64x16x32x512, .f32⟩) main_call35_v2) (broadcastInDim S64x16x32x512 ![] bcast_S_S64x16x32x512),
    TRef.ternary (TRef.of (T := ⟨S64x16x32x512, .i1⟩) main_call35_v1) (TRef.of (T := ⟨S64x16x32x512, .f32⟩) main_v179) (TRef.of (T := ⟨S64x16x32x512, .f32⟩) main_call35_v2) (TRef.of (T := ⟨S64x16x32x512, .f32⟩) main_v180) select,
    binary main_v180 main_v180 main_v181 (mulf : (⟨S64x16x32x512, .f32⟩ : BufTy).Contents (Elt F) → (⟨S64x16x32x512, .f32⟩ : BufTy).Contents (Elt F) → (⟨S64x16x32x512, .f32⟩ : BufTy).Contents (Elt F)),
    nullary main_cst_55 (constant S_ .f32 0x00000000#32),
    binary main_v181 main_cst_55 main_v182 ((fun x v => Host.reduceAdd x v reducesTo_S64x16x32x512_S64_d1_2_3 h_S_) : (⟨S64x16x32x512, .f32⟩ : BufTy).Contents (Elt F) → (⟨S_, .f32⟩ : BufTy).Contents (Elt F) → (⟨S64, .f32⟩ : BufTy).Contents (Elt F)),
    unary main_v178 main_v183 ((extui 32 · natLt_1_32) : (⟨S64x1x32x512, .i1⟩ : BufTy).Contents (Elt F) → (⟨S64x1x32x512, .i32⟩ : BufTy).Contents (Elt F)),
    nullary main_c_56 (constantI S_ 32 0#32),
    binary main_v183 main_c_56 main_v184 ((fun x v => Host.reduce IntOp.addi x v reducesTo_S64x1x32x512_S64_d1_2_3 h_S_) : (⟨S64x1x32x512, .i32⟩ : BufTy).Contents (Elt F) → (⟨S_, .i32⟩ : BufTy).Contents (Elt F) → (⟨S64, .i32⟩ : BufTy).Contents (Elt F)),
    unary main_v184 main_v185 (sitofp .f32 : (⟨S64, .i32⟩ : BufTy).Contents (Elt F) → (⟨S64, .f32⟩ : BufTy).Contents (Elt F)),
    nullary main_cst_57 (constant S_ .f32 0x41800000#32),
    unary main_cst_57 main_v186 (broadcastInDim S64 ![] bcast_S_S64 : (⟨S_, .f32⟩ : BufTy).Contents (Elt F) → (⟨S64, .f32⟩ : BufTy).Contents (Elt F)),
    binary main_v186 main_v185 main_v187 (mulf : (⟨S64, .f32⟩ : BufTy).Contents (Elt F) → (⟨S64, .f32⟩ : BufTy).Contents (Elt F) → (⟨S64, .f32⟩ : BufTy).Contents (Elt F)),
    nullary main_cst_58 (constant S_ .f32 0x3A83126F#32),
    unary main_cst_58 main_v188 (broadcastInDim S64 ![] bcast_S_S64 : (⟨S_, .f32⟩ : BufTy).Contents (Elt F) → (⟨S64, .f32⟩ : BufTy).Contents (Elt F)),
    binary main_v187 main_v188 main_v189 (addf : (⟨S64, .f32⟩ : BufTy).Contents (Elt F) → (⟨S64, .f32⟩ : BufTy).Contents (Elt F) → (⟨S64, .f32⟩ : BufTy).Contents (Elt F)),
    binary main_v182 main_v189 main_v190 (Host.divf : (⟨S64, .f32⟩ : BufTy).Contents (Elt F) → (⟨S64, .f32⟩ : BufTy).Contents (Elt F) → (⟨S64, .f32⟩ : BufTy).Contents (Elt F)) ]

/-- Every buffer they touch is a TensorCore buffer. -/
theorem sub : (ops : List (HloOp τ sig (Elt F))).Forall fun op => op.bufs ⊆ tcRefs τ sig :=
  ⟨unary_bufs_sub .., unary_bufs_sub .., binary_bufs_sub .., unary_bufs_sub .., unary_bufs_sub .., binary_bufs_sub .., binary_bufs_sub .., binary_bufs_sub .., nullary_bufs_sub .., unary_bufs_sub .., unary_bufs_sub .., unary_bufs_sub .., ternary_bufs_sub .., binary_bufs_sub .., nullary_bufs_sub .., binary_bufs_sub .., unary_bufs_sub .., nullary_bufs_sub .., binary_bufs_sub .., unary_bufs_sub .., nullary_bufs_sub .., unary_bufs_sub .., binary_bufs_sub .., nullary_bufs_sub .., unary_bufs_sub .., binary_bufs_sub .., binary_bufs_sub ..⟩

/-- None of them allocates. -/
theorem fresh : ∀ op ∈ (ops : List (HloOp τ sig (Elt F))), op.fresh = ∅ := by
  intro _ h; (repeat (cases h with | head => rfl | tail _ h => ?_)); exact nomatch h

/-- The buffers they write. -/
abbrev W : List (Ref sig .tc) := [main_call33_v0, main_call33_v1, main_v176, main_call34_v0, main_call34_v1, main_v177, main_v178, main_v179, main_cst_54, main_call35_v0, main_call35_v1, main_call35_v2, main_v180, main_v181, main_cst_55, main_v182, main_v183, main_c_56, main_v184, main_v185, main_cst_57, main_v186, main_v187, main_cst_58, main_v188, main_v189, main_v190]

theorem writes : (ops : List (HloOp τ sig (Elt F))).Forall fun op =>
    op.writes ⊆ (W.map (Proc.devRef (τ := τ) .tc)).toFinset := by
  simp only [List.Forall]
  exact ⟨(by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide))⟩

/-- A buffer they do not write keeps its contents. -/
theorem keep (V : Valuation τ sig (Elt F)) (r : Ref sig .tc) (h : r ∉ W) :
    after ops V (Proc.devRef .tc r) = V (Proc.devRef .tc r) :=
  after_of_writes_sub ops V writes h

/-- The contents after these operations. -/
def aft (V : Valuation τ sig (Elt F)) : Valuation τ sig (Elt F) := after ops V

theorem aft_keep (V : Valuation τ sig (Elt F)) (r : Ref sig .tc) (h : r ∉ W) :
    aft V (no_index (Proc.devRef .tc r)) = V (Proc.devRef .tc r) :=
  keep V r h

/-- The distance the last operation leaves, as the one-shift function of the argument arrays' contents. -/
theorem aft_value (V : Valuation τ sig (Elt Ideal)) :
    aft (F := Ideal) V (no_index (Proc.devRef .tc main_v190))
      = Cert.ShiftLoss.RefMath.shiftDist 510 2 rfl (V (Proc.devRef .tc main_arg0)) (V (Proc.devRef .tc main_arg2))
          (V (Proc.devRef .tc main_arg3)) (V (Proc.devRef .tc main_arg5)) := by
  show after (ops (F := Ideal)) V (Proc.devRef .tc main_v190) = _
  after_results_simp <;> rfl

end Cert.ReferenceIdeal.RefRun.SB2

end
-- ==== Proof.Ref.P3.lean ====
/-
  Window 3 of the reference's @main (its statements 181 to 240) is the sequence of these chunks' operations: the calls
  unfold to their bodies' operations in place.
-/
import proofs.«122145_j70437463654548_2_alg».proof.Proof.Ref.Sh.MA
import proofs.«122145_j70437463654548_2_alg».proof.Proof.Ref.Sh.SB0
import proofs.«122145_j70437463654548_2_alg».proof.Proof.Ref.Sh.SB1
import proofs.«122145_j70437463654548_2_alg».proof.Proof.Ref.Sh.SB2

noncomputable section

namespace Cert.ReferenceIdeal.RefRun.P3

open Cert.ReferenceIdeal Cert.ReferenceIdeal.Gen Idealize.ShloMosaic Idealize.ShloMosaic.TcCoe Idealize.SL.Sem Idealize.ShloMosaic.StableHlo
open Cert.ReferenceIdeal.RefRun

variable {F : FTy → Type} [FloatOps F]

/-- The window's operations. -/
def L : List (HloOp τ sig (Elt F)) := MA.ops (F := F) ++ (SB0.ops (F := F) ++ (SB1.ops (F := F) ++ ((SB2.ops (F := F)).take 15)))

set_option maxRecDepth 8192 in
set_option maxHeartbeats 4000000 in
theorem eq (d : Dev nD) : main_part3 (F := F) d = seq L := rfl

end Cert.ReferenceIdeal.RefRun.P3

end
-- ==== Proof.Ref.Sh.SB3.lean ====
/-
  Shift 3 (offset -1) of the second pair of the reference: the 27 host operations that compute its per-row distance,
  what they write, and the distance they leave in their last buffer as the one-shift function of the four argument arrays.
-/
import proofs.«122145_j70437463654548_2_alg».proof.Proof.Gen.ReferenceIdeal
import proofs.«122145_j70437463654548_2_alg».proof.Proof.Ref.Math
import Idealize.ShloMosaic.Lib.StableHlo.Run

noncomputable section

namespace Cert.ReferenceIdeal.RefRun.SB3

open Cert.ReferenceIdeal Cert.ReferenceIdeal.Gen Idealize.ShloMosaic Idealize.ShloMosaic.TcCoe Idealize.SL.Sem Idealize.ShloMosaic.StableHlo

variable {F : FTy → Type} [FloatOps F]

/-- The operations, in order. -/
abbrev ops : List (HloOp τ sig (Elt F)) :=
  [ TRef.unary (TRef.of (T := ⟨S64x16x32x512, .f32⟩) main_arg2) (TRef.of (T := ⟨S64x16x32x511, .f32⟩) main_call36_v0) (extractStridedSlice S64x16x32x511 ![0, 0, 0, 1] · slices_S64x16x32x512_S64x16x32x511_0_0_0_1),
    TRef.unary (TRef.of (T := ⟨S64x16x32x512, .f32⟩) main_arg2) (TRef.of (T := ⟨S64x16x32x1, .f32⟩) main_call36_v1) (extractStridedSlice S64x16x32x1 ![0, 0, 0, 0] · slices_S64x16x32x512_S64x16x32x1_0_0_0_0),
    TRef.binary (TRef.of (T := ⟨S64x16x32x511, .f32⟩) main_call36_v0) (TRef.of (T := ⟨S64x16x32x1, .f32⟩) main_call36_v1) (TRef.of (T := ⟨S64x16x32x512, .f32⟩) main_v191) (fun a b => concatenate S64x16x32x512 3 [⟨S64x16x32x511, a⟩, ⟨S64x16x32x1, b⟩] concatenates_S64x16x32x511_S64x16x32x1_S64x16x32x512_d3),
    TRef.unary (TRef.of (T := ⟨S64x1x32x512, .i1⟩) main_arg5) (TRef.of (T := ⟨S64x1x32x511, .i1⟩) main_call37_v0) (extractStridedSlice S64x1x32x511 ![0, 0, 0, 1] · slices_S64x1x32x512_S64x1x32x511_0_0_0_1),
    TRef.unary (TRef.of (T := ⟨S64x1x32x512, .i1⟩) main_arg5) (TRef.of (T := ⟨S64x1x32x1, .i1⟩) main_call37_v1) (extractStridedSlice S64x1x32x1 ![0, 0, 0, 0] · slices_S64x1x32x512_S64x1x32x1_0_0_0_0),
    TRef.binary (TRef.of (T := ⟨S64x1x32x511, .i1⟩) main_call37_v0) (TRef.of (T := ⟨S64x1x32x1, .i1⟩) main_call37_v1) (TRef.of (T := ⟨S64x1x32x512, .i1⟩) main_v192) (fun a b => concatenate S64x1x32x512 3 [⟨S64x1x32x511, a⟩, ⟨S64x1x32x1, b⟩] concatenates_S64x1x32x511_S64x1x32x1_S64x1x32x512_d3),
    binary main_arg3 main_v192 main_v193 (andi : (⟨S64x1x32x512, .i1⟩ : BufTy).Contents (Elt F) → (⟨S64x1x32x512, .i1⟩ : BufTy).Contents (Elt F) → (⟨S64x1x32x512, .i1⟩ : BufTy).Contents (Elt F)),
    binary main_arg0 main_v191 main_v194 (subf : (⟨S64x16x32x512, .f32⟩ : BufTy).Contents (Elt F) → (⟨S64x16x32x512, .f32⟩ : BufTy).Contents (Elt F) → (⟨S64x16x32x512, .f32⟩ : BufTy).Contents (Elt F)),
    nullary main_cst_59 (constant S_ .f32 0x00000000#32),
    TRef.unary (TRef.of (T := ⟨S_, .f32⟩) main_cst_59) (TRef.of (T := ⟨S_, .f32⟩) main_call38_v0) id,
    TRef.unary (TRef.of (T := ⟨S64x1x32x512, .i1⟩) main_v193) (TRef.of (T := ⟨S64x16x32x512, .i1⟩) main_call38_v1) (broadcastInDim S64x16x32x512 ![0, 1, 2, 3] bcast_S64x1x32x512_S64x16x32x512_0_1_2_3),
    TRef.unary (TRef.of (T := ⟨S_, .f32⟩) main_call38_v0) (TRef.of (T := ⟨S64x16x32x512, .f32⟩) main_call38_v2) (broadcastInDim S64x16x32x512 ![] bcast_S_S64x16x32x512),
    TRef.ternary (TRef.of (T := ⟨S64x16x32x512, .i1⟩) main_call38_v1) (TRef.of (T := ⟨S64x16x32x512, .f32⟩) main_v194) (TRef.of (T := ⟨S64x16x32x512, .f32⟩) main_call38_v2) (TRef.of (T := ⟨S64x16x32x512, .f32⟩) main_v195) select,
    binary main_v195 main_v195 main_v196 (mulf : (⟨S64x16x32x512, .f32⟩ : BufTy).Contents (Elt F) → (⟨S64x16x32x512, .f32⟩ : BufTy).Contents (Elt F) → (⟨S64x16x32x512, .f32⟩ : BufTy).Contents (Elt F)),
    nullary main_cst_60 (constant S_ .f32 0x00000000#32),
    binary main_v196 main_cst_60 main_v197 ((fun x v => Host.reduceAdd x v reducesTo_S64x16x32x512_S64_d1_2_3 h_S_) : (⟨S64x16x32x512, .f32⟩ : BufTy).Contents (Elt F) → (⟨S_, .f32⟩ : BufTy).Contents (Elt F) → (⟨S64, .f32⟩ : BufTy).Contents (Elt F)),
    unary main_v193 main_v198 ((extui 32 · natLt_1_32) : (⟨S64x1x32x512, .i1⟩ : BufTy).Contents (Elt F) → (⟨S64x1x32x512, .i32⟩ : BufTy).Contents (Elt F)),
    nullary main_c_61 (constantI S_ 32 0#32),
    binary main_v198 main_c_61 main_v199 ((fun x v => Host.reduce IntOp.addi x v reducesTo_S64x1x32x512_S64_d1_2_3 h_S_) : (⟨S64x1x32x512, .i32⟩ : BufTy).Contents (Elt F) → (⟨S_, .i32⟩ : BufTy).Contents (Elt F) → (⟨S64, .i32⟩ : BufTy).Contents (Elt F)),
    unary main_v199 main_v200 (sitofp .f32 : (⟨S64, .i32⟩ : BufTy).Contents (Elt F) → (⟨S64, .f32⟩ : BufTy).Contents (Elt F)),
    nullary main_cst_62 (constant S_ .f32 0x41800000#32),
    unary main_cst_62 main_v201 (broadcastInDim S64 ![] bcast_S_S64 : (⟨S_, .f32⟩ : BufTy).Contents (Elt F) → (⟨S64, .f32⟩ : BufTy).Contents (Elt F)),
    binary main_v201 main_v200 main_v202 (mulf : (⟨S64, .f32⟩ : BufTy).Contents (Elt F) → (⟨S64, .f32⟩ : BufTy).Contents (Elt F) → (⟨S64, .f32⟩ : BufTy).Contents (Elt F)),
    nullary main_cst_63 (constant S_ .f32 0x3A83126F#32),
    unary main_cst_63 main_v203 (broadcastInDim S64 ![] bcast_S_S64 : (⟨S_, .f32⟩ : BufTy).Contents (Elt F) → (⟨S64, .f32⟩ : BufTy).Contents (Elt F)),
    binary main_v202 main_v203 main_v204 (addf : (⟨S64, .f32⟩ : BufTy).Contents (Elt F) → (⟨S64, .f32⟩ : BufTy).Contents (Elt F) → (⟨S64, .f32⟩ : BufTy).Contents (Elt F)),
    binary main_v197 main_v204 main_v205 (Host.divf : (⟨S64, .f32⟩ : BufTy).Contents (Elt F) → (⟨S64, .f32⟩ : BufTy).Contents (Elt F) → (⟨S64, .f32⟩ : BufTy).Contents (Elt F)) ]

/-- Every buffer they touch is a TensorCore buffer. -/
theorem sub : (ops : List (HloOp τ sig (Elt F))).Forall fun op => op.bufs ⊆ tcRefs τ sig :=
  ⟨unary_bufs_sub .., unary_bufs_sub .., binary_bufs_sub .., unary_bufs_sub .., unary_bufs_sub .., binary_bufs_sub .., binary_bufs_sub .., binary_bufs_sub .., nullary_bufs_sub .., unary_bufs_sub .., unary_bufs_sub .., unary_bufs_sub .., ternary_bufs_sub .., binary_bufs_sub .., nullary_bufs_sub .., binary_bufs_sub .., unary_bufs_sub .., nullary_bufs_sub .., binary_bufs_sub .., unary_bufs_sub .., nullary_bufs_sub .., unary_bufs_sub .., binary_bufs_sub .., nullary_bufs_sub .., unary_bufs_sub .., binary_bufs_sub .., binary_bufs_sub ..⟩

/-- None of them allocates. -/
theorem fresh : ∀ op ∈ (ops : List (HloOp τ sig (Elt F))), op.fresh = ∅ := by
  intro _ h; (repeat (cases h with | head => rfl | tail _ h => ?_)); exact nomatch h

/-- The buffers they write. -/
abbrev W : List (Ref sig .tc) := [main_call36_v0, main_call36_v1, main_v191, main_call37_v0, main_call37_v1, main_v192, main_v193, main_v194, main_cst_59, main_call38_v0, main_call38_v1, main_call38_v2, main_v195, main_v196, main_cst_60, main_v197, main_v198, main_c_61, main_v199, main_v200, main_cst_62, main_v201, main_v202, main_cst_63, main_v203, main_v204, main_v205]

theorem writes : (ops : List (HloOp τ sig (Elt F))).Forall fun op =>
    op.writes ⊆ (W.map (Proc.devRef (τ := τ) .tc)).toFinset := by
  simp only [List.Forall]
  exact ⟨(by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide))⟩

/-- A buffer they do not write keeps its contents. -/
theorem keep (V : Valuation τ sig (Elt F)) (r : Ref sig .tc) (h : r ∉ W) :
    after ops V (Proc.devRef .tc r) = V (Proc.devRef .tc r) :=
  after_of_writes_sub ops V writes h

/-- The contents after these operations. -/
def aft (V : Valuation τ sig (Elt F)) : Valuation τ sig (Elt F) := after ops V

theorem aft_keep (V : Valuation τ sig (Elt F)) (r : Ref sig .tc) (h : r ∉ W) :
    aft V (no_index (Proc.devRef .tc r)) = V (Proc.devRef .tc r) :=
  keep V r h

/-- The distance the last operation leaves, as the one-shift function of the argument arrays' contents. -/
theorem aft_value (V : Valuation τ sig (Elt Ideal)) :
    aft (F := Ideal) V (no_index (Proc.devRef .tc main_v205))
      = Cert.ShiftLoss.RefMath.shiftDist 511 1 rfl (V (Proc.devRef .tc main_arg0)) (V (Proc.devRef .tc main_arg2))
          (V (Proc.devRef .tc main_arg3)) (V (Proc.devRef .tc main_arg5)) := by
  show after (ops (F := Ideal)) V (Proc.devRef .tc main_v205) = _
  after_results_simp <;> rfl

end Cert.ReferenceIdeal.RefRun.SB3

end
-- ==== Proof.Ref.Sh.SB4.lean ====
/-
  Shift 4 (offset 0) of the second pair of the reference: the 27 host operations that compute its per-row distance,
  what they write, and the distance they leave in their last buffer as the one-shift function of the four argument arrays.
-/
import proofs.«122145_j70437463654548_2_alg».proof.Proof.Gen.ReferenceIdeal
import proofs.«122145_j70437463654548_2_alg».proof.Proof.Ref.Math
import Idealize.ShloMosaic.Lib.StableHlo.Run

noncomputable section

namespace Cert.ReferenceIdeal.RefRun.SB4

open Cert.ReferenceIdeal Cert.ReferenceIdeal.Gen Idealize.ShloMosaic Idealize.ShloMosaic.TcCoe Idealize.SL.Sem Idealize.ShloMosaic.StableHlo

variable {F : FTy → Type} [FloatOps F]

/-- The operations, in order. -/
abbrev ops : List (HloOp τ sig (Elt F)) :=
  [ TRef.unary (TRef.of (T := ⟨S64x16x32x512, .f32⟩) main_arg2) (TRef.of (T := ⟨S64x16x32x512, .f32⟩) main_call39_v0) (extractStridedSlice S64x16x32x512 ![0, 0, 0, 0] · slices_S64x16x32x512_S64x16x32x512_0_0_0_0),
    TRef.unary (TRef.of (T := ⟨S64x16x32x512, .f32⟩) main_arg2) (TRef.of (T := ⟨S64x16x32x0, .f32⟩) main_call39_v1) (extractStridedSlice S64x16x32x0 ![0, 0, 0, 0] · slices_S64x16x32x512_S64x16x32x0_0_0_0_0),
    TRef.binary (TRef.of (T := ⟨S64x16x32x512, .f32⟩) main_call39_v0) (TRef.of (T := ⟨S64x16x32x0, .f32⟩) main_call39_v1) (TRef.of (T := ⟨S64x16x32x512, .f32⟩) main_v206) (fun a b => concatenate S64x16x32x512 3 [⟨S64x16x32x512, a⟩, ⟨S64x16x32x0, b⟩] concatenates_S64x16x32x512_S64x16x32x0_S64x16x32x512_d3),
    TRef.unary (TRef.of (T := ⟨S64x1x32x512, .i1⟩) main_arg5) (TRef.of (T := ⟨S64x1x32x512, .i1⟩) main_call40_v0) (extractStridedSlice S64x1x32x512 ![0, 0, 0, 0] · slices_S64x1x32x512_S64x1x32x512_0_0_0_0),
    TRef.unary (TRef.of (T := ⟨S64x1x32x512, .i1⟩) main_arg5) (TRef.of (T := ⟨S64x1x32x0, .i1⟩) main_call40_v1) (extractStridedSlice S64x1x32x0 ![0, 0, 0, 0] · slices_S64x1x32x512_S64x1x32x0_0_0_0_0),
    TRef.binary (TRef.of (T := ⟨S64x1x32x512, .i1⟩) main_call40_v0) (TRef.of (T := ⟨S64x1x32x0, .i1⟩) main_call40_v1) (TRef.of (T := ⟨S64x1x32x512, .i1⟩) main_v207) (fun a b => concatenate S64x1x32x512 3 [⟨S64x1x32x512, a⟩, ⟨S64x1x32x0, b⟩] concatenates_S64x1x32x512_S64x1x32x0_S64x1x32x512_d3),
    binary main_arg3 main_v207 main_v208 (andi : (⟨S64x1x32x512, .i1⟩ : BufTy).Contents (Elt F) → (⟨S64x1x32x512, .i1⟩ : BufTy).Contents (Elt F) → (⟨S64x1x32x512, .i1⟩ : BufTy).Contents (Elt F)),
    binary main_arg0 main_v206 main_v209 (subf : (⟨S64x16x32x512, .f32⟩ : BufTy).Contents (Elt F) → (⟨S64x16x32x512, .f32⟩ : BufTy).Contents (Elt F) → (⟨S64x16x32x512, .f32⟩ : BufTy).Contents (Elt F)),
    nullary main_cst_64 (constant S_ .f32 0x00000000#32),
    TRef.unary (TRef.of (T := ⟨S_, .f32⟩) main_cst_64) (TRef.of (T := ⟨S_, .f32⟩) main_call41_v0) id,
    TRef.unary (TRef.of (T := ⟨S64x1x32x512, .i1⟩) main_v208) (TRef.of (T := ⟨S64x16x32x512, .i1⟩) main_call41_v1) (broadcastInDim S64x16x32x512 ![0, 1, 2, 3] bcast_S64x1x32x512_S64x16x32x512_0_1_2_3),
    TRef.unary (TRef.of (T := ⟨S_, .f32⟩) main_call41_v0) (TRef.of (T := ⟨S64x16x32x512, .f32⟩) main_call41_v2) (broadcastInDim S64x16x32x512 ![] bcast_S_S64x16x32x512),
    TRef.ternary (TRef.of (T := ⟨S64x16x32x512, .i1⟩) main_call41_v1) (TRef.of (T := ⟨S64x16x32x512, .f32⟩) main_v209) (TRef.of (T := ⟨S64x16x32x512, .f32⟩) main_call41_v2) (TRef.of (T := ⟨S64x16x32x512, .f32⟩) main_v210) select,
    binary main_v210 main_v210 main_v211 (mulf : (⟨S64x16x32x512, .f32⟩ : BufTy).Contents (Elt F) → (⟨S64x16x32x512, .f32⟩ : BufTy).Contents (Elt F) → (⟨S64x16x32x512, .f32⟩ : BufTy).Contents (Elt F)),
    nullary main_cst_65 (constant S_ .f32 0x00000000#32),
    binary main_v211 main_cst_65 main_v212 ((fun x v => Host.reduceAdd x v reducesTo_S64x16x32x512_S64_d1_2_3 h_S_) : (⟨S64x16x32x512, .f32⟩ : BufTy).Contents (Elt F) → (⟨S_, .f32⟩ : BufTy).Contents (Elt F) → (⟨S64, .f32⟩ : BufTy).Contents (Elt F)),
    unary main_v208 main_v213 ((extui 32 · natLt_1_32) : (⟨S64x1x32x512, .i1⟩ : BufTy).Contents (Elt F) → (⟨S64x1x32x512, .i32⟩ : BufTy).Contents (Elt F)),
    nullary main_c_66 (constantI S_ 32 0#32),
    binary main_v213 main_c_66 main_v214 ((fun x v => Host.reduce IntOp.addi x v reducesTo_S64x1x32x512_S64_d1_2_3 h_S_) : (⟨S64x1x32x512, .i32⟩ : BufTy).Contents (Elt F) → (⟨S_, .i32⟩ : BufTy).Contents (Elt F) → (⟨S64, .i32⟩ : BufTy).Contents (Elt F)),
    unary main_v214 main_v215 (sitofp .f32 : (⟨S64, .i32⟩ : BufTy).Contents (Elt F) → (⟨S64, .f32⟩ : BufTy).Contents (Elt F)),
    nullary main_cst_67 (constant S_ .f32 0x41800000#32),
    unary main_cst_67 main_v216 (broadcastInDim S64 ![] bcast_S_S64 : (⟨S_, .f32⟩ : BufTy).Contents (Elt F) → (⟨S64, .f32⟩ : BufTy).Contents (Elt F)),
    binary main_v216 main_v215 main_v217 (mulf : (⟨S64, .f32⟩ : BufTy).Contents (Elt F) → (⟨S64, .f32⟩ : BufTy).Contents (Elt F) → (⟨S64, .f32⟩ : BufTy).Contents (Elt F)),
    nullary main_cst_68 (constant S_ .f32 0x3A83126F#32),
    unary main_cst_68 main_v218 (broadcastInDim S64 ![] bcast_S_S64 : (⟨S_, .f32⟩ : BufTy).Contents (Elt F) → (⟨S64, .f32⟩ : BufTy).Contents (Elt F)),
    binary main_v217 main_v218 main_v219 (addf : (⟨S64, .f32⟩ : BufTy).Contents (Elt F) → (⟨S64, .f32⟩ : BufTy).Contents (Elt F) → (⟨S64, .f32⟩ : BufTy).Contents (Elt F)),
    binary main_v212 main_v219 main_v220 (Host.divf : (⟨S64, .f32⟩ : BufTy).Contents (Elt F) → (⟨S64, .f32⟩ : BufTy).Contents (Elt F) → (⟨S64, .f32⟩ : BufTy).Contents (Elt F)) ]

/-- Every buffer they touch is a TensorCore buffer. -/
theorem sub : (ops : List (HloOp τ sig (Elt F))).Forall fun op => op.bufs ⊆ tcRefs τ sig :=
  ⟨unary_bufs_sub .., unary_bufs_sub .., binary_bufs_sub .., unary_bufs_sub .., unary_bufs_sub .., binary_bufs_sub .., binary_bufs_sub .., binary_bufs_sub .., nullary_bufs_sub .., unary_bufs_sub .., unary_bufs_sub .., unary_bufs_sub .., ternary_bufs_sub .., binary_bufs_sub .., nullary_bufs_sub .., binary_bufs_sub .., unary_bufs_sub .., nullary_bufs_sub .., binary_bufs_sub .., unary_bufs_sub .., nullary_bufs_sub .., unary_bufs_sub .., binary_bufs_sub .., nullary_bufs_sub .., unary_bufs_sub .., binary_bufs_sub .., binary_bufs_sub ..⟩

/-- None of them allocates. -/
theorem fresh : ∀ op ∈ (ops : List (HloOp τ sig (Elt F))), op.fresh = ∅ := by
  intro _ h; (repeat (cases h with | head => rfl | tail _ h => ?_)); exact nomatch h

/-- The buffers they write. -/
abbrev W : List (Ref sig .tc) := [main_call39_v0, main_call39_v1, main_v206, main_call40_v0, main_call40_v1, main_v207, main_v208, main_v209, main_cst_64, main_call41_v0, main_call41_v1, main_call41_v2, main_v210, main_v211, main_cst_65, main_v212, main_v213, main_c_66, main_v214, main_v215, main_cst_67, main_v216, main_v217, main_cst_68, main_v218, main_v219, main_v220]

theorem writes : (ops : List (HloOp τ sig (Elt F))).Forall fun op =>
    op.writes ⊆ (W.map (Proc.devRef (τ := τ) .tc)).toFinset := by
  simp only [List.Forall]
  exact ⟨(by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide))⟩

/-- A buffer they do not write keeps its contents. -/
theorem keep (V : Valuation τ sig (Elt F)) (r : Ref sig .tc) (h : r ∉ W) :
    after ops V (Proc.devRef .tc r) = V (Proc.devRef .tc r) :=
  after_of_writes_sub ops V writes h

/-- The contents after these operations. -/
def aft (V : Valuation τ sig (Elt F)) : Valuation τ sig (Elt F) := after ops V

theorem aft_keep (V : Valuation τ sig (Elt F)) (r : Ref sig .tc) (h : r ∉ W) :
    aft V (no_index (Proc.devRef .tc r)) = V (Proc.devRef .tc r) :=
  keep V r h

/-- The distance the last operation leaves, as the one-shift function of the argument arrays' contents. -/
theorem aft_value (V : Valuation τ sig (Elt Ideal)) :
    aft (F := Ideal) V (no_index (Proc.devRef .tc main_v220))
      = Cert.ShiftLoss.RefMath.shiftDist 512 0 rfl (V (Proc.devRef .tc main_arg0)) (V (Proc.devRef .tc main_arg2))
          (V (Proc.devRef .tc main_arg3)) (V (Proc.devRef .tc main_arg5)) := by
  show after (ops (F := Ideal)) V (Proc.devRef .tc main_v220) = _
  after_results_simp <;> rfl

end Cert.ReferenceIdeal.RefRun.SB4

end
-- ==== Proof.Ref.Sh.SB5.lean ====
/-
  Shift 5 (offset 1) of the second pair of the reference: the 27 host operations that compute its per-row distance,
  what they write, and the distance they leave in their last buffer as the one-shift function of the four argument arrays.
-/
import proofs.«122145_j70437463654548_2_alg».proof.Proof.Gen.ReferenceIdeal
import proofs.«122145_j70437463654548_2_alg».proof.Proof.Ref.Math
import Idealize.ShloMosaic.Lib.StableHlo.Run

noncomputable section

namespace Cert.ReferenceIdeal.RefRun.SB5

open Cert.ReferenceIdeal Cert.ReferenceIdeal.Gen Idealize.ShloMosaic Idealize.ShloMosaic.TcCoe Idealize.SL.Sem Idealize.ShloMosaic.StableHlo

variable {F : FTy → Type} [FloatOps F]

/-- The operations, in order. -/
abbrev ops : List (HloOp τ sig (Elt F)) :=
  [ TRef.unary (TRef.of (T := ⟨S64x16x32x512, .f32⟩) main_arg2) (TRef.of (T := ⟨S64x16x32x1, .f32⟩) main_call42_v0) (extractStridedSlice S64x16x32x1 ![0, 0, 0, 511] · slices_S64x16x32x512_S64x16x32x1_0_0_0_511),
    TRef.unary (TRef.of (T := ⟨S64x16x32x512, .f32⟩) main_arg2) (TRef.of (T := ⟨S64x16x32x511, .f32⟩) main_call42_v1) (extractStridedSlice S64x16x32x511 ![0, 0, 0, 0] · slices_S64x16x32x512_S64x16x32x511_0_0_0_0),
    TRef.binary (TRef.of (T := ⟨S64x16x32x1, .f32⟩) main_call42_v0) (TRef.of (T := ⟨S64x16x32x511, .f32⟩) main_call42_v1) (TRef.of (T := ⟨S64x16x32x512, .f32⟩) main_v221) (fun a b => concatenate S64x16x32x512 3 [⟨S64x16x32x1, a⟩, ⟨S64x16x32x511, b⟩] concatenates_S64x16x32x1_S64x16x32x511_S64x16x32x512_d3),
    TRef.unary (TRef.of (T := ⟨S64x1x32x512, .i1⟩) main_arg5) (TRef.of (T := ⟨S64x1x32x1, .i1⟩) main_call43_v0) (extractStridedSlice S64x1x32x1 ![0, 0, 0, 511] · slices_S64x1x32x512_S64x1x32x1_0_0_0_511),
    TRef.unary (TRef.of (T := ⟨S64x1x32x512, .i1⟩) main_arg5) (TRef.of (T := ⟨S64x1x32x511, .i1⟩) main_call43_v1) (extractStridedSlice S64x1x32x511 ![0, 0, 0, 0] · slices_S64x1x32x512_S64x1x32x511_0_0_0_0),
    TRef.binary (TRef.of (T := ⟨S64x1x32x1, .i1⟩) main_call43_v0) (TRef.of (T := ⟨S64x1x32x511, .i1⟩) main_call43_v1) (TRef.of (T := ⟨S64x1x32x512, .i1⟩) main_v222) (fun a b => concatenate S64x1x32x512 3 [⟨S64x1x32x1, a⟩, ⟨S64x1x32x511, b⟩] concatenates_S64x1x32x1_S64x1x32x511_S64x1x32x512_d3),
    binary main_arg3 main_v222 main_v223 (andi : (⟨S64x1x32x512, .i1⟩ : BufTy).Contents (Elt F) → (⟨S64x1x32x512, .i1⟩ : BufTy).Contents (Elt F) → (⟨S64x1x32x512, .i1⟩ : BufTy).Contents (Elt F)),
    binary main_arg0 main_v221 main_v224 (subf : (⟨S64x16x32x512, .f32⟩ : BufTy).Contents (Elt F) → (⟨S64x16x32x512, .f32⟩ : BufTy).Contents (Elt F) → (⟨S64x16x32x512, .f32⟩ : BufTy).Contents (Elt F)),
    nullary main_cst_69 (constant S_ .f32 0x00000000#32),
    TRef.unary (TRef.of (T := ⟨S_, .f32⟩) main_cst_69) (TRef.of (T := ⟨S_, .f32⟩) main_call44_v0) id,
    TRef.unary (TRef.of (T := ⟨S64x1x32x512, .i1⟩) main_v223) (TRef.of (T := ⟨S64x16x32x512, .i1⟩) main_call44_v1) (broadcastInDim S64x16x32x512 ![0, 1, 2, 3] bcast_S64x1x32x512_S64x16x32x512_0_1_2_3),
    TRef.unary (TRef.of (T := ⟨S_, .f32⟩) main_call44_v0) (TRef.of (T := ⟨S64x16x32x512, .f32⟩) main_call44_v2) (broadcastInDim S64x16x32x512 ![] bcast_S_S64x16x32x512),
    TRef.ternary (TRef.of (T := ⟨S64x16x32x512, .i1⟩) main_call44_v1) (TRef.of (T := ⟨S64x16x32x512, .f32⟩) main_v224) (TRef.of (T := ⟨S64x16x32x512, .f32⟩) main_call44_v2) (TRef.of (T := ⟨S64x16x32x512, .f32⟩) main_v225) select,
    binary main_v225 main_v225 main_v226 (mulf : (⟨S64x16x32x512, .f32⟩ : BufTy).Contents (Elt F) → (⟨S64x16x32x512, .f32⟩ : BufTy).Contents (Elt F) → (⟨S64x16x32x512, .f32⟩ : BufTy).Contents (Elt F)),
    nullary main_cst_70 (constant S_ .f32 0x00000000#32),
    binary main_v226 main_cst_70 main_v227 ((fun x v => Host.reduceAdd x v reducesTo_S64x16x32x512_S64_d1_2_3 h_S_) : (⟨S64x16x32x512, .f32⟩ : BufTy).Contents (Elt F) → (⟨S_, .f32⟩ : BufTy).Contents (Elt F) → (⟨S64, .f32⟩ : BufTy).Contents (Elt F)),
    unary main_v223 main_v228 ((extui 32 · natLt_1_32) : (⟨S64x1x32x512, .i1⟩ : BufTy).Contents (Elt F) → (⟨S64x1x32x512, .i32⟩ : BufTy).Contents (Elt F)),
    nullary main_c_71 (constantI S_ 32 0#32),
    binary main_v228 main_c_71 main_v229 ((fun x v => Host.reduce IntOp.addi x v reducesTo_S64x1x32x512_S64_d1_2_3 h_S_) : (⟨S64x1x32x512, .i32⟩ : BufTy).Contents (Elt F) → (⟨S_, .i32⟩ : BufTy).Contents (Elt F) → (⟨S64, .i32⟩ : BufTy).Contents (Elt F)),
    unary main_v229 main_v230 (sitofp .f32 : (⟨S64, .i32⟩ : BufTy).Contents (Elt F) → (⟨S64, .f32⟩ : BufTy).Contents (Elt F)),
    nullary main_cst_72 (constant S_ .f32 0x41800000#32),
    unary main_cst_72 main_v231 (broadcastInDim S64 ![] bcast_S_S64 : (⟨S_, .f32⟩ : BufTy).Contents (Elt F) → (⟨S64, .f32⟩ : BufTy).Contents (Elt F)),
    binary main_v231 main_v230 main_v232 (mulf : (⟨S64, .f32⟩ : BufTy).Contents (Elt F) → (⟨S64, .f32⟩ : BufTy).Contents (Elt F) → (⟨S64, .f32⟩ : BufTy).Contents (Elt F)),
    nullary main_cst_73 (constant S_ .f32 0x3A83126F#32),
    unary main_cst_73 main_v233 (broadcastInDim S64 ![] bcast_S_S64 : (⟨S_, .f32⟩ : BufTy).Contents (Elt F) → (⟨S64, .f32⟩ : BufTy).Contents (Elt F)),
    binary main_v232 main_v233 main_v234 (addf : (⟨S64, .f32⟩ : BufTy).Contents (Elt F) → (⟨S64, .f32⟩ : BufTy).Contents (Elt F) → (⟨S64, .f32⟩ : BufTy).Contents (Elt F)),
    binary main_v227 main_v234 main_v235 (Host.divf : (⟨S64, .f32⟩ : BufTy).Contents (Elt F) → (⟨S64, .f32⟩ : BufTy).Contents (Elt F) → (⟨S64, .f32⟩ : BufTy).Contents (Elt F)) ]

/-- Every buffer they touch is a TensorCore buffer. -/
theorem sub : (ops : List (HloOp τ sig (Elt F))).Forall fun op => op.bufs ⊆ tcRefs τ sig :=
  ⟨unary_bufs_sub .., unary_bufs_sub .., binary_bufs_sub .., unary_bufs_sub .., unary_bufs_sub .., binary_bufs_sub .., binary_bufs_sub .., binary_bufs_sub .., nullary_bufs_sub .., unary_bufs_sub .., unary_bufs_sub .., unary_bufs_sub .., ternary_bufs_sub .., binary_bufs_sub .., nullary_bufs_sub .., binary_bufs_sub .., unary_bufs_sub .., nullary_bufs_sub .., binary_bufs_sub .., unary_bufs_sub .., nullary_bufs_sub .., unary_bufs_sub .., binary_bufs_sub .., nullary_bufs_sub .., unary_bufs_sub .., binary_bufs_sub .., binary_bufs_sub ..⟩

/-- None of them allocates. -/
theorem fresh : ∀ op ∈ (ops : List (HloOp τ sig (Elt F))), op.fresh = ∅ := by
  intro _ h; (repeat (cases h with | head => rfl | tail _ h => ?_)); exact nomatch h

/-- The buffers they write. -/
abbrev W : List (Ref sig .tc) := [main_call42_v0, main_call42_v1, main_v221, main_call43_v0, main_call43_v1, main_v222, main_v223, main_v224, main_cst_69, main_call44_v0, main_call44_v1, main_call44_v2, main_v225, main_v226, main_cst_70, main_v227, main_v228, main_c_71, main_v229, main_v230, main_cst_72, main_v231, main_v232, main_cst_73, main_v233, main_v234, main_v235]

theorem writes : (ops : List (HloOp τ sig (Elt F))).Forall fun op =>
    op.writes ⊆ (W.map (Proc.devRef (τ := τ) .tc)).toFinset := by
  simp only [List.Forall]
  exact ⟨(by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide))⟩

/-- A buffer they do not write keeps its contents. -/
theorem keep (V : Valuation τ sig (Elt F)) (r : Ref sig .tc) (h : r ∉ W) :
    after ops V (Proc.devRef .tc r) = V (Proc.devRef .tc r) :=
  after_of_writes_sub ops V writes h

/-- The contents after these operations. -/
def aft (V : Valuation τ sig (Elt F)) : Valuation τ sig (Elt F) := after ops V

theorem aft_keep (V : Valuation τ sig (Elt F)) (r : Ref sig .tc) (h : r ∉ W) :
    aft V (no_index (Proc.devRef .tc r)) = V (Proc.devRef .tc r) :=
  keep V r h

/-- The distance the last operation leaves, as the one-shift function of the argument arrays' contents. -/
theorem aft_value (V : Valuation τ sig (Elt Ideal)) :
    aft (F := Ideal) V (no_index (Proc.devRef .tc main_v235))
      = Cert.ShiftLoss.RefMath.shiftDist 1 511 rfl (V (Proc.devRef .tc main_arg0)) (V (Proc.devRef .tc main_arg2))
          (V (Proc.devRef .tc main_arg3)) (V (Proc.devRef .tc main_arg5)) := by
  show after (ops (F := Ideal)) V (Proc.devRef .tc main_v235) = _
  after_results_simp <;> rfl

end Cert.ReferenceIdeal.RefRun.SB5

end
-- ==== Proof.Ref.P4.lean ====
/-
  Window 4 of the reference's @main (its statements 241 to 300) is the sequence of these chunks' operations: the calls
  unfold to their bodies' operations in place.
-/
import proofs.«122145_j70437463654548_2_alg».proof.Proof.Ref.Sh.SB2
import proofs.«122145_j70437463654548_2_alg».proof.Proof.Ref.Sh.SB3
import proofs.«122145_j70437463654548_2_alg».proof.Proof.Ref.Sh.SB4
import proofs.«122145_j70437463654548_2_alg».proof.Proof.Ref.Sh.SB5

noncomputable section

namespace Cert.ReferenceIdeal.RefRun.P4

open Cert.ReferenceIdeal Cert.ReferenceIdeal.Gen Idealize.ShloMosaic Idealize.ShloMosaic.TcCoe Idealize.SL.Sem Idealize.ShloMosaic.StableHlo
open Cert.ReferenceIdeal.RefRun

variable {F : FTy → Type} [FloatOps F]

/-- The window's operations. -/
def L : List (HloOp τ sig (Elt F)) := (SB2.ops (F := F)).drop 15 ++ (SB3.ops (F := F) ++ (SB4.ops (F := F) ++ ((SB5.ops (F := F)).take 15)))

set_option maxRecDepth 8192 in
set_option maxHeartbeats 4000000 in
theorem eq (d : Dev nD) : main_part4 (F := F) d = seq L := rfl

end Cert.ReferenceIdeal.RefRun.P4

end
-- ==== Proof.Ref.Sh.SB6.lean ====
/-
  Shift 6 (offset 2) of the second pair of the reference: the 27 host operations that compute its per-row distance,
  what they write, and the distance they leave in their last buffer as the one-shift function of the four argument arrays.
-/
import proofs.«122145_j70437463654548_2_alg».proof.Proof.Gen.ReferenceIdeal
import proofs.«122145_j70437463654548_2_alg».proof.Proof.Ref.Math
import Idealize.ShloMosaic.Lib.StableHlo.Run

noncomputable section

namespace Cert.ReferenceIdeal.RefRun.SB6

open Cert.ReferenceIdeal Cert.ReferenceIdeal.Gen Idealize.ShloMosaic Idealize.ShloMosaic.TcCoe Idealize.SL.Sem Idealize.ShloMosaic.StableHlo

variable {F : FTy → Type} [FloatOps F]

/-- The operations, in order. -/
abbrev ops : List (HloOp τ sig (Elt F)) :=
  [ TRef.unary (TRef.of (T := ⟨S64x16x32x512, .f32⟩) main_arg2) (TRef.of (T := ⟨S64x16x32x2, .f32⟩) main_call45_v0) (extractStridedSlice S64x16x32x2 ![0, 0, 0, 510] · slices_S64x16x32x512_S64x16x32x2_0_0_0_510),
    TRef.unary (TRef.of (T := ⟨S64x16x32x512, .f32⟩) main_arg2) (TRef.of (T := ⟨S64x16x32x510, .f32⟩) main_call45_v1) (extractStridedSlice S64x16x32x510 ![0, 0, 0, 0] · slices_S64x16x32x512_S64x16x32x510_0_0_0_0),
    TRef.binary (TRef.of (T := ⟨S64x16x32x2, .f32⟩) main_call45_v0) (TRef.of (T := ⟨S64x16x32x510, .f32⟩) main_call45_v1) (TRef.of (T := ⟨S64x16x32x512, .f32⟩) main_v236) (fun a b => concatenate S64x16x32x512 3 [⟨S64x16x32x2, a⟩, ⟨S64x16x32x510, b⟩] concatenates_S64x16x32x2_S64x16x32x510_S64x16x32x512_d3),
    TRef.unary (TRef.of (T := ⟨S64x1x32x512, .i1⟩) main_arg5) (TRef.of (T := ⟨S64x1x32x2, .i1⟩) main_call46_v0) (extractStridedSlice S64x1x32x2 ![0, 0, 0, 510] · slices_S64x1x32x512_S64x1x32x2_0_0_0_510),
    TRef.unary (TRef.of (T := ⟨S64x1x32x512, .i1⟩) main_arg5) (TRef.of (T := ⟨S64x1x32x510, .i1⟩) main_call46_v1) (extractStridedSlice S64x1x32x510 ![0, 0, 0, 0] · slices_S64x1x32x512_S64x1x32x510_0_0_0_0),
    TRef.binary (TRef.of (T := ⟨S64x1x32x2, .i1⟩) main_call46_v0) (TRef.of (T := ⟨S64x1x32x510, .i1⟩) main_call46_v1) (TRef.of (T := ⟨S64x1x32x512, .i1⟩) main_v237) (fun a b => concatenate S64x1x32x512 3 [⟨S64x1x32x2, a⟩, ⟨S64x1x32x510, b⟩] concatenates_S64x1x32x2_S64x1x32x510_S64x1x32x512_d3),
    binary main_arg3 main_v237 main_v238 (andi : (⟨S64x1x32x512, .i1⟩ : BufTy).Contents (Elt F) → (⟨S64x1x32x512, .i1⟩ : BufTy).Contents (Elt F) → (⟨S64x1x32x512, .i1⟩ : BufTy).Contents (Elt F)),
    binary main_arg0 main_v236 main_v239 (subf : (⟨S64x16x32x512, .f32⟩ : BufTy).Contents (Elt F) → (⟨S64x16x32x512, .f32⟩ : BufTy).Contents (Elt F) → (⟨S64x16x32x512, .f32⟩ : BufTy).Contents (Elt F)),
    nullary main_cst_74 (constant S_ .f32 0x00000000#32),
    TRef.unary (TRef.of (T := ⟨S_, .f32⟩) main_cst_74) (TRef.of (T := ⟨S_, .f32⟩) main_call47_v0) id,
    TRef.unary (TRef.of (T := ⟨S64x1x32x512, .i1⟩) main_v238) (TRef.of (T := ⟨S64x16x32x512, .i1⟩) main_call47_v1) (broadcastInDim S64x16x32x512 ![0, 1, 2, 3] bcast_S64x1x32x512_S64x16x32x512_0_1_2_3),
    TRef.unary (TRef.of (T := ⟨S_, .f32⟩) main_call47_v0) (TRef.of (T := ⟨S64x16x32x512, .f32⟩) main_call47_v2) (broadcastInDim S64x16x32x512 ![] bcast_S_S64x16x32x512),
    TRef.ternary (TRef.of (T := ⟨S64x16x32x512, .i1⟩) main_call47_v1) (TRef.of (T := ⟨S64x16x32x512, .f32⟩) main_v239) (TRef.of (T := ⟨S64x16x32x512, .f32⟩) main_call47_v2) (TRef.of (T := ⟨S64x16x32x512, .f32⟩) main_v240) select,
    binary main_v240 main_v240 main_v241 (mulf : (⟨S64x16x32x512, .f32⟩ : BufTy).Contents (Elt F) → (⟨S64x16x32x512, .f32⟩ : BufTy).Contents (Elt F) → (⟨S64x16x32x512, .f32⟩ : BufTy).Contents (Elt F)),
    nullary main_cst_75 (constant S_ .f32 0x00000000#32),
    binary main_v241 main_cst_75 main_v242 ((fun x v => Host.reduceAdd x v reducesTo_S64x16x32x512_S64_d1_2_3 h_S_) : (⟨S64x16x32x512, .f32⟩ : BufTy).Contents (Elt F) → (⟨S_, .f32⟩ : BufTy).Contents (Elt F) → (⟨S64, .f32⟩ : BufTy).Contents (Elt F)),
    unary main_v238 main_v243 ((extui 32 · natLt_1_32) : (⟨S64x1x32x512, .i1⟩ : BufTy).Contents (Elt F) → (⟨S64x1x32x512, .i32⟩ : BufTy).Contents (Elt F)),
    nullary main_c_76 (constantI S_ 32 0#32),
    binary main_v243 main_c_76 main_v244 ((fun x v => Host.reduce IntOp.addi x v reducesTo_S64x1x32x512_S64_d1_2_3 h_S_) : (⟨S64x1x32x512, .i32⟩ : BufTy).Contents (Elt F) → (⟨S_, .i32⟩ : BufTy).Contents (Elt F) → (⟨S64, .i32⟩ : BufTy).Contents (Elt F)),
    unary main_v244 main_v245 (sitofp .f32 : (⟨S64, .i32⟩ : BufTy).Contents (Elt F) → (⟨S64, .f32⟩ : BufTy).Contents (Elt F)),
    nullary main_cst_77 (constant S_ .f32 0x41800000#32),
    unary main_cst_77 main_v246 (broadcastInDim S64 ![] bcast_S_S64 : (⟨S_, .f32⟩ : BufTy).Contents (Elt F) → (⟨S64, .f32⟩ : BufTy).Contents (Elt F)),
    binary main_v246 main_v245 main_v247 (mulf : (⟨S64, .f32⟩ : BufTy).Contents (Elt F) → (⟨S64, .f32⟩ : BufTy).Contents (Elt F) → (⟨S64, .f32⟩ : BufTy).Contents (Elt F)),
    nullary main_cst_78 (constant S_ .f32 0x3A83126F#32),
    unary main_cst_78 main_v248 (broadcastInDim S64 ![] bcast_S_S64 : (⟨S_, .f32⟩ : BufTy).Contents (Elt F) → (⟨S64, .f32⟩ : BufTy).Contents (Elt F)),
    binary main_v247 main_v248 main_v249 (addf : (⟨S64, .f32⟩ : BufTy).Contents (Elt F) → (⟨S64, .f32⟩ : BufTy).Contents (Elt F) → (⟨S64, .f32⟩ : BufTy).Contents (Elt F)),
    binary main_v242 main_v249 main_v250 (Host.divf : (⟨S64, .f32⟩ : BufTy).Contents (Elt F) → (⟨S64, .f32⟩ : BufTy).Contents (Elt F) → (⟨S64, .f32⟩ : BufTy).Contents (Elt F)) ]

/-- Every buffer they touch is a TensorCore buffer. -/
theorem sub : (ops : List (HloOp τ sig (Elt F))).Forall fun op => op.bufs ⊆ tcRefs τ sig :=
  ⟨unary_bufs_sub .., unary_bufs_sub .., binary_bufs_sub .., unary_bufs_sub .., unary_bufs_sub .., binary_bufs_sub .., binary_bufs_sub .., binary_bufs_sub .., nullary_bufs_sub .., unary_bufs_sub .., unary_bufs_sub .., unary_bufs_sub .., ternary_bufs_sub .., binary_bufs_sub .., nullary_bufs_sub .., binary_bufs_sub .., unary_bufs_sub .., nullary_bufs_sub .., binary_bufs_sub .., unary_bufs_sub .., nullary_bufs_sub .., unary_bufs_sub .., binary_bufs_sub .., nullary_bufs_sub .., unary_bufs_sub .., binary_bufs_sub .., binary_bufs_sub ..⟩

/-- None of them allocates. -/
theorem fresh : ∀ op ∈ (ops : List (HloOp τ sig (Elt F))), op.fresh = ∅ := by
  intro _ h; (repeat (cases h with | head => rfl | tail _ h => ?_)); exact nomatch h

/-- The buffers they write. -/
abbrev W : List (Ref sig .tc) := [main_call45_v0, main_call45_v1, main_v236, main_call46_v0, main_call46_v1, main_v237, main_v238, main_v239, main_cst_74, main_call47_v0, main_call47_v1, main_call47_v2, main_v240, main_v241, main_cst_75, main_v242, main_v243, main_c_76, main_v244, main_v245, main_cst_77, main_v246, main_v247, main_cst_78, main_v248, main_v249, main_v250]

theorem writes : (ops : List (HloOp τ sig (Elt F))).Forall fun op =>
    op.writes ⊆ (W.map (Proc.devRef (τ := τ) .tc)).toFinset := by
  simp only [List.Forall]
  exact ⟨(by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide))⟩

/-- A buffer they do not write keeps its contents. -/
theorem keep (V : Valuation τ sig (Elt F)) (r : Ref sig .tc) (h : r ∉ W) :
    after ops V (Proc.devRef .tc r) = V (Proc.devRef .tc r) :=
  after_of_writes_sub ops V writes h

/-- The contents after these operations. -/
def aft (V : Valuation τ sig (Elt F)) : Valuation τ sig (Elt F) := after ops V

theorem aft_keep (V : Valuation τ sig (Elt F)) (r : Ref sig .tc) (h : r ∉ W) :
    aft V (no_index (Proc.devRef .tc r)) = V (Proc.devRef .tc r) :=
  keep V r h

/-- The distance the last operation leaves, as the one-shift function of the argument arrays' contents. -/
theorem aft_value (V : Valuation τ sig (Elt Ideal)) :
    aft (F := Ideal) V (no_index (Proc.devRef .tc main_v250))
      = Cert.ShiftLoss.RefMath.shiftDist 2 510 rfl (V (Proc.devRef .tc main_arg0)) (V (Proc.devRef .tc main_arg2))
          (V (Proc.devRef .tc main_arg3)) (V (Proc.devRef .tc main_arg5)) := by
  show after (ops (F := Ideal)) V (Proc.devRef .tc main_v250) = _
  after_results_simp <;> rfl

end Cert.ReferenceIdeal.RefRun.SB6

end
-- ==== Proof.Ref.Sh.SB7.lean ====
/-
  Shift 7 (offset 3) of the second pair of the reference: the 27 host operations that compute its per-row distance,
  what they write, and the distance they leave in their last buffer as the one-shift function of the four argument arrays.
-/
import proofs.«122145_j70437463654548_2_alg».proof.Proof.Gen.ReferenceIdeal
import proofs.«122145_j70437463654548_2_alg».proof.Proof.Ref.Math
import Idealize.ShloMosaic.Lib.StableHlo.Run

noncomputable section

namespace Cert.ReferenceIdeal.RefRun.SB7

open Cert.ReferenceIdeal Cert.ReferenceIdeal.Gen Idealize.ShloMosaic Idealize.ShloMosaic.TcCoe Idealize.SL.Sem Idealize.ShloMosaic.StableHlo

variable {F : FTy → Type} [FloatOps F]

/-- The operations, in order. -/
abbrev ops : List (HloOp τ sig (Elt F)) :=
  [ TRef.unary (TRef.of (T := ⟨S64x16x32x512, .f32⟩) main_arg2) (TRef.of (T := ⟨S64x16x32x3, .f32⟩) main_call48_v0) (extractStridedSlice S64x16x32x3 ![0, 0, 0, 509] · slices_S64x16x32x512_S64x16x32x3_0_0_0_509),
    TRef.unary (TRef.of (T := ⟨S64x16x32x512, .f32⟩) main_arg2) (TRef.of (T := ⟨S64x16x32x509, .f32⟩) main_call48_v1) (extractStridedSlice S64x16x32x509 ![0, 0, 0, 0] · slices_S64x16x32x512_S64x16x32x509_0_0_0_0),
    TRef.binary (TRef.of (T := ⟨S64x16x32x3, .f32⟩) main_call48_v0) (TRef.of (T := ⟨S64x16x32x509, .f32⟩) main_call48_v1) (TRef.of (T := ⟨S64x16x32x512, .f32⟩) main_v251) (fun a b => concatenate S64x16x32x512 3 [⟨S64x16x32x3, a⟩, ⟨S64x16x32x509, b⟩] concatenates_S64x16x32x3_S64x16x32x509_S64x16x32x512_d3),
    TRef.unary (TRef.of (T := ⟨S64x1x32x512, .i1⟩) main_arg5) (TRef.of (T := ⟨S64x1x32x3, .i1⟩) main_call49_v0) (extractStridedSlice S64x1x32x3 ![0, 0, 0, 509] · slices_S64x1x32x512_S64x1x32x3_0_0_0_509),
    TRef.unary (TRef.of (T := ⟨S64x1x32x512, .i1⟩) main_arg5) (TRef.of (T := ⟨S64x1x32x509, .i1⟩) main_call49_v1) (extractStridedSlice S64x1x32x509 ![0, 0, 0, 0] · slices_S64x1x32x512_S64x1x32x509_0_0_0_0),
    TRef.binary (TRef.of (T := ⟨S64x1x32x3, .i1⟩) main_call49_v0) (TRef.of (T := ⟨S64x1x32x509, .i1⟩) main_call49_v1) (TRef.of (T := ⟨S64x1x32x512, .i1⟩) main_v252) (fun a b => concatenate S64x1x32x512 3 [⟨S64x1x32x3, a⟩, ⟨S64x1x32x509, b⟩] concatenates_S64x1x32x3_S64x1x32x509_S64x1x32x512_d3),
    binary main_arg3 main_v252 main_v253 (andi : (⟨S64x1x32x512, .i1⟩ : BufTy).Contents (Elt F) → (⟨S64x1x32x512, .i1⟩ : BufTy).Contents (Elt F) → (⟨S64x1x32x512, .i1⟩ : BufTy).Contents (Elt F)),
    binary main_arg0 main_v251 main_v254 (subf : (⟨S64x16x32x512, .f32⟩ : BufTy).Contents (Elt F) → (⟨S64x16x32x512, .f32⟩ : BufTy).Contents (Elt F) → (⟨S64x16x32x512, .f32⟩ : BufTy).Contents (Elt F)),
    nullary main_cst_79 (constant S_ .f32 0x00000000#32),
    TRef.unary (TRef.of (T := ⟨S_, .f32⟩) main_cst_79) (TRef.of (T := ⟨S_, .f32⟩) main_call50_v0) id,
    TRef.unary (TRef.of (T := ⟨S64x1x32x512, .i1⟩) main_v253) (TRef.of (T := ⟨S64x16x32x512, .i1⟩) main_call50_v1) (broadcastInDim S64x16x32x512 ![0, 1, 2, 3] bcast_S64x1x32x512_S64x16x32x512_0_1_2_3),
    TRef.unary (TRef.of (T := ⟨S_, .f32⟩) main_call50_v0) (TRef.of (T := ⟨S64x16x32x512, .f32⟩) main_call50_v2) (broadcastInDim S64x16x32x512 ![] bcast_S_S64x16x32x512),
    TRef.ternary (TRef.of (T := ⟨S64x16x32x512, .i1⟩) main_call50_v1) (TRef.of (T := ⟨S64x16x32x512, .f32⟩) main_v254) (TRef.of (T := ⟨S64x16x32x512, .f32⟩) main_call50_v2) (TRef.of (T := ⟨S64x16x32x512, .f32⟩) main_v255) select,
    binary main_v255 main_v255 main_v256 (mulf : (⟨S64x16x32x512, .f32⟩ : BufTy).Contents (Elt F) → (⟨S64x16x32x512, .f32⟩ : BufTy).Contents (Elt F) → (⟨S64x16x32x512, .f32⟩ : BufTy).Contents (Elt F)),
    nullary main_cst_80 (constant S_ .f32 0x00000000#32),
    binary main_v256 main_cst_80 main_v257 ((fun x v => Host.reduceAdd x v reducesTo_S64x16x32x512_S64_d1_2_3 h_S_) : (⟨S64x16x32x512, .f32⟩ : BufTy).Contents (Elt F) → (⟨S_, .f32⟩ : BufTy).Contents (Elt F) → (⟨S64, .f32⟩ : BufTy).Contents (Elt F)),
    unary main_v253 main_v258 ((extui 32 · natLt_1_32) : (⟨S64x1x32x512, .i1⟩ : BufTy).Contents (Elt F) → (⟨S64x1x32x512, .i32⟩ : BufTy).Contents (Elt F)),
    nullary main_c_81 (constantI S_ 32 0#32),
    binary main_v258 main_c_81 main_v259 ((fun x v => Host.reduce IntOp.addi x v reducesTo_S64x1x32x512_S64_d1_2_3 h_S_) : (⟨S64x1x32x512, .i32⟩ : BufTy).Contents (Elt F) → (⟨S_, .i32⟩ : BufTy).Contents (Elt F) → (⟨S64, .i32⟩ : BufTy).Contents (Elt F)),
    unary main_v259 main_v260 (sitofp .f32 : (⟨S64, .i32⟩ : BufTy).Contents (Elt F) → (⟨S64, .f32⟩ : BufTy).Contents (Elt F)),
    nullary main_cst_82 (constant S_ .f32 0x41800000#32),
    unary main_cst_82 main_v261 (broadcastInDim S64 ![] bcast_S_S64 : (⟨S_, .f32⟩ : BufTy).Contents (Elt F) → (⟨S64, .f32⟩ : BufTy).Contents (Elt F)),
    binary main_v261 main_v260 main_v262 (mulf : (⟨S64, .f32⟩ : BufTy).Contents (Elt F) → (⟨S64, .f32⟩ : BufTy).Contents (Elt F) → (⟨S64, .f32⟩ : BufTy).Contents (Elt F)),
    nullary main_cst_83 (constant S_ .f32 0x3A83126F#32),
    unary main_cst_83 main_v263 (broadcastInDim S64 ![] bcast_S_S64 : (⟨S_, .f32⟩ : BufTy).Contents (Elt F) → (⟨S64, .f32⟩ : BufTy).Contents (Elt F)),
    binary main_v262 main_v263 main_v264 (addf : (⟨S64, .f32⟩ : BufTy).Contents (Elt F) → (⟨S64, .f32⟩ : BufTy).Contents (Elt F) → (⟨S64, .f32⟩ : BufTy).Contents (Elt F)),
    binary main_v257 main_v264 main_v265 (Host.divf : (⟨S64, .f32⟩ : BufTy).Contents (Elt F) → (⟨S64, .f32⟩ : BufTy).Contents (Elt F) → (⟨S64, .f32⟩ : BufTy).Contents (Elt F)) ]

/-- Every buffer they touch is a TensorCore buffer. -/
theorem sub : (ops : List (HloOp τ sig (Elt F))).Forall fun op => op.bufs ⊆ tcRefs τ sig :=
  ⟨unary_bufs_sub .., unary_bufs_sub .., binary_bufs_sub .., unary_bufs_sub .., unary_bufs_sub .., binary_bufs_sub .., binary_bufs_sub .., binary_bufs_sub .., nullary_bufs_sub .., unary_bufs_sub .., unary_bufs_sub .., unary_bufs_sub .., ternary_bufs_sub .., binary_bufs_sub .., nullary_bufs_sub .., binary_bufs_sub .., unary_bufs_sub .., nullary_bufs_sub .., binary_bufs_sub .., unary_bufs_sub .., nullary_bufs_sub .., unary_bufs_sub .., binary_bufs_sub .., nullary_bufs_sub .., unary_bufs_sub .., binary_bufs_sub .., binary_bufs_sub ..⟩

/-- None of them allocates. -/
theorem fresh : ∀ op ∈ (ops : List (HloOp τ sig (Elt F))), op.fresh = ∅ := by
  intro _ h; (repeat (cases h with | head => rfl | tail _ h => ?_)); exact nomatch h

/-- The buffers they write. -/
abbrev W : List (Ref sig .tc) := [main_call48_v0, main_call48_v1, main_v251, main_call49_v0, main_call49_v1, main_v252, main_v253, main_v254, main_cst_79, main_call50_v0, main_call50_v1, main_call50_v2, main_v255, main_v256, main_cst_80, main_v257, main_v258, main_c_81, main_v259, main_v260, main_cst_82, main_v261, main_v262, main_cst_83, main_v263, main_v264, main_v265]

theorem writes : (ops : List (HloOp τ sig (Elt F))).Forall fun op =>
    op.writes ⊆ (W.map (Proc.devRef (τ := τ) .tc)).toFinset := by
  simp only [List.Forall]
  exact ⟨(by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide))⟩

/-- A buffer they do not write keeps its contents. -/
theorem keep (V : Valuation τ sig (Elt F)) (r : Ref sig .tc) (h : r ∉ W) :
    after ops V (Proc.devRef .tc r) = V (Proc.devRef .tc r) :=
  after_of_writes_sub ops V writes h

/-- The contents after these operations. -/
def aft (V : Valuation τ sig (Elt F)) : Valuation τ sig (Elt F) := after ops V

theorem aft_keep (V : Valuation τ sig (Elt F)) (r : Ref sig .tc) (h : r ∉ W) :
    aft V (no_index (Proc.devRef .tc r)) = V (Proc.devRef .tc r) :=
  keep V r h

/-- The distance the last operation leaves, as the one-shift function of the argument arrays' contents. -/
theorem aft_value (V : Valuation τ sig (Elt Ideal)) :
    aft (F := Ideal) V (no_index (Proc.devRef .tc main_v265))
      = Cert.ShiftLoss.RefMath.shiftDist 3 509 rfl (V (Proc.devRef .tc main_arg0)) (V (Proc.devRef .tc main_arg2))
          (V (Proc.devRef .tc main_arg3)) (V (Proc.devRef .tc main_arg5)) := by
  show after (ops (F := Ideal)) V (Proc.devRef .tc main_v265) = _
  after_results_simp <;> rfl

end Cert.ReferenceIdeal.RefRun.SB7

end
-- ==== Proof.Ref.Sh.SB8.lean ====
/-
  Shift 8 (offset 4) of the second pair of the reference: the 27 host operations that compute its per-row distance,
  what they write, and the distance they leave in their last buffer as the one-shift function of the four argument arrays.
-/
import proofs.«122145_j70437463654548_2_alg».proof.Proof.Gen.ReferenceIdeal
import proofs.«122145_j70437463654548_2_alg».proof.Proof.Ref.Math
import Idealize.ShloMosaic.Lib.StableHlo.Run

noncomputable section

namespace Cert.ReferenceIdeal.RefRun.SB8

open Cert.ReferenceIdeal Cert.ReferenceIdeal.Gen Idealize.ShloMosaic Idealize.ShloMosaic.TcCoe Idealize.SL.Sem Idealize.ShloMosaic.StableHlo

variable {F : FTy → Type} [FloatOps F]

/-- The operations, in order. -/
abbrev ops : List (HloOp τ sig (Elt F)) :=
  [ TRef.unary (TRef.of (T := ⟨S64x16x32x512, .f32⟩) main_arg2) (TRef.of (T := ⟨S64x16x32x4, .f32⟩) main_call51_v0) (extractStridedSlice S64x16x32x4 ![0, 0, 0, 508] · slices_S64x16x32x512_S64x16x32x4_0_0_0_508),
    TRef.unary (TRef.of (T := ⟨S64x16x32x512, .f32⟩) main_arg2) (TRef.of (T := ⟨S64x16x32x508, .f32⟩) main_call51_v1) (extractStridedSlice S64x16x32x508 ![0, 0, 0, 0] · slices_S64x16x32x512_S64x16x32x508_0_0_0_0),
    TRef.binary (TRef.of (T := ⟨S64x16x32x4, .f32⟩) main_call51_v0) (TRef.of (T := ⟨S64x16x32x508, .f32⟩) main_call51_v1) (TRef.of (T := ⟨S64x16x32x512, .f32⟩) main_v266) (fun a b => concatenate S64x16x32x512 3 [⟨S64x16x32x4, a⟩, ⟨S64x16x32x508, b⟩] concatenates_S64x16x32x4_S64x16x32x508_S64x16x32x512_d3),
    TRef.unary (TRef.of (T := ⟨S64x1x32x512, .i1⟩) main_arg5) (TRef.of (T := ⟨S64x1x32x4, .i1⟩) main_call52_v0) (extractStridedSlice S64x1x32x4 ![0, 0, 0, 508] · slices_S64x1x32x512_S64x1x32x4_0_0_0_508),
    TRef.unary (TRef.of (T := ⟨S64x1x32x512, .i1⟩) main_arg5) (TRef.of (T := ⟨S64x1x32x508, .i1⟩) main_call52_v1) (extractStridedSlice S64x1x32x508 ![0, 0, 0, 0] · slices_S64x1x32x512_S64x1x32x508_0_0_0_0),
    TRef.binary (TRef.of (T := ⟨S64x1x32x4, .i1⟩) main_call52_v0) (TRef.of (T := ⟨S64x1x32x508, .i1⟩) main_call52_v1) (TRef.of (T := ⟨S64x1x32x512, .i1⟩) main_v267) (fun a b => concatenate S64x1x32x512 3 [⟨S64x1x32x4, a⟩, ⟨S64x1x32x508, b⟩] concatenates_S64x1x32x4_S64x1x32x508_S64x1x32x512_d3),
    binary main_arg3 main_v267 main_v268 (andi : (⟨S64x1x32x512, .i1⟩ : BufTy).Contents (Elt F) → (⟨S64x1x32x512, .i1⟩ : BufTy).Contents (Elt F) → (⟨S64x1x32x512, .i1⟩ : BufTy).Contents (Elt F)),
    binary main_arg0 main_v266 main_v269 (subf : (⟨S64x16x32x512, .f32⟩ : BufTy).Contents (Elt F) → (⟨S64x16x32x512, .f32⟩ : BufTy).Contents (Elt F) → (⟨S64x16x32x512, .f32⟩ : BufTy).Contents (Elt F)),
    nullary main_cst_84 (constant S_ .f32 0x00000000#32),
    TRef.unary (TRef.of (T := ⟨S_, .f32⟩) main_cst_84) (TRef.of (T := ⟨S_, .f32⟩) main_call53_v0) id,
    TRef.unary (TRef.of (T := ⟨S64x1x32x512, .i1⟩) main_v268) (TRef.of (T := ⟨S64x16x32x512, .i1⟩) main_call53_v1) (broadcastInDim S64x16x32x512 ![0, 1, 2, 3] bcast_S64x1x32x512_S64x16x32x512_0_1_2_3),
    TRef.unary (TRef.of (T := ⟨S_, .f32⟩) main_call53_v0) (TRef.of (T := ⟨S64x16x32x512, .f32⟩) main_call53_v2) (broadcastInDim S64x16x32x512 ![] bcast_S_S64x16x32x512),
    TRef.ternary (TRef.of (T := ⟨S64x16x32x512, .i1⟩) main_call53_v1) (TRef.of (T := ⟨S64x16x32x512, .f32⟩) main_v269) (TRef.of (T := ⟨S64x16x32x512, .f32⟩) main_call53_v2) (TRef.of (T := ⟨S64x16x32x512, .f32⟩) main_v270) select,
    binary main_v270 main_v270 main_v271 (mulf : (⟨S64x16x32x512, .f32⟩ : BufTy).Contents (Elt F) → (⟨S64x16x32x512, .f32⟩ : BufTy).Contents (Elt F) → (⟨S64x16x32x512, .f32⟩ : BufTy).Contents (Elt F)),
    nullary main_cst_85 (constant S_ .f32 0x00000000#32),
    binary main_v271 main_cst_85 main_v272 ((fun x v => Host.reduceAdd x v reducesTo_S64x16x32x512_S64_d1_2_3 h_S_) : (⟨S64x16x32x512, .f32⟩ : BufTy).Contents (Elt F) → (⟨S_, .f32⟩ : BufTy).Contents (Elt F) → (⟨S64, .f32⟩ : BufTy).Contents (Elt F)),
    unary main_v268 main_v273 ((extui 32 · natLt_1_32) : (⟨S64x1x32x512, .i1⟩ : BufTy).Contents (Elt F) → (⟨S64x1x32x512, .i32⟩ : BufTy).Contents (Elt F)),
    nullary main_c_86 (constantI S_ 32 0#32),
    binary main_v273 main_c_86 main_v274 ((fun x v => Host.reduce IntOp.addi x v reducesTo_S64x1x32x512_S64_d1_2_3 h_S_) : (⟨S64x1x32x512, .i32⟩ : BufTy).Contents (Elt F) → (⟨S_, .i32⟩ : BufTy).Contents (Elt F) → (⟨S64, .i32⟩ : BufTy).Contents (Elt F)),
    unary main_v274 main_v275 (sitofp .f32 : (⟨S64, .i32⟩ : BufTy).Contents (Elt F) → (⟨S64, .f32⟩ : BufTy).Contents (Elt F)),
    nullary main_cst_87 (constant S_ .f32 0x41800000#32),
    unary main_cst_87 main_v276 (broadcastInDim S64 ![] bcast_S_S64 : (⟨S_, .f32⟩ : BufTy).Contents (Elt F) → (⟨S64, .f32⟩ : BufTy).Contents (Elt F)),
    binary main_v276 main_v275 main_v277 (mulf : (⟨S64, .f32⟩ : BufTy).Contents (Elt F) → (⟨S64, .f32⟩ : BufTy).Contents (Elt F) → (⟨S64, .f32⟩ : BufTy).Contents (Elt F)),
    nullary main_cst_88 (constant S_ .f32 0x3A83126F#32),
    unary main_cst_88 main_v278 (broadcastInDim S64 ![] bcast_S_S64 : (⟨S_, .f32⟩ : BufTy).Contents (Elt F) → (⟨S64, .f32⟩ : BufTy).Contents (Elt F)),
    binary main_v277 main_v278 main_v279 (addf : (⟨S64, .f32⟩ : BufTy).Contents (Elt F) → (⟨S64, .f32⟩ : BufTy).Contents (Elt F) → (⟨S64, .f32⟩ : BufTy).Contents (Elt F)),
    binary main_v272 main_v279 main_v280 (Host.divf : (⟨S64, .f32⟩ : BufTy).Contents (Elt F) → (⟨S64, .f32⟩ : BufTy).Contents (Elt F) → (⟨S64, .f32⟩ : BufTy).Contents (Elt F)) ]

/-- Every buffer they touch is a TensorCore buffer. -/
theorem sub : (ops : List (HloOp τ sig (Elt F))).Forall fun op => op.bufs ⊆ tcRefs τ sig :=
  ⟨unary_bufs_sub .., unary_bufs_sub .., binary_bufs_sub .., unary_bufs_sub .., unary_bufs_sub .., binary_bufs_sub .., binary_bufs_sub .., binary_bufs_sub .., nullary_bufs_sub .., unary_bufs_sub .., unary_bufs_sub .., unary_bufs_sub .., ternary_bufs_sub .., binary_bufs_sub .., nullary_bufs_sub .., binary_bufs_sub .., unary_bufs_sub .., nullary_bufs_sub .., binary_bufs_sub .., unary_bufs_sub .., nullary_bufs_sub .., unary_bufs_sub .., binary_bufs_sub .., nullary_bufs_sub .., unary_bufs_sub .., binary_bufs_sub .., binary_bufs_sub ..⟩

/-- None of them allocates. -/
theorem fresh : ∀ op ∈ (ops : List (HloOp τ sig (Elt F))), op.fresh = ∅ := by
  intro _ h; (repeat (cases h with | head => rfl | tail _ h => ?_)); exact nomatch h

/-- The buffers they write. -/
abbrev W : List (Ref sig .tc) := [main_call51_v0, main_call51_v1, main_v266, main_call52_v0, main_call52_v1, main_v267, main_v268, main_v269, main_cst_84, main_call53_v0, main_call53_v1, main_call53_v2, main_v270, main_v271, main_cst_85, main_v272, main_v273, main_c_86, main_v274, main_v275, main_cst_87, main_v276, main_v277, main_cst_88, main_v278, main_v279, main_v280]

theorem writes : (ops : List (HloOp τ sig (Elt F))).Forall fun op =>
    op.writes ⊆ (W.map (Proc.devRef (τ := τ) .tc)).toFinset := by
  simp only [List.Forall]
  exact ⟨(by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide))⟩

/-- A buffer they do not write keeps its contents. -/
theorem keep (V : Valuation τ sig (Elt F)) (r : Ref sig .tc) (h : r ∉ W) :
    after ops V (Proc.devRef .tc r) = V (Proc.devRef .tc r) :=
  after_of_writes_sub ops V writes h

/-- The contents after these operations. -/
def aft (V : Valuation τ sig (Elt F)) : Valuation τ sig (Elt F) := after ops V

theorem aft_keep (V : Valuation τ sig (Elt F)) (r : Ref sig .tc) (h : r ∉ W) :
    aft V (no_index (Proc.devRef .tc r)) = V (Proc.devRef .tc r) :=
  keep V r h

/-- The distance the last operation leaves, as the one-shift function of the argument arrays' contents. -/
theorem aft_value (V : Valuation τ sig (Elt Ideal)) :
    aft (F := Ideal) V (no_index (Proc.devRef .tc main_v280))
      = Cert.ShiftLoss.RefMath.shiftDist 4 508 rfl (V (Proc.devRef .tc main_arg0)) (V (Proc.devRef .tc main_arg2))
          (V (Proc.devRef .tc main_arg3)) (V (Proc.devRef .tc main_arg5)) := by
  show after (ops (F := Ideal)) V (Proc.devRef .tc main_v280) = _
  after_results_simp <;> rfl

end Cert.ReferenceIdeal.RefRun.SB8

end
-- ==== Proof.Ref.P5.lean ====
/-
  Window 5 of the reference's @main (its statements 301 to 360) is the sequence of these chunks' operations: the calls
  unfold to their bodies' operations in place.
-/
import proofs.«122145_j70437463654548_2_alg».proof.Proof.Ref.Sh.SB5
import proofs.«122145_j70437463654548_2_alg».proof.Proof.Ref.Sh.SB6
import proofs.«122145_j70437463654548_2_alg».proof.Proof.Ref.Sh.SB7
import proofs.«122145_j70437463654548_2_alg».proof.Proof.Ref.Sh.SB8

noncomputable section

namespace Cert.ReferenceIdeal.RefRun.P5

open Cert.ReferenceIdeal Cert.ReferenceIdeal.Gen Idealize.ShloMosaic Idealize.ShloMosaic.TcCoe Idealize.SL.Sem Idealize.ShloMosaic.StableHlo
open Cert.ReferenceIdeal.RefRun

variable {F : FTy → Type} [FloatOps F]

/-- The window's operations. -/
def L : List (HloOp τ sig (Elt F)) := (SB5.ops (F := F)).drop 15 ++ (SB6.ops (F := F) ++ (SB7.ops (F := F) ++ ((SB8.ops (F := F)).take 15)))

set_option maxRecDepth 8192 in
set_option maxHeartbeats 4000000 in
theorem eq (d : Dev nD) : main_part5 (F := F) d = seq L := rfl

end Cert.ReferenceIdeal.RefRun.P5

end
-- ==== Proof.Ref.Sh.MB.lean ====
/-
  The least distance over the nine shifts of the second pair: the 12 host operations that stack the nine per-row
  distances and min-reduce the stack, what they write, and the vector they leave.
-/
import proofs.«122145_j70437463654548_2_alg».proof.Proof.Gen.ReferenceIdeal
import proofs.«122145_j70437463654548_2_alg».proof.Proof.Ref.Math
import Idealize.ShloMosaic.Lib.StableHlo.Run

noncomputable section

namespace Cert.ReferenceIdeal.RefRun.MB

open Cert.ReferenceIdeal Cert.ReferenceIdeal.Gen Idealize.ShloMosaic Idealize.ShloMosaic.TcCoe Idealize.SL.Sem Idealize.ShloMosaic.StableHlo

variable {F : FTy → Type} [FloatOps F]

/-- The operations, in order. -/
abbrev ops : List (HloOp τ sig (Elt F)) :=
  [ unary main_v160 main_v281 (broadcastInDim S1x64 ![1] bcast_S64_S1x64_1 : (⟨S64, .f32⟩ : BufTy).Contents (Elt F) → (⟨S1x64, .f32⟩ : BufTy).Contents (Elt F)),
    unary main_v175 main_v282 (broadcastInDim S1x64 ![1] bcast_S64_S1x64_1 : (⟨S64, .f32⟩ : BufTy).Contents (Elt F) → (⟨S1x64, .f32⟩ : BufTy).Contents (Elt F)),
    unary main_v190 main_v283 (broadcastInDim S1x64 ![1] bcast_S64_S1x64_1 : (⟨S64, .f32⟩ : BufTy).Contents (Elt F) → (⟨S1x64, .f32⟩ : BufTy).Contents (Elt F)),
    unary main_v205 main_v284 (broadcastInDim S1x64 ![1] bcast_S64_S1x64_1 : (⟨S64, .f32⟩ : BufTy).Contents (Elt F) → (⟨S1x64, .f32⟩ : BufTy).Contents (Elt F)),
    unary main_v220 main_v285 (broadcastInDim S1x64 ![1] bcast_S64_S1x64_1 : (⟨S64, .f32⟩ : BufTy).Contents (Elt F) → (⟨S1x64, .f32⟩ : BufTy).Contents (Elt F)),
    unary main_v235 main_v286 (broadcastInDim S1x64 ![1] bcast_S64_S1x64_1 : (⟨S64, .f32⟩ : BufTy).Contents (Elt F) → (⟨S1x64, .f32⟩ : BufTy).Contents (Elt F)),
    unary main_v250 main_v287 (broadcastInDim S1x64 ![1] bcast_S64_S1x64_1 : (⟨S64, .f32⟩ : BufTy).Contents (Elt F) → (⟨S1x64, .f32⟩ : BufTy).Contents (Elt F)),
    unary main_v265 main_v288 (broadcastInDim S1x64 ![1] bcast_S64_S1x64_1 : (⟨S64, .f32⟩ : BufTy).Contents (Elt F) → (⟨S1x64, .f32⟩ : BufTy).Contents (Elt F)),
    unary main_v280 main_v289 (broadcastInDim S1x64 ![1] bcast_S64_S1x64_1 : (⟨S64, .f32⟩ : BufTy).Contents (Elt F) → (⟨S1x64, .f32⟩ : BufTy).Contents (Elt F)),
    nary ![main_v281, main_v282, main_v283, main_v284, main_v285, main_v286, main_v287, main_v288, main_v289] main_v290 (fun u => concatenate S9x64 0 [⟨S1x64, u 0⟩, ⟨S1x64, u 1⟩, ⟨S1x64, u 2⟩, ⟨S1x64, u 3⟩, ⟨S1x64, u 4⟩, ⟨S1x64, u 5⟩, ⟨S1x64, u 6⟩, ⟨S1x64, u 7⟩, ⟨S1x64, u 8⟩] concatenates_S1x64_S1x64_S1x64_S1x64_S1x64_S1x64_S1x64_S1x64_S1x64_S9x64_d0),
    nullary main_cst_89 (constant S_ .f32 0x7F800000#32),
    binary main_v290 main_cst_89 main_v291 ((fun x v => Host.reduce FloatOps.minimumf x v reducesTo_S9x64_S64_d0 h_S_) : (⟨S9x64, .f32⟩ : BufTy).Contents (Elt F) → (⟨S_, .f32⟩ : BufTy).Contents (Elt F) → (⟨S64, .f32⟩ : BufTy).Contents (Elt F)) ]

/-- Every buffer they touch is a TensorCore buffer. -/
theorem sub : (ops : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., nary_bufs_sub .., nullary_bufs_sub .., binary_bufs_sub ..⟩

/-- None of them allocates. -/
theorem fresh : ∀ op ∈ (ops : List (HloOp τ sig (Elt F))), op.fresh = ∅ := by
  intro _ h; (repeat (cases h with | head => rfl | tail _ h => ?_)); exact nomatch h

/-- The buffers they write. -/
abbrev W : List (Ref sig .tc) := [main_v281, main_v282, main_v283, main_v284, main_v285, main_v286, main_v287, main_v288, main_v289, main_v290, main_cst_89, main_v291]

theorem writes : (ops : List (HloOp τ sig (Elt F))).Forall fun op =>
    op.writes ⊆ (W.map (Proc.devRef (τ := τ) .tc)).toFinset := by
  simp only [List.Forall]
  exact ⟨(by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide))⟩

/-- A buffer they do not write keeps its contents. -/
theorem keep (V : Valuation τ sig (Elt F)) (r : Ref sig .tc) (h : r ∉ W) :
    after ops V (Proc.devRef .tc r) = V (Proc.devRef .tc r) :=
  after_of_writes_sub ops V writes h

/-- The contents after these operations. -/
def aft (V : Valuation τ sig (Elt F)) : Valuation τ sig (Elt F) := after ops V

theorem aft_keep (V : Valuation τ sig (Elt F)) (r : Ref sig .tc) (h : r ∉ W) :
    aft V (no_index (Proc.devRef .tc r)) = V (Proc.devRef .tc r) :=
  keep V r h

/-- The per-row minimum the last operation leaves, from the nine distances' buffers. -/
theorem aft_value (V : Valuation τ sig (Elt Ideal)) :
    aft (F := Ideal) V (no_index (Proc.devRef .tc main_v291))
      = Cert.ShiftLoss.RefMath.minNine (V (Proc.devRef .tc main_v160)) (V (Proc.devRef .tc main_v175)) (V (Proc.devRef .tc main_v190)) (V (Proc.devRef .tc main_v205)) (V (Proc.devRef .tc main_v220)) (V (Proc.devRef .tc main_v235)) (V (Proc.devRef .tc main_v250)) (V (Proc.devRef .tc main_v265)) (V (Proc.devRef .tc main_v280)) := by
  show after (ops (F := Ideal)) V (Proc.devRef .tc main_v291) = _
  after_results_simp <;> rfl

end Cert.ReferenceIdeal.RefRun.MB

end
-- ==== Proof.Ref.Sh.T.lean ====
/-
  The tail of the reference: the 11 host operations from the two per-row losses to the result (difference, margin,
  hinge, sum over the rows, division by 64), what they write, and the result they leave.
-/
import proofs.«122145_j70437463654548_2_alg».proof.Proof.Gen.ReferenceIdeal
import proofs.«122145_j70437463654548_2_alg».proof.Proof.Ref.Math
import Idealize.ShloMosaic.Lib.StableHlo.Run

noncomputable section

namespace Cert.ReferenceIdeal.RefRun.T

open Cert.ReferenceIdeal Cert.ReferenceIdeal.Gen Idealize.ShloMosaic Idealize.ShloMosaic.TcCoe Idealize.SL.Sem Idealize.ShloMosaic.StableHlo

variable {F : FTy → Type} [FloatOps F]

/-- The operations, in order. -/
abbrev ops : List (HloOp τ sig (Elt F)) :=
  [ binary main_v145 main_v291 main_v292 (subf : (⟨S64, .f32⟩ : BufTy).Contents (Elt F) → (⟨S64, .f32⟩ : BufTy).Contents (Elt F) → (⟨S64, .f32⟩ : BufTy).Contents (Elt F)),
    nullary main_cst_90 (constant S_ .f32 0x3E19999A#32),
    unary main_cst_90 main_v293 (broadcastInDim S64 ![] bcast_S_S64 : (⟨S_, .f32⟩ : BufTy).Contents (Elt F) → (⟨S64, .f32⟩ : BufTy).Contents (Elt F)),
    binary main_v292 main_v293 main_v294 (addf : (⟨S64, .f32⟩ : BufTy).Contents (Elt F) → (⟨S64, .f32⟩ : BufTy).Contents (Elt F) → (⟨S64, .f32⟩ : BufTy).Contents (Elt F)),
    TRef.nullary (TRef.of (T := ⟨S_, .f32⟩) main_call54_cst) (constant S_ .f32 0x00000000#32),
    TRef.unary (TRef.of (T := ⟨S_, .f32⟩) main_call54_cst) (TRef.of (T := ⟨S64, .f32⟩) main_call54_v0) (broadcastInDim S64 ![] bcast_S_S64),
    TRef.binary (TRef.of (T := ⟨S64, .f32⟩) main_v294) (TRef.of (T := ⟨S64, .f32⟩) main_call54_v0) (TRef.of (T := ⟨S64, .f32⟩) main_v295) maximumf,
    nullary main_cst_91 (constant S_ .f32 0x00000000#32),
    binary main_v295 main_cst_91 main_v296 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    nullary main_cst_92 (constant S_ .f32 0x42800000#32),
    binary main_v296 main_cst_92 main_v297 (Host.divf : (⟨S_, .f32⟩ : BufTy).Contents (Elt F) → (⟨S_, .f32⟩ : BufTy).Contents (Elt F) → (⟨S_, .f32⟩ : BufTy).Contents (Elt F)) ]

/-- Every buffer they touch is a TensorCore buffer. -/
theorem sub : (ops : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., nullary_bufs_sub .., binary_bufs_sub .., nullary_bufs_sub .., binary_bufs_sub ..⟩

/-- None of them allocates. -/
theorem fresh : ∀ op ∈ (ops : List (HloOp τ sig (Elt F))), op.fresh = ∅ := by
  intro _ h; (repeat (cases h with | head => rfl | tail _ h => ?_)); exact nomatch h

/-- The buffers they write. -/
abbrev W : List (Ref sig .tc) := [main_v292, main_cst_90, main_v293, main_v294, main_call54_cst, main_call54_v0, main_v295, main_cst_91, main_v296, main_cst_92, main_v297]

theorem writes : (ops : List (HloOp τ sig (Elt F))).Forall fun op =>
    op.writes ⊆ (W.map (Proc.devRef (τ := τ) .tc)).toFinset := by
  simp only [List.Forall]
  exact ⟨(by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide)),
    (by simp only [nullary_writes, unary_writes, binary_writes, ternary_writes, nary_writes, Finset.singleton_subset_iff, List.mem_toFinset]; exact List.mem_map_of_mem (by decide))⟩

/-- A buffer they do not write keeps its contents. -/
theorem keep (V : Valuation τ sig (Elt F)) (r : Ref sig .tc) (h : r ∉ W) :
    after ops V (Proc.devRef .tc r) = V (Proc.devRef .tc r) :=
  after_of_writes_sub ops V writes h

/-- The contents after these operations. -/
def aft (V : Valuation τ sig (Elt F)) : Valuation τ sig (Elt F) := after ops V

theorem aft_keep (V : Valuation τ sig (Elt F)) (r : Ref sig .tc) (h : r ∉ W) :
    aft V (no_index (Proc.devRef .tc r)) = V (Proc.devRef .tc r) :=
  keep V r h

/-- The result, from the two losses' buffers. -/
theorem aft_value (V : Valuation τ sig (Elt Ideal)) :
    aft (F := Ideal) V (no_index (Proc.devRef .tc main_v297))
      = Cert.ShiftLoss.RefMath.tailOf (V (Proc.devRef .tc main_v145)) (V (Proc.devRef .tc main_v291)) := by
  show after (ops (F := Ideal)) V (Proc.devRef .tc main_v297) = _
  after_results_simp <;> rfl

end Cert.ReferenceIdeal.RefRun.T

end
-- ==== Proof.Ref.P6.lean ====
/-
  Window 6 of the reference's @main (its statements 361 to 394) is the sequence of these chunks' operations: the calls
  unfold to their bodies' operations in place.
-/
import proofs.«122145_j70437463654548_2_alg».proof.Proof.Ref.Sh.SB8
import proofs.«122145_j70437463654548_2_alg».proof.Proof.Ref.Sh.MB
import proofs.«122145_j70437463654548_2_alg».proof.Proof.Ref.Sh.T

noncomputable section

namespace Cert.ReferenceIdeal.RefRun.P6

open Cert.ReferenceIdeal Cert.ReferenceIdeal.Gen Idealize.ShloMosaic Idealize.ShloMosaic.TcCoe Idealize.SL.Sem Idealize.ShloMosaic.StableHlo
open Cert.ReferenceIdeal.RefRun

variable {F : FTy → Type} [FloatOps F]

/-- The window's operations. -/
def L : List (HloOp τ sig (Elt F)) := (SB8.ops (F := F)).drop 15 ++ (MB.ops (F := F) ++ (T.ops (F := F)))

set_option maxRecDepth 8192 in
set_option maxHeartbeats 4000000 in
theorem eq (d : Dev nD) : main_part6 (F := F) d = seq L := rfl

end Cert.ReferenceIdeal.RefRun.P6

end
-- ==== Proof.Ref.Run.lean ====
/-
  The reference's run, chunk by chunk.

  @main is its seven printed windows in order, and each window is the sequence of its chunks' operations (a shift's
  twenty-seven, a stack-and-minimum's twelve, the tail's eleven; three shifts of the second pair lie across a window
  boundary and are cut there).  So @main is one sequence of 521 host operations, every weakly fair execution
  terminates with each buffer at the fold of the operations over its launch contents, and that fold is read off chunk
  by chunk: a chunk's last buffer is the chunk's function of the buffers it reads, and every buffer a chunk does not
  write passes through it.  The result is the printed whole-reference term of the six argument arrays, and the
  argument arrays are never written.
-/
import proofs.«122145_j70437463654548_2_alg».proof.Proof.Ref.P0
import proofs.«122145_j70437463654548_2_alg».proof.Proof.Ref.P1
import proofs.«122145_j70437463654548_2_alg».proof.Proof.Ref.P2
import proofs.«122145_j70437463654548_2_alg».proof.Proof.Ref.P3
import proofs.«122145_j70437463654548_2_alg».proof.Proof.Ref.P4
import proofs.«122145_j70437463654548_2_alg».proof.Proof.Ref.P5
import proofs.«122145_j70437463654548_2_alg».proof.Proof.Ref.P6
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations: the windows', in order. -/
def opsAll : List (HloOp τ sig (Elt F)) := P0.L ++ (P1.L ++ (P2.L ++ (P3.L ++ (P4.L ++ (P5.L ++ P6.L)))))

theorem main_eq (d : Dev nD) : main (F := F) d = seq opsAll := by
  have e : seq (Λ := Pipeline.Sig Λ₀ (Fin 0) fun p => (pcfgs (F := F) p).Adm) (nD := nD) (opsAll (F := F))
      = (seq P0.L >>= fun _ => seq P1.L >>= fun _ => seq P2.L >>= fun _ => seq P3.L >>= fun _ => seq P4.L >>= fun _ =>
          seq P5.L >>= fun _ => seq P6.L) := by
    unfold opsAll
    rw [seq_append, seq_append, seq_append, seq_append, seq_append, seq_append]
  rw [e, ← P0.eq d, ← P1.eq d, ← P2.eq d, ← P3.eq d, ← P4.eq d, ← P5.eq d, ← P6.eq d]
  rfl

theorem scopedRefs_eq : (Finset.univ.filter fun b : Ref sig .tc => b.isScoped) = ∅ := by decide
theorem scopedSems_eq : (Finset.univ.filter fun sm : SemLoc sig => sm.isScoped .tc) = ∅ := by decide

theorem mem_cases {op : HloOp τ sig (Elt F)} (h : op ∈ (opsAll (F := F))) :
    op ∈ SA0.ops (F := F) ∨ op ∈ SA1.ops (F := F) ∨ op ∈ SA2.ops (F := F) ∨ op ∈ SA3.ops (F := F) ∨ op ∈ SA4.ops (F := F) ∨ op ∈ SA5.ops (F := F) ∨ op ∈ SA6.ops (F := F) ∨ op ∈ SA7.ops (F := F) ∨ op ∈ SA8.ops (F := F) ∨ op ∈ MA.ops (F := F) ∨ op ∈ SB0.ops (F := F) ∨ op ∈ SB1.ops (F := F) ∨ op ∈ (SB2.ops (F := F)).take 15 ∨ op ∈ (SB2.ops (F := F)).drop 15 ∨ op ∈ SB3.ops (F := F) ∨ op ∈ SB4.ops (F := F) ∨ op ∈ (SB5.ops (F := F)).take 15 ∨ op ∈ (SB5.ops (F := F)).drop 15 ∨ op ∈ SB6.ops (F := F) ∨ op ∈ SB7.ops (F := F) ∨ op ∈ (SB8.ops (F := F)).take 15 ∨ op ∈ (SB8.ops (F := F)).drop 15 ∨ op ∈ MB.ops (F := F) ∨ op ∈ T.ops (F := F) := by
  simp only [opsAll, P0.L, P1.L, P2.L, P3.L, P4.L, P5.L, P6.L, List.mem_append, or_assoc] at h
  exact h

/-- Every buffer @main's operations touch is a TensorCore buffer. -/
theorem sub_all : (opsAll : List (HloOp τ sig (Elt F))).Forall fun op => op.bufs ⊆ tcRefs τ sig :=
  List.forall_iff_forall_mem.mpr fun op h => by
    rcases mem_cases h with h | h | h | h | h | h | h | h | h | h | h | h | h | h | h | h | h | h | h | h | h | h | h | h
    exacts [List.forall_iff_forall_mem.mp SA0.sub op h,
      List.forall_iff_forall_mem.mp SA1.sub op h,
      List.forall_iff_forall_mem.mp SA2.sub op h,
      List.forall_iff_forall_mem.mp SA3.sub op h,
      List.forall_iff_forall_mem.mp SA4.sub op h,
      List.forall_iff_forall_mem.mp SA5.sub op h,
      List.forall_iff_forall_mem.mp SA6.sub op h,
      List.forall_iff_forall_mem.mp SA7.sub op h,
      List.forall_iff_forall_mem.mp SA8.sub op h,
      List.forall_iff_forall_mem.mp MA.sub op h,
      List.forall_iff_forall_mem.mp SB0.sub op h,
      List.forall_iff_forall_mem.mp SB1.sub op h,
      List.forall_iff_forall_mem.mp SB2.sub op (List.mem_of_mem_take h),
      List.forall_iff_forall_mem.mp SB2.sub op (List.mem_of_mem_drop h),
      List.forall_iff_forall_mem.mp SB3.sub op h,
      List.forall_iff_forall_mem.mp SB4.sub op h,
      List.forall_iff_forall_mem.mp SB5.sub op (List.mem_of_mem_take h),
      List.forall_iff_forall_mem.mp SB5.sub op (List.mem_of_mem_drop h),
      List.forall_iff_forall_mem.mp SB6.sub op h,
      List.forall_iff_forall_mem.mp SB7.sub op h,
      List.forall_iff_forall_mem.mp SB8.sub op (List.mem_of_mem_take h),
      List.forall_iff_forall_mem.mp SB8.sub op (List.mem_of_mem_drop h),
      List.forall_iff_forall_mem.mp MB.sub op h,
      List.forall_iff_forall_mem.mp T.sub op h]

/-- None of @main's operations allocates. -/
theorem fresh_all : ∀ op ∈ (opsAll : List (HloOp τ sig (Elt F))), op.fresh = ∅ := fun op h => by
  rcases mem_cases h with h | h | h | h | h | h | h | h | h | h | h | h | h | h | h | h | h | h | h | h | h | h | h | h
  exacts [SA0.fresh op h,
      SA1.fresh op h,
      SA2.fresh op h,
      SA3.fresh op h,
      SA4.fresh op h,
      SA5.fresh op h,
      SA6.fresh op h,
      SA7.fresh op h,
      SA8.fresh op h,
      MA.fresh op h,
      SB0.fresh op h,
      SB1.fresh op h,
      SB2.fresh op (List.mem_of_mem_take h),
      SB2.fresh op (List.mem_of_mem_drop h),
      SB3.fresh op h,
      SB4.fresh op h,
      SB5.fresh op (List.mem_of_mem_take h),
      SB5.fresh op (List.mem_of_mem_drop h),
      SB6.fresh op h,
      SB7.fresh op h,
      SB8.fresh op (List.mem_of_mem_take h),
      SB8.fresh op (List.mem_of_mem_drop h),
      MB.fresh op h,
      T.fresh op h]

theorem after_take_drop (l : List (HloOp τ sig (Elt F))) (n : Nat) (V : Valuation τ sig (Elt F)) :
    after (l.drop n) (after (l.take n) V) = after l V := by
  rw [← StableHlo.after_append, List.take_append_drop]

/-- The fold of @main's operations is the chunks' folds, one after the other. -/
theorem after_all (V : Valuation τ sig (Elt F)) : after (opsAll (F := F)) V = T.aft (MB.aft (SB8.aft (SB7.aft (SB6.aft (SB5.aft (SB4.aft (SB3.aft (SB2.aft (SB1.aft (SB0.aft (MA.aft (SA8.aft (SA7.aft (SA6.aft (SA5.aft (SA4.aft (SA3.aft (SA2.aft (SA1.aft (SA0.aft (V))))))))))))))))))))) := by
  simp only [opsAll, P0.L, P1.L, P2.L, P3.L, P4.L, P5.L, P6.L, StableHlo.after_append, after_take_drop]
  rfl

theorem kept_arg0 (V : Valuation τ sig (Elt F)) :
    after (opsAll (F := F)) V (Proc.devRef .tc main_arg0) = V (Proc.devRef .tc main_arg0) := by
  rw [after_all]
  simp (disch := decide) only [SA0.aft_keep, SA1.aft_keep, SA2.aft_keep, SA3.aft_keep, SA4.aft_keep, SA5.aft_keep, SA6.aft_keep, SA7.aft_keep, SA8.aft_keep, MA.aft_keep, SB0.aft_keep, SB1.aft_keep, SB2.aft_keep, SB3.aft_keep, SB4.aft_keep, SB5.aft_keep, SB6.aft_keep, SB7.aft_keep, SB8.aft_keep, MB.aft_keep, T.aft_keep]

theorem kept_arg1 (V : Valuation τ sig (Elt F)) :
    after (opsAll (F := F)) V (Proc.devRef .tc main_arg1) = V (Proc.devRef .tc main_arg1) := by
  rw [after_all]
  simp (disch := decide) only [SA0.aft_keep, SA1.aft_keep, SA2.aft_keep, SA3.aft_keep, SA4.aft_keep, SA5.aft_keep, SA6.aft_keep, SA7.aft_keep, SA8.aft_keep, MA.aft_keep, SB0.aft_keep, SB1.aft_keep, SB2.aft_keep, SB3.aft_keep, SB4.aft_keep, SB5.aft_keep, SB6.aft_keep, SB7.aft_keep, SB8.aft_keep, MB.aft_keep, T.aft_keep]

theorem kept_arg2 (V : Valuation τ sig (Elt F)) :
    after (opsAll (F := F)) V (Proc.devRef .tc main_arg2) = V (Proc.devRef .tc main_arg2) := by
  rw [after_all]
  simp (disch := decide) only [SA0.aft_keep, SA1.aft_keep, SA2.aft_keep, SA3.aft_keep, SA4.aft_keep, SA5.aft_keep, SA6.aft_keep, SA7.aft_keep, SA8.aft_keep, MA.aft_keep, SB0.aft_keep, SB1.aft_keep, SB2.aft_keep, SB3.aft_keep, SB4.aft_keep, SB5.aft_keep, SB6.aft_keep, SB7.aft_keep, SB8.aft_keep, MB.aft_keep, T.aft_keep]

theorem kept_arg3 (V : Valuation τ sig (Elt F)) :
    after (opsAll (F := F)) V (Proc.devRef .tc main_arg3) = V (Proc.devRef .tc main_arg3) := by
  rw [after_all]
  simp (disch := decide) only [SA0.aft_keep, SA1.aft_keep, SA2.aft_keep, SA3.aft_keep, SA4.aft_keep, SA5.aft_keep, SA6.aft_keep, SA7.aft_keep, SA8.aft_keep, MA.aft_keep, SB0.aft_keep, SB1.aft_keep, SB2.aft_keep, SB3.aft_keep, SB4.aft_keep, SB5.aft_keep, SB6.aft_keep, SB7.aft_keep, SB8.aft_keep, MB.aft_keep, T.aft_keep]

theorem kept_arg4 (V : Valuation τ sig (Elt F)) :
    after (opsAll (F := F)) V (Proc.devRef .tc main_arg4) = V (Proc.devRef .tc main_arg4) := by
  rw [after_all]
  simp (disch := decide) only [SA0.aft_keep, SA1.aft_keep, SA2.aft_keep, SA3.aft_keep, SA4.aft_keep, SA5.aft_keep, SA6.aft_keep, SA7.aft_keep, SA8.aft_keep, MA.aft_keep, SB0.aft_keep, SB1.aft_keep, SB2.aft_keep, SB3.aft_keep, SB4.aft_keep, SB5.aft_keep, SB6.aft_keep, SB7.aft_keep, SB8.aft_keep, MB.aft_keep, T.aft_keep]

theorem kept_arg5 (V : Valuation τ sig (Elt F)) :
    after (opsAll (F := F)) V (Proc.devRef .tc main_arg5) = V (Proc.devRef .tc main_arg5) := by
  rw [after_all]
  simp (disch := decide) only [SA0.aft_keep, SA1.aft_keep, SA2.aft_keep, SA3.aft_keep, SA4.aft_keep, SA5.aft_keep, SA6.aft_keep, SA7.aft_keep, SA8.aft_keep, MA.aft_keep, SB0.aft_keep, SB1.aft_keep, SB2.aft_keep, SB3.aft_keep, SB4.aft_keep, SB5.aft_keep, SB6.aft_keep, SB7.aft_keep, SB8.aft_keep, MB.aft_keep, T.aft_keep]

/-- The result buffer after @main: the printed whole-reference term of the argument arrays. -/
theorem value_all (V : Valuation τ sig (Elt Ideal)) :
    after (opsAll (F := Ideal)) V (Proc.devRef .tc main_v297)
      = Cert.ShiftLoss.RefMath.refTotal (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  rw [after_all]
  simp (disch := decide) only [SA0.aft_value, SA1.aft_value, SA2.aft_value, SA3.aft_value, SA4.aft_value, SA5.aft_value, SA6.aft_value, SA7.aft_value, SA8.aft_value, MA.aft_value, SB0.aft_value, SB1.aft_value, SB2.aft_value, SB3.aft_value, SB4.aft_value, SB5.aft_value, SB6.aft_value, SB7.aft_value, SB8.aft_value, MB.aft_value, T.aft_value, SA0.aft_keep, SA1.aft_keep, SA2.aft_keep, SA3.aft_keep, SA4.aft_keep, SA5.aft_keep, SA6.aft_keep, SA7.aft_keep, SA8.aft_keep, MA.aft_keep, SB0.aft_keep, SB1.aft_keep, SB2.aft_keep, SB3.aft_keep, SB4.aft_keep, SB5.aft_keep, SB6.aft_keep, SB7.aft_keep, SB8.aft_keep, MB.aft_keep, T.aft_keep]
  rfl

end Cert.ReferenceIdeal.RefRun

end
-- ==== Proof.Ref.Dist.lean ====
/-
  The reference's printed terms are the specification's functions.

  One shift: the roll by offset i - 4 brings lane (w + n₂) mod 512 to lane w, with n₂ = (516 - i) mod 512, which is
  the specification's source lane; the select by the pair mask against zero is the product with the mask bits; the
  float sum over the last three axes is the triple sum; the count is the real sum of the bits.  So the printed
  distance of row b is the specification's.  The stack of nine distances min-reduced from +infinity is the least
  of the nine; the tail is the mean hinge.
-/
import proofs.«122145_j70437463654548_2_alg».proof.Proof.Ref.Math

noncomputable section

namespace Cert.ShiftLoss.RefMath

open Idealize.ShloMosaic ValueIdx Cert.ShiftLoss

/-- The lane a roll with second-slice length `n₂` brings to lane `w`. -/
abbrev lane (n₂ : Nat) (w : Fin 512) : Fin 512 := ⟨(w.val + n₂) % 512, Nat.mod_lt _ (by decide)⟩

theorem rolled_apply {α : Type} (C n₁ n₂ : Nat) (hn : n₁ + n₂ = 512) (x : (F4 C 512).Idx → α)
    (b : Fin 64) (c : Fin C) (hh : Fin 32) (w : Fin 512) :
    rolled C n₁ n₂ hn x (ix4 b c hh w) = x (ix4 b c hh (lane n₂ w)) :=
  roll_apply C n₁ n₂ hn x _ _ _ b c hh w

theorem pairMask_apply (n₁ n₂ : Nat) (hn : n₁ + n₂ = 512) (m1 m2 : IVec (F4 1 512) 1) (b : Fin 64) (hh : Fin 32) (w : Fin 512) :
    pairMask n₁ n₂ hn m1 m2 (ix4 b 0 hh w) = IntOp.andi (m1 (ix4 b 0 hh w)) (m2 (ix4 b 0 hh (lane n₂ w))) := by
  show IntOp.andi (m1 (ix4 b 0 hh w)) (rolled 1 n₁ n₂ hn m2 (ix4 b 0 hh w)) = _
  rw [rolled_apply]

/-- The masked difference at an index: the difference times the two mask bits. -/
theorem maskedDiff_apply (n₁ n₂ : Nat) (hn : n₁ + n₂ = 512) (f1 f2 : FVec Ideal (F4 16 512) .f32) (m1 m2 : IVec (F4 1 512) 1)
    (b : Fin 64) (c : Fin 16) (hh : Fin 32) (w : Fin 512) :
    maskedDiff n₁ n₂ hn f1 f2 m1 m2 (ix4 b c hh w)
      = (f1 (ix4 b c hh w) - f2 (ix4 b c hh (lane n₂ w))) * (bit (m1 (ix4 b 0 hh w)) * bit (m2 (ix4 b 0 hh (lane n₂ w)))) := by
  unfold maskedDiff
  rw [select_apply, bcastMask_apply, bcastScalar_apply, pairMask_apply]
  show Scalar.select _ (f1 (ix4 b c hh w) - rolled 16 n₁ n₂ hn f2 (ix4 b c hh w)) (Ideal.ofBits .f32 0x00000000#32) = _
  rw [rolled_apply, Ideal.ofBits_zero_f32, select_eq_mul, bit_and]

/-- One shift's printed distance of row `b` is the specification's. -/
theorem shiftDist_apply (n₁ n₂ : Nat) (hn : n₁ + n₂ = 512) (i : Fin 9) (hi : n₂ = (516 - i.val) % 512)
    (f1 f2 : Feat) (m1 m2 : Mask) (b : Fin 64) :
    shiftDist n₁ n₂ hn f1 f2 m1 m2 (ix1 b) = dist f1 f2 (maskF m1) (maskF m2) i b := by
  have hlane : ∀ w : Fin 512, lane n₂ w = src i w := fun w => Fin.ext (by
    show (w.val + n₂) % 512 = (w.val + 516 - i.val) % 512
    have := i.isLt
    have := w.isLt
    subst hi
    omega)
  unfold shiftDist dist
  refine congrArg₂ Ideal.div ?_ ?_
  · rw [hostReduceAdd123_apply]
    unfold num
    refine Finset.sum_congr rfl fun c _ => Finset.sum_congr rfl fun hh _ => Finset.sum_congr rfl fun w _ => ?_
    show maskedDiff n₁ n₂ hn f1 f2 m1 m2 (ix4 b c hh w) * maskedDiff n₁ n₂ hn f1 f2 m1 m2 (ix4 b c hh w) = _
    rw [maskedDiff_apply, hlane]
    rfl
  · rw [addf_apply, mulf_apply, bcastScalar_apply, bcastScalar_apply, count_apply]
    unfold cnt
    refine congrArg₂ (· + ·) (congrArg₂ (· * ·) rfl ?_) rfl
    refine Finset.sum_congr rfl fun hh _ => Finset.sum_congr rfl fun w _ => ?_
    rw [pairMask_apply, bit_and, hlane]
    rfl

/-! ## The least of nine -/

theorem ofBits_inf : Ideal.ofBits .f32 0x7F800000#32 = ⊤ := by simp [Ideal.ofBits, Ideal.ieee]

theorem rd9R : (⟨2, ![9, 64]⟩ : Shape).Reduces [0] ⟨1, ![64]⟩ := by decide

/-- A fold of the minimum from +infinity is the infimum. -/
theorem fold_eq_inf {ι : Type*} (op : EReal → EReal → EReal) [Std.Commutative op] [Std.Associative op]
    (hop : ∀ x y, op x y = min x y) (s : Finset ι) (f : ι → EReal) : s.fold op ⊤ f = s.inf f := by
  induction s using Finset.cons_induction with
  | empty => simp
  | cons a s ha ih => rw [Finset.fold_cons, Finset.inf_cons, ih, hop]

/-- A row vector [64] broadcast to [1, 64], at an index. -/
theorem bcastRow_apply (d : FVec Ideal ⟨1, ![64]⟩ .f32) (b : Fin 64) :
    broadcastInDim ⟨2, ![1, 64]⟩ ![1] bc1 d (ix2 0 b) = d (ix1 b) := by
  refine broadcastInDim_apply _ bc1 d _ _ ?_
  intro a
  match a with
  | ⟨0, _⟩ => show b.val = if (64 : Nat) = 1 then 0 else b.val; rw [if_neg (by decide)]

/-- The nine vectors as the rows to stack. -/
def stack9 (d0 d1 d2 d3 d4 d5 d6 d7 d8 : FVec Ideal ⟨1, ![64]⟩ .f32) : List ((s : Shape) × (s.Idx → Ideal .f32)) :=
  [⟨⟨2, ![1, 64]⟩, broadcastInDim ⟨2, ![1, 64]⟩ ![1] bc1 d0⟩, ⟨⟨2, ![1, 64]⟩, broadcastInDim ⟨2, ![1, 64]⟩ ![1] bc1 d1⟩, ⟨⟨2, ![1, 64]⟩, broadcastInDim ⟨2, ![1, 64]⟩ ![1] bc1 d2⟩,
   ⟨⟨2, ![1, 64]⟩, broadcastInDim ⟨2, ![1, 64]⟩ ![1] bc1 d3⟩, ⟨⟨2, ![1, 64]⟩, broadcastInDim ⟨2, ![1, 64]⟩ ![1] bc1 d4⟩, ⟨⟨2, ![1, 64]⟩, broadcastInDim ⟨2, ![1, 64]⟩ ![1] bc1 d5⟩,
   ⟨⟨2, ![1, 64]⟩, broadcastInDim ⟨2, ![1, 64]⟩ ![1] bc1 d6⟩, ⟨⟨2, ![1, 64]⟩, broadcastInDim ⟨2, ![1, 64]⟩ ![1] bc1 d7⟩, ⟨⟨2, ![1, 64]⟩, broadcastInDim ⟨2, ![1, 64]⟩ ![1] bc1 d8⟩]

set_option maxHeartbeats 2000000 in
/-- The stack of nine vectors min-reduced over the stacking axis is, per row, the least of the nine. -/
theorem minNine_apply (d0 d1 d2 d3 d4 d5 d6 d7 d8 : FVec Ideal ⟨1, ![64]⟩ .f32) (b : Fin 64) (D : Fin 9 → EReal)
    (h0 : d0 (ix1 b) = D 0) (h1 : d1 (ix1 b) = D 1) (h2 : d2 (ix1 b) = D 2) (h3 : d3 (ix1 b) = D 3) (h4 : d4 (ix1 b) = D 4)
    (h5 : d5 (ix1 b) = D 5) (h6 : d6 (ix1 b) = D 6) (h7 : d7 (ix1 b) = D 7) (h8 : d8 (ix1 b) = D 8) :
    minNine d0 d1 d2 d3 d4 d5 d6 d7 d8 (ix1 b) = Finset.univ.inf D := by
  unfold minNine
  rw [Host.reduce_eq_fold_single FloatOps.minimumf _ _ rd9 rd9R posU (ix1 b)]
  rw [← fold_eq_inf (FloatOps.minimumf (F := Ideal) (φ := .f32)) (fun _ _ => rfl)]
  have hinit : constant (F := Ideal) ⟨0, ![]⟩ .f32 0x7F800000#32 (Shape.Idx.first posU) = ⊤ := ofBits_inf
  rw [hinit]
  refine Finset.fold_congr fun k _ => ?_
  have hi : ∀ (k : Fin 9) (a : Fin 2), a.cast rfl ≠ (0 : Fin 2) →
      ((ix2 (0 : Fin 1) b : (⟨2, ![1, 64]⟩ : Shape).Idx) a).val = ((rd9R.lift (ix1 b) k) (a.cast rfl)).val := by
    intro k a ha
    match a with
    | ⟨0, _⟩ => exact absurd rfl ha
    | ⟨1, _⟩ => rfl
  show concatenate ⟨2, ![9, 64]⟩ 0 (stack9 d0 d1 d2 d3 d4 d5 d6 d7 d8) cat9 (rd9R.lift (ix1 b) k) = D k
  fin_cases k
  · refine Eq.trans (Eq.trans ?_ (bcastRow_apply d0 b)) h0
    exact concatenate_apply_piece (t := ⟨2, ![9, 64]⟩) (0 : Fin 2) (stack9 d0 d1 d2 d3 d4 d5 d6 d7 d8) cat9 (rd9R.lift (ix1 b) ⟨0, by decide⟩) 0
      (show 0 < 9 from by decide) ⟨2, ![1, 64]⟩ (broadcastInDim ⟨2, ![1, 64]⟩ ![1] bc1 d0) rfl rfl 0 rfl (ix2 0 b) (hi ⟨0, by decide⟩) rfl
  · refine Eq.trans (Eq.trans ?_ (bcastRow_apply d1 b)) h1
    exact concatenate_apply_piece (t := ⟨2, ![9, 64]⟩) (0 : Fin 2) (stack9 d0 d1 d2 d3 d4 d5 d6 d7 d8) cat9 (rd9R.lift (ix1 b) ⟨1, by decide⟩) 1
      (show 1 < 9 from by decide) ⟨2, ![1, 64]⟩ (broadcastInDim ⟨2, ![1, 64]⟩ ![1] bc1 d1) rfl rfl 1 rfl (ix2 0 b) (hi ⟨1, by decide⟩) rfl
  · refine Eq.trans (Eq.trans ?_ (bcastRow_apply d2 b)) h2
    exact concatenate_apply_piece (t := ⟨2, ![9, 64]⟩) (0 : Fin 2) (stack9 d0 d1 d2 d3 d4 d5 d6 d7 d8) cat9 (rd9R.lift (ix1 b) ⟨2, by decide⟩) 2
      (show 2 < 9 from by decide) ⟨2, ![1, 64]⟩ (broadcastInDim ⟨2, ![1, 64]⟩ ![1] bc1 d2) rfl rfl 2 rfl (ix2 0 b) (hi ⟨2, by decide⟩) rfl
  · refine Eq.trans (Eq.trans ?_ (bcastRow_apply d3 b)) h3
    exact concatenate_apply_piece (t := ⟨2, ![9, 64]⟩) (0 : Fin 2) (stack9 d0 d1 d2 d3 d4 d5 d6 d7 d8) cat9 (rd9R.lift (ix1 b) ⟨3, by decide⟩) 3
      (show 3 < 9 from by decide) ⟨2, ![1, 64]⟩ (broadcastInDim ⟨2, ![1, 64]⟩ ![1] bc1 d3) rfl rfl 3 rfl (ix2 0 b) (hi ⟨3, by decide⟩) rfl
  · refine Eq.trans (Eq.trans ?_ (bcastRow_apply d4 b)) h4
    exact concatenate_apply_piece (t := ⟨2, ![9, 64]⟩) (0 : Fin 2) (stack9 d0 d1 d2 d3 d4 d5 d6 d7 d8) cat9 (rd9R.lift (ix1 b) ⟨4, by decide⟩) 4
      (show 4 < 9 from by decide) ⟨2, ![1, 64]⟩ (broadcastInDim ⟨2, ![1, 64]⟩ ![1] bc1 d4) rfl rfl 4 rfl (ix2 0 b) (hi ⟨4, by decide⟩) rfl
  · refine Eq.trans (Eq.trans ?_ (bcastRow_apply d5 b)) h5
    exact concatenate_apply_piece (t := ⟨2, ![9, 64]⟩) (0 : Fin 2) (stack9 d0 d1 d2 d3 d4 d5 d6 d7 d8) cat9 (rd9R.lift (ix1 b) ⟨5, by decide⟩) 5
      (show 5 < 9 from by decide) ⟨2, ![1, 64]⟩ (broadcastInDim ⟨2, ![1, 64]⟩ ![1] bc1 d5) rfl rfl 5 rfl (ix2 0 b) (hi ⟨5, by decide⟩) rfl
  · refine Eq.trans (Eq.trans ?_ (bcastRow_apply d6 b)) h6
    exact concatenate_apply_piece (t := ⟨2, ![9, 64]⟩) (0 : Fin 2) (stack9 d0 d1 d2 d3 d4 d5 d6 d7 d8) cat9 (rd9R.lift (ix1 b) ⟨6, by decide⟩) 6
      (show 6 < 9 from by decide) ⟨2, ![1, 64]⟩ (broadcastInDim ⟨2, ![1, 64]⟩ ![1] bc1 d6) rfl rfl 6 rfl (ix2 0 b) (hi ⟨6, by decide⟩) rfl
  · refine Eq.trans (Eq.trans ?_ (bcastRow_apply d7 b)) h7
    exact concatenate_apply_piece (t := ⟨2, ![9, 64]⟩) (0 : Fin 2) (stack9 d0 d1 d2 d3 d4 d5 d6 d7 d8) cat9 (rd9R.lift (ix1 b) ⟨7, by decide⟩) 7
      (show 7 < 9 from by decide) ⟨2, ![1, 64]⟩ (broadcastInDim ⟨2, ![1, 64]⟩ ![1] bc1 d7) rfl rfl 7 rfl (ix2 0 b) (hi ⟨7, by decide⟩) rfl
  · refine Eq.trans (Eq.trans ?_ (bcastRow_apply d8 b)) h8
    exact concatenate_apply_piece (t := ⟨2, ![9, 64]⟩) (0 : Fin 2) (stack9 d0 d1 d2 d3 d4 d5 d6 d7 d8) cat9 (rd9R.lift (ix1 b) ⟨8, by decide⟩) 8
      (show 8 < 9 from by decide) ⟨2, ![1, 64]⟩ (broadcastInDim ⟨2, ![1, 64]⟩ ![1] bc1 d8) rfl rfl 8 rfl (ix2 0 b) (hi ⟨8, by decide⟩) rfl

/-- The nine printed shifts of a pair give the specification's loss of row `b`. -/
theorem pairLoss_apply (f1 f2 : Feat) (m1 m2 : Mask) (b : Fin 64) :
    pairLoss f1 f2 m1 m2 (ix1 b) = loss f1 f2 (maskF m1) (maskF m2) b := by
  unfold pairLoss loss
  exact minNine_apply _ _ _ _ _ _ _ _ _ b (fun i => dist f1 f2 (maskF m1) (maskF m2) i b)
    (shiftDist_apply 508 4 rfl 0 rfl f1 f2 m1 m2 b) (shiftDist_apply 509 3 rfl 1 rfl f1 f2 m1 m2 b)
    (shiftDist_apply 510 2 rfl 2 rfl f1 f2 m1 m2 b) (shiftDist_apply 511 1 rfl 3 rfl f1 f2 m1 m2 b)
    (shiftDist_apply 512 0 rfl 4 rfl f1 f2 m1 m2 b) (shiftDist_apply 1 511 rfl 5 rfl f1 f2 m1 m2 b)
    (shiftDist_apply 2 510 rfl 6 rfl f1 f2 m1 m2 b) (shiftDist_apply 3 509 rfl 7 rfl f1 f2 m1 m2 b)
    (shiftDist_apply 4 508 rfl 8 rfl f1 f2 m1 m2 b)

/-! ## The tail and the whole -/

/-- The printed tail is the mean hinge of the two per-row losses. -/
theorem tailOf_apply (La Ln : FVec Ideal ⟨1, ![64]⟩ .f32) (j : (⟨0, ![]⟩ : Shape).Idx) :
    tailOf La Ln j = total (fun b => La (ix1 b)) (fun b => Ln (ix1 b)) := by
  unfold tailOf total
  refine congrArg₂ Ideal.div ?_ rfl
  show Ideal.hostReduceAdd rd1 _ (Ideal.ofBits .f32 0x00000000#32) j = _
  rw [Ideal.hostReduceAdd_total rd1 (fun b => b.elim0) _ _ j, sum_idx1]
  rfl

/-- The reference's printed value is the specification's result, at its one index. -/
theorem refTotal_eq (a p n : Feat) (ma mp mn : Mask) :
    refTotal a p n ma mp mn = fun _ => result a p n ma mp mn := by
  funext j
  unfold refTotal result
  rw [tailOf_apply]
  exact congrArg₂ total (funext fun b => pairLoss_apply a p ma mp b) (funext fun b => pairLoss_apply a n ma mn b)

end Cert.ShiftLoss.RefMath

end
-- ==== Proof.RefValue.lean ====
/-
  The reference side of the certificate: every weakly fair execution of the reference program terminates, leaves the
  six argument arrays as they were, and leaves in its result buffer the specification's value of them.

  The program is one sequence of 521 host operations, so its final contents are those operations folded over the launch
  contents. The fold is read stage by stage — a shift's per-row distance, the least of nine distances, the tail — which
  puts the result buffer at one term of the six argument arrays; and that term is the specification's result at its one
  index: a roll read at a lane, a select by a mask bit as a product with the bit, the sums as sums over coordinates.
-/
import proofs.«122145_j70437463654548_2_alg».proof.Proof.Ref.Run
import proofs.«122145_j70437463654548_2_alg».proof.Proof.Ref.Dist

noncomputable section

namespace Cert.ReferenceIdeal.RefValue

open Idealize.ShloMosaic Idealize.SL.Sem Idealize.ShloMosaic.StableHlo

variable [Cert.ReferenceIdeal.Facts]

theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v297)
            = (fun _ => Cert.ShiftLoss.result (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)) :=
  (θ_run (Cert.ReferenceIdeal.defs (F := Ideal)) _ _).mono
    (fun _ h c =>
      ⟨(h c Cert.ReferenceIdeal.main_v297).trans ((RefRun.value_all _).trans (Cert.ShiftLoss.RefMath.refTotal_eq _ _ _ _ _ _)),
        (h c Cert.ReferenceIdeal.main_arg0).trans (RefRun.kept_arg0 _),
        (h c Cert.ReferenceIdeal.main_arg1).trans (RefRun.kept_arg1 _),
        (h c Cert.ReferenceIdeal.main_arg2).trans (RefRun.kept_arg2 _),
        (h c Cert.ReferenceIdeal.main_arg3).trans (RefRun.kept_arg3 _),
        (h c Cert.ReferenceIdeal.main_arg4).trans (RefRun.kept_arg4 _),
        (h c Cert.ReferenceIdeal.main_arg5).trans (RefRun.kept_arg5 _)⟩)
    (run_seq RefRun.scopedRefs_eq RefRun.scopedSems_eq (Cert.ReferenceIdeal.defs (F := Ideal)) (Cert.ReferenceIdeal.main (F := Ideal))
      (fun _ => RefRun.opsAll) RefRun.main_eq (fun _ => RefRun.sub_all) m ρ (fun _ => RefRun.fresh_all))

end Cert.ReferenceIdeal.RefValue

end
-- ==== Proof.lean ====
/-
  The proof of the certificate's claim: the kernel program (two launches of a masked shifted-distance kernel and a
  short host tail) and the plain reference compute, over the extended reals, the same number from the same six
  arrays — the mean over the 64 batch rows of max (L(a,p) - L(a,n) + 0.15f, 0), where L(f1,f2) of a row is the least,
  over nine cyclic lane shifts, of the masked squared distance divided by 16 times the number of unmasked positions
  plus 0.001f (Proof/Spec.lean).

  The two frames of the kernel program (as printed, and idealized) come from one run of @main written generically in
  the float instance: each region's kernel body is run once per control case, the two accumulators are carried
  between grid points by the region's invariant, and the final memory is read back whole (Proof/K, Proof/KI).  The
  idealized run also gives the result's value (Proof/KI/Result.lean).  The reference's run and value are
  Proof/RefValue.lean.  The ideal pass rewrote nothing, so the preservation claim is trivial.
-/
import proofs.«122145_j70437463654548_2_alg».proof.Defs
import proofs.«122145_j70437463654548_2_alg».proof.Proof.Gen.Kernel
import proofs.«122145_j70437463654548_2_alg».proof.Proof.Gen.KernelIdeal
import proofs.«122145_j70437463654548_2_alg».proof.Proof.Gen.ReferenceIdeal
import proofs.«122145_j70437463654548_2_alg».proof.Proof.Gen.Pre_finite_inputs
import proofs.«122145_j70437463654548_2_alg».proof.Proof.K.Args
import proofs.«122145_j70437463654548_2_alg».proof.Proof.KI.Result
import proofs.«122145_j70437463654548_2_alg».proof.Proof.RefValue
import Idealize.ShloMosaic.Adequacy
import Idealize.ShloMosaic.Init

noncomputable section

namespace Cert.Proof

open Idealize.ShloMosaic Idealize.SL.Sem

theorem frame_k : Cert.frame_Kernel := fun m g _ => Cert.Kernel.Hand.frame (F := Bits) m g

theorem frame_ki : Cert.frame_KernelIdeal := fun m g _ => Cert.KernelIdeal.Hand.frame (F := Ideal) m g

theorem frame_ri : Cert.frame_ReferenceIdeal := fun m g _ =>
  (θ_run (Cert.ReferenceIdeal.defs (F := Ideal)) _ _).mono (fun _ h c => (h c).2) (Cert.ReferenceIdeal.RefValue.run m g)

theorem preserves : Cert.preserves_Kernel_KernelIdeal := trivial

/-- Both programs end with the shared mathematics' value of the argument arrays in their result buffers. -/
theorem algebraic : Cert.algebraic_KernelIdeal_ReferenceIdeal := by
  intro m g m' g' _ hagree
  refine ⟨_, Cert.KernelIdeal.Hand.run_value m g, ?_⟩
  refine (θ_run (Cert.ReferenceIdeal.defs (F := Ideal)) _ _).mono (fun _ h c => ⟨(h c).1.trans ?_, (h c).2⟩)
    (Cert.ReferenceIdeal.RefValue.run m' g')
  rw [(hagree c).1, (hagree c).2.1, (hagree c).2.2.1, (hagree c).2.2.2.1, (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
